-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x27 : Shape := ⟨2, ![100000, 27]⟩
abbrev S1000x27 : Shape := ⟨2, ![1000, 27]⟩
abbrev S27x60 : Shape := ⟨2, ![27, 60]⟩
abbrev S60 : Shape := ⟨1, ![60]⟩
abbrev S60x50 : Shape := ⟨2, ![60, 50]⟩
abbrev S50 : Shape := ⟨1, ![50]⟩
abbrev S27x50 : Shape := ⟨2, ![27, 50]⟩
abbrev S100x40 : Shape := ⟨2, ![100, 40]⟩
abbrev S40 : Shape := ⟨1, ![40]⟩
abbrev S40x20 : Shape := ⟨2, ![40, 20]⟩
abbrev S20 : Shape := ⟨1, ![20]⟩
abbrev S20x4 : Shape := ⟨2, ![20, 4]⟩
abbrev S4 : Shape := ⟨1, ![4]⟩
abbrev S2x1600000 : Shape := ⟨2, ![2, 1600000]⟩
abbrev S500000 : Shape := ⟨1, ![500000]⟩
abbrev S_ : Shape := ⟨0, ![]⟩

class Facts : Prop where
  bcast_S_S100000x27 : S_.BroadcastsInDim S100000x27 (![] : Fin 0 → Fin S100000x27.rank)
  reducesTo_S100000x27_S_d0_1 : S100000x27.ReducesTo [0, 1] S_
  h_S_ : 0 < S_.numel
  bcast_S_S1000x27 : S_.BroadcastsInDim S1000x27 (![] : Fin 0 → Fin S1000x27.rank)
  reducesTo_S1000x27_S_d0_1 : S1000x27.ReducesTo [0, 1] S_
  bcast_S_S27x60 : S_.BroadcastsInDim S27x60 (![] : Fin 0 → Fin S27x60.rank)
  reducesTo_S27x60_S_d0_1 : S27x60.ReducesTo [0, 1] S_
  bcast_S_S60 : S_.BroadcastsInDim S60 (![] : Fin 0 → Fin S60.rank)
  reducesTo_S60_S_d0 : S60.ReducesTo [0] S_
  bcast_S_S60x50 : S_.BroadcastsInDim S60x50 (![] : Fin 0 → Fin S60x50.rank)
  reducesTo_S60x50_S_d0_1 : S60x50.ReducesTo [0, 1] S_
  bcast_S_S50 : S_.BroadcastsInDim S50 (![] : Fin 0 → Fin S50.rank)
  reducesTo_S50_S_d0 : S50.ReducesTo [0] S_
  bcast_S_S27x50 : S_.BroadcastsInDim S27x50 (![] : Fin 0 → Fin S27x50.rank)
  reducesTo_S27x50_S_d0_1 : S27x50.ReducesTo [0, 1] S_
  bcast_S_S100x40 : S_.BroadcastsInDim S100x40 (![] : Fin 0 → Fin S100x40.rank)
  reducesTo_S100x40_S_d0_1 : S100x40.ReducesTo [0, 1] S_
  bcast_S_S40 : S_.BroadcastsInDim S40 (![] : Fin 0 → Fin S40.rank)
  reducesTo_S40_S_d0 : S40.ReducesTo [0] S_
  bcast_S_S40x20 : S_.BroadcastsInDim S40x20 (![] : Fin 0 → Fin S40x20.rank)
  reducesTo_S40x20_S_d0_1 : S40x20.ReducesTo [0, 1] S_
  bcast_S_S20 : S_.BroadcastsInDim S20 (![] : Fin 0 → Fin S20.rank)
  reducesTo_S20_S_d0 : S20.ReducesTo [0] S_
  bcast_S_S20x4 : S_.BroadcastsInDim S20x4 (![] : Fin 0 → Fin S20x4.rank)
  reducesTo_S20x4_S_d0_1 : S20x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S20 .f32) (main_arg12 : FVec F S20x4 .f32) (main_arg13 : FVec F S4 .f32) (main_v48 : IVec S_ 1) (main_v49 : FVec F S40x20 .f32) (main_v50 : FVec F S40x20 .f32) : IVec S_ 1 :=
  let main_v51 : IVec S40x20 1 := cmpf .olt main_v49 main_v50
  let main_c_19 : IVec S_ 1 := constantI S_ 1 1#1
  let main_v52 : IVec S_ 1 := (fun x v => Host.reduce IntOp.andi x v reducesTo_S40x20_S_d0_1 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20x4 .f32 := Host.absf main_arg12
  let main_cst_22 : FVec F S_ .f32 := constant S_ .f32 0x7F800000#32
  let main_v60 : FVec F S20x4 .f32 := broadcastInDim S20x4 ![] bcast_S_S20x4 main_cst_22
  let main_v61 : IVec S20x4 1 := cmpf .olt main_v59 main_v60
  let main_c_23 : IVec S_ 1 := constantI S_ 1 1#1
  let main_v62 : IVec S_ 1 := (fun x v => Host.reduce IntOp.andi x v reducesTo_S20x4_S_d0_1 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg7 : FVec F S50 .f32) (main_arg8 : FVec F S100x40 .f32) (main_arg9 : FVec F S40 .f32) (main_arg10 : FVec F S40x20 .f32) (main_arg11 : FVec F S20 .f32) (main_arg12 : FVec F S20x4 .f32) (main_arg13 : FVec F S4 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S100x40 .f32 := Host.absf main_arg8
  let main_cst_14 : FVec F S_ .f32 := constant S_ .f32 0x7F800000#32
  let main_v40 : FVec F S100x40 .f32 := broadcastInDim S100x40 ![] bcast_S_S100x40 main_cst_14
  let main_v41 : IVec S100x40 1 := cmpf .olt main_v39 main_v40
  let main_c_15 : IVec S_ 1 := constantI S_ 1 1#1
  let main_v42 : IVec S_ 1 := (fun x v => Host.reduce IntOp.andi x v reducesTo_S100x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S40x20 .f32 := Host.absf main_arg10
  let main_cst_18 : FVec F S_ .f32 := constant S_ .f32 0x7F800000#32
  let main_v50 : FVec F S40x20 .f32 := broadcastInDim S40x20 ![] bcast_S_S40x20 main_cst_18
  fn_part3 (F := F) main_arg11 main_arg12 main_arg13 main_v48 main_v49 main_v50

def fn_part1 {F : FTy → Type} [FloatOps F] (main_arg4 : FVec F S60x50 .f32) (main_arg5 : FVec F S50 .f32) (main_arg6 : FVec F S27x50 .f32) (main_arg7 : FVec F S50 .f32) (main_arg8 : FVec F S100x40 .f32) (main_arg9 : FVec F S40 .f32) (main_arg10 : FVec F S40x20 .f32) (main_arg11 : FVec F S20 .f32) (main_arg12 : FVec F S20x4 .f32) (main_arg13 : FVec F S4 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x50 .f32 := Host.absf main_arg4
  let main_cst_6 : FVec F S_ .f32 := constant S_ .f32 0x7F800000#32
  let main_v20 : FVec F S60x50 .f32 := broadcastInDim S60x50 ![] bcast_S_S60x50 main_cst_6
  let main_v21 : IVec S60x50 1 := cmpf .olt main_v19 main_v20
  let main_c_7 : IVec S_ 1 := constantI S_ 1 1#1
  let main_v22 : IVec S_ 1 := (fun x v => Host.reduce IntOp.andi x v reducesTo_S60x50_S_d0_1 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S27x50 .f32 := Host.absf main_arg6
  let main_cst_10 : FVec F S_ .f32 := constant S_ .f32 0x7F800000#32
  let main_v30 : FVec F S27x50 .f32 := broadcastInDim S27x50 ![] bcast_S_S27x50 main_cst_10
  let main_v31 : IVec S27x50 1 := cmpf .olt main_v29 main_v30
  let main_c_11 : IVec S_ 1 := constantI S_ 1 1#1
  let main_v32 : IVec S_ 1 := (fun x v => Host.reduce IntOp.andi x v reducesTo_S27x50_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x27 .f32) (main_arg1 : FVec F S1000x27 .f32) (main_arg2 : FVec F S27x60 .f32) (main_arg3 : FVec F S60 .f32) (main_arg4 : FVec F S60x50 .f32) (main_arg5 : FVec F S50 .f32) (main_arg6 : FVec F S27x50 .f32) (main_arg7 : FVec F S50 .f32) (main_arg8 : FVec F S100x40 .f32) (main_arg9 : FVec F S40 .f32) (main_arg10 : FVec F S40x20 .f32) (main_arg11 : FVec F S20 .f32) (main_arg12 : FVec F S20x4 .f32) (main_arg13 : FVec F S4 .f32) (main_arg14 : IVec S2x1600000 32) (main_arg15 : IVec S500000 32) (main_arg16 : IVec S500000 32) : IVec S_ 1 :=
  let main_v0 : FVec F S100000x27 .f32 := Host.absf main_arg0
  let main_cst : FVec F S_ .f32 := constant S_ .f32 0x7F800000#32
  let main_v1 : FVec F S100000x27 .f32 := broadcastInDim S100000x27 ![] bcast_S_S100000x27 main_cst
  let main_v2 : IVec S100000x27 1 := cmpf .olt main_v0 main_v1
  let main_c : IVec S_ 1 := constantI S_ 1 1#1
  let main_v3 : IVec S_ 1 := (fun x v => Host.reduce IntOp.andi x v reducesTo_S100000x27_S_d0_1 h_S_) main_v2 main_c
  let main_v4 : FVec F S1000x27 .f32 := Host.absf main_arg1
  let main_cst_0 : FVec F S_ .f32 := constant S_ .f32 0x7F800000#32
  let main_v5 : FVec F S1000x27 .f32 := broadcastInDim S1000x27 ![] bcast_S_S1000x27 main_cst_0
  let main_v6 : IVec S1000x27 1 := cmpf .olt main_v4 main_v5
  let main_c_1 : IVec S_ 1 := constantI S_ 1 1#1
  let main_v7 : IVec S_ 1 := (fun x v => Host.reduce IntOp.andi x v reducesTo_S1000x27_S_d0_1 h_S_) main_v6 main_c_1
  let main_v8 : IVec S_ 1 := andi main_v3 main_v7
  let main_v9 : FVec F S27x60 .f32 := Host.absf main_arg2
  let main_cst_2 : FVec F S_ .f32 := constant S_ .f32 0x7F800000#32
  let main_v10 : FVec F S27x60 .f32 := broadcastInDim S27x60 ![] bcast_S_S27x60 main_cst_2
  let main_v11 : IVec S27x60 1 := cmpf .olt main_v9 main_v10
  let main_c_3 : IVec S_ 1 := constantI S_ 1 1#1
  let main_v12 : IVec S_ 1 := (fun x v => Host.reduce IntOp.andi x v reducesTo_S27x60_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x27 : Shape := ⟨2, ![100000, 27]⟩
abbrev S1000x27 : Shape := ⟨2, ![1000, 27]⟩
abbrev S27x60 : Shape := ⟨2, ![27, 60]⟩
abbrev S60 : Shape := ⟨1, ![60]⟩
abbrev S60x50 : Shape := ⟨2, ![60, 50]⟩
abbrev S50 : Shape := ⟨1, ![50]⟩
abbrev S27x50 : Shape := ⟨2, ![27, 50]⟩
abbrev S100x40 : Shape := ⟨2, ![100, 40]⟩
abbrev S40 : Shape := ⟨1, ![40]⟩
abbrev S40x20 : Shape := ⟨2, ![40, 20]⟩
abbrev S20 : Shape := ⟨1, ![20]⟩
abbrev S20x4 : Shape := ⟨2, ![20, 4]⟩
abbrev S4 : Shape := ⟨1, ![4]⟩
abbrev S2x1600000 : Shape := ⟨2, ![2, 1600000]⟩
abbrev S500000 : Shape := ⟨1, ![500000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x60 : Shape := ⟨2, ![100000, 60]⟩
abbrev S10000x27 : Shape := ⟨2, ![10000, 27]⟩
abbrev S10000x60 : Shape := ⟨2, ![10000, 60]⟩
abbrev S1700000x60 : Shape := ⟨2, ![1700000, 60]⟩
abbrev S1x60 : Shape := ⟨2, ![1, 60]⟩
abbrev S100000x50 : Shape := ⟨2, ![100000, 50]⟩
abbrev S10000x50 : Shape := ⟨2, ![10000, 50]⟩
abbrev S1700000x50 : Shape := ⟨2, ![1700000, 50]⟩
abbrev S1x50 : Shape := ⟨2, ![1, 50]⟩
abbrev S1000x50 : Shape := ⟨2, ![1000, 50]⟩
abbrev S101000x50 : Shape := ⟨2, ![101000, 50]⟩
abbrev S500000x1 : Shape := ⟨2, ![500000, 1]⟩
abbrev S500000x50 : Shape := ⟨2, ![500000, 50]⟩
abbrev S500000x100 : Shape := ⟨2, ![500000, 100]⟩
abbrev S1x40 : Shape := ⟨2, ![1, 40]⟩
abbrev S1x20 : Shape := ⟨2, ![1, 20]⟩
abbrev S1x4 : Shape := ⟨2, ![1, 4]⟩
abbrev S500000x4 : Shape := ⟨2, ![500000, 4]⟩
abbrev S5000x100 : Shape := ⟨2, ![5000, 100]⟩
abbrev S5000x4 : Shape := ⟨2, ![5000, 4]⟩
abbrev S5000x40 : Shape := ⟨2, ![5000, 40]⟩
abbrev S5000x20 : Shape := ⟨2, ![5000, 20]⟩

abbrev nBuf : Space → Nat
  | .hbm => 168
  | .vmem => 32
  | .smem => 0
  | _ => 0

abbrev hbmTy0_0 (i : Nat) : BufTy := match i % 128 with
  | 0 => ⟨S100000x27, .f32⟩
  | 1 => ⟨S1000x27, .f32⟩
  | 2 => ⟨S27x60, .f32⟩
  | 3 => ⟨S60, .f32⟩
  | 4 => ⟨S60x50, .f32⟩
  | 5 => ⟨S50, .f32⟩
  | 6 => ⟨S27x50, .f32⟩
  | 7 => ⟨S50, .f32⟩
  | 8 => ⟨S100x40, .f32⟩
  | 9 => ⟨S40, .f32⟩
  | 10 => ⟨S40x20, .f32⟩
  | 11 => ⟨S20, .f32⟩
  | 12 => ⟨S20x4, .f32⟩
  | 13 => ⟨S4, .f32⟩
  | 14 => ⟨S2x1600000, .i32⟩
  | 15 => ⟨S500000, .i32⟩
  | 16 => ⟨S500000, .i32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x60, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x60, .f32⟩
  | 67 => ⟨S1700000x1, .f32⟩
  | 68 => ⟨S1700000x60, .f32⟩
  | 69 => ⟨S1700000x60, .f32⟩
  | 70 => ⟨S_, .f32⟩
  | 71 => ⟨S100000x60, .f32⟩
  | 72 => ⟨S1700000x1, .i32⟩
  | 73 => ⟨S100000x60, .f32⟩
  | 74 => ⟨S1x60, .f32⟩
  | 75 => ⟨S100000x60, .f32⟩
  | 76 => ⟨S100000x60, .f32⟩
  | 77 => ⟨S100000, .i32⟩
  | 78 => ⟨S1x1600000, .i32⟩
  | 79 => ⟨S1600000, .i32⟩
  | 80 => ⟨S1700000, .i32⟩
  | 81 => ⟨S1x1600000, .i32⟩
  | 82 => ⟨S1600000, .i32⟩
  | 83 => ⟨S1700000, .i32⟩
  | 84 => ⟨S_, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S100000x50, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x50, .f32⟩
  | 127 => ⟨S1700000x1, .f32⟩
  | _ => ⟨S100000x27, .f32⟩

abbrev hbmTy0_1 (i : Nat) : BufTy := match i % 128 with
  | 0 => ⟨S1700000x50, .f32⟩
  | 1 => ⟨S1700000x50, .f32⟩
  | 2 => ⟨S_, .f32⟩
  | 3 => ⟨S100000x50, .f32⟩
  | 4 => ⟨S1700000x1, .i32⟩
  | 5 => ⟨S100000x50, .f32⟩
  | 6 => ⟨S1x50, .f32⟩
  | 7 => ⟨S100000x50, .f32⟩
  | 8 => ⟨S100000x50, .f32⟩
  | 9 => ⟨S1000x50, .f32⟩
  | 10 => ⟨S1x50, .f32⟩
  | 11 => ⟨S1000x50, .f32⟩
  | 12 => ⟨S1000x50, .f32⟩
  | 13 => ⟨S101000x50, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x50, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x50, .f32⟩
  | 32 => ⟨S500000x100, .f32⟩
  | 33 => ⟨S1x40, .f32⟩
  | 34 => ⟨S1x20, .f32⟩
  | 35 => ⟨S1x4, .f32⟩
  | 36 => ⟨S500000x4, .f32⟩
  | 37 => ⟨S1x4, .f32⟩
  | 38 => ⟨S1x4, .f32⟩
  | 39 => ⟨S500000x4, .f32⟩
  | _ => ⟨S100000x27, .f32⟩

abbrev hbmTy (i : Nat) : BufTy := match i / 128 with
  | 0 => hbmTy0_0 i
  | 1 => hbmTy0_1 i
  | _ => ⟨S100000x27, .f32⟩

abbrev bufTy : (tb : Table) → Fin (tcTables nBuf tb) → BufTy
  | .hbm, ⟨i, _⟩ => hbmTy i
  | .local _ .vmem, ⟨0, _⟩ => ⟨S10000x27, .f32⟩
  | .local _ .vmem, ⟨1, _⟩ => ⟨S10000x27, .f32⟩
  | .local _ .vmem, ⟨2, _⟩ => ⟨S27x60, .f32⟩
  | .local _ .vmem, ⟨3, _⟩ => ⟨S10000x60, .f32⟩
  | .local _ .vmem, ⟨4, _⟩ => ⟨S10000x60, .f32⟩
  | .local _ .vmem, ⟨5, _⟩ => ⟨S10000x60, .f32⟩
  | .local _ .vmem, ⟨6, _⟩ => ⟨S10000x60, .f32⟩
  | .local _ .vmem, ⟨7, _⟩ => ⟨S60x50, .f32⟩
  | .local _ .vmem, ⟨8, _⟩ => ⟨S10000x50, .f32⟩
  | .local _ .vmem, ⟨9, _⟩ => ⟨S10000x50, .f32⟩
  | .local _ .vmem, ⟨10, _⟩ => ⟨S5000x100, .f32⟩
  | .local _ .vmem, ⟨11, _⟩ => ⟨S5000x100, .f32⟩
  | .local _ .vmem, ⟨12, _⟩ => ⟨S100x40, .f32⟩
  | .local _ .vmem, ⟨13, _⟩ => ⟨S1x40, .f32⟩
  | .local _ .vmem, ⟨14, _⟩ => ⟨S40x20, .f32⟩
  | .local _ .vmem, ⟨15, _⟩ => ⟨S1x20, .f32⟩
  | .local _ .vmem, ⟨16, _⟩ => ⟨S20x4, .f32⟩
  | .local _ .vmem, ⟨17, _⟩ => ⟨S1x4, .f32⟩
  | .local _ .vmem, ⟨18, _⟩ => ⟨S5000x4, .f32⟩
  | .local _ .vmem, ⟨19, _⟩ => ⟨S5000x4, .f32⟩
  | .local _ .vmem, ⟨20, _⟩ => ⟨S5000x4, .f32⟩
  | .local _ .vmem, ⟨21, _⟩ => ⟨S5000x4, .f32⟩
  | .local _ .vmem, ⟨22, _⟩ => ⟨S1x4, .f32⟩
  | .local _ .vmem, ⟨23, _⟩ => ⟨S1x4, .f32⟩
  | .local _ .vmem, ⟨24, _⟩ => ⟨S1x4, .f32⟩
  | .local _ .vmem, ⟨25, _⟩ => ⟨S1x4, .f32⟩
  | .local _ .vmem, ⟨26, _⟩ => ⟨S5000x4, .f32⟩
  | .local _ .vmem, ⟨27, _⟩ => ⟨S5000x4, .f32⟩
  | .local _ .vmem, ⟨28, _⟩ => ⟨S1x4, .f32⟩
  | .local _ .vmem, ⟨29, _⟩ => ⟨S1x4, .f32⟩
  | .local _ .vmem, ⟨30, _⟩ => ⟨S5000x4, .f32⟩
  | .local _ .vmem, ⟨31, _⟩ => ⟨S5000x4, .f32⟩
  | _, _ => ⟨S100000x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_call1_v0 : Ref sig .tc := ⟨.hbm, 95, rfl⟩
abbrev main_call1_v1 : Ref sig .tc := ⟨.hbm, 96, rfl⟩
abbrev main_v61 : Ref sig .tc := ⟨.hbm, 97, rfl⟩
abbrev main_c_13 : Ref sig .tc := ⟨.hbm, 98, rfl⟩
abbrev main_v62 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_15 : Ref sig .tc := ⟨.hbm, 107, rfl⟩
abbrev main_v69 : Ref sig .tc := ⟨.hbm, 108, rfl⟩
abbrev main_v70 : Ref sig .tc := ⟨.hbm, 109, rfl⟩
abbrev main_c_16 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_20 : Ref sig .tc := ⟨.hbm, 142, rfl⟩
abbrev main_v99 : Ref sig .tc := ⟨.hbm, 143, rfl⟩
abbrev main_v100 : Ref sig .tc := ⟨.hbm, 144, rfl⟩
abbrev main_c_21 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_22 : Ref sig .tc := ⟨.hbm, 151, rfl⟩
abbrev main_v106 : Ref sig .tc := ⟨.hbm, 152, rfl⟩
abbrev main_v107 : Ref sig .tc := ⟨.hbm, 153, rfl⟩
abbrev main_c_23 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118_0 : Ref sig .tc := ⟨.hbm, 165, rfl⟩
abbrev main_v118_1 : Ref sig .tc := ⟨.hbm, 166, rfl⟩
abbrev main_v119 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_scratch0 : Ref sig .tc := ⟨.vmem, 24, rfl⟩
abbrev cc3_scratch1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x60 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S60x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S40x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x20 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S20x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v26 : BitVec 1 := Scalar.cmpi .eq arg0 c99_i32
  let v27 : BitVec 32 := Scalar.extui v26
  let c0_i32_13 : BitVec 32 := 0#32
  let v28 : BitVec 1 := Scalar.cmpi .ne v27 c0_i32_13
  v28

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x27_S10000x27_0_0 : ∀ a, (![0, 0] : Fin 2 → Nat) a + S10000x27.size a ≤ S10000x27.size a
  h_S10000x27 : 0 < S10000x27.numel
  inb_S27x60_S27x60_0_0 : ∀ a, (![0, 0] : Fin 2 → Nat) a + S27x60.size a ≤ S27x60.size a
  h_S27x60 : 0 < S27x60.numel
  inb_S10000x60_S10000x60_0_0 : ∀ a, (![0, 0] : Fin 2 → Nat) a + S10000x60.size a ≤ S10000x60.size a
  h_S10000x60 : 0 < S10000x60.numel
  bcast_S1700000x1_S1700000x60_0_1 : S1700000x1.BroadcastsInDim S1700000x60 (![0, 1] : Fin 2 → Fin S1700000x60.rank)
  bcast_S_S100000x60 : S_.BroadcastsInDim S100000x60 (![] : Fin 0 → Fin S100000x60.rank)
  bcast_S60_S1x60_1 : S60.BroadcastsInDim S1x60 (![1] : Fin 1 → Fin S1x60.rank)
  bcast_S1x60_S100000x60_0_1 : S1x60.BroadcastsInDim S100000x60 (![0, 1] : Fin 2 → Fin S100000x60.rank)
  shapeCasts_S10000x60_S10000x60 : S10000x60.ShapeCasts S10000x60
  inb_S60x50_S60x50_0_0 : ∀ a, (![0, 0] : Fin 2 → Nat) a + S60x50.size a ≤ S60x50.size a
  h_S60x50 : 0 < S60x50.numel
  inb_S10000x50_S10000x50_0_0 : ∀ a, (![0, 0] : Fin 2 → Nat) a + S10000x50.size a ≤ S10000x50.size a
  h_S10000x50 : 0 < S10000x50.numel
  bcast_S1700000x1_S1700000x50_0_1 : S1700000x1.BroadcastsInDim S1700000x50 (![0, 1] : Fin 2 → Fin S1700000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S1x50_S1000x50_0_1 : S1x50.BroadcastsInDim S1000x50 (![0, 1] : Fin 2 → Fin S1000x50.rank)
  concatenates_S100000x50_S1000x50_S101000x50_d0 : Shape.Concatenates [S100000x50, S1000x50] S101000x50 0
  bcast_S_S500000 : S_.BroadcastsInDim S500000 (![] : Fin 0 → Fin S500000.rank)
  bcast_S500000_S500000x1_0 : S500000.BroadcastsInDim S500000x1 (![0] : Fin 1 → Fin S500000x1.rank)
  concatenates_S500000x50_S500000x50_S500000x100_d1 : Shape.Concatenates [S500000x50, S500000x50] S500000x100 1
  shapeCasts_S40_S1x40 : S40.ShapeCasts S1x40
  shapeCasts_S20_S1x20 : S20.ShapeCasts S1x20
  shapeCasts_S4_S1x4 : S4.ShapeCasts S1x4
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  inb_S100x40_S100x40_0_0 : ∀ a, (![0, 0] : Fin 2 → Nat) a + S100x40.size a ≤ S100x40.size a
  h_S100x40 : 0 < S100x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S40x20_S40x20_0_0 : ∀ a, (![0, 0] : Fin 2 → Nat) a + S40x20.size a ≤ S40x20.size a
  h_S40x20 : 0 < S40x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  inb_S20x4_S20x4_0_0 : ∀ a, (![0, 0] : Fin 2 → Nat) a + S20x4.size a ≤ S20x4.size a
  h_S20x4 : 0 < S20x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  reduces_S5000x4_S4 : S5000x4.Reduces [0] S4
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x27_S27x60_S10000x60_1_0_0_1_n_n_wf : DotDims.WF S10000x27 S27x60 S10000x60 [1] [0] [0] [1] [] []
  gather_S100000x60_S1700000x1_S1700000x60_1_0_n_n_0_1_160_wf : GatherDims.WF S100000x60 S1700000x1 S1700000x60 [1] [0] [] [0] [] 1 ![1, 60]
  scatter_S100000x60_S1700000x1_S1700000x60_1_0_0_1_wf : ScatterDims.WF S100000x60 S1700000x1 S1700000x60 [1] [0] [0] 1
  dot_S10000x60_S60x50_S10000x50_1_0_0_1_n_n_wf : DotDims.WF S10000x60 S60x50 S10000x50 [1] [0] [0] [1] [] []
  gather_S100000x50_S1700000x1_S1700000x50_1_0_n_n_0_1_150_wf : GatherDims.WF S100000x50 S1700000x1 S1700000x50 [1] [0] [] [0] [] 1 ![1, 50]
  scatter_S100000x50_S1700000x1_S1700000x50_1_0_0_1_wf : ScatterDims.WF S100000x50 S1700000x1 S1700000x50 [1] [0] [0] 1
  dot_S1000x27_S27x50_S1000x50_1_0_0_1_n_n_wf : DotDims.WF S1000x27 S27x50 S1000x50 [1] [0] [0] [1] [] []
  gather_S101000x50_S500000x1_S500000x50_1_0_n_n_0_1_150_wf : GatherDims.WF S101000x50 S500000x1 S500000x50 [1] [0] [] [0] [] 1 ![1, 50]
  dot_S5000x100_S100x40_S5000x40_1_0_0_1_n_n_wf : DotDims.WF S5000x100 S100x40 S5000x40 [1] [0] [0] [1] [] []
  dot_S5000x40_S40x20_S5000x20_1_0_0_1_n_n_wf : DotDims.WF S5000x40 S40x20 S5000x20 [1] [0] [0] [1] [] []
  dot_S5000x20_S20x4_S5000x4_1_0_0_1_n_n_wf : DotDims.WF S5000x20 S20x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x27.size a ≤ S100000x27.size a
  hwx0_0 : ∀ i : grid0.Coords, EltTy.bits .f32 = 32 ∨ (Rect.block (s := S100000x27) S10000x27.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x60.size a ≤ S27x60.size a
  hwx0_1 : ∀ i : grid0.Coords, EltTy.bits .f32 = 32 ∨ (Rect.block (s := S27x60) S27x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x60.size a ≤ S100000x60.size a
  hwx0_2 : ∀ i : grid0.Coords, EltTy.bits .f32 = 32 ∨ (Rect.block (s := S100000x60) S10000x60.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x60.size a ≤ S100000x60.size a
  hwx1_0 : ∀ i : grid1.Coords, EltTy.bits .f32 = 32 ∨ (Rect.block (s := S100000x60) S10000x60.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S60x50.size a ≤ S60x50.size a
  hwx1_1 : ∀ i : grid1.Coords, EltTy.bits .f32 = 32 ∨ (Rect.block (s := S60x50) S60x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x50.size a ≤ S100000x50.size a
  hwx1_2 : ∀ i : grid1.Coords, EltTy.bits .f32 = 32 ∨ (Rect.block (s := S100000x50) S10000x50.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S500000x100.size a
  hwx2_0 : ∀ i : grid2.Coords, EltTy.bits .f32 = 32 ∨ (Rect.block (s := S500000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x40.size a ≤ S100x40.size a
  hwx2_1 : ∀ i : grid2.Coords, EltTy.bits .f32 = 32 ∨ (Rect.block (s := S100x40) S100x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40x20.size a ≤ S40x20.size a
  hwx2_3 : ∀ i : grid2.Coords, EltTy.bits .f32 = 32 ∨ (Rect.block (s := S40x20) S40x20.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x20.size a ≤ S1x20.size a
  hwx2_4 : ∀ i : grid2.Coords, EltTy.bits .f32 = 32 ∨ (Rect.block (s := S1x20) S1x20.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S20x4.size a ≤ S20x4.size a
  hwx2_5 : ∀ i : grid2.Coords, EltTy.bits .f32 = 32 ∨ (Rect.block (s := S20x4) S20x4.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x4.size a ≤ S1x4.size a
  hwx2_6 : ∀ i : grid2.Coords, EltTy.bits .f32 = 32 ∨ (Rect.block (s := S1x4) S1x4.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x4.size a ≤ S500000x4.size a
  hwx2_7 : ∀ i : grid2.Coords, EltTy.bits .f32 = 32 ∨ (Rect.block (s := S500000x4) S5000x4.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x4.size a ≤ S500000x4.size a
  hwx3_0 : ∀ i : grid3.Coords, EltTy.bits .f32 = 32 ∨ (Rect.block (s := S500000x4) S5000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x4.size a ≤ S500000x4.size a
  hwx4_0 : ∀ i : grid4.Coords, EltTy.bits .f32 = 32 ∨ (Rect.block (s := S500000x4) S5000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x4.size a ≤ S1x4.size a
  hwx4_1 : ∀ i : grid4.Coords, EltTy.bits .f32 = 32 ∨ (Rect.block (s := S1x4) S1x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4.size a ≤ S1x4.size a
  hwx4_2 : ∀ i : grid4.Coords, EltTy.bits .f32 = 32 ∨ (Rect.block (s := S1x4) S1x4.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x4.size a ≤ S500000x4.size a
  hwx4_3 : ∀ i : grid4.Coords, EltTy.bits .f32 = 32 ∨ (Rect.block (s := S500000x4) S5000x4.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x27_S27x60_S10000x60_1_0_0_1_n_n : DotDims S10000x27 S27x60 S10000x60 where
  lhsContracting := [1]
  rhsContracting := [0]
  lhsNonContracting := [0]
  rhsNonContracting := [1]
  lhsBatch := []
  rhsBatch := []
  wf := dot_S10000x27_S27x60_S10000x60_1_0_0_1_n_n_wf
def gather_S100000x60_S1700000x1_S1700000x60_1_0_n_n_0_1_160 : GatherDims S100000x60 S1700000x1 S1700000x60 where
  offsetDims := [1]
  collapsedSliceDims := [0]
  operandBatchingDims := []
  startIndicesBatchingDims := []
  startIndexMap := [0]
  indexVectorDim := 1
  sliceSizes := ![1, 60]
  wf := gather_S100000x60_S1700000x1_S1700000x60_1_0_n_n_0_1_160_wf
def scatter_S100000x60_S1700000x1_S1700000x60_1_0_0_1 : ScatterDims S100000x60 S1700000x1 S1700000x60 where
  updateWindowDims := [1]
  insertedWindowDims := [0]
  scatterDimsToOperandDims := [0]
  indexVectorDim := 1
  wf := scatter_S100000x60_S1700000x1_S1700000x60_1_0_0_1_wf
def dot_S10000x60_S60x50_S10000x50_1_0_0_1_n_n : DotDims S10000x60 S60x50 S10000x50 where
  lhsContracting := [1]
  rhsContracting := [0]
  lhsNonContracting := [0]
  rhsNonContracting := [1]
  lhsBatch := []
  rhsBatch := []
  wf := dot_S10000x60_S60x50_S10000x50_1_0_0_1_n_n_wf
def gather_S100000x50_S1700000x1_S1700000x50_1_0_n_n_0_1_150 : GatherDims S100000x50 S1700000x1 S1700000x50 where
  offsetDims := [1]
  collapsedSliceDims := [0]
  operandBatchingDims := []
  startIndicesBatchingDims := []
  startIndexMap := [0]
  indexVectorDim := 1
  sliceSizes := ![1, 50]
  wf := gather_S100000x50_S1700000x1_S1700000x50_1_0_n_n_0_1_150_wf
def scatter_S100000x50_S1700000x1_S1700000x50_1_0_0_1 : ScatterDims S100000x50 S1700000x1 S1700000x50 where
  updateWindowDims := [1]
  insertedWindowDims := [0]
  scatterDimsToOperandDims := [0]
  indexVectorDim := 1
  wf := scatter_S100000x50_S1700000x1_S1700000x50_1_0_0_1_wf
def dot_S1000x27_S27x50_S1000x50_1_0_0_1_n_n : DotDims S1000x27 S27x50 S1000x50 where
  lhsContracting := [1]
  rhsContracting := [0]
  lhsNonContracting := [0]
  rhsNonContracting := [1]
  lhsBatch := []
  rhsBatch := []
  wf := dot_S1000x27_S27x50_S1000x50_1_0_0_1_n_n_wf
def gather_S101000x50_S500000x1_S500000x50_1_0_n_n_0_1_150 : GatherDims S101000x50 S500000x1 S500000x50 where
  offsetDims := [1]
  collapsedSliceDims := [0]
  operandBatchingDims := []
  startIndicesBatchingDims := []
  startIndexMap := [0]
  indexVectorDim := 1
  sliceSizes := ![1, 50]
  wf := gather_S101000x50_S500000x1_S500000x50_1_0_n_n_0_1_150_wf
def dot_S5000x100_S100x40_S5000x40_1_0_0_1_n_n : DotDims S5000x100 S100x40 S5000x40 where
  lhsContracting := [1]
  rhsContracting := [0]
  lhsNonContracting := [0]
  rhsNonContracting := [1]
  lhsBatch := []
  rhsBatch := []
  wf := dot_S5000x100_S100x40_S5000x40_1_0_0_1_n_n_wf
def dot_S5000x40_S40x20_S5000x20_1_0_0_1_n_n : DotDims S5000x40 S40x20 S5000x20 where
  lhsContracting := [1]
  rhsContracting := [0]
  lhsNonContracting := [0]
  rhsNonContracting := [1]
  lhsBatch := []
  rhsBatch := []
  wf := dot_S5000x40_S40x20_S5000x20_1_0_0_1_n_n_wf
def dot_S5000x20_S20x4_S5000x4_1_0_0_1_n_n : DotDims S5000x20 S20x4 S5000x4 where
  lhsContracting := [1]
  rhsContracting := [0]
  lhsNonContracting := [0]
  rhsNonContracting := [1]
  lhsBatch := []
  rhsBatch := []
  wf := dot_S5000x20_S20x4_S5000x4_1_0_0_1_n_n_wf

abbrev win0_0 : Pipeline.Window sig grid0 :=
  Pipeline.Window.ofSpec (Memref.whole main_arg0) S10000x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S27x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x60.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x60.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S60x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S10000x50.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v113) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S100x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v114) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S40x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v115) S1x20.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S20x4.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v116) S1x4.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v117) S5000x4.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v117) S5000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118_0) S1x4.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118_1) S1x4.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun i => !(k3_cond2 i == 1#1) | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v117) S5000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v118_0) S1x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v118_1) S1x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v119) S5000x4.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x27 : Shape := ⟨2, ![100000, 27]⟩
abbrev S1000x27 : Shape := ⟨2, ![1000, 27]⟩
abbrev S27x60 : Shape := ⟨2, ![27, 60]⟩
abbrev S60 : Shape := ⟨1, ![60]⟩
abbrev S60x50 : Shape := ⟨2, ![60, 50]⟩
abbrev S50 : Shape := ⟨1, ![50]⟩
abbrev S27x50 : Shape := ⟨2, ![27, 50]⟩
abbrev S100x40 : Shape := ⟨2, ![100, 40]⟩
abbrev S40 : Shape := ⟨1, ![40]⟩
abbrev S40x20 : Shape := ⟨2, ![40, 20]⟩
abbrev S20 : Shape := ⟨1, ![20]⟩
abbrev S20x4 : Shape := ⟨2, ![20, 4]⟩
abbrev S4 : Shape := ⟨1, ![4]⟩
abbrev S2x1600000 : Shape := ⟨2, ![2, 1600000]⟩
abbrev S500000 : Shape := ⟨1, ![500000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x60 : Shape := ⟨2, ![100000, 60]⟩
abbrev S1700000x60 : Shape := ⟨2, ![1700000, 60]⟩
abbrev S1x60 : Shape := ⟨2, ![1, 60]⟩
abbrev S100000x50 : Shape := ⟨2, ![100000, 50]⟩
abbrev S1700000x50 : Shape := ⟨2, ![1700000, 50]⟩
abbrev S1x50 : Shape := ⟨2, ![1, 50]⟩
abbrev S1000x50 : Shape := ⟨2, ![1000, 50]⟩
abbrev S101000x50 : Shape := ⟨2, ![101000, 50]⟩
abbrev S500000x1 : Shape := ⟨2, ![500000, 1]⟩
abbrev S500000x50 : Shape := ⟨2, ![500000, 50]⟩
abbrev S500000x100 : Shape := ⟨2, ![500000, 100]⟩
abbrev S500000x40 : Shape := ⟨2, ![500000, 40]⟩
abbrev S1x40 : Shape := ⟨2, ![1, 40]⟩
abbrev S500000x20 : Shape := ⟨2, ![500000, 20]⟩
abbrev S1x20 : Shape := ⟨2, ![1, 20]⟩
abbrev S500000x4 : Shape := ⟨2, ![500000, 4]⟩
abbrev S1x4 : Shape := ⟨2, ![1, 4]⟩

abbrev nBuf : Space → Nat
  | .hbm => 187
  | .vmem => 0
  | .smem => 0
  | _ => 0

abbrev hbmTy0_0 (i : Nat) : BufTy := match i % 128 with
  | 0 => ⟨S100000x27, .f32⟩
  | 1 => ⟨S1000x27, .f32⟩
  | 2 => ⟨S27x60, .f32⟩
  | 3 => ⟨S60, .f32⟩
  | 4 => ⟨S60x50, .f32⟩
  | 5 => ⟨S50, .f32⟩
  | 6 => ⟨S27x50, .f32⟩
  | 7 => ⟨S50, .f32⟩
  | 8 => ⟨S100x40, .f32⟩
  | 9 => ⟨S40, .f32⟩
  | 10 => ⟨S40x20, .f32⟩
  | 11 => ⟨S20, .f32⟩
  | 12 => ⟨S20x4, .f32⟩
  | 13 => ⟨S4, .f32⟩
  | 14 => ⟨S2x1600000, .i32⟩
  | 15 => ⟨S500000, .i32⟩
  | 16 => ⟨S500000, .i32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x60, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x60, .f32⟩
  | 67 => ⟨S1700000x1, .f32⟩
  | 68 => ⟨S1700000x60, .f32⟩
  | 69 => ⟨S1700000x60, .f32⟩
  | 70 => ⟨S_, .f32⟩
  | 71 => ⟨S100000x60, .f32⟩
  | 72 => ⟨S1700000x1, .i32⟩
  | 73 => ⟨S100000x60, .f32⟩
  | 74 => ⟨S1x60, .f32⟩
  | 75 => ⟨S100000x60, .f32⟩
  | 76 => ⟨S100000x60, .f32⟩
  | 77 => ⟨S100000, .i32⟩
  | 78 => ⟨S1x1600000, .i32⟩
  | 79 => ⟨S1600000, .i32⟩
  | 80 => ⟨S1700000, .i32⟩
  | 81 => ⟨S1x1600000, .i32⟩
  | 82 => ⟨S1600000, .i32⟩
  | 83 => ⟨S1700000, .i32⟩
  | 84 => ⟨S_, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S100000x50, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x50, .f32⟩
  | 127 => ⟨S1700000x1, .f32⟩
  | _ => ⟨S100000x27, .f32⟩

abbrev hbmTy0_1 (i : Nat) : BufTy := match i % 128 with
  | 0 => ⟨S1700000x50, .f32⟩
  | 1 => ⟨S1700000x50, .f32⟩
  | 2 => ⟨S_, .f32⟩
  | 3 => ⟨S100000x50, .f32⟩
  | 4 => ⟨S1700000x1, .i32⟩
  | 5 => ⟨S100000x50, .f32⟩
  | 6 => ⟨S1x50, .f32⟩
  | 7 => ⟨S100000x50, .f32⟩
  | 8 => ⟨S100000x50, .f32⟩
  | 9 => ⟨S1000x50, .f32⟩
  | 10 => ⟨S1x50, .f32⟩
  | 11 => ⟨S1000x50, .f32⟩
  | 12 => ⟨S1000x50, .f32⟩
  | 13 => ⟨S101000x50, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x50, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x50, .f32⟩
  | 32 => ⟨S500000x100, .f32⟩
  | 33 => ⟨S500000x40, .f32⟩
  | 34 => ⟨S1x40, .f32⟩
  | 35 => ⟨S500000x40, .f32⟩
  | 36 => ⟨S500000x40, .f32⟩
  | 37 => ⟨S500000x20, .f32⟩
  | 38 => ⟨S1x20, .f32⟩
  | 39 => ⟨S500000x20, .f32⟩
  | 40 => ⟨S500000x20, .f32⟩
  | 41 => ⟨S500000x4, .f32⟩
  | 42 => ⟨S1x4, .f32⟩
  | 43 => ⟨S500000x4, .f32⟩
  | 44 => ⟨S500000x4, .f32⟩
  | 45 => ⟨S_, .f32⟩
  | 46 => ⟨S4, .f32⟩
  | 47 => ⟨S_, .f32⟩
  | 48 => ⟨S4, .f32⟩
  | 49 => ⟨S4, .f32⟩
  | 50 => ⟨S1x4, .f32⟩
  | 51 => ⟨S500000x4, .f32⟩
  | 52 => ⟨S500000x4, .f32⟩
  | 53 => ⟨S500000x4, .f32⟩
  | 54 => ⟨S_, .f32⟩
  | 55 => ⟨S4, .f32⟩
  | 56 => ⟨S1x4, .f32⟩
  | 57 => ⟨S500000x4, .f32⟩
  | 58 => ⟨S500000x4, .f32⟩
  | _ => ⟨S100000x27, .f32⟩

abbrev hbmTy (i : Nat) : BufTy := match i / 128 with
  | 0 => hbmTy0_0 i
  | 1 => hbmTy0_1 i
  | _ => ⟨S100000x27, .f32⟩

abbrev bufTy : (tb : Table) → Fin (tcTables nBuf tb) → BufTy
  | .hbm, ⟨i, _⟩ => hbmTy i
  | _, _ => ⟨S100000x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_call1_v0 : Ref sig .tc := ⟨.hbm, 95, rfl⟩
abbrev main_call1_v1 : Ref sig .tc := ⟨.hbm, 96, rfl⟩
abbrev main_v61 : Ref sig .tc := ⟨.hbm, 97, rfl⟩
abbrev main_c_13 : Ref sig .tc := ⟨.hbm, 98, rfl⟩
abbrev main_v62 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_15 : Ref sig .tc := ⟨.hbm, 107, rfl⟩
abbrev main_v69 : Ref sig .tc := ⟨.hbm, 108, rfl⟩
abbrev main_v70 : Ref sig .tc := ⟨.hbm, 109, rfl⟩
abbrev main_c_16 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_20 : Ref sig .tc := ⟨.hbm, 142, rfl⟩
abbrev main_v99 : Ref sig .tc := ⟨.hbm, 143, rfl⟩
abbrev main_v100 : Ref sig .tc := ⟨.hbm, 144, rfl⟩
abbrev main_c_21 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_22 : Ref sig .tc := ⟨.hbm, 151, rfl⟩
abbrev main_v106 : Ref sig .tc := ⟨.hbm, 152, rfl⟩
abbrev main_v107 : Ref sig .tc := ⟨.hbm, 153, rfl⟩
abbrev main_c_23 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_24 : Ref sig .tc := ⟨.hbm, 173, rfl⟩
abbrev main_v126 : Ref sig .tc := ⟨.hbm, 174, rfl⟩
abbrev main_cst_25 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_26 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x60_0_1 : S1700000x1.BroadcastsInDim S1700000x60 (![0, 1] : Fin 2 → Fin S1700000x60.rank)
  bcast_S_S100000x60 : S_.BroadcastsInDim S100000x60 (![] : Fin 0 → Fin S100000x60.rank)
  bcast_S60_S1x60_1 : S60.BroadcastsInDim S1x60 (![1] : Fin 1 → Fin S1x60.rank)
  bcast_S1x60_S100000x60_0_1 : S1x60.BroadcastsInDim S100000x60 (![0, 1] : Fin 2 → Fin S100000x60.rank)
  bcast_S1700000x1_S1700000x50_0_1 : S1700000x1.BroadcastsInDim S1700000x50 (![0, 1] : Fin 2 → Fin S1700000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S1x50_S1000x50_0_1 : S1x50.BroadcastsInDim S1000x50 (![0, 1] : Fin 2 → Fin S1000x50.rank)
  concatenates_S100000x50_S1000x50_S101000x50_d0 : Shape.Concatenates [S100000x50, S1000x50] S101000x50 0
  bcast_S_S500000 : S_.BroadcastsInDim S500000 (![] : Fin 0 → Fin S500000.rank)
  bcast_S500000_S500000x1_0 : S500000.BroadcastsInDim S500000x1 (![0] : Fin 1 → Fin S500000x1.rank)
  concatenates_S500000x50_S500000x50_S500000x100_d1 : Shape.Concatenates [S500000x50, S500000x50] S500000x100 1
  bcast_S40_S1x40_1 : S40.BroadcastsInDim S1x40 (![1] : Fin 1 → Fin S1x40.rank)
  bcast_S1x40_S500000x40_0_1 : S1x40.BroadcastsInDim S500000x40 (![0, 1] : Fin 2 → Fin S500000x40.rank)
  bcast_S20_S1x20_1 : S20.BroadcastsInDim S1x20 (![1] : Fin 1 → Fin S1x20.rank)
  bcast_S1x20_S500000x20_0_1 : S1x20.BroadcastsInDim S500000x20 (![0, 1] : Fin 2 → Fin S500000x20.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  reducesTo_S500000x4_S4_d0 : S500000x4.ReducesTo [0] S4
  h_S_ : 0 < S_.numel
  bcast_S_S4 : S_.BroadcastsInDim S4 (![] : Fin 0 → Fin S4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x27_S27x60_S100000x60_1_0_0_1_n_n_wf : DotDims.WF S100000x27 S27x60 S100000x60 [1] [0] [0] [1] [] []
  gather_S100000x60_S1700000x1_S1700000x60_1_0_n_n_0_1_160_wf : GatherDims.WF S100000x60 S1700000x1 S1700000x60 [1] [0] [] [0] [] 1 ![1, 60]
  scatter_S100000x60_S1700000x1_S1700000x60_1_0_0_1_wf : ScatterDims.WF S100000x60 S1700000x1 S1700000x60 [1] [0] [0] 1
  dot_S100000x60_S60x50_S100000x50_1_0_0_1_n_n_wf : DotDims.WF S100000x60 S60x50 S100000x50 [1] [0] [0] [1] [] []
  gather_S100000x50_S1700000x1_S1700000x50_1_0_n_n_0_1_150_wf : GatherDims.WF S100000x50 S1700000x1 S1700000x50 [1] [0] [] [0] [] 1 ![1, 50]
  scatter_S100000x50_S1700000x1_S1700000x50_1_0_0_1_wf : ScatterDims.WF S100000x50 S1700000x1 S1700000x50 [1] [0] [0] 1
  dot_S1000x27_S27x50_S1000x50_1_0_0_1_n_n_wf : DotDims.WF S1000x27 S27x50 S1000x50 [1] [0] [0] [1] [] []
  gather_S101000x50_S500000x1_S500000x50_1_0_n_n_0_1_150_wf : GatherDims.WF S101000x50 S500000x1 S500000x50 [1] [0] [] [0] [] 1 ![1, 50]
  dot_S500000x100_S100x40_S500000x40_1_0_0_1_n_n_wf : DotDims.WF S500000x100 S100x40 S500000x40 [1] [0] [0] [1] [] []
  dot_S500000x40_S40x20_S500000x20_1_0_0_1_n_n_wf : DotDims.WF S500000x40 S40x20 S500000x20 [1] [0] [0] [1] [] []
  dot_S500000x20_S20x4_S500000x4_1_0_0_1_n_n_wf : DotDims.WF S500000x20 S20x4 S500000x4 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x27_S27x60_S100000x60_1_0_0_1_n_n : DotDims S100000x27 S27x60 S100000x60 where
  lhsContracting := [1]
  rhsContracting := [0]
  lhsNonContracting := [0]
  rhsNonContracting := [1]
  lhsBatch := []
  rhsBatch := []
  wf := dot_S100000x27_S27x60_S100000x60_1_0_0_1_n_n_wf
def gather_S100000x60_S1700000x1_S1700000x60_1_0_n_n_0_1_160 : GatherDims S100000x60 S1700000x1 S1700000x60 where
  offsetDims := [1]
  collapsedSliceDims := [0]
  operandBatchingDims := []
  startIndicesBatchingDims := []
  startIndexMap := [0]
  indexVectorDim := 1
  sliceSizes := ![1, 60]
  wf := gather_S100000x60_S1700000x1_S1700000x60_1_0_n_n_0_1_160_wf
def scatter_S100000x60_S1700000x1_S1700000x60_1_0_0_1 : ScatterDims S100000x60 S1700000x1 S1700000x60 where
  updateWindowDims := [1]
  insertedWindowDims := [0]
  scatterDimsToOperandDims := [0]
  indexVectorDim := 1
  wf := scatter_S100000x60_S1700000x1_S1700000x60_1_0_0_1_wf
def dot_S100000x60_S60x50_S100000x50_1_0_0_1_n_n : DotDims S100000x60 S60x50 S100000x50 where
  lhsContracting := [1]
  rhsContracting := [0]
  lhsNonContracting := [0]
  rhsNonContracting := [1]
  lhsBatch := []
  rhsBatch := []
  wf := dot_S100000x60_S60x50_S100000x50_1_0_0_1_n_n_wf
def gather_S100000x50_S1700000x1_S1700000x50_1_0_n_n_0_1_150 : GatherDims S100000x50 S1700000x1 S1700000x50 where
  offsetDims := [1]
  collapsedSliceDims := [0]
  operandBatchingDims := []
  startIndicesBatchingDims := []
  startIndexMap := [0]
  indexVectorDim := 1
  sliceSizes := ![1, 50]
  wf := gather_S100000x50_S1700000x1_S1700000x50_1_0_n_n_0_1_150_wf
def scatter_S100000x50_S1700000x1_S1700000x50_1_0_0_1 : ScatterDims S100000x50 S1700000x1 S1700000x50 where
  updateWindowDims := [1]
  insertedWindowDims := [0]
  scatterDimsToOperandDims := [0]
  indexVectorDim := 1
  wf := scatter_S100000x50_S1700000x1_S1700000x50_1_0_0_1_wf
def dot_S1000x27_S27x50_S1000x50_1_0_0_1_n_n : DotDims S1000x27 S27x50 S1000x50 where
  lhsContracting := [1]
  rhsContracting := [0]
  lhsNonContracting := [0]
  rhsNonContracting := [1]
  lhsBatch := []
  rhsBatch := []
  wf := dot_S1000x27_S27x50_S1000x50_1_0_0_1_n_n_wf
def gather_S101000x50_S500000x1_S500000x50_1_0_n_n_0_1_150 : GatherDims S101000x50 S500000x1 S500000x50 where
  offsetDims := [1]
  collapsedSliceDims := [0]
  operandBatchingDims := []
  startIndicesBatchingDims := []
  startIndexMap := [0]
  indexVectorDim := 1
  sliceSizes := ![1, 50]
  wf := gather_S101000x50_S500000x1_S500000x50_1_0_n_n_0_1_150_wf
def dot_S500000x100_S100x40_S500000x40_1_0_0_1_n_n : DotDims S500000x100 S100x40 S500000x40 where
  lhsContracting := [1]
  rhsContracting := [0]
  lhsNonContracting := [0]
  rhsNonContracting := [1]
  lhsBatch := []
  rhsBatch := []
  wf := dot_S500000x100_S100x40_S500000x40_1_0_0_1_n_n_wf
def dot_S500000x40_S40x20_S500000x20_1_0_0_1_n_n : DotDims S500000x40 S40x20 S500000x20 where
  lhsContracting := [1]
  rhsContracting := [0]
  lhsNonContracting := [0]
  rhsNonContracting := [1]
  lhsBatch := []
  rhsBatch := []
  wf := dot_S500000x40_S40x20_S500000x20_1_0_0_1_n_n_wf
def dot_S500000x20_S20x4_S500000x4_1_0_0_1_n_n : DotDims S500000x20 S20x4 S500000x4 where
  lhsContracting := [1]
  rhsContracting := [0]
  lhsNonContracting := [0]
  rhsNonContracting := [1]
  lhsBatch := []
  rhsBatch := []
  wf := dot_S500000x20_S20x4_S500000x4_1_0_0_1_n_n_wf

class Facts : Prop extends Facts₀ where

variable [Facts]
-- ==== Proof.K.Reg0.lean ====
/-
  Region 0 of @main (the first graph-convolution's linear map): the product x · W₁ computed ten thousand rows at a time.
  The grid has 10 points. At point t the body is handed rows [10000·t, 10000·(t+1)) of x (window 0), all of W₁
  (window 1) and the matching rows of the result (window 2); it overwrites the latter with the product of the two
  former. Nothing is kept between points and no scratch is used, so the invariant is the untouched rest of the core.
  Stated at ANY contents `V` of the core's buffers at the region's entry and at any float instance: the proof data of
  the pipeline, what the result window's buffer holds after the body, and the body's obligation at every point.
-/
import proofs.«133038_j66116726555434_1_alg».proof.Proof.Gen.Kernel.Launch
import proofs.«133038_j66116726555434_1_alg».proof.Proof.Gen.Kernel.Skeleton
import proofs.«133038_j66116726555434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: whatever proof data has `V`'s array behind window 0 and leaves the block in place finds the block
    in the current staging buffer at every point (the window is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W₁: fetched at the first point only, its block index never moves, so the buffer still holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result window's buffer -/

abbrev rx0 : Rect S10000x27 := Rect.unit (s := S10000x27) ![0, 0] S10000x27.size inb_S10000x27_S10000x27_0_0
abbrev rw0 : Rect S27x60 := Rect.unit (s := S27x60) ![0, 0] S27x60.size inb_S27x60_S27x60_0_0
abbrev ro0 : Rect S10000x60 := Rect.unit (s := S10000x60) ![0, 0] S10000x60.size inb_S10000x60_S10000x60_0_0

/-- The result buffer after the body: one store of the whole block, the product of the two blocks read. -/
def out0_2 (x0 : Vec F S10000x27 .f32) (x1 : Vec F S27x60 .f32) : Vec F S10000x60 .f32 :=
  View.canon [⟨ro0, k0_pay1 (View.ld x0 rx0) (View.ld x1 rw0)⟩]

/-- The one store covers the buffer. -/
theorem cover0_2 (p0 : Vec F S10000x60 .f32) (y : S10000x60.Idx) :
    ∃ pc ∈ ([⟨ro0, p0⟩] : List (View.Piece (Elt F) S10000x60 .f32)), y ∈ pc.1.set :=
  View.cover_of_tiled [⟨ro0, p0⟩] S10000x60.size (by rfl) y

/-! ## The body's triple -/

set_option maxHeartbeats 1000000 in
/-- On whole staging memrefs, the two inputs' at known contents and the result's at anything, the body runs to a state
    with the inputs' as they were and the result's at `out0_2` of them. -/
theorem body_run0 (c : Dev nD) (E : Set ℕ) (i : grid0.Coords)
    (a1 : Memref sig .tc .vmem S10000x27 .f32) (h1 : a1.IsWhole) (a2 : Memref sig .tc .vmem S27x60 .f32) (h2 : a2.IsWhole)
    (a3 : Memref sig .tc .vmem S10000x60 .f32) (h3 : a3.IsWhole)
    (x0 : Vec F S10000x27 .f32) (x1 : Vec F S27x60 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out0_2 x0 x1)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body at point `t` each input's
    buffer still at its block and the result's at the product of the two blocks; the rest of the core untouched;
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of @main (the second graph-convolution's linear map): the product h · W₂ computed ten thousand rows at a
  time. The grid has 10 points. At point t the body is handed rows [10000·t, 10000·(t+1)) of h (window 0), all of W₂
  (window 1) and the matching rows of the result (window 2); it overwrites the latter with the product of the two
  former. Nothing is kept between points and no scratch is used, so the invariant is the untouched rest of the core.
  Stated at ANY contents `V` of the core's buffers at the region's entry and at any float instance: the proof data of
  the pipeline, what the result window's buffer holds after the body, and the body's obligation at every point.
-/
import proofs.«133038_j66116726555434_1_alg».proof.Proof.Gen.Kernel.Launch
import proofs.«133038_j66116726555434_1_alg».proof.Proof.Gen.Kernel.Skeleton
import proofs.«133038_j66116726555434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of h: whatever proof data has `V`'s array behind window 0 and leaves the block in place finds the block
    in the current staging buffer at every point (the window is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W₂: fetched at the first point only, its block index never moves, so the buffer still holds it at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the result window's buffer -/

abbrev rx1 : Rect S10000x60 := Rect.unit (s := S10000x60) ![0, 0] S10000x60.size inb_S10000x60_S10000x60_0_0
abbrev rw1 : Rect S60x50 := Rect.unit (s := S60x50) ![0, 0] S60x50.size inb_S60x50_S60x50_0_0
abbrev ro1 : Rect S10000x50 := Rect.unit (s := S10000x50) ![0, 0] S10000x50.size inb_S10000x50_S10000x50_0_0

/-- The result buffer after the body: one store of the whole block, the product of the two blocks read. -/
def out1_2 (x0 : Vec F S10000x60 .f32) (x1 : Vec F S60x50 .f32) : Vec F S10000x50 .f32 :=
  View.canon [⟨ro1, k1_pay1 (View.ld x0 rx1) (View.ld x1 rw1)⟩]

/-- The one store covers the buffer. -/
theorem cover1_2 (p0 : Vec F S10000x50 .f32) (y : S10000x50.Idx) :
    ∃ pc ∈ ([⟨ro1, p0⟩] : List (View.Piece (Elt F) S10000x50 .f32)), y ∈ pc.1.set :=
  View.cover_of_tiled [⟨ro1, p0⟩] S10000x50.size (by rfl) y

/-! ## The body's triple -/

set_option maxHeartbeats 1000000 in
/-- On whole staging memrefs, the two inputs' at known contents and the result's at anything, the body runs to a state
    with the inputs' as they were and the result's at `out1_2` of them. -/
theorem body_run1 (c : Dev nD) (E : Set ℕ) (i : grid1.Coords)
    (a1 : Memref sig .tc .vmem S10000x60 .f32) (h1 : a1.IsWhole) (a2 : Memref sig .tc .vmem S60x50 .f32) (h2 : a2.IsWhole)
    (a3 : Memref sig .tc .vmem S10000x50 .f32) (h3 : a3.IsWhole)
    (x0 : Vec F S10000x60 .f32) (x1 : Vec F S60x50 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out1_2 x0 x1)) -∗ K ⟨⟩))
      ⊢ wp frame (wpE (defs₀ (F := F)) Variants.none c none) E (cc1__matmul_kernel i a1 h1 a2 h2 a3 h3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Pipeline 1's proof data on core `c`: the arrays as the region finds them; after the body at point `t` each input's
    buffer still at its block and the result's at the product of the two blocks; the rest of the core untouched;
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body_run1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of @main (the edge head: three affine layers applied to every row of z, five thousand rows at a time).
  The grid has 100 points. At point t the body is handed rows [5000·t, 5000·(t+1)) of z (window 0), the three weight
  matrices and the three bias rows whole (windows 1 to 6) and the matching rows of the result (window 7); it
  overwrites the latter with ((z·W₁ + b₁)·W₂ + b₂)·W₃ + b₃ of the former. Nothing is kept between points and no
  scratch is used, so the invariant is the untouched rest of the core.
  Stated at ANY contents `V` of the core's buffers at the region's entry and at any float instance: the proof data of
  the pipeline, what the result window's buffer holds after the body, and the body's obligation at every point.
-/
import proofs.«133038_j66116726555434_1_alg».proof.Proof.Gen.Kernel.Launch
import proofs.«133038_j66116726555434_1_alg».proof.Proof.Gen.Kernel.Skeleton
import proofs.«133038_j66116726555434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the rows of z): whatever proof data has `V`'s array behind the window and leaves the block in place finds
    the block in the buffer at every point (the window is fetched at every point, so the current staging buffer holds the point's block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (W₁ of the head): whatever proof data has `V`'s array behind the window and leaves the block in place finds
    the block in the buffer at every point (fetched at the first point only, its block index never moves, so the buffer still holds it at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the first bias row): whatever proof data has `V`'s array behind the window and leaves the block in place finds
    the block in the buffer at every point (fetched at the first point only, its block index never moves, so the buffer still holds it at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 (W₂ of the head): whatever proof data has `V`'s array behind the window and leaves the block in place finds
    the block in the buffer at every point (fetched at the first point only, its block index never moves, so the buffer still holds it at every point). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (the second bias row): whatever proof data has `V`'s array behind the window and leaves the block in place finds
    the block in the buffer at every point (fetched at the first point only, its block index never moves, so the buffer still holds it at every point). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (W₃ of the head): whatever proof data has `V`'s array behind the window and leaves the block in place finds
    the block in the buffer at every point (fetched at the first point only, its block index never moves, so the buffer still holds it at every point). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6 (the third bias row): whatever proof data has `V`'s array behind the window and leaves the block in place finds
    the block in the buffer at every point (fetched at the first point only, its block index never moves, so the buffer still holds it at every point). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the result window's buffer -/

abbrev r2_0 : Rect S5000x100 := Rect.unit (s := S5000x100) ![0, 0] S5000x100.size inb_S5000x100_S5000x100_0_0
abbrev r2_1 : Rect S100x40 := Rect.unit (s := S100x40) ![0, 0] S100x40.size inb_S100x40_S100x40_0_0
abbrev r2_2 : Rect S1x40 := Rect.unit (s := S1x40) ![0, 0] S1x40.size inb_S1x40_S1x40_0_0
abbrev r2_3 : Rect S40x20 := Rect.unit (s := S40x20) ![0, 0] S40x20.size inb_S40x20_S40x20_0_0
abbrev r2_4 : Rect S1x20 := Rect.unit (s := S1x20) ![0, 0] S1x20.size inb_S1x20_S1x20_0_0
abbrev r2_5 : Rect S20x4 := Rect.unit (s := S20x4) ![0, 0] S20x4.size inb_S20x4_S20x4_0_0
abbrev r2_6 : Rect S1x4 := Rect.unit (s := S1x4) ![0, 0] S1x4.size inb_S1x4_S1x4_0_0
abbrev r2_7 : Rect S5000x4 := Rect.unit (s := S5000x4) ![0, 0] S5000x4.size inb_S5000x4_S5000x4_0_0

/-- The result buffer after the body: one store of the whole block, the three-layer map of the seven blocks read. -/
def out2_7 (x0 : Vec F S5000x100 .f32) (x1 : Vec F S100x40 .f32) (x2 : Vec F S1x40 .f32) (x3 : Vec F S40x20 .f32) (x4 : Vec F S1x20 .f32) (x5 : Vec F S20x4 .f32) (x6 : Vec F S1x4 .f32) : Vec F S5000x4 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store covers the buffer. -/
theorem cover2_7 (p0 : Vec F S5000x4 .f32) (y : S5000x4.Idx) :
    ∃ pc ∈ ([⟨r2_7, p0⟩] : List (View.Piece (Elt F) S5000x4 .f32)), y ∈ pc.1.set :=
  View.cover_of_tiled [⟨r2_7, p0⟩] S5000x4.size (by rfl) y

/-! ## The body's triple -/

set_option maxHeartbeats 4000000 in
/-- On whole staging memrefs, the seven inputs' at known contents and the result's at anything, the body runs to a
    state with the inputs' as they were and the result's at `out2_7` of them. -/
theorem body_run2 (c : Dev nD) (E : Set ℕ) (i : grid2.Coords)
    (a1 : Memref sig .tc .vmem S5000x100 .f32) (h1 : a1.IsWhole)
    (a2 : Memref sig .tc .vmem S100x40 .f32) (h2 : a2.IsWhole)
    (a3 : Memref sig .tc .vmem S1x40 .f32) (h3 : a3.IsWhole)
    (a4 : Memref sig .tc .vmem S40x20 .f32) (h4 : a4.IsWhole)
    (a5 : Memref sig .tc .vmem S1x20 .f32) (h5 : a5.IsWhole)
    (a6 : Memref sig .tc .vmem S20x4 .f32) (h6 : a6.IsWhole)
    (a7 : Memref sig .tc .vmem S1x4 .f32) (h7 : a7.IsWhole)
    (a8 : Memref sig .tc .vmem S5000x4 .f32) (h8 : a8.IsWhole)
    (x0 : Vec F S5000x100 .f32) (x1 : Vec F S100x40 .f32) (x2 : Vec F S1x40 .f32) (x3 : Vec F S40x20 .f32) (x4 : Vec F S1x20 .f32) (x5 : Vec F S20x4 .f32) (x6 : Vec F S1x4 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (out2_7 x0 x1 x2 x3 x4 x5 x6)) -∗ K ⟨⟩))
      ⊢ wp frame (wpE (defs₀ (F := F)) Variants.none c none) E (cc2__mlp_kernel i a1 h1 a2 h2 a3 h3 a4 h4 a5 h5 a6 h6 a7 h7 a8 h8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- Pipeline 2's proof data on core `c`: the arrays as the region finds them; after the body at point `t` each input's
    buffer still at its block and the result's at the three-layer map of the seven blocks; the rest of the core
    untouched; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Seq3.lean ====
/-
  The two scratch rows of the softmax-statistics kernel (region 3) as the grid walks down the blocks of rows: after the
  first point they hold the first block's update of the initial pair (−∞, 0); after every later point the update of
  what the point before left. Stated over the kernel's own payload terms, at any float instance, for ANY family of
  blocks `zb`.
-/
import proofs.«133038_j66116726555434_1_alg».proof.Proof.Gen.Kernel.Skeleton

noncomputable section

namespace Cert.Kernel.Hand

open Cert.Kernel Cert.Kernel.Gen
open Idealize.ShloMosaic

variable {F : FTy → Type} [FloatOps F]

/-- (running maximum row, running sum row) after grid point `n` (counting from 0), when point `k` is handed block `zb k`. -/
def seq3 (zb : ℕ → Vec F S5000x4 .f32) : ℕ → Vec F S1x4 .f32 × Vec F S1x4 .f32
  | 0 => (k3_pay6 (zb 0) (k3_pay1 (F := F)), k3_pay5 (zb 0) (k3_pay1 (F := F)) (k3_pay2 (F := F)) (k3_pay1 (F := F)))
  | n + 1 => (k3_pay6 (zb (n + 1)) (seq3 zb n).1, k3_pay5 (zb (n + 1)) (seq3 zb n).1 (seq3 zb n).2 (seq3 zb n).1)

end Cert.Kernel.Hand

end
-- ==== Proof.K.Reg3.lean ====
/-
  Region 3 of @main (the statistics of the column softmax): the running maximum and the running sum of exponentials of
  the four columns of a 500000 × 4 matrix, taken five thousand rows at a time. The grid has 100 points. At point t the
  body is handed rows [5000·t, 5000·(t+1)) of the matrix (window 0); it keeps the pair (maximum row, sum row) in two
  scratch rows carried from point to point — set to (−∞, 0) at the first point, then updated by the block at every
  point — and at the last point copies the two rows into the two results (windows 1 and 2), which are written back
  there and nowhere else. Stated at ANY contents `V` of the core's buffers at the region's entry and at any float
  instance: the proof data of the pipeline, the invariant that carries the scratch rows, the body's obligation at every
  point, and what the two results end at.
-/
import proofs.«133038_j66116726555434_1_alg».proof.Proof.Gen.Kernel.Launch
import proofs.«133038_j66116726555434_1_alg».proof.Proof.Gen.Kernel.Skeleton
import proofs.«133038_j66116726555434_1_alg».proof.Proof.Gen.Kernel.Points
import proofs.«133038_j66116726555434_1_alg».proof.Proof.K.Seq3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of rows handed to point `n` (points counted modulo the 100 of the grid). -/
def zb3 (c : Dev nD) : ℕ → Vec F S5000x4 .f32 :=
  fun n => iblk3 V c 0 ⟨n % 100, Nat.mod_lt _ (by decide)⟩

/-- At a point of the grid, that is the point's own block. -/
theorem zb3_val (c : Dev nD) (t : Fin cfg3.N) : zb3 V c t.val = iblk3 V c 0 t := by
  have h : (⟨t.val % 100, Nat.mod_lt _ (by decide)⟩ : Fin cfg3.N) = t :=
    Fin.ext (Nat.mod_eq_of_lt (lt_of_lt_of_eq t.isLt N_3))
  unfold zb3; rw [h]

/-! ## The recursion of the scratch rows, one step at a time -/

/-- At the first point the pair is the first block's update of (−∞ row, zero row). -/
theorem seq3_of_zero (zb : ℕ → Vec F S5000x4 .f32) (n : ℕ) (h : n = 0) :
    seq3 zb n = (k3_pay6 (zb n) (k3_pay1 (F := F)), k3_pay5 (zb n) (k3_pay1 (F := F)) (k3_pay2 (F := F)) (k3_pay1 (F := F))) := by
  subst h; rfl

/-- At a later point it is the point's block's update of the pair the point before left. -/
theorem seq3_of_pos (zb : ℕ → Vec F S5000x4 .f32) (n : ℕ) (h : n ≠ 0) :
    seq3 zb n = (k3_pay6 (zb n) (seq3 zb (n - 1)).1, k3_pay5 (zb n) (seq3 zb (n - 1)).1 (seq3 zb (n - 1)).2 (seq3 zb (n - 1)).1) := by
  cases n with
  | zero => exact absurd rfl h
  | succ n => rfl

/-! ## Loads and stores of a whole block -/

/-- The zero offsets of a matrix, as the program spells them. -/
theorem off00 : (![0, 0] : Fin 2 → ℕ) = fun _ => 0 := by funext a; fin_cases a <;> rfl

/-- A load of the whole block of rows reads the buffer's contents. -/
theorem readAt_all_z {κ : Kind} {sp : Space} (v : View sig κ sp S5000x4 .f32) (f : v.ty.Contents (Elt F)) :
    v.readAt (Elt F) (Rect.unit (s := S5000x4) ![0, 0] S5000x4.size inb_S5000x4_S5000x4_0_0).toLoadRect f = v.read (Elt F) f :=
  View.ld_unit_zero off00 _ _

/-- A load of a whole row reads the buffer's contents. -/
theorem readAt_all_r {κ : Kind} {sp : Space} (v : View sig κ sp S1x4 .f32) (f : v.ty.Contents (Elt F)) :
    v.readAt (Elt F) (Rect.unit (s := S1x4) ![0, 0] S1x4.size inb_S1x4_S1x4_0_0).toLoadRect f = v.read (Elt F) f :=
  View.ld_unit_zero off00 _ _

/-- After a store of a whole row, whatever was stored before, the buffer reads the stored row. -/
theorem read_store_all_r {κ : Kind} {sp : Space} (v : View sig κ sp S1x4 .f32) (f : v.ty.Contents (Elt F)) (w : Vec F S1x4 .f32)
    (L : List (View.Piece (Elt F) S1x4 .f32)) :
    v.read (Elt F) (v.writes (Elt F) f ((⟨Rect.unit (s := S1x4) ![0, 0] S1x4.size inb_S1x4_S1x4_0_0, w⟩ : View.Piece (Elt F) S1x4 .f32) :: L)) = w := by
  rw [View.read_writes_eq_canon _ _ _ (fun y => ⟨_, List.mem_cons_self .., View.mem_set_unit_zero off00 inb_S1x4_S1x4_0_0 y⟩),
    View.canon_cons_unit_zero off00]

/-- A load of a whole row just stored whole reads the stored row. -/
theorem readCov_all_r {κ : Kind} {sp : Space} (v : View sig κ sp S1x4 .f32) (w : Vec F S1x4 .f32) :
    v.readCov [(⟨Rect.unit (s := S1x4) ![0, 0] S1x4.size inb_S1x4_S1x4_0_0, w⟩ : View.Piece (Elt F) S1x4 .f32)]
      (Rect.unit (s := S1x4) ![0, 0] S1x4.size inb_S1x4_S1x4_0_0).toLoadRect = w :=
  View.readCov_unit_zero v off00 _ w

/-! ## The body on any whole memrefs, case by case -/

/-- The two scratch rows whole at the pair `p`, through any memrefs. -/
def scrAt (c : Dev nD) (a4 a5 : Memref sig .tc .vmem S1x4 .f32) (p : Vec F S1x4 .f32 × Vec F S1x4 .f32) : sProp 𝕄 :=
  iprop(owns (c : Thread nD τ) a4 fullShare p.1 ∗ owns (c : Thread nD τ) a5 fullShare p.2)

/-- The first conditional's test, from the grid coordinates: the point is the first. -/
abbrev cond3_0 (i : grid3.Coords) : Prop :=
  Scalar.cmpi .ne (Scalar.extui (Scalar.cmpi .eq (BitVec.ofNat 32 (i 0).val) 0#32)) 0#32 = 1#1
/-- The second conditional's test: the point is the last. -/
abbrev cond3_1 (i : grid3.Coords) : Prop := k3_cond2 i = 1#1

set_option maxHeartbeats 1000000 in
/-- AT THE FIRST POINT: the scratch rows, found at anything, are set to (−∞ row, zero row) and then updated by the
    block; the results' buffers are not touched. -/
theorem body_run3_first (c : Dev nD) (E : Set ℕ) (i : grid3.Coords) (hc0 : cond3_0 i) (hc1 : ¬cond3_1 i)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S1x4 .f32) (h4 : a4.IsWhole)
    (a5 : Memref sig .tc .vmem S1x4 .f32) (h5 : a5.IsWhole)
    (z : Vec F S5000x4 .f32) (x2 x3 : Vec F S1x4 .f32) (K : PUnit → sProp 𝕄) :
    iprop(owns (c : Thread nD τ) a1 fullShare z ∗ owns (c : Thread nD τ) a2 fullShare x2 ∗ owns (c : Thread nD τ) a3 fullShare x3 ∗ (∃ p, scrAt c a4 a5 p)
        ∗ (iprop(owns (c : Thread nD τ) a1 fullShare z ∗ owns (c : Thread nD τ) a2 fullShare x2 ∗ owns (c : Thread nD τ) a3 fullShare x3
            ∗ scrAt c a4 a5 (k3_pay6 z (k3_pay1 (F := F)), k3_pay5 z (k3_pay1 (F := F)) (k3_pay2 (F := F)) (k3_pay1 (F := F)))) -∗ K ⟨⟩))
      ⊢ wp frame (wpE (defs₀ (F := F)) Variants.none c none) E (cc3__softmax_stats_kernel i a1 h1 a2 h2 a3 h3 a4 h4 a5 h5) K := by
  simp only [cc3__softmax_stats_kernel_eq_skeleton]; unfold cc3__softmax_stats_kernel_skel
  unfold scrAt owns
  dsimp only
  iintro ⟨⟨%f1, %hf1, H1⟩, ⟨%f2, %hf2, H2⟩, ⟨%f3, %hf3, H3⟩, ⟨%p, ⟨%f4, %hf4, H4⟩, ⟨%f5, %hf5, H5⟩⟩, Hk⟩
  subst hf1; subst hf2; subst hf3
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_all_r, readAt_all_z, readCov_all_r]
  iexists _; isplitr
  swap; · iexact H5
  ipureintro
  rw [read_store_all_r, readAt_all_z, readCov_all_r, readCov_all_r]

set_option maxHeartbeats 1000000 in
/-- AT A POINT THAT IS NEITHER THE FIRST NOR THE LAST: the scratch rows, found at (m, l), are updated by the block;
    the results' buffers are not touched. -/
theorem body_run3_mid (c : Dev nD) (E : Set ℕ) (i : grid3.Coords) (hc0 : ¬cond3_0 i) (hc1 : ¬cond3_1 i)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S1x4 .f32) (h4 : a4.IsWhole)
    (a5 : Memref sig .tc .vmem S1x4 .f32) (h5 : a5.IsWhole)
    (z : Vec F S5000x4 .f32) (x2 x3 m l : Vec F S1x4 .f32) (K : PUnit → sProp 𝕄) :
    iprop(owns (c : Thread nD τ) a1 fullShare z ∗ owns (c : Thread nD τ) a2 fullShare x2 ∗ owns (c : Thread nD τ) a3 fullShare x3 ∗ scrAt c a4 a5 (m, l)
        ∗ (iprop(owns (c : Thread nD τ) a1 fullShare z ∗ owns (c : Thread nD τ) a2 fullShare x2 ∗ owns (c : Thread nD τ) a3 fullShare x3
            ∗ scrAt c a4 a5 (k3_pay6 z m, k3_pay5 z m l m)) -∗ K ⟨⟩))
      ⊢ wp frame (wpE (defs₀ (F := F)) Variants.none c none) E (cc3__softmax_stats_kernel i a1 h1 a2 h2 a3 h3 a4 h4 a5 h5) K := by
  simp only [cc3__softmax_stats_kernel_eq_skeleton]; unfold cc3__softmax_stats_kernel_skel
  unfold scrAt owns
  dsimp only
  iintro ⟨⟨%f1, %hf1, H1⟩, ⟨%f2, %hf2, H2⟩, ⟨%f3, %hf3, H3⟩, ⟨⟨%f4, %hf4, H4⟩, ⟨%f5, %hf5, H5⟩⟩, Hk⟩
  subst hf1; subst hf2; subst hf3; subst hf4; subst hf5
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_all_r, readAt_all_z, readAt_all_r]
  iexists _; isplitr
  swap; · iexact H5
  ipureintro
  rw [read_store_all_r, readAt_all_z, readAt_all_r, readAt_all_r]

set_option maxHeartbeats 1000000 in
/-- AT THE LAST POINT: the scratch rows, found at (m, l), are updated by the block and then copied into the two results'
    buffers, found at anything. -/
theorem body_run3_last (c : Dev nD) (E : Set ℕ) (i : grid3.Coords) (hc0 : ¬cond3_0 i) (hc1 : cond3_1 i)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S1x4 .f32) (h4 : a4.IsWhole)
    (a5 : Memref sig .tc .vmem S1x4 .f32) (h5 : a5.IsWhole)
    (z : Vec F S5000x4 .f32) (m l : Vec F S1x4 .f32) (K : PUnit → sProp 𝕄) :
    iprop(owns (c : Thread nD τ) a1 fullShare z ∗ (∃ x2, owns (c : Thread nD τ) a2 fullShare x2) ∗ (∃ x3, owns (c : Thread nD τ) a3 fullShare x3) ∗ scrAt c a4 a5 (m, l)
        ∗ (iprop(owns (c : Thread nD τ) a1 fullShare z ∗ owns (c : Thread nD τ) a2 fullShare (k3_pay6 z m) ∗ owns (c : Thread nD τ) a3 fullShare (k3_pay5 z m l m)
            ∗ scrAt c a4 a5 (k3_pay6 z m, k3_pay5 z m l m)) -∗ K ⟨⟩))
      ⊢ wp frame (wpE (defs₀ (F := F)) Variants.none c none) E (cc3__softmax_stats_kernel i a1 h1 a2 h2 a3 h3 a4 h4 a5 h5) K := by
  simp only [cc3__softmax_stats_kernel_eq_skeleton]; unfold cc3__softmax_stats_kernel_skel
  unfold scrAt owns
  dsimp only
  iintro ⟨⟨%f1, %hf1, H1⟩, ⟨%x2, %f2, %hf2, H2⟩, ⟨%x3, %f3, %hf3, H3⟩, ⟨⟨%f4, %hf4, H4⟩, ⟨%f5, %hf5, H5⟩⟩, Hk⟩
  subst hf1; subst hf4; subst hf5
  sl_exec (disch := first | exact hc0 | exact hc1)
  sl_step
  iapply Hk
  sl_unfold_run_names
  isplitl [H1]
  · iexists f1; isplitr; · ipureintro; rfl
    iexact H1
  isplitl [H2]
  · iexists _; isplitr
    swap; · iexact H2
    ipureintro
    rw [read_store_all_r, readCov_all_r, readAt_all_z, readAt_all_r]
  isplitl [H3]
  · iexists _; isplitr
    swap; · iexact H3
    ipureintro
    rw [read_store_all_r, readCov_all_r, readAt_all_z, readAt_all_r, readAt_all_r]
  isplitl [H4]
  · iexists _; isplitr
    swap; · iexact H4
    ipureintro
    rw [read_store_all_r, readAt_all_z, readAt_all_r]
  iexists _; isplitr
  swap; · iexact H5
  ipureintro
  rw [read_store_all_r, readAt_all_z, readAt_all_r, readAt_all_r]

/-! ## Where each condition holds, and what that makes of the results' windows -/

/-- The first test holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)
/-- The second test holds at the last point only — decided over the grid. -/
theorem hcond3_1 : ∀ t : Fin cfg3.N, cond3_1 (grid3.coords t) ↔ t.val = 99 :=
  (by decide +kernel : ∀ t : Fin grid3.N, cond3_1 (grid3.coords t) ↔ t.val = 99)

/-- The input window is live at every point. -/
theorem liveAt3_0 : ∀ t : Fin cfg3.N, cfg3.idle 0 (grid3.coords t) = false := fun _ => rfl
/-- Away from the last point the results' windows are idle and not written back; at the last point they are live. -/
theorem idleAt3_1 : ∀ t : Fin cfg3.N, ¬cond3_1 (grid3.coords t) → cfg3.idle 1 (grid3.coords t) = true := by decide +kernel
theorem noFlush3_1 : ∀ t : Fin cfg3.N, ¬cond3_1 (grid3.coords t) → (cfg3.win 1).flush t = false := by decide +kernel
theorem liveAt3_1 : ∀ t : Fin cfg3.N, cond3_1 (grid3.coords t) → cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The scratch rows and the invariant -/

/-- The scratch row of the running maximum, and that of the running sum. -/
abbrev scM3_0 : Memref sig .tc .vmem S1x4 .f32 := Memref.whole cc3_scratch0
abbrev scM3_1 : Memref sig .tc .vmem S1x4 .f32 := Memref.whole cc3_scratch1

/-- The two scratch rows whole at the pair `p`. -/
abbrev scr3 (c : Dev nD) (p : Vec F S1x4 .f32 × Vec F S1x4 .f32) : sProp 𝕄 := scrAt c scM3_0 scM3_1 p

/-- The scoped buffers of the core that are neither staging buffers of this region nor its scratch rows. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The invariant before point `n`: the generator register at some state, the scratch rows at the pair the point before
    left (at anything before the first point), and the other scoped buffers untouched. -/
def Phi3 (c : Dev nD) : ℕ → sProp 𝕄
  | 0 => iprop((∃ r, prngReg c r) ∗ (∃ p, scr3 c p) ∗ rest3 c)
  | n + 1 => iprop((∃ r, prngReg c r) ∗ scr3 c (seq3 (zb3 V c) n) ∗ rest3 c)

theorem Phi3_of_zero (c : Dev nD) (n : ℕ) (h : n = 0) :
    Phi3 V c n = iprop((∃ r, prngReg c r) ∗ (∃ p, scr3 c p) ∗ rest3 c) := by subst h; rfl

theorem Phi3_succ (c : Dev nD) (n : ℕ) :
    Phi3 V c (n + 1) = iprop((∃ r, prngReg c r) ∗ scr3 c (seq3 (zb3 V c) n) ∗ rest3 c) := rfl

theorem Phi3_of_pos (c : Dev nD) (n : ℕ) (h : n ≠ 0) :
    Phi3 V c n = iprop((∃ r, prngReg c r) ∗ scr3 c (seq3 (zb3 V c) (n - 1)) ∗ rest3 c) := by
  cases n with
  | zero => exact absurd rfl h
  | succ n => rfl

/-! ## The pipeline's proof data -/

/-- Pipeline 3's proof data on core `c`: the arrays as the region finds them; after the body at point `t` the input's
    buffer still at its block and the two results' at the pair reached at `t` (read only at the last point, where they
    are stored and written back); the invariant `Phi3`; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (seq3 (zb3 V c) t.val).1
    | ⟨2, _⟩ => (seq3 (zb3 V c) t.val).2
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = (seq3 (zb3 V c) t.val).1 := by dsimp only [dat3]
theorem after3_2 (c : Dev nD) (t : Fin cfg3.N) : (dat3 V c).after 2 t = (seq3 (zb3 V c) t.val).2 := by dsimp only [dat3]

/-- The rows of the matrix: the input's current staging buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 2000000 in
/-- The body at any point: by the place of the point in the grid (first, last, or neither) the matching run applies; the
    invariant hands the scratch rows at the pair the point before left (at anything at the first point) and takes them
    back at this point's pair; a result's buffer is handed back as found, except at the last point where it is left at
    the pair's component. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) from rfl, show (dat3 V c).Φ t.castSucc = Phi3 V c t.val from rfl, Phi3_succ]
  rw [show (dat3 V c).leavesExact 0 t = owns (c : Thread nD τ) (st3_0 t) fullShare ((dat3 V c).after 0 t) from by
    unfold Dat.leavesExact; rw [liveAt3_0 t], after3_0]
  have hN : t.val < 100 := lt_of_lt_of_eq t.isLt N_3
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 1 t (idleAt3_1 t hc1) (noFlush3_1 t hc1),
      Dat.leavesExact_idle (dat3 V c) 2 t (idleAt3_2 t hc1) (noFlush3_2 t hc1)]
    rw [Phi3_of_zero V c _ h0, seq3_of_zero _ _ h0, zb3_val]
    iintro ⟨⟨Hg, HS, Hr⟩, Ho, ⟨%d0, H0⟩, ⟨%d1, H1⟩, ⟨%d2, H2⟩⟩
    iapply (body_run3_first c Set.univ _ hc0 hc1 _ _ _ _ _ _ _ _ _ _ (iblk3 V c 0 t) _ _ _)
    isplitl [H0]; · iexact H0
    isplitl [H1]; · iexact H1
    isplitl [H2]; · iexact H2
    isplitl [HS]; · iexact HS
    iintro ⟨H0, H1, H2, HS⟩
    isplitl [Hg HS Hr]
    · isplitl [Hg]; · iexact Hg
      isplitl [HS]; · iexact HS
      iexact Hr
    isplitl [Ho]; · iexact Ho
    isplitl [H0]; · iexact H0
    isplitl [H1]; · iexists _; iexact H1
    iexists _; iexact H2
  · by_cases h1 : t.val = 99
    · have hc0 : ¬cond3_0 (grid3.coords t) := fun h => h0 ((hcond3_0 t).mp h)
      have hc1 : cond3_1 (grid3.coords t) := (hcond3_1 t).mpr h1
      rw [show (dat3 V c).leavesExact 1 t = owns (c : Thread nD τ) (st3_1 t) fullShare ((dat3 V c).after 1 t) from by
        unfold Dat.leavesExact; rw [liveAt3_1 t hc1], after3_1]
      rw [show (dat3 V c).leavesExact 2 t = owns (c : Thread nD τ) (st3_2 t) fullShare ((dat3 V c).after 2 t) from by
        unfold Dat.leavesExact; rw [liveAt3_2 t hc1], after3_2]
      rw [Phi3_of_pos V c _ h0, seq3_of_pos _ _ h0, zb3_val]
      generalize seq3 (zb3 V c) (t.val - 1) = p
      obtain ⟨m, l⟩ := p
      dsimp only
      iintro ⟨⟨Hg, HS, Hr⟩, Ho, ⟨%d0, H0⟩, ⟨%d1, H1⟩, ⟨%d2, H2⟩⟩
      iapply (body_run3_last c Set.univ _ hc0 hc1 _ _ _ _ _ _ _ _ _ _ (iblk3 V c 0 t) m l _)
      isplitl [H0]; · iexact H0
      isplitl [H1]; · iexists _; iexact H1
      isplitl [H2]; · iexists _; iexact H2
      isplitl [HS]; · iexact HS
      iintro ⟨H0, H1, H2, HS⟩
      isplitl [Hg HS Hr]
      · isplitl [Hg]; · iexact Hg
        isplitl [HS]; · iexact HS
        iexact Hr
      isplitl [Ho]; · iexact Ho
      isplitl [H0]; · iexact H0
      isplitl [H1]; · iexact H1
      iexact H2
    · have hc0 : ¬cond3_0 (grid3.coords t) := fun h => h0 ((hcond3_0 t).mp h)
      have hc1 : ¬cond3_1 (grid3.coords t) := fun h => h1 ((hcond3_1 t).mp h)
      rw [Dat.leavesExact_idle (dat3 V c) 1 t (idleAt3_1 t hc1) (noFlush3_1 t hc1),
        Dat.leavesExact_idle (dat3 V c) 2 t (idleAt3_2 t hc1) (noFlush3_2 t hc1)]
      rw [Phi3_of_pos V c _ h0, seq3_of_pos _ _ h0, zb3_val]
      generalize seq3 (zb3 V c) (t.val - 1) = p
      obtain ⟨m, l⟩ := p
      dsimp only
      iintro ⟨⟨Hg, HS, Hr⟩, Ho, ⟨%d0, H0⟩, ⟨%d1, H1⟩, ⟨%d2, H2⟩⟩
      iapply (body_run3_mid c Set.univ _ hc0 hc1 _ _ _ _ _ _ _ _ _ _ (iblk3 V c 0 t) _ _ m l _)
      isplitl [H0]; · iexact H0
      isplitl [H1]; · iexact H1
      isplitl [H2]; · iexact H2
      isplitl [HS]; · iexact HS
      iintro ⟨H0, H1, H2, HS⟩
      isplitl [Hg HS Hr]
      · isplitl [Hg]; · iexact Hg
        isplitl [HS]; · iexact HS
        iexact Hr
      isplitl [Ho]; · iexact Ho
      isplitl [H0]; · iexact H0
      isplitl [H1]; · iexists _; iexact H1
      iexists _; iexact H2

/-- The body obligation of pipeline 3: the body's triple at every point of the grid. -/
theorem body_obligation3 (c : Dev nD) : BodyObligation (dat3 (F := F) V c) (defs₀ (F := F)) Variants.none () Set.univ := fun t => by
  rw [bigSep_W3, bigSep_W3]
  exact sound_body3 V c t

/-! ## In and out of the invariant -/

/-- What the region is entered with — the generator register at some state and the core's scoped buffers outside the
    region's staging — is the invariant before the first point: the two scratch rows are split off the rest, each whole
    at some contents. -/
theorem Phi3_in (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 from rfl, Phi3_of_zero V c 0 rfl, scopedRest3_split]
  unfold scr3 scrAt
  simp only [scM3_0, scM3_1, owns_whole]
  iintro ⟨Hg, ⟨⟨%f0, H0⟩, ⟨%f1, H1⟩⟩, Hr⟩
  isplitl [Hg]; · iexact Hg
  isplitl [H0 H1]
  · iexists ((f0 : Vec F S1x4 .f32), (f1 : Vec F S1x4 .f32))
    isplitl [H0]; · iexact H0
    iexact H1
  iexact Hr

/-- After the last point the invariant gives them back: the scratch rows' contents are forgotten. -/
theorem Phi3_out (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c (99 + 1) from rfl, Phi3_succ, scopedRest3_split]
  generalize seq3 (zb3 V c) 99 = p
  unfold scr3 scrAt
  simp only [scM3_0, scM3_1, owns_whole]
  iintro ⟨Hg, ⟨H0, H1⟩, Hr⟩
  isplitl [Hg]; · iexact Hg
  isplitl [H0 H1]
  · isplitl [H0]; · iexists _; iexact H0
    iexists _; iexact H1
  iexact Hr

/-! ## What the two results end at -/

/-- The last point of the grid. -/
def t3_99 : Fin cfg3.N := ⟨99, lt_of_lt_of_eq (by decide : 99 < 100) N_3.symm⟩

/-- The first result ends at the running maximum row after the last point: its one block is the whole array, and
    the one write-back, at the last point, overwrites it with what the body left. -/
theorem final3_max (c : Dev nD) : (dat3 V c).arrAt 1 cfg3.N = (seq3 (zb3 V c) 99).1 := by
  have h : (dat3 V c).arrAt 1 cfg3.N = (dat3 V c).arrAt 1 (t3_99.val + 1) := congrArg ((dat3 V c).arrAt 1) N_3
  rw [h, (dat3 V c).arrAt_succ 1 t3_99, if_pos ((flush3_1 t3_99).mpr rfl)]
  show ((cfg3.win 1).blk t3_99).view.write (Elt F) _ ((cfg3.win 1).cut (grid3.coords t3_99) ((dat3 V c).after 1 t3_99)) Finset.univ = _
  rw [after3_1]
  have hz : (fun a => win3_1.index t3_99 a * main_v118_0.ty.shape.size a) = fun _ => 0 := funext fun a => by fin_cases a <;> rfl
  exact Memref.write_access_unit_zero_univ (Elt F) main_v118_0 hz (fun a => by rw [congrFun hz a]; simp) _ _

/-- The second result ends at the running sum row after the last point, likewise. -/
theorem final3_sum (c : Dev nD) : (dat3 V c).arrAt 2 cfg3.N = (seq3 (zb3 V c) 99).2 := by
  have h : (dat3 V c).arrAt 2 cfg3.N = (dat3 V c).arrAt 2 (t3_99.val + 1) := congrArg ((dat3 V c).arrAt 2) N_3
  rw [h, (dat3 V c).arrAt_succ 2 t3_99, if_pos ((flush3_2 t3_99).mpr rfl)]
  show ((cfg3.win 2).blk t3_99).view.write (Elt F) _ ((cfg3.win 2).cut (grid3.coords t3_99) ((dat3 V c).after 2 t3_99)) Finset.univ = _
  rw [after3_2]
  have hz : (fun a => win3_2.index t3_99 a * main_v118_1.ty.shape.size a) = fun _ => 0 := funext fun a => by fin_cases a <;> rfl
  exact Memref.write_access_unit_zero_univ (Elt F) main_v118_1 hz (fun a => by rw [congrFun hz a]; simp) _ _

end Cert.Kernel.Hand

end
-- ==== Proof.K.Reg4.lean ====
/-
  Region 4 of @main (the normalisation of the column softmax): out = exp(z − m) / l, five thousand rows at a time.
  The grid has 100 points. At point t the body is handed rows [5000·t, 5000·(t+1)) of z (window 0), the row of column
  maxima m (window 1), the row of column sums l (window 2) and the matching rows of the result (window 3); it overwrites
  the latter with exp(z − m) / l, the two rows repeated down the block. Nothing is kept between points and no scratch is
  used, so the invariant is the untouched rest of the core.
  Stated at ANY contents V of the core's buffers at the region's entry and at any float instance: the proof data of
  the pipeline, what the result window's buffer holds after the body, and the body's obligation at every point.
-/
import proofs.«133038_j66116726555434_1_alg».proof.Proof.Gen.Kernel.Launch
import proofs.«133038_j66116726555434_1_alg».proof.Proof.Gen.Kernel.Skeleton
import proofs.«133038_j66116726555434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window w's block at point t, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows of z: whatever proof data has V's array behind window 0 and leaves the block in place finds the block
    in the current staging buffer at every point (the window is fetched at every point). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The row of maxima m: fetched at the first point only, its block index never moves, so the buffer still holds it at
    every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The row of sums l: fetched at the first point only, its block index never moves, so the buffer still holds it at
    every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the result window's buffer -/

abbrev rz4 : Rect S5000x4 := Rect.unit (s := S5000x4) ![0, 0] S5000x4.size inb_S5000x4_S5000x4_0_0
abbrev rr4 : Rect S1x4 := Rect.unit (s := S1x4) ![0, 0] S1x4.size inb_S1x4_S1x4_0_0

/-- The result buffer after the body: one store of the whole block, exp(z − m) / l of the three blocks read. -/
def out4_3 (x0 : Vec F S5000x4 .f32) (x1 : Vec F S1x4 .f32) (x2 : Vec F S1x4 .f32) : Vec F S5000x4 .f32 :=
  View.canon [⟨rz4, k4_pay1 (View.ld x0 rz4) (View.ld x1 rr4) (View.ld x2 rr4)⟩]

/-- The one store covers the buffer. -/
theorem cover4_3 (p0 : Vec F S5000x4 .f32) (y : S5000x4.Idx) :
    ∃ pc ∈ ([⟨rz4, p0⟩] : List (View.Piece (Elt F) S5000x4 .f32)), y ∈ pc.1.set :=
  View.cover_of_tiled [⟨rz4, p0⟩] S5000x4.size (by rfl) y

/-! ## The body's triple -/

set_option maxHeartbeats 1000000 in
/-- On whole staging memrefs, the three inputs' at known contents and the result's at anything, the body runs to a state
    with the inputs' as they were and the result's at out4_3 of them. -/
theorem body_run4 (c : Dev nD) (E : Set ℕ) (i : grid4.Coords)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S5000x4 .f32) (h4 : a4.IsWhole)
    (x0 : Vec F S5000x4 .f32) (x1 : Vec F S1x4 .f32) (x2 : Vec F S1x4 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out4_3 x0 x1 x2)) -∗ K ⟨⟩))
      ⊢ wp frame (wpE (defs₀ (F := F)) Variants.none c none) E (cc4__softmax_norm_kernel i a1 h1 a2 h2 a3 h3 a4 h4) K := by
  simp only [cc4__softmax_norm_kernel_eq_skeleton]; unfold cc4__softmax_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- Pipeline 4's proof data on core c: the arrays as the region finds them; after the body at point t each input's
    buffer still at its block and the result's at exp(z − m) / l of the three blocks; the rest of the core untouched;
    nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The array behind window w is the one the region finds. -/
theorem A_eq4 (c : Dev nD) (w : Fin cfg4.W) : (dat4 V c).A w = V c (Pipeline.arrRef spec4 w) := by
  dsimp only [dat4]

/-- After the body the buffer of z's rows still holds the block. -/
theorem after4_0 (c : Dev nD) (t : Fin cfg4.N) : (dat4 V c).after 0 t = iblk4 V c 0 t := by dsimp only [dat4]
/-- After the body the buffer of m still holds the row. -/
theorem after4_1 (c : Dev nD) (t : Fin cfg4.N) : (dat4 V c).after 1 t = iblk4 V c 1 t := by dsimp only [dat4]
/-- After the body the buffer of l still holds the row. -/
theorem after4_2 (c : Dev nD) (t : Fin cfg4.N) : (dat4 V c).after 2 t = iblk4 V c 2 t := by dsimp only [dat4]
/-- After the body the result's buffer holds exp(z − m) / l of the three blocks. -/
theorem after4_3 (c : Dev nD) (t : Fin cfg4.N) :
    (dat4 V c).after 3 t = out4_3 (iblk4 V c 0 t) (iblk4 V c 1 t) (iblk4 V c 2 t) := by dsimp only [dat4]

/-- Before the body at point t the buffer of z's rows holds block t. -/
theorem before4_0 (c : Dev nD) (t : Fin cfg4.N) (d) : (dat4 V c).before 0 t d = iblk4 V c 0 t :=
  before4_0_of V (dat4 V c) (A_eq4 V c 0) (after4_0 V c) t d
/-- Before the body at every point the buffer of m holds the row. -/
theorem before4_1 (c : Dev nD) (t : Fin cfg4.N) (d) : (dat4 V c).before 1 t d = iblk4 V c 1 t :=
  before4_1_of V (dat4 V c) (A_eq4 V c 1) (after4_1 V c) t d
/-- Before the body at every point the buffer of l holds the row. -/
theorem before4_2 (c : Dev nD) (t : Fin cfg4.N) (d) : (dat4 V c).before 2 t d = iblk4 V c 2 t :=
  before4_2_of V (dat4 V c) (A_eq4 V c 2) (after4_2 V c) t d

/-! ## The body obligation at a generic point -/

/-- What the body is handed at point t: the invariant, nothing owed, and the four staging buffers whole, each input's
    at its contents before the body and the result's at anything. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What the body hands back at point t: the same invariant, nothing owed, and the four staging buffers at their
    contents after the body. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at point t takes the one to the other: the inputs' buffers are read and kept, the result's overwritten. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body_run4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the grid, for the proof data above. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The kernel as printed's @main assembled from its five regions: the contents each region leaves in the buffers it may
  change (a matrix product's rows, the MLP's result, the two statistics rows, the normalised result), the five regions'
  proof data each at the contents its region is entered from, each region as a segment between the generated host
  stretches, and the run: every weakly fair execution terminates with the arguments as launched and the result buffer at
  what region 4 leaves.
-/
import proofs.«133038_j66116726555434_1_alg».proof.Proof.Gen.Kernel.Regions
import proofs.«133038_j66116726555434_1_alg».proof.Proof.K.Reg0
import proofs.«133038_j66116726555434_1_alg».proof.Proof.K.Reg1
import proofs.«133038_j66116726555434_1_alg».proof.Proof.K.Reg2
import proofs.«133038_j66116726555434_1_alg».proof.Proof.K.Reg3
import proofs.«133038_j66116726555434_1_alg».proof.Proof.K.Reg4
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- A valuation read at the TensorCore's references. -/
abbrev atRefs (W : Dev nD → Valuation τ sig (Elt F)) : (c : Dev nD) → (b : Ref sig .tc) → Buf (Elt F) ((c : Thread nD τ).loc b) :=
  fun c b => W c b

/-- No region has run: every buffer at its launch contents. -/
def outsBase : Outs (F := F) := fun _ r c => m ((c : Thread nD τ).loc r)

/-- `o` with buffer `r₀` set to `a`. -/
def setOut (o : Outs (F := F)) (r₀ : Ref sig .tc) (a : (c : Dev nD) → Buf (Elt F) ((c : Thread nD τ).loc r₀)) : Outs (F := F) :=
  fun J r c => Function.update (fun r => o J r c) r₀ (a c) r

theorem setOut_self (o : Outs (F := F)) (r₀ : Ref sig .tc) (a) (J : ℕ) (c : Dev nD) : setOut o r₀ a J r₀ c = a c := by
  unfold setOut; exact Function.update_self _ _ _
theorem setOut_ne (o : Outs (F := F)) (r₀ : Ref sig .tc) (a) (J : ℕ) (r : Ref sig .tc) (h : r ≠ r₀) (c : Dev nD) : setOut o r₀ a J r c = o J r c := by
  unfold setOut; exact Function.update_of_ne h _ _

/-- After region 0: the product x · W₁ in `main_v30`. -/
def outs0 : Outs (F := F) := setOut (outsBase m) main_v30 fun c => (dat0 (atRefs (V3 m)) c).arrAt 2 cfg0.N
/-- After region 1: the second product in `main_v77`. -/
def outs1 : Outs (F := F) := setOut (outs0 m) main_v77 fun c => (dat1 (atRefs (V7 m (outs0 m))) c).arrAt 2 cfg1.N
/-- After region 2: the MLP's result in `main_v117`. -/
def outs2 : Outs (F := F) := setOut (outs1 m) main_v117 fun c => (dat2 (atRefs (V9 m (outs1 m))) c).arrAt 7 cfg2.N
/-- After region 3: the two statistics rows in `main_v118_0`, `main_v118_1`. -/
def outs3 : Outs (F := F) :=
  setOut (setOut (outs2 m) main_v118_0 fun c => (dat3 (atRefs (V10 m (outs2 m))) c).arrAt 1 cfg3.N)
    main_v118_1 fun c => (dat3 (atRefs (V10 m (outs2 m))) c).arrAt 2 cfg3.N
/-- After region 4: the normalised result in `main_v119`. -/
def outs4 : Outs (F := F) := setOut (outs3 m) main_v119 fun c => (dat4 (atRefs (V11 m (outs3 m))) c).arrAt 3 cfg4.N

/-- What the regions leave, all of it. -/
abbrev outs : Outs (F := F) := outs4 m

theorem outs4_of_ne (J : ℕ) (r : Ref sig .tc) (h : r ≠ main_v119) (c : Dev nD) : outs4 m J r c = outs3 m J r c := by
  unfold outs4; exact setOut_ne _ _ _ _ _ h _
theorem outs3_of_ne (J : ℕ) (r : Ref sig .tc) (h0 : r ≠ main_v118_0) (h1 : r ≠ main_v118_1) (c : Dev nD) : outs3 m J r c = outs2 m J r c := by
  unfold outs3; exact (setOut_ne _ _ _ _ _ h1 _).trans (setOut_ne _ _ _ _ _ h0 _)
theorem outs2_of_ne (J : ℕ) (r : Ref sig .tc) (h : r ≠ main_v117) (c : Dev nD) : outs2 m J r c = outs1 m J r c := by
  unfold outs2; exact setOut_ne _ _ _ _ _ h _
theorem outs1_of_ne (J : ℕ) (r : Ref sig .tc) (h : r ≠ main_v77) (c : Dev nD) : outs1 m J r c = outs0 m J r c := by
  unfold outs1; exact setOut_ne _ _ _ _ _ h _

/-- `main_v30` holds region 0's product from region 0 on. -/
theorem outs_v30 (J : ℕ) (c : Dev nD) : outs m J main_v30 c = (dat0 (atRefs (V3 m)) c).arrAt 2 cfg0.N :=
  (outs4_of_ne m J _ (by decide) c).trans <| (outs3_of_ne m J _ (by decide) (by decide) c).trans <|
    (outs2_of_ne m J _ (by decide) c).trans <| (outs1_of_ne m J _ (by decide) c).trans <| by unfold outs0; exact setOut_self _ _ _ _ _
theorem outs0_v30 (J : ℕ) (c : Dev nD) : outs0 m J main_v30 c = (dat0 (atRefs (V3 m)) c).arrAt 2 cfg0.N := by
  unfold outs0; exact setOut_self _ _ _ _ _

/-- The contents before region 1 depend on what the regions leave only through `main_v30`. -/
theorem V7_congr (o o' : Outs (F := F)) (h : ∀ c, o 4 main_v30 c = o' 4 main_v30 c) (c : Dev nD) : V7 m o c = V7 m o' c := by
  dsimp only [V7, V6, V5, V4]; rw [h c]
/-- … before region 2, also through `main_v77`. -/
theorem V9_congr (o o' : Outs (F := F)) (h : ∀ c, o 4 main_v30 c = o' 4 main_v30 c) (h1 : ∀ c, o 8 main_v77 c = o' 8 main_v77 c) (c : Dev nD) : V9 m o c = V9 m o' c := by
  dsimp only [V9, V8, V7, V6, V5, V4]; rw [h c, h1 c]
/-- … before region 3, also through `main_v117`. -/
theorem V10_congr (o o' : Outs (F := F)) (h : ∀ c, o 4 main_v30 c = o' 4 main_v30 c) (h1 : ∀ c, o 8 main_v77 c = o' 8 main_v77 c)
    (h2 : ∀ c, o 10 main_v117 c = o' 10 main_v117 c) (c : Dev nD) : V10 m o c = V10 m o' c := by
  dsimp only [V10, V9, V8, V7, V6, V5, V4]; rw [h c, h1 c, h2 c]
/-- … before region 4, also through the two statistics rows. -/
theorem V11_congr (o o' : Outs (F := F)) (h : ∀ c, o 4 main_v30 c = o' 4 main_v30 c) (h1 : ∀ c, o 8 main_v77 c = o' 8 main_v77 c)
    (h2 : ∀ c, o 10 main_v117 c = o' 10 main_v117 c) (h3 : ∀ c, o 11 main_v118_0 c = o' 11 main_v118_0 c) (h4 : ∀ c, o 11 main_v118_1 c = o' 11 main_v118_1 c)
    (c : Dev nD) : V11 m o c = V11 m o' c := by
  dsimp only [V11, V10, V9, V8, V7, V6, V5, V4]; rw [h c, h1 c, h2 c, h3 c, h4 c]

theorem outs_eq0_v30 (c : Dev nD) : outs m 4 main_v30 c = outs0 m 4 main_v30 c := (outs_v30 m 4 c).trans (outs0_v30 m 4 c).symm
theorem outs_eq1_v30 (c : Dev nD) : outs m 4 main_v30 c = outs1 m 4 main_v30 c := (outs_eq0_v30 m c).trans (outs1_of_ne m 4 _ (by decide) c).symm
theorem outs_eq2_v30 (c : Dev nD) : outs m 4 main_v30 c = outs2 m 4 main_v30 c := (outs_eq1_v30 m c).trans (outs2_of_ne m 4 _ (by decide) c).symm
theorem outs_eq3_v30 (c : Dev nD) : outs m 4 main_v30 c = outs3 m 4 main_v30 c := (outs_eq2_v30 m c).trans (outs3_of_ne m 4 _ (by decide) (by decide) c).symm
theorem outs_eq1_v77 (c : Dev nD) : outs m 8 main_v77 c = outs1 m 8 main_v77 c :=
  (outs4_of_ne m 8 _ (by decide) c).trans <| (outs3_of_ne m 8 _ (by decide) (by decide) c).trans (outs2_of_ne m 8 _ (by decide) c)
theorem outs_eq2_v77 (c : Dev nD) : outs m 8 main_v77 c = outs2 m 8 main_v77 c := (outs_eq1_v77 m c).trans (outs2_of_ne m 8 _ (by decide) c).symm
theorem outs_eq3_v77 (c : Dev nD) : outs m 8 main_v77 c = outs3 m 8 main_v77 c := (outs_eq2_v77 m c).trans (outs3_of_ne m 8 _ (by decide) (by decide) c).symm
theorem outs_eq2_v117 (c : Dev nD) : outs m 10 main_v117 c = outs2 m 10 main_v117 c :=
  (outs4_of_ne m 10 _ (by decide) c).trans (outs3_of_ne m 10 _ (by decide) (by decide) c)
theorem outs_eq3_v117 (c : Dev nD) : outs m 10 main_v117 c = outs3 m 10 main_v117 c := outs4_of_ne m 10 _ (by decide) c
theorem outs_eq3_v118_0 (c : Dev nD) : outs m 11 main_v118_0 c = outs3 m 11 main_v118_0 c := outs4_of_ne m 11 _ (by decide) c
theorem outs_eq3_v118_1 (c : Dev nD) : outs m 11 main_v118_1 c = outs3 m 11 main_v118_1 c := outs4_of_ne m 11 _ (by decide) c

theorem V7_eq : V7 m (outs m) = V7 m (outs0 m) := funext fun c => V7_congr m _ _ (outs_eq0_v30 m) c
theorem V9_eq : V9 m (outs m) = V9 m (outs1 m) := funext fun c => V9_congr m _ _ (outs_eq1_v30 m) (outs_eq1_v77 m) c
theorem V10_eq : V10 m (outs m) = V10 m (outs2 m) := funext fun c => V10_congr m _ _ (outs_eq2_v30 m) (outs_eq2_v77 m) (outs_eq2_v117 m) c
theorem V11_eq : V11 m (outs m) = V11 m (outs3 m) :=
  funext fun c => V11_congr m _ _ (outs_eq3_v30 m) (outs_eq3_v77 m) (outs_eq3_v117 m) (outs_eq3_v118_0 m) (outs_eq3_v118_1 m) c

/-! ## The proof data family, each pipeline's at the contents its region is entered from -/

def pdats : (p : Fin 5) → (c : Dev nD) → Dat τ (Elt F) Unit ℕ (UR sig nD τ) ℕ (cfgs p) c
  | ⟨0, _⟩ => fun c => dat0 (atRefs (V3 m)) c
  | ⟨1, _⟩ => fun c => dat1 (atRefs (V7 m (outs m))) c
  | ⟨2, _⟩ => fun c => dat2 (atRefs (V9 m (outs m))) c
  | ⟨3, _⟩ => fun c => dat3 (atRefs (V10 m (outs m))) c
  | ⟨4, _⟩ => fun c => dat4 (atRefs (V11 m (outs m))) c

/-! ## What each region's output arrays hold at its exit -/

theorem exitSet0_2 (c : Dev nD) : atRefs (V4 m (outs m)) c (Pipeline.arrRef spec0 2) = (pdats m 0 c).arrAt 2 cfg0.N := by
  show V4 m (outs m) c main_v30 = (dat0 (atRefs (V3 m)) c).arrAt 2 cfg0.N
  dsimp only [V4]; rw [Function.update_self]; exact outs_v30 m 4 c
theorem exitSet1_2 (c : Dev nD) : atRefs (V8 m (outs m)) c (Pipeline.arrRef spec1 2) = (pdats m 1 c).arrAt 2 cfg1.N := by
  show V8 m (outs m) c main_v77 = (dat1 (atRefs (V7 m (outs m))) c).arrAt 2 cfg1.N
  dsimp only [V8]; rw [Function.update_self, outs_eq1_v77 m c, V7_eq m]; unfold outs1; exact setOut_self _ _ _ _ _
theorem exitSet2_7 (c : Dev nD) : atRefs (V10 m (outs m)) c (Pipeline.arrRef spec2 7) = (pdats m 2 c).arrAt 7 cfg2.N := by
  show V10 m (outs m) c main_v117 = (dat2 (atRefs (V9 m (outs m))) c).arrAt 7 cfg2.N
  dsimp only [V10]; rw [Function.update_self, outs_eq2_v117 m c, V9_eq m]; unfold outs2; exact setOut_self _ _ _ _ _
theorem exitSet3_1 (c : Dev nD) : atRefs (V11 m (outs m)) c (Pipeline.arrRef spec3 1) = (pdats m 3 c).arrAt 1 cfg3.N := by
  show V11 m (outs m) c main_v118_0 = (dat3 (atRefs (V10 m (outs m))) c).arrAt 1 cfg3.N
  dsimp only [V11]; rw [Function.update_of_ne (StableHlo.devRef_ne_of_ne (by decide : (main_v118_0 : Ref sig .tc) ≠ main_v118_1)), Function.update_self, outs_eq3_v118_0 m c, V10_eq m]
  unfold outs3; exact (setOut_ne _ _ _ _ _ (by decide) _).trans (setOut_self _ _ _ _ _)
theorem exitSet3_2 (c : Dev nD) : atRefs (V11 m (outs m)) c (Pipeline.arrRef spec3 2) = (pdats m 3 c).arrAt 2 cfg3.N := by
  show V11 m (outs m) c main_v118_1 = (dat3 (atRefs (V10 m (outs m))) c).arrAt 2 cfg3.N
  dsimp only [V11]; rw [Function.update_self, outs_eq3_v118_1 m c, V10_eq m]
  unfold outs3; exact setOut_self _ _ _ _ _
theorem exitSet4_3 (c : Dev nD) : atRefs (V12 m (outs m)) c (Pipeline.arrRef spec4 3) = (pdats m 4 c).arrAt 3 cfg4.N := by
  show V12 m (outs m) c main_v119 = (dat4 (atRefs (V11 m (outs m))) c).arrAt 3 cfg4.N
  dsimp only [V12]; rw [Function.update_self, V11_eq m]; show outs4 m 12 main_v119 c = _; unfold outs4; exact setOut_self _ _ _ _ _

/-- Region 0 changes only `main_v30`: every other buffer is after it what it was before. -/
theorem exitKeeps0 (c : Dev nD) (b : Ref sig .tc) (hb : b ≠ main_v30) : atRefs (V4 m (outs m)) c b = atRefs (V3 m) c b := by
  show V4 m (outs m) c b = V3 m c b
  exact Function.update_of_ne (StableHlo.devRef_ne_of_ne hb) _ _
theorem exitRest0 (c : Dev nD) : ∀ b, b ∉ Finset.univ.image (Pipeline.arrRef spec0) → atRefs (V4 m (outs m)) c b = atRefs (V3 m) c b := fun b hb =>
  exitKeeps0 m c b (fun e => hb (Finset.mem_image.mpr ⟨2, Finset.mem_univ _, e.symm⟩))
set_option maxHeartbeats 4000000 in
/-- After region 0 each of its windows' arrays holds what the pipeline leaves in it. -/
theorem exitArr0 (c : Dev nD) : ∀ w : Fin cfg0.W, (pdats m 0 c).arrAt w cfg0.N = atRefs (V4 m (outs m)) c (Pipeline.arrRef spec0 w)
  | ⟨0, _⟩ => ((pdats m 0 c).arrAt_in 0 rfl _).trans ((exitKeeps0 m c main_arg0 (by decide)).symm)
  | ⟨1, _⟩ => ((pdats m 0 c).arrAt_in 1 rfl _).trans ((exitKeeps0 m c main_arg2 (by decide)).symm)
  | ⟨2, _⟩ => (exitSet0_2 m c).symm

/-- Region 1 changes only `main_v77`: every other buffer is after it what it was before. -/
theorem exitKeeps1 (c : Dev nD) (b : Ref sig .tc) (hb : b ≠ main_v77) : atRefs (V8 m (outs m)) c b = atRefs (V7 m (outs m)) c b := by
  show V8 m (outs m) c b = V7 m (outs m) c b
  exact Function.update_of_ne (StableHlo.devRef_ne_of_ne hb) _ _
theorem exitRest1 (c : Dev nD) : ∀ b, b ∉ Finset.univ.image (Pipeline.arrRef spec1) → atRefs (V8 m (outs m)) c b = atRefs (V7 m (outs m)) c b := fun b hb =>
  exitKeeps1 m c b (fun e => hb (Finset.mem_image.mpr ⟨2, Finset.mem_univ _, e.symm⟩))
set_option maxHeartbeats 4000000 in
/-- After region 1 each of its windows' arrays holds what the pipeline leaves in it. -/
theorem exitArr1 (c : Dev nD) : ∀ w : Fin cfg1.W, (pdats m 1 c).arrAt w cfg1.N = atRefs (V8 m (outs m)) c (Pipeline.arrRef spec1 w)
  | ⟨0, _⟩ => ((pdats m 1 c).arrAt_in 0 rfl _).trans ((exitKeeps1 m c main_v46 (by decide)).symm)
  | ⟨1, _⟩ => ((pdats m 1 c).arrAt_in 1 rfl _).trans ((exitKeeps1 m c main_arg4 (by decide)).symm)
  | ⟨2, _⟩ => (exitSet1_2 m c).symm

/-- Region 2 changes only `main_v117`: every other buffer is after it what it was before. -/
theorem exitKeeps2 (c : Dev nD) (b : Ref sig .tc) (hb : b ≠ main_v117) : atRefs (V10 m (outs m)) c b = atRefs (V9 m (outs m)) c b := by
  show V10 m (outs m) c b = V9 m (outs m) c b
  exact Function.update_of_ne (StableHlo.devRef_ne_of_ne hb) _ _
theorem exitRest2 (c : Dev nD) : ∀ b, b ∉ Finset.univ.image (Pipeline.arrRef spec2) → atRefs (V10 m (outs m)) c b = atRefs (V9 m (outs m)) c b := fun b hb =>
  exitKeeps2 m c b (fun e => hb (Finset.mem_image.mpr ⟨7, Finset.mem_univ _, e.symm⟩))
set_option maxHeartbeats 4000000 in
/-- After region 2 each of its windows' arrays holds what the pipeline leaves in it. -/
theorem exitArr2 (c : Dev nD) : ∀ w : Fin cfg2.W, (pdats m 2 c).arrAt w cfg2.N = atRefs (V10 m (outs m)) c (Pipeline.arrRef spec2 w)
  | ⟨0, _⟩ => ((pdats m 2 c).arrAt_in 0 rfl _).trans ((exitKeeps2 m c main_v113 (by decide)).symm)
  | ⟨1, _⟩ => ((pdats m 2 c).arrAt_in 1 rfl _).trans ((exitKeeps2 m c main_arg8 (by decide)).symm)
  | ⟨2, _⟩ => ((pdats m 2 c).arrAt_in 2 rfl _).trans ((exitKeeps2 m c main_v114 (by decide)).symm)
  | ⟨3, _⟩ => ((pdats m 2 c).arrAt_in 3 rfl _).trans ((exitKeeps2 m c main_arg10 (by decide)).symm)
  | ⟨4, _⟩ => ((pdats m 2 c).arrAt_in 4 rfl _).trans ((exitKeeps2 m c main_v115 (by decide)).symm)
  | ⟨5, _⟩ => ((pdats m 2 c).arrAt_in 5 rfl _).trans ((exitKeeps2 m c main_arg12 (by decide)).symm)
  | ⟨6, _⟩ => ((pdats m 2 c).arrAt_in 6 rfl _).trans ((exitKeeps2 m c main_v116 (by decide)).symm)
  | ⟨7, _⟩ => (exitSet2_7 m c).symm

/-- Region 3 changes only `main_v118_0`, `main_v118_1`: every other buffer is after it what it was before. -/
theorem exitKeeps3 (c : Dev nD) (b : Ref sig .tc) (hb : b ≠ main_v118_0 ∧ b ≠ main_v118_1) : atRefs (V11 m (outs m)) c b = atRefs (V10 m (outs m)) c b := by
  show V11 m (outs m) c b = V10 m (outs m) c b
  exact (Function.update_of_ne (StableHlo.devRef_ne_of_ne hb.2) _ _).trans (Function.update_of_ne (StableHlo.devRef_ne_of_ne hb.1) _ _)
theorem exitRest3 (c : Dev nD) : ∀ b, b ∉ Finset.univ.image (Pipeline.arrRef spec3) → atRefs (V11 m (outs m)) c b = atRefs (V10 m (outs m)) c b := fun b hb =>
  exitKeeps3 m c b ⟨fun e => hb (Finset.mem_image.mpr ⟨1, Finset.mem_univ _, e.symm⟩), fun e => hb (Finset.mem_image.mpr ⟨2, Finset.mem_univ _, e.symm⟩)⟩
set_option maxHeartbeats 4000000 in
/-- After region 3 each of its windows' arrays holds what the pipeline leaves in it. -/
theorem exitArr3 (c : Dev nD) : ∀ w : Fin cfg3.W, (pdats m 3 c).arrAt w cfg3.N = atRefs (V11 m (outs m)) c (Pipeline.arrRef spec3 w)
  | ⟨0, _⟩ => ((pdats m 3 c).arrAt_in 0 rfl _).trans ((exitKeeps3 m c main_v117 (by decide)).symm)
  | ⟨1, _⟩ => (exitSet3_1 m c).symm
  | ⟨2, _⟩ => (exitSet3_2 m c).symm

/-- Region 4 changes only `main_v119`: every other buffer is after it what it was before. -/
theorem exitKeeps4 (c : Dev nD) (b : Ref sig .tc) (hb : b ≠ main_v119) : atRefs (V12 m (outs m)) c b = atRefs (V11 m (outs m)) c b := by
  show V12 m (outs m) c b = V11 m (outs m) c b
  exact Function.update_of_ne (StableHlo.devRef_ne_of_ne hb) _ _
theorem exitRest4 (c : Dev nD) : ∀ b, b ∉ Finset.univ.image (Pipeline.arrRef spec4) → atRefs (V12 m (outs m)) c b = atRefs (V11 m (outs m)) c b := fun b hb =>
  exitKeeps4 m c b (fun e => hb (Finset.mem_image.mpr ⟨3, Finset.mem_univ _, e.symm⟩))
set_option maxHeartbeats 4000000 in
/-- After region 4 each of its windows' arrays holds what the pipeline leaves in it. -/
theorem exitArr4 (c : Dev nD) : ∀ w : Fin cfg4.W, (pdats m 4 c).arrAt w cfg4.N = atRefs (V12 m (outs m)) c (Pipeline.arrRef spec4 w)
  | ⟨0, _⟩ => ((pdats m 4 c).arrAt_in 0 rfl _).trans ((exitKeeps4 m c main_v117 (by decide)).symm)
  | ⟨1, _⟩ => ((pdats m 4 c).arrAt_in 1 rfl _).trans ((exitKeeps4 m c main_v118_0 (by decide)).symm)
  | ⟨2, _⟩ => ((pdats m 4 c).arrAt_in 2 rfl _).trans ((exitKeeps4 m c main_v118_1 (by decide)).symm)
  | ⟨3, _⟩ => (exitSet4_3 m c).symm

/-! ## The thread state between segments -/

/-- No core owes another anything: no level is assigned. -/
abbrev L0 : GSem nD τ sig → Finset Unit := fun _ => ∅
abbrev lv0 : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Region 0 as a segment: entered with every unscoped buffer at the contents before it, left with them at the contents
    after it; its windows' arrays are split out of the unscoped buffers at entry and put back at exit; the generator
    register goes into the invariant and comes back; nothing is owed and the kernel has no semaphore of its own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atRefs (V3 m)) c).loose
  hwaits := Pipeline.hwaits_of_owed_zero _ _ _ _ L0 lv0 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atRefs (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V3 m) c) (atRefs (V4 m (outs m)) c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at the contents before it, left with them at the contents
    after it; its windows' arrays are split out of the unscoped buffers at entry and put back at exit; the generator
    register goes into the invariant and comes back; nothing is owed and the kernel has no semaphore of its own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atRefs (V7 m (outs m))) c).loose
  hwaits := Pipeline.hwaits_of_owed_zero _ _ _ _ L0 lv0 1 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atRefs (V7 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V7 m (outs m)) c) (atRefs (V8 m (outs m)) c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at the contents before it, left with them at the contents
    after it; its windows' arrays are split out of the unscoped buffers at entry and put back at exit; the generator
    register goes into the invariant and comes back; nothing is owed and the kernel has no semaphore of its own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atRefs (V9 m (outs m))) c).loose
  hwaits := Pipeline.hwaits_of_owed_zero _ _ _ _ L0 lv0 2 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atRefs (V9 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V9 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (V9 m (outs m)) c) (atRefs (V10 m (outs m)) c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 as a segment: entered with every unscoped buffer at the contents before it, left with them at the contents
    after it; its windows' arrays are split out of the unscoped buffers at entry and put back at exit; the generator
    register goes into the invariant and comes back; nothing is owed and the kernel has no semaphore of its own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atRefs (V10 m (outs m))) c).loose
  hwaits := Pipeline.hwaits_of_owed_zero _ _ _ _ L0 lv0 3 fun _ _ => rfl
  pre c := iprop(StableHlo.held (c : Thread nD τ) (Pipeline.ucRefs τ sig) (V10 m (outs m) c) ∗ Rst c)
  post c := iprop(StableHlo.held (c : Thread nD τ) (Pipeline.ucRefs τ sig) (V11 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atRefs (V10 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (V10 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (atRefs (V10 m (outs m))) c).Φ 0 from rfl]
    iintro ⟨Hp, -, Hr⟩
    iapply (Phi3_in (atRefs (V10 m (outs m))) c)
    isplitl [Hp]; · iexact Hp
    iexact Hr
  hout c := by
    rw [Pipeline.ownSems0_none, show (pdats m 3 c).Φ (Fin.last _) = (dat3 (atRefs (V10 m (outs m))) c).Φ (Fin.last cfg3.N) from rfl]
    iintro H
    ihave H' := (Phi3_out (atRefs (V10 m (outs m))) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (V10 m (outs m)) c) (atRefs (V11 m (outs m)) c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 as a segment: entered with every unscoped buffer at the contents before it, left with them at the contents
    after it; its windows' arrays are split out of the unscoped buffers at entry and put back at exit; the generator
    register goes into the invariant and comes back; nothing is owed and the kernel has no semaphore of its own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atRefs (V11 m (outs m))) c).loose
  hwaits := Pipeline.hwaits_of_owed_zero _ _ _ _ L0 lv0 4 fun _ _ => rfl
  pre c := iprop(StableHlo.held (c : Thread nD τ) (Pipeline.ucRefs τ sig) (V11 m (outs m) c) ∗ Rst c)
  post c := iprop(StableHlo.held (c : Thread nD τ) (Pipeline.ucRefs τ sig) (V12 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atRefs (V11 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (V11 m (outs m)) c) (atRefs (V12 m (outs m)) c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of @main terminates with every argument as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond m emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L0 lv0 fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)

end Cert.Kernel.Hand

end
-- ==== Proof.KI.Reg0.lean ====
/-
  Region 0 of @main (the first graph-convolution's linear map): the product x · W₁ computed ten thousand rows at a time.
  The grid has 10 points. At point t the body is handed rows [10000·t, 10000·(t+1)) of x (window 0), all of W₁
  (window 1) and the matching rows of the result (window 2); it overwrites the latter with the product of the two
  former. Nothing is kept between points and no scratch is used, so the invariant is the untouched rest of the core.
  Stated at ANY contents `V` of the core's buffers at the region's entry and at any float instance: the proof data of
  the pipeline, what the result window's buffer holds after the body, and the body's obligation at every point.
-/
import proofs.«133038_j66116726555434_1_alg».proof.Proof.Gen.KernelIdeal.Launch
import proofs.«133038_j66116726555434_1_alg».proof.Proof.Gen.KernelIdeal.Skeleton
import proofs.«133038_j66116726555434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: whatever proof data has `V`'s array behind window 0 and leaves the block in place finds the block
    in the current staging buffer at every point (the window is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W₁: fetched at the first point only, its block index never moves, so the buffer still holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result window's buffer -/

abbrev rx0 : Rect S10000x27 := Rect.unit (s := S10000x27) ![0, 0] S10000x27.size inb_S10000x27_S10000x27_0_0
abbrev rw0 : Rect S27x60 := Rect.unit (s := S27x60) ![0, 0] S27x60.size inb_S27x60_S27x60_0_0
abbrev ro0 : Rect S10000x60 := Rect.unit (s := S10000x60) ![0, 0] S10000x60.size inb_S10000x60_S10000x60_0_0

/-- The result buffer after the body: one store of the whole block, the product of the two blocks read. -/
def out0_2 (x0 : Vec F S10000x27 .f32) (x1 : Vec F S27x60 .f32) : Vec F S10000x60 .f32 :=
  View.canon [⟨ro0, k0_pay1 (View.ld x0 rx0) (View.ld x1 rw0)⟩]

/-- The one store covers the buffer. -/
theorem cover0_2 (p0 : Vec F S10000x60 .f32) (y : S10000x60.Idx) :
    ∃ pc ∈ ([⟨ro0, p0⟩] : List (View.Piece (Elt F) S10000x60 .f32)), y ∈ pc.1.set :=
  View.cover_of_tiled [⟨ro0, p0⟩] S10000x60.size (by rfl) y

/-! ## The body's triple -/

set_option maxHeartbeats 1000000 in
/-- On whole staging memrefs, the two inputs' at known contents and the result's at anything, the body runs to a state
    with the inputs' as they were and the result's at `out0_2` of them. -/
theorem body_run0 (c : Dev nD) (E : Set ℕ) (i : grid0.Coords)
    (a1 : Memref sig .tc .vmem S10000x27 .f32) (h1 : a1.IsWhole) (a2 : Memref sig .tc .vmem S27x60 .f32) (h2 : a2.IsWhole)
    (a3 : Memref sig .tc .vmem S10000x60 .f32) (h3 : a3.IsWhole)
    (x0 : Vec F S10000x27 .f32) (x1 : Vec F S27x60 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out0_2 x0 x1)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body at point `t` each input's
    buffer still at its block and the result's at the product of the two blocks; the rest of the core untouched;
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main (the second graph-convolution's linear map): the product h · W₂ computed ten thousand rows at a
  time. The grid has 10 points. At point t the body is handed rows [10000·t, 10000·(t+1)) of h (window 0), all of W₂
  (window 1) and the matching rows of the result (window 2); it overwrites the latter with the product of the two
  former. Nothing is kept between points and no scratch is used, so the invariant is the untouched rest of the core.
  Stated at ANY contents `V` of the core's buffers at the region's entry and at any float instance: the proof data of
  the pipeline, what the result window's buffer holds after the body, and the body's obligation at every point.
-/
import proofs.«133038_j66116726555434_1_alg».proof.Proof.Gen.KernelIdeal.Launch
import proofs.«133038_j66116726555434_1_alg».proof.Proof.Gen.KernelIdeal.Skeleton
import proofs.«133038_j66116726555434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of h: whatever proof data has `V`'s array behind window 0 and leaves the block in place finds the block
    in the current staging buffer at every point (the window is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W₂: fetched at the first point only, its block index never moves, so the buffer still holds it at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the result window's buffer -/

abbrev rx1 : Rect S10000x60 := Rect.unit (s := S10000x60) ![0, 0] S10000x60.size inb_S10000x60_S10000x60_0_0
abbrev rw1 : Rect S60x50 := Rect.unit (s := S60x50) ![0, 0] S60x50.size inb_S60x50_S60x50_0_0
abbrev ro1 : Rect S10000x50 := Rect.unit (s := S10000x50) ![0, 0] S10000x50.size inb_S10000x50_S10000x50_0_0

/-- The result buffer after the body: one store of the whole block, the product of the two blocks read. -/
def out1_2 (x0 : Vec F S10000x60 .f32) (x1 : Vec F S60x50 .f32) : Vec F S10000x50 .f32 :=
  View.canon [⟨ro1, k1_pay1 (View.ld x0 rx1) (View.ld x1 rw1)⟩]

/-- The one store covers the buffer. -/
theorem cover1_2 (p0 : Vec F S10000x50 .f32) (y : S10000x50.Idx) :
    ∃ pc ∈ ([⟨ro1, p0⟩] : List (View.Piece (Elt F) S10000x50 .f32)), y ∈ pc.1.set :=
  View.cover_of_tiled [⟨ro1, p0⟩] S10000x50.size (by rfl) y

/-! ## The body's triple -/

set_option maxHeartbeats 1000000 in
/-- On whole staging memrefs, the two inputs' at known contents and the result's at anything, the body runs to a state
    with the inputs' as they were and the result's at `out1_2` of them. -/
theorem body_run1 (c : Dev nD) (E : Set ℕ) (i : grid1.Coords)
    (a1 : Memref sig .tc .vmem S10000x60 .f32) (h1 : a1.IsWhole) (a2 : Memref sig .tc .vmem S60x50 .f32) (h2 : a2.IsWhole)
    (a3 : Memref sig .tc .vmem S10000x50 .f32) (h3 : a3.IsWhole)
    (x0 : Vec F S10000x60 .f32) (x1 : Vec F S60x50 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out1_2 x0 x1)) -∗ K ⟨⟩))
      ⊢ wp frame (wpE (defs₀ (F := F)) Variants.none c none) E (cc1__matmul_kernel i a1 h1 a2 h2 a3 h3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Pipeline 1's proof data on core `c`: the arrays as the region finds them; after the body at point `t` each input's
    buffer still at its block and the result's at the product of the two blocks; the rest of the core untouched;
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body_run1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of @main (the edge head: three affine layers applied to every row of z, five thousand rows at a time).
  The grid has 100 points. At point t the body is handed rows [5000·t, 5000·(t+1)) of z (window 0), the three weight
  matrices and the three bias rows whole (windows 1 to 6) and the matching rows of the result (window 7); it
  overwrites the latter with ((z·W₁ + b₁)·W₂ + b₂)·W₃ + b₃ of the former. Nothing is kept between points and no
  scratch is used, so the invariant is the untouched rest of the core.
  Stated at ANY contents `V` of the core's buffers at the region's entry and at any float instance: the proof data of
  the pipeline, what the result window's buffer holds after the body, and the body's obligation at every point.
-/
import proofs.«133038_j66116726555434_1_alg».proof.Proof.Gen.KernelIdeal.Launch
import proofs.«133038_j66116726555434_1_alg».proof.Proof.Gen.KernelIdeal.Skeleton
import proofs.«133038_j66116726555434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the rows of z): whatever proof data has `V`'s array behind the window and leaves the block in place finds
    the block in the buffer at every point (the window is fetched at every point, so the current staging buffer holds the point's block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (W₁ of the head): whatever proof data has `V`'s array behind the window and leaves the block in place finds
    the block in the buffer at every point (fetched at the first point only, its block index never moves, so the buffer still holds it at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the first bias row): whatever proof data has `V`'s array behind the window and leaves the block in place finds
    the block in the buffer at every point (fetched at the first point only, its block index never moves, so the buffer still holds it at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 (W₂ of the head): whatever proof data has `V`'s array behind the window and leaves the block in place finds
    the block in the buffer at every point (fetched at the first point only, its block index never moves, so the buffer still holds it at every point). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (the second bias row): whatever proof data has `V`'s array behind the window and leaves the block in place finds
    the block in the buffer at every point (fetched at the first point only, its block index never moves, so the buffer still holds it at every point). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (W₃ of the head): whatever proof data has `V`'s array behind the window and leaves the block in place finds
    the block in the buffer at every point (fetched at the first point only, its block index never moves, so the buffer still holds it at every point). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6 (the third bias row): whatever proof data has `V`'s array behind the window and leaves the block in place finds
    the block in the buffer at every point (fetched at the first point only, its block index never moves, so the buffer still holds it at every point). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the result window's buffer -/

abbrev r2_0 : Rect S5000x100 := Rect.unit (s := S5000x100) ![0, 0] S5000x100.size inb_S5000x100_S5000x100_0_0
abbrev r2_1 : Rect S100x40 := Rect.unit (s := S100x40) ![0, 0] S100x40.size inb_S100x40_S100x40_0_0
abbrev r2_2 : Rect S1x40 := Rect.unit (s := S1x40) ![0, 0] S1x40.size inb_S1x40_S1x40_0_0
abbrev r2_3 : Rect S40x20 := Rect.unit (s := S40x20) ![0, 0] S40x20.size inb_S40x20_S40x20_0_0
abbrev r2_4 : Rect S1x20 := Rect.unit (s := S1x20) ![0, 0] S1x20.size inb_S1x20_S1x20_0_0
abbrev r2_5 : Rect S20x4 := Rect.unit (s := S20x4) ![0, 0] S20x4.size inb_S20x4_S20x4_0_0
abbrev r2_6 : Rect S1x4 := Rect.unit (s := S1x4) ![0, 0] S1x4.size inb_S1x4_S1x4_0_0
abbrev r2_7 : Rect S5000x4 := Rect.unit (s := S5000x4) ![0, 0] S5000x4.size inb_S5000x4_S5000x4_0_0

/-- The result buffer after the body: one store of the whole block, the three-layer map of the seven blocks read. -/
def out2_7 (x0 : Vec F S5000x100 .f32) (x1 : Vec F S100x40 .f32) (x2 : Vec F S1x40 .f32) (x3 : Vec F S40x20 .f32) (x4 : Vec F S1x20 .f32) (x5 : Vec F S20x4 .f32) (x6 : Vec F S1x4 .f32) : Vec F S5000x4 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store covers the buffer. -/
theorem cover2_7 (p0 : Vec F S5000x4 .f32) (y : S5000x4.Idx) :
    ∃ pc ∈ ([⟨r2_7, p0⟩] : List (View.Piece (Elt F) S5000x4 .f32)), y ∈ pc.1.set :=
  View.cover_of_tiled [⟨r2_7, p0⟩] S5000x4.size (by rfl) y

/-! ## The body's triple -/

set_option maxHeartbeats 4000000 in
/-- On whole staging memrefs, the seven inputs' at known contents and the result's at anything, the body runs to a
    state with the inputs' as they were and the result's at `out2_7` of them. -/
theorem body_run2 (c : Dev nD) (E : Set ℕ) (i : grid2.Coords)
    (a1 : Memref sig .tc .vmem S5000x100 .f32) (h1 : a1.IsWhole)
    (a2 : Memref sig .tc .vmem S100x40 .f32) (h2 : a2.IsWhole)
    (a3 : Memref sig .tc .vmem S1x40 .f32) (h3 : a3.IsWhole)
    (a4 : Memref sig .tc .vmem S40x20 .f32) (h4 : a4.IsWhole)
    (a5 : Memref sig .tc .vmem S1x20 .f32) (h5 : a5.IsWhole)
    (a6 : Memref sig .tc .vmem S20x4 .f32) (h6 : a6.IsWhole)
    (a7 : Memref sig .tc .vmem S1x4 .f32) (h7 : a7.IsWhole)
    (a8 : Memref sig .tc .vmem S5000x4 .f32) (h8 : a8.IsWhole)
    (x0 : Vec F S5000x100 .f32) (x1 : Vec F S100x40 .f32) (x2 : Vec F S1x40 .f32) (x3 : Vec F S40x20 .f32) (x4 : Vec F S1x20 .f32) (x5 : Vec F S20x4 .f32) (x6 : Vec F S1x4 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare (out2_7 x0 x1 x2 x3 x4 x5 x6)) -∗ K ⟨⟩))
      ⊢ wp frame (wpE (defs₀ (F := F)) Variants.none c none) E (cc2__mlp_kernel i a1 h1 a2 h2 a3 h3 a4 h4 a5 h5 a6 h6 a7 h7 a8 h8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- Pipeline 2's proof data on core `c`: the arrays as the region finds them; after the body at point `t` each input's
    buffer still at its block and the result's at the three-layer map of the seven blocks; the rest of the core
    untouched; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Seq3.lean ====
/-
  The two scratch rows of the softmax-statistics kernel (region 3) as the grid walks down the blocks of rows: after the
  first point they hold the first block's update of the initial pair (−∞, 0); after every later point the update of
  what the point before left. Stated over the kernel's own payload terms, at any float instance, for ANY family of
  blocks `zb`.
-/
import proofs.«133038_j66116726555434_1_alg».proof.Proof.Gen.KernelIdeal.Skeleton

noncomputable section

namespace Cert.KernelIdeal.Hand

open Cert.KernelIdeal Cert.KernelIdeal.Gen
open Idealize.ShloMosaic

variable {F : FTy → Type} [FloatOps F]

/-- (running maximum row, running sum row) after grid point `n` (counting from 0), when point `k` is handed block `zb k`. -/
def seq3 (zb : ℕ → Vec F S5000x4 .f32) : ℕ → Vec F S1x4 .f32 × Vec F S1x4 .f32
  | 0 => (k3_pay6 (zb 0) (k3_pay1 (F := F)), k3_pay5 (zb 0) (k3_pay1 (F := F)) (k3_pay2 (F := F)) (k3_pay1 (F := F)))
  | n + 1 => (k3_pay6 (zb (n + 1)) (seq3 zb n).1, k3_pay5 (zb (n + 1)) (seq3 zb n).1 (seq3 zb n).2 (seq3 zb n).1)

end Cert.KernelIdeal.Hand

end
-- ==== Proof.KI.Reg3.lean ====
/-
  Region 3 of @main (the statistics of the column softmax): the running maximum and the running sum of exponentials of
  the four columns of a 500000 × 4 matrix, taken five thousand rows at a time. The grid has 100 points. At point t the
  body is handed rows [5000·t, 5000·(t+1)) of the matrix (window 0); it keeps the pair (maximum row, sum row) in two
  scratch rows carried from point to point — set to (−∞, 0) at the first point, then updated by the block at every
  point — and at the last point copies the two rows into the two results (windows 1 and 2), which are written back
  there and nowhere else. Stated at ANY contents `V` of the core's buffers at the region's entry and at any float
  instance: the proof data of the pipeline, the invariant that carries the scratch rows, the body's obligation at every
  point, and what the two results end at.
-/
import proofs.«133038_j66116726555434_1_alg».proof.Proof.Gen.KernelIdeal.Launch
import proofs.«133038_j66116726555434_1_alg».proof.Proof.Gen.KernelIdeal.Skeleton
import proofs.«133038_j66116726555434_1_alg».proof.Proof.Gen.KernelIdeal.Points
import proofs.«133038_j66116726555434_1_alg».proof.Proof.KI.Seq3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of rows handed to point `n` (points counted modulo the 100 of the grid). -/
def zb3 (c : Dev nD) : ℕ → Vec F S5000x4 .f32 :=
  fun n => iblk3 V c 0 ⟨n % 100, Nat.mod_lt _ (by decide)⟩

/-- At a point of the grid, that is the point's own block. -/
theorem zb3_val (c : Dev nD) (t : Fin cfg3.N) : zb3 V c t.val = iblk3 V c 0 t := by
  have h : (⟨t.val % 100, Nat.mod_lt _ (by decide)⟩ : Fin cfg3.N) = t :=
    Fin.ext (Nat.mod_eq_of_lt (lt_of_lt_of_eq t.isLt N_3))
  unfold zb3; rw [h]

/-! ## The recursion of the scratch rows, one step at a time -/

/-- At the first point the pair is the first block's update of (−∞ row, zero row). -/
theorem seq3_of_zero (zb : ℕ → Vec F S5000x4 .f32) (n : ℕ) (h : n = 0) :
    seq3 zb n = (k3_pay6 (zb n) (k3_pay1 (F := F)), k3_pay5 (zb n) (k3_pay1 (F := F)) (k3_pay2 (F := F)) (k3_pay1 (F := F))) := by
  subst h; rfl

/-- At a later point it is the point's block's update of the pair the point before left. -/
theorem seq3_of_pos (zb : ℕ → Vec F S5000x4 .f32) (n : ℕ) (h : n ≠ 0) :
    seq3 zb n = (k3_pay6 (zb n) (seq3 zb (n - 1)).1, k3_pay5 (zb n) (seq3 zb (n - 1)).1 (seq3 zb (n - 1)).2 (seq3 zb (n - 1)).1) := by
  cases n with
  | zero => exact absurd rfl h
  | succ n => rfl

/-! ## Loads and stores of a whole block -/

/-- The zero offsets of a matrix, as the program spells them. -/
theorem off00 : (![0, 0] : Fin 2 → ℕ) = fun _ => 0 := by funext a; fin_cases a <;> rfl

/-- A load of the whole block of rows reads the buffer's contents. -/
theorem readAt_all_z {κ : Kind} {sp : Space} (v : View sig κ sp S5000x4 .f32) (f : v.ty.Contents (Elt F)) :
    v.readAt (Elt F) (Rect.unit (s := S5000x4) ![0, 0] S5000x4.size inb_S5000x4_S5000x4_0_0).toLoadRect f = v.read (Elt F) f :=
  View.ld_unit_zero off00 _ _

/-- A load of a whole row reads the buffer's contents. -/
theorem readAt_all_r {κ : Kind} {sp : Space} (v : View sig κ sp S1x4 .f32) (f : v.ty.Contents (Elt F)) :
    v.readAt (Elt F) (Rect.unit (s := S1x4) ![0, 0] S1x4.size inb_S1x4_S1x4_0_0).toLoadRect f = v.read (Elt F) f :=
  View.ld_unit_zero off00 _ _

/-- After a store of a whole row, whatever was stored before, the buffer reads the stored row. -/
theorem read_store_all_r {κ : Kind} {sp : Space} (v : View sig κ sp S1x4 .f32) (f : v.ty.Contents (Elt F)) (w : Vec F S1x4 .f32)
    (L : List (View.Piece (Elt F) S1x4 .f32)) :
    v.read (Elt F) (v.writes (Elt F) f ((⟨Rect.unit (s := S1x4) ![0, 0] S1x4.size inb_S1x4_S1x4_0_0, w⟩ : View.Piece (Elt F) S1x4 .f32) :: L)) = w := by
  rw [View.read_writes_eq_canon _ _ _ (fun y => ⟨_, List.mem_cons_self .., View.mem_set_unit_zero off00 inb_S1x4_S1x4_0_0 y⟩),
    View.canon_cons_unit_zero off00]

/-- A load of a whole row just stored whole reads the stored row. -/
theorem readCov_all_r {κ : Kind} {sp : Space} (v : View sig κ sp S1x4 .f32) (w : Vec F S1x4 .f32) :
    v.readCov [(⟨Rect.unit (s := S1x4) ![0, 0] S1x4.size inb_S1x4_S1x4_0_0, w⟩ : View.Piece (Elt F) S1x4 .f32)]
      (Rect.unit (s := S1x4) ![0, 0] S1x4.size inb_S1x4_S1x4_0_0).toLoadRect = w :=
  View.readCov_unit_zero v off00 _ w

/-! ## The body on any whole memrefs, case by case -/

/-- The two scratch rows whole at the pair `p`, through any memrefs. -/
def scrAt (c : Dev nD) (a4 a5 : Memref sig .tc .vmem S1x4 .f32) (p : Vec F S1x4 .f32 × Vec F S1x4 .f32) : sProp 𝕄 :=
  iprop(owns (c : Thread nD τ) a4 fullShare p.1 ∗ owns (c : Thread nD τ) a5 fullShare p.2)

/-- The first conditional's test, from the grid coordinates: the point is the first. -/
abbrev cond3_0 (i : grid3.Coords) : Prop :=
  Scalar.cmpi .ne (Scalar.extui (Scalar.cmpi .eq (BitVec.ofNat 32 (i 0).val) 0#32)) 0#32 = 1#1
/-- The second conditional's test: the point is the last. -/
abbrev cond3_1 (i : grid3.Coords) : Prop := k3_cond2 i = 1#1

set_option maxHeartbeats 1000000 in
/-- AT THE FIRST POINT: the scratch rows, found at anything, are set to (−∞ row, zero row) and then updated by the
    block; the results' buffers are not touched. -/
theorem body_run3_first (c : Dev nD) (E : Set ℕ) (i : grid3.Coords) (hc0 : cond3_0 i) (hc1 : ¬cond3_1 i)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S1x4 .f32) (h4 : a4.IsWhole)
    (a5 : Memref sig .tc .vmem S1x4 .f32) (h5 : a5.IsWhole)
    (z : Vec F S5000x4 .f32) (x2 x3 : Vec F S1x4 .f32) (K : PUnit → sProp 𝕄) :
    iprop(owns (c : Thread nD τ) a1 fullShare z ∗ owns (c : Thread nD τ) a2 fullShare x2 ∗ owns (c : Thread nD τ) a3 fullShare x3 ∗ (∃ p, scrAt c a4 a5 p)
        ∗ (iprop(owns (c : Thread nD τ) a1 fullShare z ∗ owns (c : Thread nD τ) a2 fullShare x2 ∗ owns (c : Thread nD τ) a3 fullShare x3
            ∗ scrAt c a4 a5 (k3_pay6 z (k3_pay1 (F := F)), k3_pay5 z (k3_pay1 (F := F)) (k3_pay2 (F := F)) (k3_pay1 (F := F)))) -∗ K ⟨⟩))
      ⊢ wp frame (wpE (defs₀ (F := F)) Variants.none c none) E (cc3__softmax_stats_kernel i a1 h1 a2 h2 a3 h3 a4 h4 a5 h5) K := by
  simp only [cc3__softmax_stats_kernel_eq_skeleton]; unfold cc3__softmax_stats_kernel_skel
  unfold scrAt owns
  dsimp only
  iintro ⟨⟨%f1, %hf1, H1⟩, ⟨%f2, %hf2, H2⟩, ⟨%f3, %hf3, H3⟩, ⟨%p, ⟨%f4, %hf4, H4⟩, ⟨%f5, %hf5, H5⟩⟩, Hk⟩
  subst hf1; subst hf2; subst hf3
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_all_r, readAt_all_z, readCov_all_r]
  iexists _; isplitr
  swap; · iexact H5
  ipureintro
  rw [read_store_all_r, readAt_all_z, readCov_all_r, readCov_all_r]

set_option maxHeartbeats 1000000 in
/-- AT A POINT THAT IS NEITHER THE FIRST NOR THE LAST: the scratch rows, found at (m, l), are updated by the block;
    the results' buffers are not touched. -/
theorem body_run3_mid (c : Dev nD) (E : Set ℕ) (i : grid3.Coords) (hc0 : ¬cond3_0 i) (hc1 : ¬cond3_1 i)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S1x4 .f32) (h4 : a4.IsWhole)
    (a5 : Memref sig .tc .vmem S1x4 .f32) (h5 : a5.IsWhole)
    (z : Vec F S5000x4 .f32) (x2 x3 m l : Vec F S1x4 .f32) (K : PUnit → sProp 𝕄) :
    iprop(owns (c : Thread nD τ) a1 fullShare z ∗ owns (c : Thread nD τ) a2 fullShare x2 ∗ owns (c : Thread nD τ) a3 fullShare x3 ∗ scrAt c a4 a5 (m, l)
        ∗ (iprop(owns (c : Thread nD τ) a1 fullShare z ∗ owns (c : Thread nD τ) a2 fullShare x2 ∗ owns (c : Thread nD τ) a3 fullShare x3
            ∗ scrAt c a4 a5 (k3_pay6 z m, k3_pay5 z m l m)) -∗ K ⟨⟩))
      ⊢ wp frame (wpE (defs₀ (F := F)) Variants.none c none) E (cc3__softmax_stats_kernel i a1 h1 a2 h2 a3 h3 a4 h4 a5 h5) K := by
  simp only [cc3__softmax_stats_kernel_eq_skeleton]; unfold cc3__softmax_stats_kernel_skel
  unfold scrAt owns
  dsimp only
  iintro ⟨⟨%f1, %hf1, H1⟩, ⟨%f2, %hf2, H2⟩, ⟨%f3, %hf3, H3⟩, ⟨⟨%f4, %hf4, H4⟩, ⟨%f5, %hf5, H5⟩⟩, Hk⟩
  subst hf1; subst hf2; subst hf3; subst hf4; subst hf5
  sl_exec (disch := first | exact hc0 | exact hc1)
  sl_step
  iapply Hk
  sl_unfold_run_names
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_all_r, readAt_all_z, readAt_all_r]
  iexists _; isplitr
  swap; · iexact H5
  ipureintro
  rw [read_store_all_r, readAt_all_z, readAt_all_r, readAt_all_r]

set_option maxHeartbeats 1000000 in
/-- AT THE LAST POINT: the scratch rows, found at (m, l), are updated by the block and then copied into the two results'
    buffers, found at anything. -/
theorem body_run3_last (c : Dev nD) (E : Set ℕ) (i : grid3.Coords) (hc0 : ¬cond3_0 i) (hc1 : cond3_1 i)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S1x4 .f32) (h4 : a4.IsWhole)
    (a5 : Memref sig .tc .vmem S1x4 .f32) (h5 : a5.IsWhole)
    (z : Vec F S5000x4 .f32) (m l : Vec F S1x4 .f32) (K : PUnit → sProp 𝕄) :
    iprop(owns (c : Thread nD τ) a1 fullShare z ∗ (∃ x2, owns (c : Thread nD τ) a2 fullShare x2) ∗ (∃ x3, owns (c : Thread nD τ) a3 fullShare x3) ∗ scrAt c a4 a5 (m, l)
        ∗ (iprop(owns (c : Thread nD τ) a1 fullShare z ∗ owns (c : Thread nD τ) a2 fullShare (k3_pay6 z m) ∗ owns (c : Thread nD τ) a3 fullShare (k3_pay5 z m l m)
            ∗ scrAt c a4 a5 (k3_pay6 z m, k3_pay5 z m l m)) -∗ K ⟨⟩))
      ⊢ wp frame (wpE (defs₀ (F := F)) Variants.none c none) E (cc3__softmax_stats_kernel i a1 h1 a2 h2 a3 h3 a4 h4 a5 h5) K := by
  simp only [cc3__softmax_stats_kernel_eq_skeleton]; unfold cc3__softmax_stats_kernel_skel
  unfold scrAt owns
  dsimp only
  iintro ⟨⟨%f1, %hf1, H1⟩, ⟨%x2, %f2, %hf2, H2⟩, ⟨%x3, %f3, %hf3, H3⟩, ⟨⟨%f4, %hf4, H4⟩, ⟨%f5, %hf5, H5⟩⟩, Hk⟩
  subst hf1; subst hf4; subst hf5
  sl_exec (disch := first | exact hc0 | exact hc1)
  sl_step
  iapply Hk
  sl_unfold_run_names
  isplitl [H1]
  · iexists f1; isplitr; · ipureintro; rfl
    iexact H1
  isplitl [H2]
  · iexists _; isplitr
    swap; · iexact H2
    ipureintro
    rw [read_store_all_r, readCov_all_r, readAt_all_z, readAt_all_r]
  isplitl [H3]
  · iexists _; isplitr
    swap; · iexact H3
    ipureintro
    rw [read_store_all_r, readCov_all_r, readAt_all_z, readAt_all_r, readAt_all_r]
  isplitl [H4]
  · iexists _; isplitr
    swap; · iexact H4
    ipureintro
    rw [read_store_all_r, readAt_all_z, readAt_all_r]
  iexists _; isplitr
  swap; · iexact H5
  ipureintro
  rw [read_store_all_r, readAt_all_z, readAt_all_r, readAt_all_r]

/-! ## Where each condition holds, and what that makes of the results' windows -/

/-- The first test holds at the first point only — decided over the grid. -/
theorem hcond3_0 : ∀ t : Fin cfg3.N, cond3_0 (grid3.coords t) ↔ t.val = 0 :=
  (by decide +kernel : ∀ t : Fin grid3.N, cond3_0 (grid3.coords t) ↔ t.val = 0)
/-- The second test holds at the last point only — decided over the grid. -/
theorem hcond3_1 : ∀ t : Fin cfg3.N, cond3_1 (grid3.coords t) ↔ t.val = 99 :=
  (by decide +kernel : ∀ t : Fin grid3.N, cond3_1 (grid3.coords t) ↔ t.val = 99)

/-- The input window is live at every point. -/
theorem liveAt3_0 : ∀ t : Fin cfg3.N, cfg3.idle 0 (grid3.coords t) = false := fun _ => rfl
/-- Away from the last point the results' windows are idle and not written back; at the last point they are live. -/
theorem idleAt3_1 : ∀ t : Fin cfg3.N, ¬cond3_1 (grid3.coords t) → cfg3.idle 1 (grid3.coords t) = true := by decide +kernel
theorem noFlush3_1 : ∀ t : Fin cfg3.N, ¬cond3_1 (grid3.coords t) → (cfg3.win 1).flush t = false := by decide +kernel
theorem liveAt3_1 : ∀ t : Fin cfg3.N, cond3_1 (grid3.coords t) → cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The scratch rows and the invariant -/

/-- The scratch row of the running maximum, and that of the running sum. -/
abbrev scM3_0 : Memref sig .tc .vmem S1x4 .f32 := Memref.whole cc3_scratch0
abbrev scM3_1 : Memref sig .tc .vmem S1x4 .f32 := Memref.whole cc3_scratch1

/-- The two scratch rows whole at the pair `p`. -/
abbrev scr3 (c : Dev nD) (p : Vec F S1x4 .f32 × Vec F S1x4 .f32) : sProp 𝕄 := scrAt c scM3_0 scM3_1 p

/-- The scoped buffers of the core that are neither staging buffers of this region nor its scratch rows. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The invariant before point `n`: the generator register at some state, the scratch rows at the pair the point before
    left (at anything before the first point), and the other scoped buffers untouched. -/
def Phi3 (c : Dev nD) : ℕ → sProp 𝕄
  | 0 => iprop((∃ r, prngReg c r) ∗ (∃ p, scr3 c p) ∗ rest3 c)
  | n + 1 => iprop((∃ r, prngReg c r) ∗ scr3 c (seq3 (zb3 V c) n) ∗ rest3 c)

theorem Phi3_of_zero (c : Dev nD) (n : ℕ) (h : n = 0) :
    Phi3 V c n = iprop((∃ r, prngReg c r) ∗ (∃ p, scr3 c p) ∗ rest3 c) := by subst h; rfl

theorem Phi3_succ (c : Dev nD) (n : ℕ) :
    Phi3 V c (n + 1) = iprop((∃ r, prngReg c r) ∗ scr3 c (seq3 (zb3 V c) n) ∗ rest3 c) := rfl

theorem Phi3_of_pos (c : Dev nD) (n : ℕ) (h : n ≠ 0) :
    Phi3 V c n = iprop((∃ r, prngReg c r) ∗ scr3 c (seq3 (zb3 V c) (n - 1)) ∗ rest3 c) := by
  cases n with
  | zero => exact absurd rfl h
  | succ n => rfl

/-! ## The pipeline's proof data -/

/-- Pipeline 3's proof data on core `c`: the arrays as the region finds them; after the body at point `t` the input's
    buffer still at its block and the two results' at the pair reached at `t` (read only at the last point, where they
    are stored and written back); the invariant `Phi3`; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (seq3 (zb3 V c) t.val).1
    | ⟨2, _⟩ => (seq3 (zb3 V c) t.val).2
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = (seq3 (zb3 V c) t.val).1 := by dsimp only [dat3]
theorem after3_2 (c : Dev nD) (t : Fin cfg3.N) : (dat3 V c).after 2 t = (seq3 (zb3 V c) t.val).2 := by dsimp only [dat3]

/-- The rows of the matrix: the input's current staging buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

/-! ## The body obligation at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 2000000 in
/-- The body at any point: by the place of the point in the grid (first, last, or neither) the matching run applies; the
    invariant hands the scratch rows at the pair the point before left (at anything at the first point) and takes them
    back at this point's pair; a result's buffer is handed back as found, except at the last point where it is left at
    the pair's component. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) from rfl, show (dat3 V c).Φ t.castSucc = Phi3 V c t.val from rfl, Phi3_succ]
  rw [show (dat3 V c).leavesExact 0 t = owns (c : Thread nD τ) (st3_0 t) fullShare ((dat3 V c).after 0 t) from by
    unfold Dat.leavesExact; rw [liveAt3_0 t], after3_0]
  have hN : t.val < 100 := lt_of_lt_of_eq t.isLt N_3
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 1 t (idleAt3_1 t hc1) (noFlush3_1 t hc1),
      Dat.leavesExact_idle (dat3 V c) 2 t (idleAt3_2 t hc1) (noFlush3_2 t hc1)]
    rw [Phi3_of_zero V c _ h0, seq3_of_zero _ _ h0, zb3_val]
    iintro ⟨⟨Hg, HS, Hr⟩, Ho, ⟨%d0, H0⟩, ⟨%d1, H1⟩, ⟨%d2, H2⟩⟩
    iapply (body_run3_first c Set.univ _ hc0 hc1 _ _ _ _ _ _ _ _ _ _ (iblk3 V c 0 t) _ _ _)
    isplitl [H0]; · iexact H0
    isplitl [H1]; · iexact H1
    isplitl [H2]; · iexact H2
    isplitl [HS]; · iexact HS
    iintro ⟨H0, H1, H2, HS⟩
    isplitl [Hg HS Hr]
    · isplitl [Hg]; · iexact Hg
      isplitl [HS]; · iexact HS
      iexact Hr
    isplitl [Ho]; · iexact Ho
    isplitl [H0]; · iexact H0
    isplitl [H1]; · iexists _; iexact H1
    iexists _; iexact H2
  · by_cases h1 : t.val = 99
    · have hc0 : ¬cond3_0 (grid3.coords t) := fun h => h0 ((hcond3_0 t).mp h)
      have hc1 : cond3_1 (grid3.coords t) := (hcond3_1 t).mpr h1
      rw [show (dat3 V c).leavesExact 1 t = owns (c : Thread nD τ) (st3_1 t) fullShare ((dat3 V c).after 1 t) from by
        unfold Dat.leavesExact; rw [liveAt3_1 t hc1], after3_1]
      rw [show (dat3 V c).leavesExact 2 t = owns (c : Thread nD τ) (st3_2 t) fullShare ((dat3 V c).after 2 t) from by
        unfold Dat.leavesExact; rw [liveAt3_2 t hc1], after3_2]
      rw [Phi3_of_pos V c _ h0, seq3_of_pos _ _ h0, zb3_val]
      generalize seq3 (zb3 V c) (t.val - 1) = p
      obtain ⟨m, l⟩ := p
      dsimp only
      iintro ⟨⟨Hg, HS, Hr⟩, Ho, ⟨%d0, H0⟩, ⟨%d1, H1⟩, ⟨%d2, H2⟩⟩
      iapply (body_run3_last c Set.univ _ hc0 hc1 _ _ _ _ _ _ _ _ _ _ (iblk3 V c 0 t) m l _)
      isplitl [H0]; · iexact H0
      isplitl [H1]; · iexists _; iexact H1
      isplitl [H2]; · iexists _; iexact H2
      isplitl [HS]; · iexact HS
      iintro ⟨H0, H1, H2, HS⟩
      isplitl [Hg HS Hr]
      · isplitl [Hg]; · iexact Hg
        isplitl [HS]; · iexact HS
        iexact Hr
      isplitl [Ho]; · iexact Ho
      isplitl [H0]; · iexact H0
      isplitl [H1]; · iexact H1
      iexact H2
    · have hc0 : ¬cond3_0 (grid3.coords t) := fun h => h0 ((hcond3_0 t).mp h)
      have hc1 : ¬cond3_1 (grid3.coords t) := fun h => h1 ((hcond3_1 t).mp h)
      rw [Dat.leavesExact_idle (dat3 V c) 1 t (idleAt3_1 t hc1) (noFlush3_1 t hc1),
        Dat.leavesExact_idle (dat3 V c) 2 t (idleAt3_2 t hc1) (noFlush3_2 t hc1)]
      rw [Phi3_of_pos V c _ h0, seq3_of_pos _ _ h0, zb3_val]
      generalize seq3 (zb3 V c) (t.val - 1) = p
      obtain ⟨m, l⟩ := p
      dsimp only
      iintro ⟨⟨Hg, HS, Hr⟩, Ho, ⟨%d0, H0⟩, ⟨%d1, H1⟩, ⟨%d2, H2⟩⟩
      iapply (body_run3_mid c Set.univ _ hc0 hc1 _ _ _ _ _ _ _ _ _ _ (iblk3 V c 0 t) _ _ m l _)
      isplitl [H0]; · iexact H0
      isplitl [H1]; · iexact H1
      isplitl [H2]; · iexact H2
      isplitl [HS]; · iexact HS
      iintro ⟨H0, H1, H2, HS⟩
      isplitl [Hg HS Hr]
      · isplitl [Hg]; · iexact Hg
        isplitl [HS]; · iexact HS
        iexact Hr
      isplitl [Ho]; · iexact Ho
      isplitl [H0]; · iexact H0
      isplitl [H1]; · iexists _; iexact H1
      iexists _; iexact H2

/-- The body obligation of pipeline 3: the body's triple at every point of the grid. -/
theorem body_obligation3 (c : Dev nD) : BodyObligation (dat3 (F := F) V c) (defs₀ (F := F)) Variants.none () Set.univ := fun t => by
  rw [bigSep_W3, bigSep_W3]
  exact sound_body3 V c t

/-! ## In and out of the invariant -/

/-- What the region is entered with — the generator register at some state and the core's scoped buffers outside the
    region's staging — is the invariant before the first point: the two scratch rows are split off the rest, each whole
    at some contents. -/
theorem Phi3_in (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 from rfl, Phi3_of_zero V c 0 rfl, scopedRest3_split]
  unfold scr3 scrAt
  simp only [scM3_0, scM3_1, owns_whole]
  iintro ⟨Hg, ⟨⟨%f0, H0⟩, ⟨%f1, H1⟩⟩, Hr⟩
  isplitl [Hg]; · iexact Hg
  isplitl [H0 H1]
  · iexists ((f0 : Vec F S1x4 .f32), (f1 : Vec F S1x4 .f32))
    isplitl [H0]; · iexact H0
    iexact H1
  iexact Hr

/-- After the last point the invariant gives them back: the scratch rows' contents are forgotten. -/
theorem Phi3_out (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c (99 + 1) from rfl, Phi3_succ, scopedRest3_split]
  generalize seq3 (zb3 V c) 99 = p
  unfold scr3 scrAt
  simp only [scM3_0, scM3_1, owns_whole]
  iintro ⟨Hg, ⟨H0, H1⟩, Hr⟩
  isplitl [Hg]; · iexact Hg
  isplitl [H0 H1]
  · isplitl [H0]; · iexists _; iexact H0
    iexists _; iexact H1
  iexact Hr

/-! ## What the two results end at -/

/-- The last point of the grid. -/
def t3_99 : Fin cfg3.N := ⟨99, lt_of_lt_of_eq (by decide : 99 < 100) N_3.symm⟩

/-- The first result ends at the running maximum row after the last point: its one block is the whole array, and
    the one write-back, at the last point, overwrites it with what the body left. -/
theorem final3_max (c : Dev nD) : (dat3 V c).arrAt 1 cfg3.N = (seq3 (zb3 V c) 99).1 := by
  have h : (dat3 V c).arrAt 1 cfg3.N = (dat3 V c).arrAt 1 (t3_99.val + 1) := congrArg ((dat3 V c).arrAt 1) N_3
  rw [h, (dat3 V c).arrAt_succ 1 t3_99, if_pos ((flush3_1 t3_99).mpr rfl)]
  show ((cfg3.win 1).blk t3_99).view.write (Elt F) _ ((cfg3.win 1).cut (grid3.coords t3_99) ((dat3 V c).after 1 t3_99)) Finset.univ = _
  rw [after3_1]
  have hz : (fun a => win3_1.index t3_99 a * main_v118_0.ty.shape.size a) = fun _ => 0 := funext fun a => by fin_cases a <;> rfl
  exact Memref.write_access_unit_zero_univ (Elt F) main_v118_0 hz (fun a => by rw [congrFun hz a]; simp) _ _

/-- The second result ends at the running sum row after the last point, likewise. -/
theorem final3_sum (c : Dev nD) : (dat3 V c).arrAt 2 cfg3.N = (seq3 (zb3 V c) 99).2 := by
  have h : (dat3 V c).arrAt 2 cfg3.N = (dat3 V c).arrAt 2 (t3_99.val + 1) := congrArg ((dat3 V c).arrAt 2) N_3
  rw [h, (dat3 V c).arrAt_succ 2 t3_99, if_pos ((flush3_2 t3_99).mpr rfl)]
  show ((cfg3.win 2).blk t3_99).view.write (Elt F) _ ((cfg3.win 2).cut (grid3.coords t3_99) ((dat3 V c).after 2 t3_99)) Finset.univ = _
  rw [after3_2]
  have hz : (fun a => win3_2.index t3_99 a * main_v118_1.ty.shape.size a) = fun _ => 0 := funext fun a => by fin_cases a <;> rfl
  exact Memref.write_access_unit_zero_univ (Elt F) main_v118_1 hz (fun a => by rw [congrFun hz a]; simp) _ _

end Cert.KernelIdeal.Hand

end
-- ==== Proof.KI.Reg4.lean ====
/-
  Region 4 of @main (the normalisation of the column softmax): out = exp(z − m) / l, five thousand rows at a time.
  The grid has 100 points. At point t the body is handed rows [5000·t, 5000·(t+1)) of z (window 0), the row of column
  maxima m (window 1), the row of column sums l (window 2) and the matching rows of the result (window 3); it overwrites
  the latter with exp(z − m) / l, the two rows repeated down the block. Nothing is kept between points and no scratch is
  used, so the invariant is the untouched rest of the core.
  Stated at ANY contents V of the core's buffers at the region's entry and at any float instance: the proof data of
  the pipeline, what the result window's buffer holds after the body, and the body's obligation at every point.
-/
import proofs.«133038_j66116726555434_1_alg».proof.Proof.Gen.KernelIdeal.Launch
import proofs.«133038_j66116726555434_1_alg».proof.Proof.Gen.KernelIdeal.Skeleton
import proofs.«133038_j66116726555434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window w's block at point t, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows of z: whatever proof data has V's array behind window 0 and leaves the block in place finds the block
    in the current staging buffer at every point (the window is fetched at every point). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The row of maxima m: fetched at the first point only, its block index never moves, so the buffer still holds it at
    every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The row of sums l: fetched at the first point only, its block index never moves, so the buffer still holds it at
    every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the result window's buffer -/

abbrev rz4 : Rect S5000x4 := Rect.unit (s := S5000x4) ![0, 0] S5000x4.size inb_S5000x4_S5000x4_0_0
abbrev rr4 : Rect S1x4 := Rect.unit (s := S1x4) ![0, 0] S1x4.size inb_S1x4_S1x4_0_0

/-- The result buffer after the body: one store of the whole block, exp(z − m) / l of the three blocks read. -/
def out4_3 (x0 : Vec F S5000x4 .f32) (x1 : Vec F S1x4 .f32) (x2 : Vec F S1x4 .f32) : Vec F S5000x4 .f32 :=
  View.canon [⟨rz4, k4_pay1 (View.ld x0 rz4) (View.ld x1 rr4) (View.ld x2 rr4)⟩]

/-- The one store covers the buffer. -/
theorem cover4_3 (p0 : Vec F S5000x4 .f32) (y : S5000x4.Idx) :
    ∃ pc ∈ ([⟨rz4, p0⟩] : List (View.Piece (Elt F) S5000x4 .f32)), y ∈ pc.1.set :=
  View.cover_of_tiled [⟨rz4, p0⟩] S5000x4.size (by rfl) y

/-! ## The body's triple -/

set_option maxHeartbeats 1000000 in
/-- On whole staging memrefs, the three inputs' at known contents and the result's at anything, the body runs to a state
    with the inputs' as they were and the result's at out4_3 of them. -/
theorem body_run4 (c : Dev nD) (E : Set ℕ) (i : grid4.Coords)
    (a1 : Memref sig .tc .vmem S5000x4 .f32) (h1 : a1.IsWhole) (a2 : Memref sig .tc .vmem S1x4 .f32) (h2 : a2.IsWhole)
    (a3 : Memref sig .tc .vmem S1x4 .f32) (h3 : a3.IsWhole) (a4 : Memref sig .tc .vmem S5000x4 .f32) (h4 : a4.IsWhole)
    (x0 : Vec F S5000x4 .f32) (x1 : Vec F S1x4 .f32) (x2 : Vec F S1x4 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out4_3 x0 x1 x2)) -∗ K ⟨⟩))
      ⊢ wp frame (wpE (defs₀ (F := F)) Variants.none c none) E (cc4__softmax_norm_kernel i a1 h1 a2 h2 a3 h3 a4 h4) K := by
  simp only [cc4__softmax_norm_kernel_eq_skeleton]; unfold cc4__softmax_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- Pipeline 4's proof data on core c: the arrays as the region finds them; after the body at point t each input's
    buffer still at its block and the result's at exp(z − m) / l of the three blocks; the rest of the core untouched;
    nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The array behind window w is the one the region finds. -/
theorem A_eq4 (c : Dev nD) (w : Fin cfg4.W) : (dat4 V c).A w = V c (Pipeline.arrRef spec4 w) := by
  dsimp only [dat4]

/-- After the body the buffer of z's rows still holds the block. -/
theorem after4_0 (c : Dev nD) (t : Fin cfg4.N) : (dat4 V c).after 0 t = iblk4 V c 0 t := by dsimp only [dat4]
/-- After the body the buffer of m still holds the row. -/
theorem after4_1 (c : Dev nD) (t : Fin cfg4.N) : (dat4 V c).after 1 t = iblk4 V c 1 t := by dsimp only [dat4]
/-- After the body the buffer of l still holds the row. -/
theorem after4_2 (c : Dev nD) (t : Fin cfg4.N) : (dat4 V c).after 2 t = iblk4 V c 2 t := by dsimp only [dat4]
/-- After the body the result's buffer holds exp(z − m) / l of the three blocks. -/
theorem after4_3 (c : Dev nD) (t : Fin cfg4.N) :
    (dat4 V c).after 3 t = out4_3 (iblk4 V c 0 t) (iblk4 V c 1 t) (iblk4 V c 2 t) := by dsimp only [dat4]

/-- Before the body at point t the buffer of z's rows holds block t. -/
theorem before4_0 (c : Dev nD) (t : Fin cfg4.N) (d) : (dat4 V c).before 0 t d = iblk4 V c 0 t :=
  before4_0_of V (dat4 V c) (A_eq4 V c 0) (after4_0 V c) t d
/-- Before the body at every point the buffer of m holds the row. -/
theorem before4_1 (c : Dev nD) (t : Fin cfg4.N) (d) : (dat4 V c).before 1 t d = iblk4 V c 1 t :=
  before4_1_of V (dat4 V c) (A_eq4 V c 1) (after4_1 V c) t d
/-- Before the body at every point the buffer of l holds the row. -/
theorem before4_2 (c : Dev nD) (t : Fin cfg4.N) (d) : (dat4 V c).before 2 t d = iblk4 V c 2 t :=
  before4_2_of V (dat4 V c) (A_eq4 V c 2) (after4_2 V c) t d

/-! ## The body obligation at a generic point -/

/-- What the body is handed at point t: the invariant, nothing owed, and the four staging buffers whole, each input's
    at its contents before the body and the result's at anything. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What the body hands back at point t: the same invariant, nothing owed, and the four staging buffers at their
    contents after the body. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at point t takes the one to the other: the inputs' buffers are read and kept, the result's overwritten. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (body_run4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the grid, for the proof data above. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The idealized kernel's @main assembled from its five regions: the contents each region leaves in the buffers it may
  change (a matrix product's rows, the MLP's result, the two statistics rows, the normalised result), the five regions'
  proof data each at the contents its region is entered from, each region as a segment between the generated host
  stretches, and the run: every weakly fair execution terminates with the arguments as launched and the result buffer at
  what region 4 leaves.
-/
import proofs.«133038_j66116726555434_1_alg».proof.Proof.KI.RunCond
import proofs.«133038_j66116726555434_1_alg».proof.Proof.KI.Reg0
import proofs.«133038_j66116726555434_1_alg».proof.Proof.KI.Reg1
import proofs.«133038_j66116726555434_1_alg».proof.Proof.KI.Reg2
import proofs.«133038_j66116726555434_1_alg».proof.Proof.KI.Reg3
import proofs.«133038_j66116726555434_1_alg».proof.Proof.KI.Reg4
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- A valuation read at the TensorCore's references. -/
abbrev atRefs (W : Dev nD → Valuation τ sig (Elt F)) : (c : Dev nD) → (b : Ref sig .tc) → Buf (Elt F) ((c : Thread nD τ).loc b) :=
  fun c b => W c b

/-- No region has run: every buffer at its launch contents. -/
def outsBase : Outs (F := F) := fun _ r c => m ((c : Thread nD τ).loc r)

/-- `o` with buffer `r₀` set to `a`. -/
def setOut (o : Outs (F := F)) (r₀ : Ref sig .tc) (a : (c : Dev nD) → Buf (Elt F) ((c : Thread nD τ).loc r₀)) : Outs (F := F) :=
  fun J r c => Function.update (fun r => o J r c) r₀ (a c) r

theorem setOut_self (o : Outs (F := F)) (r₀ : Ref sig .tc) (a) (J : ℕ) (c : Dev nD) : setOut o r₀ a J r₀ c = a c := by
  unfold setOut; exact Function.update_self _ _ _
theorem setOut_ne (o : Outs (F := F)) (r₀ : Ref sig .tc) (a) (J : ℕ) (r : Ref sig .tc) (h : r ≠ r₀) (c : Dev nD) : setOut o r₀ a J r c = o J r c := by
  unfold setOut; exact Function.update_of_ne h _ _

/-- After region 0: the product x · W₁ in `main_v30`. -/
def outs0 : Outs (F := F) := setOut (outsBase m) main_v30 fun c => (dat0 (atRefs (V3 m)) c).arrAt 2 cfg0.N
/-- After region 1: the second product in `main_v77`. -/
def outs1 : Outs (F := F) := setOut (outs0 m) main_v77 fun c => (dat1 (atRefs (V7 m (outs0 m))) c).arrAt 2 cfg1.N
/-- After region 2: the MLP's result in `main_v117`. -/
def outs2 : Outs (F := F) := setOut (outs1 m) main_v117 fun c => (dat2 (atRefs (V9 m (outs1 m))) c).arrAt 7 cfg2.N
/-- After region 3: the two statistics rows in `main_v118_0`, `main_v118_1`. -/
def outs3 : Outs (F := F) :=
  setOut (setOut (outs2 m) main_v118_0 fun c => (dat3 (atRefs (V10 m (outs2 m))) c).arrAt 1 cfg3.N)
    main_v118_1 fun c => (dat3 (atRefs (V10 m (outs2 m))) c).arrAt 2 cfg3.N
/-- After region 4: the normalised result in `main_v119`. -/
def outs4 : Outs (F := F) := setOut (outs3 m) main_v119 fun c => (dat4 (atRefs (V11 m (outs3 m))) c).arrAt 3 cfg4.N

/-- What the regions leave, all of it. -/
abbrev outs : Outs (F := F) := outs4 m

theorem outs4_of_ne (J : ℕ) (r : Ref sig .tc) (h : r ≠ main_v119) (c : Dev nD) : outs4 m J r c = outs3 m J r c := by
  unfold outs4; exact setOut_ne _ _ _ _ _ h _
theorem outs3_of_ne (J : ℕ) (r : Ref sig .tc) (h0 : r ≠ main_v118_0) (h1 : r ≠ main_v118_1) (c : Dev nD) : outs3 m J r c = outs2 m J r c := by
  unfold outs3; exact (setOut_ne _ _ _ _ _ h1 _).trans (setOut_ne _ _ _ _ _ h0 _)
theorem outs2_of_ne (J : ℕ) (r : Ref sig .tc) (h : r ≠ main_v117) (c : Dev nD) : outs2 m J r c = outs1 m J r c := by
  unfold outs2; exact setOut_ne _ _ _ _ _ h _
theorem outs1_of_ne (J : ℕ) (r : Ref sig .tc) (h : r ≠ main_v77) (c : Dev nD) : outs1 m J r c = outs0 m J r c := by
  unfold outs1; exact setOut_ne _ _ _ _ _ h _

/-- `main_v30` holds region 0's product from region 0 on. -/
theorem outs_v30 (J : ℕ) (c : Dev nD) : outs m J main_v30 c = (dat0 (atRefs (V3 m)) c).arrAt 2 cfg0.N :=
  (outs4_of_ne m J _ (by decide) c).trans <| (outs3_of_ne m J _ (by decide) (by decide) c).trans <|
    (outs2_of_ne m J _ (by decide) c).trans <| (outs1_of_ne m J _ (by decide) c).trans <| by unfold outs0; exact setOut_self _ _ _ _ _
theorem outs0_v30 (J : ℕ) (c : Dev nD) : outs0 m J main_v30 c = (dat0 (atRefs (V3 m)) c).arrAt 2 cfg0.N := by
  unfold outs0; exact setOut_self _ _ _ _ _

/-- The contents before region 1 depend on what the regions leave only through `main_v30`. -/
theorem V7_congr (o o' : Outs (F := F)) (h : ∀ c, o 4 main_v30 c = o' 4 main_v30 c) (c : Dev nD) : V7 m o c = V7 m o' c := by
  dsimp only [V7, V6, V5, V4]; rw [h c]
/-- … before region 2, also through `main_v77`. -/
theorem V9_congr (o o' : Outs (F := F)) (h : ∀ c, o 4 main_v30 c = o' 4 main_v30 c) (h1 : ∀ c, o 8 main_v77 c = o' 8 main_v77 c) (c : Dev nD) : V9 m o c = V9 m o' c := by
  dsimp only [V9, V8, V7, V6, V5, V4]; rw [h c, h1 c]
/-- … before region 3, also through `main_v117`. -/
theorem V10_congr (o o' : Outs (F := F)) (h : ∀ c, o 4 main_v30 c = o' 4 main_v30 c) (h1 : ∀ c, o 8 main_v77 c = o' 8 main_v77 c)
    (h2 : ∀ c, o 10 main_v117 c = o' 10 main_v117 c) (c : Dev nD) : V10 m o c = V10 m o' c := by
  dsimp only [V10, V9, V8, V7, V6, V5, V4]; rw [h c, h1 c, h2 c]
/-- … before region 4, also through the two statistics rows. -/
theorem V11_congr (o o' : Outs (F := F)) (h : ∀ c, o 4 main_v30 c = o' 4 main_v30 c) (h1 : ∀ c, o 8 main_v77 c = o' 8 main_v77 c)
    (h2 : ∀ c, o 10 main_v117 c = o' 10 main_v117 c) (h3 : ∀ c, o 11 main_v118_0 c = o' 11 main_v118_0 c) (h4 : ∀ c, o 11 main_v118_1 c = o' 11 main_v118_1 c)
    (c : Dev nD) : V11 m o c = V11 m o' c := by
  dsimp only [V11, V10, V9, V8, V7, V6, V5, V4]; rw [h c, h1 c, h2 c, h3 c, h4 c]

theorem outs_eq0_v30 (c : Dev nD) : outs m 4 main_v30 c = outs0 m 4 main_v30 c := (outs_v30 m 4 c).trans (outs0_v30 m 4 c).symm
theorem outs_eq1_v30 (c : Dev nD) : outs m 4 main_v30 c = outs1 m 4 main_v30 c := (outs_eq0_v30 m c).trans (outs1_of_ne m 4 _ (by decide) c).symm
theorem outs_eq2_v30 (c : Dev nD) : outs m 4 main_v30 c = outs2 m 4 main_v30 c := (outs_eq1_v30 m c).trans (outs2_of_ne m 4 _ (by decide) c).symm
theorem outs_eq3_v30 (c : Dev nD) : outs m 4 main_v30 c = outs3 m 4 main_v30 c := (outs_eq2_v30 m c).trans (outs3_of_ne m 4 _ (by decide) (by decide) c).symm
theorem outs_eq1_v77 (c : Dev nD) : outs m 8 main_v77 c = outs1 m 8 main_v77 c :=
  (outs4_of_ne m 8 _ (by decide) c).trans <| (outs3_of_ne m 8 _ (by decide) (by decide) c).trans (outs2_of_ne m 8 _ (by decide) c)
theorem outs_eq2_v77 (c : Dev nD) : outs m 8 main_v77 c = outs2 m 8 main_v77 c := (outs_eq1_v77 m c).trans (outs2_of_ne m 8 _ (by decide) c).symm
theorem outs_eq3_v77 (c : Dev nD) : outs m 8 main_v77 c = outs3 m 8 main_v77 c := (outs_eq2_v77 m c).trans (outs3_of_ne m 8 _ (by decide) (by decide) c).symm
theorem outs_eq2_v117 (c : Dev nD) : outs m 10 main_v117 c = outs2 m 10 main_v117 c :=
  (outs4_of_ne m 10 _ (by decide) c).trans (outs3_of_ne m 10 _ (by decide) (by decide) c)
theorem outs_eq3_v117 (c : Dev nD) : outs m 10 main_v117 c = outs3 m 10 main_v117 c := outs4_of_ne m 10 _ (by decide) c
theorem outs_eq3_v118_0 (c : Dev nD) : outs m 11 main_v118_0 c = outs3 m 11 main_v118_0 c := outs4_of_ne m 11 _ (by decide) c
theorem outs_eq3_v118_1 (c : Dev nD) : outs m 11 main_v118_1 c = outs3 m 11 main_v118_1 c := outs4_of_ne m 11 _ (by decide) c

theorem V7_eq : V7 m (outs m) = V7 m (outs0 m) := funext fun c => V7_congr m _ _ (outs_eq0_v30 m) c
theorem V9_eq : V9 m (outs m) = V9 m (outs1 m) := funext fun c => V9_congr m _ _ (outs_eq1_v30 m) (outs_eq1_v77 m) c
theorem V10_eq : V10 m (outs m) = V10 m (outs2 m) := funext fun c => V10_congr m _ _ (outs_eq2_v30 m) (outs_eq2_v77 m) (outs_eq2_v117 m) c
theorem V11_eq : V11 m (outs m) = V11 m (outs3 m) :=
  funext fun c => V11_congr m _ _ (outs_eq3_v30 m) (outs_eq3_v77 m) (outs_eq3_v117 m) (outs_eq3_v118_0 m) (outs_eq3_v118_1 m) c

/-! ## The proof data family, each pipeline's at the contents its region is entered from -/

def pdats : (p : Fin 5) → (c : Dev nD) → Dat τ (Elt F) Unit ℕ (UR sig nD τ) ℕ (cfgs p) c
  | ⟨0, _⟩ => fun c => dat0 (atRefs (V3 m)) c
  | ⟨1, _⟩ => fun c => dat1 (atRefs (V7 m (outs m))) c
  | ⟨2, _⟩ => fun c => dat2 (atRefs (V9 m (outs m))) c
  | ⟨3, _⟩ => fun c => dat3 (atRefs (V10 m (outs m))) c
  | ⟨4, _⟩ => fun c => dat4 (atRefs (V11 m (outs m))) c

/-! ## What each region's output arrays hold at its exit -/

theorem exitSet0_2 (c : Dev nD) : atRefs (V4 m (outs m)) c (Pipeline.arrRef spec0 2) = (pdats m 0 c).arrAt 2 cfg0.N := by
  show V4 m (outs m) c main_v30 = (dat0 (atRefs (V3 m)) c).arrAt 2 cfg0.N
  dsimp only [V4]; rw [Function.update_self]; exact outs_v30 m 4 c
theorem exitSet1_2 (c : Dev nD) : atRefs (V8 m (outs m)) c (Pipeline.arrRef spec1 2) = (pdats m 1 c).arrAt 2 cfg1.N := by
  show V8 m (outs m) c main_v77 = (dat1 (atRefs (V7 m (outs m))) c).arrAt 2 cfg1.N
  dsimp only [V8]; rw [Function.update_self, outs_eq1_v77 m c, V7_eq m]; unfold outs1; exact setOut_self _ _ _ _ _
theorem exitSet2_7 (c : Dev nD) : atRefs (V10 m (outs m)) c (Pipeline.arrRef spec2 7) = (pdats m 2 c).arrAt 7 cfg2.N := by
  show V10 m (outs m) c main_v117 = (dat2 (atRefs (V9 m (outs m))) c).arrAt 7 cfg2.N
  dsimp only [V10]; rw [Function.update_self, outs_eq2_v117 m c, V9_eq m]; unfold outs2; exact setOut_self _ _ _ _ _
theorem exitSet3_1 (c : Dev nD) : atRefs (V11 m (outs m)) c (Pipeline.arrRef spec3 1) = (pdats m 3 c).arrAt 1 cfg3.N := by
  show V11 m (outs m) c main_v118_0 = (dat3 (atRefs (V10 m (outs m))) c).arrAt 1 cfg3.N
  dsimp only [V11]; rw [Function.update_of_ne (StableHlo.devRef_ne_of_ne (by decide : (main_v118_0 : Ref sig .tc) ≠ main_v118_1)), Function.update_self, outs_eq3_v118_0 m c, V10_eq m]
  unfold outs3; exact (setOut_ne _ _ _ _ _ (by decide) _).trans (setOut_self _ _ _ _ _)
theorem exitSet3_2 (c : Dev nD) : atRefs (V11 m (outs m)) c (Pipeline.arrRef spec3 2) = (pdats m 3 c).arrAt 2 cfg3.N := by
  show V11 m (outs m) c main_v118_1 = (dat3 (atRefs (V10 m (outs m))) c).arrAt 2 cfg3.N
  dsimp only [V11]; rw [Function.update_self, outs_eq3_v118_1 m c, V10_eq m]
  unfold outs3; exact setOut_self _ _ _ _ _
theorem exitSet4_3 (c : Dev nD) : atRefs (V12 m (outs m)) c (Pipeline.arrRef spec4 3) = (pdats m 4 c).arrAt 3 cfg4.N := by
  show V12 m (outs m) c main_v119 = (dat4 (atRefs (V11 m (outs m))) c).arrAt 3 cfg4.N
  dsimp only [V12]; rw [Function.update_self, V11_eq m]; show outs4 m 12 main_v119 c = _; unfold outs4; exact setOut_self _ _ _ _ _

/-- Region 0 changes only `main_v30`: every other buffer is after it what it was before. -/
theorem exitKeeps0 (c : Dev nD) (b : Ref sig .tc) (hb : b ≠ main_v30) : atRefs (V4 m (outs m)) c b = atRefs (V3 m) c b := by
  show V4 m (outs m) c b = V3 m c b
  exact Function.update_of_ne (StableHlo.devRef_ne_of_ne hb) _ _
theorem exitRest0 (c : Dev nD) : ∀ b, b ∉ Finset.univ.image (Pipeline.arrRef spec0) → atRefs (V4 m (outs m)) c b = atRefs (V3 m) c b := fun b hb =>
  exitKeeps0 m c b (fun e => hb (Finset.mem_image.mpr ⟨2, Finset.mem_univ _, e.symm⟩))
set_option maxHeartbeats 4000000 in
/-- After region 0 each of its windows' arrays holds what the pipeline leaves in it. -/
theorem exitArr0 (c : Dev nD) : ∀ w : Fin cfg0.W, (pdats m 0 c).arrAt w cfg0.N = atRefs (V4 m (outs m)) c (Pipeline.arrRef spec0 w)
  | ⟨0, _⟩ => ((pdats m 0 c).arrAt_in 0 rfl _).trans ((exitKeeps0 m c main_arg0 (by decide)).symm)
  | ⟨1, _⟩ => ((pdats m 0 c).arrAt_in 1 rfl _).trans ((exitKeeps0 m c main_arg2 (by decide)).symm)
  | ⟨2, _⟩ => (exitSet0_2 m c).symm

/-- Region 1 changes only `main_v77`: every other buffer is after it what it was before. -/
theorem exitKeeps1 (c : Dev nD) (b : Ref sig .tc) (hb : b ≠ main_v77) : atRefs (V8 m (outs m)) c b = atRefs (V7 m (outs m)) c b := by
  show V8 m (outs m) c b = V7 m (outs m) c b
  exact Function.update_of_ne (StableHlo.devRef_ne_of_ne hb) _ _
theorem exitRest1 (c : Dev nD) : ∀ b, b ∉ Finset.univ.image (Pipeline.arrRef spec1) → atRefs (V8 m (outs m)) c b = atRefs (V7 m (outs m)) c b := fun b hb =>
  exitKeeps1 m c b (fun e => hb (Finset.mem_image.mpr ⟨2, Finset.mem_univ _, e.symm⟩))
set_option maxHeartbeats 4000000 in
/-- After region 1 each of its windows' arrays holds what the pipeline leaves in it. -/
theorem exitArr1 (c : Dev nD) : ∀ w : Fin cfg1.W, (pdats m 1 c).arrAt w cfg1.N = atRefs (V8 m (outs m)) c (Pipeline.arrRef spec1 w)
  | ⟨0, _⟩ => ((pdats m 1 c).arrAt_in 0 rfl _).trans ((exitKeeps1 m c main_v46 (by decide)).symm)
  | ⟨1, _⟩ => ((pdats m 1 c).arrAt_in 1 rfl _).trans ((exitKeeps1 m c main_arg4 (by decide)).symm)
  | ⟨2, _⟩ => (exitSet1_2 m c).symm

/-- Region 2 changes only `main_v117`: every other buffer is after it what it was before. -/
theorem exitKeeps2 (c : Dev nD) (b : Ref sig .tc) (hb : b ≠ main_v117) : atRefs (V10 m (outs m)) c b = atRefs (V9 m (outs m)) c b := by
  show V10 m (outs m) c b = V9 m (outs m) c b
  exact Function.update_of_ne (StableHlo.devRef_ne_of_ne hb) _ _
theorem exitRest2 (c : Dev nD) : ∀ b, b ∉ Finset.univ.image (Pipeline.arrRef spec2) → atRefs (V10 m (outs m)) c b = atRefs (V9 m (outs m)) c b := fun b hb =>
  exitKeeps2 m c b (fun e => hb (Finset.mem_image.mpr ⟨7, Finset.mem_univ _, e.symm⟩))
set_option maxHeartbeats 4000000 in
/-- After region 2 each of its windows' arrays holds what the pipeline leaves in it. -/
theorem exitArr2 (c : Dev nD) : ∀ w : Fin cfg2.W, (pdats m 2 c).arrAt w cfg2.N = atRefs (V10 m (outs m)) c (Pipeline.arrRef spec2 w)
  | ⟨0, _⟩ => ((pdats m 2 c).arrAt_in 0 rfl _).trans ((exitKeeps2 m c main_v113 (by decide)).symm)
  | ⟨1, _⟩ => ((pdats m 2 c).arrAt_in 1 rfl _).trans ((exitKeeps2 m c main_arg8 (by decide)).symm)
  | ⟨2, _⟩ => ((pdats m 2 c).arrAt_in 2 rfl _).trans ((exitKeeps2 m c main_v114 (by decide)).symm)
  | ⟨3, _⟩ => ((pdats m 2 c).arrAt_in 3 rfl _).trans ((exitKeeps2 m c main_arg10 (by decide)).symm)
  | ⟨4, _⟩ => ((pdats m 2 c).arrAt_in 4 rfl _).trans ((exitKeeps2 m c main_v115 (by decide)).symm)
  | ⟨5, _⟩ => ((pdats m 2 c).arrAt_in 5 rfl _).trans ((exitKeeps2 m c main_arg12 (by decide)).symm)
  | ⟨6, _⟩ => ((pdats m 2 c).arrAt_in 6 rfl _).trans ((exitKeeps2 m c main_v116 (by decide)).symm)
  | ⟨7, _⟩ => (exitSet2_7 m c).symm

/-- Region 3 changes only `main_v118_0`, `main_v118_1`: every other buffer is after it what it was before. -/
theorem exitKeeps3 (c : Dev nD) (b : Ref sig .tc) (hb : b ≠ main_v118_0 ∧ b ≠ main_v118_1) : atRefs (V11 m (outs m)) c b = atRefs (V10 m (outs m)) c b := by
  show V11 m (outs m) c b = V10 m (outs m) c b
  exact (Function.update_of_ne (StableHlo.devRef_ne_of_ne hb.2) _ _).trans (Function.update_of_ne (StableHlo.devRef_ne_of_ne hb.1) _ _)
theorem exitRest3 (c : Dev nD) : ∀ b, b ∉ Finset.univ.image (Pipeline.arrRef spec3) → atRefs (V11 m (outs m)) c b = atRefs (V10 m (outs m)) c b := fun b hb =>
  exitKeeps3 m c b ⟨fun e => hb (Finset.mem_image.mpr ⟨1, Finset.mem_univ _, e.symm⟩), fun e => hb (Finset.mem_image.mpr ⟨2, Finset.mem_univ _, e.symm⟩)⟩
set_option maxHeartbeats 4000000 in
/-- After region 3 each of its windows' arrays holds what the pipeline leaves in it. -/
theorem exitArr3 (c : Dev nD) : ∀ w : Fin cfg3.W, (pdats m 3 c).arrAt w cfg3.N = atRefs (V11 m (outs m)) c (Pipeline.arrRef spec3 w)
  | ⟨0, _⟩ => ((pdats m 3 c).arrAt_in 0 rfl _).trans ((exitKeeps3 m c main_v117 (by decide)).symm)
  | ⟨1, _⟩ => (exitSet3_1 m c).symm
  | ⟨2, _⟩ => (exitSet3_2 m c).symm

/-- Region 4 changes only `main_v119`: every other buffer is after it what it was before. -/
theorem exitKeeps4 (c : Dev nD) (b : Ref sig .tc) (hb : b ≠ main_v119) : atRefs (V12 m (outs m)) c b = atRefs (V11 m (outs m)) c b := by
  show V12 m (outs m) c b = V11 m (outs m) c b
  exact Function.update_of_ne (StableHlo.devRef_ne_of_ne hb) _ _
theorem exitRest4 (c : Dev nD) : ∀ b, b ∉ Finset.univ.image (Pipeline.arrRef spec4) → atRefs (V12 m (outs m)) c b = atRefs (V11 m (outs m)) c b := fun b hb =>
  exitKeeps4 m c b (fun e => hb (Finset.mem_image.mpr ⟨3, Finset.mem_univ _, e.symm⟩))
set_option maxHeartbeats 4000000 in
/-- After region 4 each of its windows' arrays holds what the pipeline leaves in it. -/
theorem exitArr4 (c : Dev nD) : ∀ w : Fin cfg4.W, (pdats m 4 c).arrAt w cfg4.N = atRefs (V12 m (outs m)) c (Pipeline.arrRef spec4 w)
  | ⟨0, _⟩ => ((pdats m 4 c).arrAt_in 0 rfl _).trans ((exitKeeps4 m c main_v117 (by decide)).symm)
  | ⟨1, _⟩ => ((pdats m 4 c).arrAt_in 1 rfl _).trans ((exitKeeps4 m c main_v118_0 (by decide)).symm)
  | ⟨2, _⟩ => ((pdats m 4 c).arrAt_in 2 rfl _).trans ((exitKeeps4 m c main_v118_1 (by decide)).symm)
  | ⟨3, _⟩ => (exitSet4_3 m c).symm

/-! ## The thread state between segments -/

/-- No core owes another anything: no level is assigned. -/
abbrev L0 : GSem nD τ sig → Finset Unit := fun _ => ∅
abbrev lv0 : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Region 0 as a segment: entered with every unscoped buffer at the contents before it, left with them at the contents
    after it; its windows' arrays are split out of the unscoped buffers at entry and put back at exit; the generator
    register goes into the invariant and comes back; nothing is owed and the kernel has no semaphore of its own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atRefs (V3 m)) c).loose
  hwaits := Pipeline.hwaits_of_owed_zero _ _ _ _ L0 lv0 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atRefs (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V3 m) c) (atRefs (V4 m (outs m)) c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at the contents before it, left with them at the contents
    after it; its windows' arrays are split out of the unscoped buffers at entry and put back at exit; the generator
    register goes into the invariant and comes back; nothing is owed and the kernel has no semaphore of its own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atRefs (V7 m (outs m))) c).loose
  hwaits := Pipeline.hwaits_of_owed_zero _ _ _ _ L0 lv0 1 fun _ _ => rfl
  pre c := iprop(StableHlo.held (c : Thread nD τ) (Pipeline.ucRefs τ sig) (V7 m (outs m) c) ∗ Rst c)
  post c := iprop(StableHlo.held (c : Thread nD τ) (Pipeline.ucRefs τ sig) (V8 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atRefs (V7 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V7 m (outs m)) c) (atRefs (V8 m (outs m)) c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at the contents before it, left with them at the contents
    after it; its windows' arrays are split out of the unscoped buffers at entry and put back at exit; the generator
    register goes into the invariant and comes back; nothing is owed and the kernel has no semaphore of its own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atRefs (V9 m (outs m))) c).loose
  hwaits := Pipeline.hwaits_of_owed_zero _ _ _ _ L0 lv0 2 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atRefs (V9 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V9 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (V9 m (outs m)) c) (atRefs (V10 m (outs m)) c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 as a segment: entered with every unscoped buffer at the contents before it, left with them at the contents
    after it; its windows' arrays are split out of the unscoped buffers at entry and put back at exit; the generator
    register goes into the invariant and comes back; nothing is owed and the kernel has no semaphore of its own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atRefs (V10 m (outs m))) c).loose
  hwaits := Pipeline.hwaits_of_owed_zero _ _ _ _ L0 lv0 3 fun _ _ => rfl
  pre c := iprop(StableHlo.held (c : Thread nD τ) (Pipeline.ucRefs τ sig) (V10 m (outs m) c) ∗ Rst c)
  post c := iprop(StableHlo.held (c : Thread nD τ) (Pipeline.ucRefs τ sig) (V11 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atRefs (V10 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (V10 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (atRefs (V10 m (outs m))) c).Φ 0 from rfl]
    iintro ⟨Hp, -, Hr⟩
    iapply (Phi3_in (atRefs (V10 m (outs m))) c)
    isplitl [Hp]; · iexact Hp
    iexact Hr
  hout c := by
    rw [Pipeline.ownSems0_none, show (pdats m 3 c).Φ (Fin.last _) = (dat3 (atRefs (V10 m (outs m))) c).Φ (Fin.last cfg3.N) from rfl]
    iintro H
    ihave H' := (Phi3_out (atRefs (V10 m (outs m))) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (V10 m (outs m)) c) (atRefs (V11 m (outs m)) c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 as a segment: entered with every unscoped buffer at the contents before it, left with them at the contents
    after it; its windows' arrays are split out of the unscoped buffers at entry and put back at exit; the generator
    register goes into the invariant and comes back; nothing is owed and the kernel has no semaphore of its own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atRefs (V11 m (outs m))) c).loose
  hwaits := Pipeline.hwaits_of_owed_zero _ _ _ _ L0 lv0 4 fun _ _ => rfl
  pre c := iprop(StableHlo.held (c : Thread nD τ) (Pipeline.ucRefs τ sig) (V11 m (outs m) c) ∗ Rst c)
  post c := iprop(StableHlo.held (c : Thread nD τ) (Pipeline.ucRefs τ sig) (V12 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (atRefs (V11 m (outs m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (V11 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (V11 m (outs m)) c) (atRefs (V12 m (outs m)) c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of @main terminates; the result buffer ends at what region 4 leaves and every argument
    as launched. -/
theorem run_main (ρ : Dev nD → PrngReg) :
    θ_run defs (onTc (τ := τ) (main (F := F))) ⟨m, fun _ => 0, ρ⟩ (fun r => ∀ c : Dev nD,
      r.2.mem ((c.tc : Thread nD τ).loc main_v119) = V12 m (outs m) c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_cond m emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L0 lv0 fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)

end Cert.KernelIdeal.Hand

end
-- ==== Proof.Spec.lean ====
/-
  The mathematics both programs compute, stated once over plain arrays of extended reals and importing no program:
  a matrix product entry by entry, the addition of a bias row to every row, and the softmax of every COLUMN of a
  matrix (the normalisation runs down axis 0): the column's maximum, the column's sum of exponentials shifted by that
  maximum, and the quotient. Also the two running quantities of the one-pass ("online") column softmax over
  consecutive blocks of rows, as recursions on the number of blocks seen.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns. -/
abbrev Arr2 (a b : ℕ) : Type := (⟨2, ![a, b]⟩ : Shape).Idx → EReal

/-- Entry (r, j) of a matrix. -/
abbrev at2 {a b : ℕ} (x : Arr2 a b) (r : Fin a) (j : Fin b) : EReal := x (ix2 r j)

/-- The matrix product: entry (r, j) is the sum over k of x(r, k) · w(k, j). -/
def mm {M K N : ℕ} (x : Arr2 M K) (w : Arr2 K N) : Arr2 M N :=
  fun i => ∑ k : Fin K, x (ix2 (n0 := M) (n1 := K) (i 0) k) * w (ix2 (n0 := K) (n1 := N) k (i 1))

/-- Add the one row `b` to every row of `y`. -/
def addRow {M N : ℕ} (y : Arr2 M N) (b : Arr2 1 N) : Arr2 M N :=
  fun i => y i + b (ix2 (n0 := 1) (n1 := N) 0 (i 1))

/-- The maximum of column `j` (the bottom element −∞ for a matrix with no rows). -/
def colMax {R C : ℕ} (z : Arr2 R C) (j : Fin C) : EReal := Finset.univ.sup fun r : Fin R => z (ix2 r j)

/-- The sum down column `j` of exp(z − the column's maximum). -/
def colSum {R C : ℕ} (z : Arr2 R C) (j : Fin C) : EReal := ∑ r : Fin R, Ideal.exp (z (ix2 r j) - colMax z j)

/-- The softmax of every column: exp(z − max) / Σ exp(z − max). -/
def softmaxCols {R C : ℕ} (z : Arr2 R C) : Arr2 R C :=
  fun i => Ideal.div (Ideal.exp (z i - colMax z (i 1))) (colSum z (i 1))

/-! ## The one-pass column softmax over blocks of `B` rows

`zb t r` is entry `r` of block `t` of ONE column. -/

/-- The running maximum after the first `t` blocks: −∞ before any block. -/
def runMax {B : ℕ} (zb : ℕ → Fin B → EReal) : ℕ → EReal
  | 0 => ⊥
  | t + 1 => max (runMax zb t) (Finset.univ.sup (zb t))

/-- The running sum after the first `t` blocks: the old sum rescaled to the new maximum, plus the new block's
    exponentials shifted by the new maximum; 0 before any block. -/
def runSum {B : ℕ} (zb : ℕ → Fin B → EReal) : ℕ → EReal
  | 0 => 0
  | t + 1 => runSum zb t * Ideal.exp (runMax zb t - runMax zb (t + 1))
      + ∑ r : Fin B, Ideal.exp (zb t r - runMax zb (t + 1))

end Cert.Spec

end
-- ==== Proof.KI.Val0.lean ====
/-
  The value of region 0 of @main: after its ten points the result array holds the matrix product x · W₁ of the two
  arrays the region found behind its input windows, entry by entry. The road: the body's payload (a block product
  into a zero accumulator) read at an index as a sum over the contracted coordinate; each input block read where its
  window's rectangle puts it in its array (the rows of x move with the point, W₁ stays); what a point writes back is
  therefore its block of the whole product; the ten blocks of ten thousand rows cover the hundred thousand rows.
-/
import proofs.«133038_j66116726555434_1_alg».proof.Proof.KI.Reg0
import proofs.«133038_j66116726555434_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-block load or store, however spelt. -/
theorem hz0 : (![0, 0] : Fin 2 → Nat) = fun _ => 0 := funext fun a => by fin_cases a <;> rfl

/-! ## The payload at an index -/

/-- Entry (p, q) of the block product into the zero accumulator is the sum over k of x(p, k) · w(k, q). -/
theorem pay0_apply (x : Vec Ideal S10000x27 .f32) (w : Vec Ideal S27x60 .f32) (p : Fin 10000) (q : Fin 60) :
    k0_pay1 x w (ix2 p q) = ∑ k : Fin 27, x (ix2 p k) * w (ix2 k q) := by
  unfold k0_pay1
  simp only [matmul]
  rw [Ideal.matmul_constant_zero_apply,
    ← Equiv.sum_comp (contrEquiv1 dot_S10000x27_S27x60_S10000x60_1_0_0_1_n_n 27 rfl rfl).symm]
  refine Finset.sum_congr rfl fun k _ => ?_
  have ck := contrEquiv1_symm_val dot_S10000x27_S27x60_S10000x60_1_0_0_1_n_n 27 rfl rfl k
  have hl : DotDims.lhsIdx dot_S10000x27_S27x60_S10000x60_1_0_0_1_n_n (ix2 p q)
      ((contrEquiv1 dot_S10000x27_S27x60_S10000x60_1_0_0_1_n_n 27 rfl rfl).symm k) = ix2 p k := by
    funext a; apply Fin.ext
    match a with
    | ⟨0, _⟩ => simp [DotDims.lhsIdx, dot_S10000x27_S27x60_S10000x60_1_0_0_1_n_n]; rfl
    | ⟨1, _⟩ => exact (DotDims.lhsIdx_val_of_single dot_S10000x27_S27x60_S10000x60_1_0_0_1_n_n (cl := 1) rfl _ _).trans ck
  have hr : DotDims.rhsIdx dot_S10000x27_S27x60_S10000x60_1_0_0_1_n_n (ix2 p q)
      ((contrEquiv1 dot_S10000x27_S27x60_S10000x60_1_0_0_1_n_n 27 rfl rfl).symm k) = ix2 k q := by
    funext a; apply Fin.ext
    match a with
    | ⟨0, _⟩ => exact (DotDims.rhsIdx_val_of_single dot_S10000x27_S27x60_S10000x60_1_0_0_1_n_n (cr := 0) rfl _ _).trans ck
    | ⟨1, _⟩ => simp [DotDims.rhsIdx, dot_S10000x27_S27x60_S10000x60_1_0_0_1_n_n]; rfl
  rw [hl, hr]

/-- The block product of ten thousand consecutive rows of X, starting at row r₀, with all of W is the matching block of
    rows of the whole product X · W: at local index j and array index i with i₀ = r₀ + j₀ and i₁ = j₁. -/
theorem pay0_eq_mm (X : Cert.Spec.Arr2 100000 27) (W : Cert.Spec.Arr2 27 60)
    (x : Vec Ideal S10000x27 .f32) (w : Vec Ideal S27x60 .f32) (r₀ : ℕ)
    (hx : ∀ (p : Fin 10000) (k : Fin 27) (i : Fin 100000), i.val = r₀ + p.val → x (ix2 p k) = X (ix2 i k))
    (hw : ∀ (k : Fin 27) (q : Fin 60), w (ix2 k q) = W (ix2 k q))
    (j : S10000x60.Idx) (i : S100000x60.Idx) (h0 : (i 0).val = r₀ + (j 0).val) (h1 : (i 1).val = (j 1).val) :
    k0_pay1 x w j = Cert.Spec.mm (M := 100000) (K := 27) (N := 60) X W i := by
  obtain ⟨p, q, rfl⟩ : ∃ (p : Fin 10000) (q : Fin 60), j = ix2 p q := ⟨j 0, j 1, eq_ix2 j⟩
  rw [pay0_apply]
  unfold Cert.Spec.mm
  refine Finset.sum_congr rfl fun k _ => ?_
  have hq : (i 1 : Fin 60) = q := Fin.ext h1
  rw [hx p k (i 0) h0, hw k q, hq]

/-! ## Where the windows' blocks sit -/

/-- The printed index maps, decided over the grid: at point t the rows of x and of the result are block t, columns
    block 0; W₁ is block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Window 0's block at point t is rows 10000·t … of x. -/
theorem iblk0_0_apply (c : Dev nD) (t : Fin cfg0.N) (p : Fin 10000) (k : Fin 27) (i : Fin 100000)
    (hi : i.val = 10000 * t.val + p.val) :
    (iblk0 V c 0 t : Vec Ideal S10000x27 .f32) (ix2 p k) = (V c main_arg0 : S100000x27.Idx → EReal) (ix2 i k) := by
  obtain ⟨e0, e1, -⟩ := idx_facts0 t
  unfold iblk0
  rw [View.read_apply]
  show V c main_arg0 (((cfg0.win 0).blk t).view.emb (ix2 p k)) = V c main_arg0 (ix2 i k)
  congr 1
  funext a; apply Fin.ext
  match a with
  | ⟨0, _⟩ => show win0_0.index t (0 : Fin 2) * 10000 + 1 * p.val = i.val; rw [e0, hi]; omega
  | ⟨1, _⟩ => show win0_0.index t (1 : Fin 2) * 27 + 1 * k.val = k.val; rw [e1]; omega

/-- Window 1's block at every point is all of W₁. -/
theorem iblk0_1_apply (c : Dev nD) (t : Fin cfg0.N) (k : Fin 27) (q : Fin 60) :
    (iblk0 V c 1 t : Vec Ideal S27x60 .f32) (ix2 k q) = (V c main_arg2 : S27x60.Idx → EReal) (ix2 k q) := by
  obtain ⟨-, -, e2, e3, -⟩ := idx_facts0 t
  unfold iblk0
  rw [View.read_apply]
  show V c main_arg2 (((cfg0.win 1).blk t).view.emb (ix2 k q)) = V c main_arg2 (ix2 k q)
  congr 1
  funext a; apply Fin.ext
  match a with
  | ⟨0, _⟩ => show win0_1.index t (0 : Fin 2) * 27 + 1 * k.val = k.val; rw [e2]; omega
  | ⟨1, _⟩ => show win0_1.index t (1 : Fin 2) * 60 + 1 * q.val = q.val; rw [e3]; omega

/-! ## What a point writes back, and the cover -/

/-- WHAT POINT t WRITES BACK is block t of the product of the two arrays as the region finds them. -/
theorem flushed0_eq (c : Dev nD) (t : Fin cfg0.N) :
    (dat0 (F := Ideal) V c).flushed 2 t = ((cfg0.win 2).blk t).view.read (Elt Ideal)
      (Cert.Spec.mm (M := 100000) (K := 27) (N := 60) (V c main_arg0) (V c main_arg2)) := by
  show (cfg0.win 2).cut (grid0.coords t) ((dat0 V c).after 2 t) = _
  rw [after0_2]
  unfold out0_2
  rw [View.canon_unit_zero hz0]
  simp only [View.ld_unit_zero (S := S10000x27) hz0, View.ld_unit_zero (S := S27x60) hz0]
  obtain ⟨-, -, -, -, e4, e5⟩ := idx_facts0 t
  funext j
  rw [View.read_apply]
  refine pay0_eq_mm (V c main_arg0) (V c main_arg2) _ _ (10000 * t.val)
    (fun p k i hi => iblk0_0_apply V c t p k i hi) (fun k q => iblk0_1_apply V c t k q) _ _ ?_ ?_
  · show win0_2.index t (0 : Fin 2) * 10000 + 1 * (j 0).val = 10000 * t.val + (j 0).val
    rw [e4]; omega
  · show win0_2.index t (1 : Fin 2) * 60 + 1 * (j 1).val = (j 1).val
    rw [e5]; omega

/-- An index of the result array is in point t's block iff each coordinate is in the block's range on its axis. -/
theorem mem_blk0 (t : Fin cfg0.N) (i : S100000x60.Idx) :
    i ∈ ((cfg0.win 2).blk t).view.set ↔ ∀ a : Fin 2, win0_2.index t a * S10000x60.size a ≤ (i a).val
      ∧ (i a).val < win0_2.index t a * S10000x60.size a + S10000x60.size a := by
  show i ∈ ((View.whole main_v30).slice (win0_2.rect t)).set ↔ _
  rw [View.set_slice_whole, Rect.mem_set_unit]
  exact Iff.rfl

/-- Row r of the result is written back by point r / 10000. -/
theorem cover0 (i : S100000x60.Idx) :
    ∃ t : Fin cfg0.N, (cfg0.win 2).flush t = true ∧ i ∈ ((cfg0.win 2).blk t).view.set := by
  have hi0 : (i 0).val < 100000 := (i 0).isLt
  have hi1 : (i 1).val < 60 := (i 1).isLt
  have hN : cfg0.N = 10 := N_0
  refine ⟨⟨(i 0).val / 10000, by rw [hN]; omega⟩, flush0_2 _, ?_⟩
  rw [mem_blk0]
  obtain ⟨-, -, -, -, e4, e5⟩ := idx_facts0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 60 ≤ (i 1).val ∧ (i 1).val < win0_2.index _ (1 : Fin 2) * 60 + 60
    rw [e5]; omega

/-! ## The array after the region -/

/-- THE RESULT ARRAY after region 0 is the matrix product x · W₁ of the two arrays behind its input windows. -/
theorem final0 (c : Dev nD) :
    (dat0 (F := Ideal) V c).arrAt 2 cfg0.N
      = Cert.Spec.mm (M := 100000) (K := 27) (N := 60) (V c main_arg0) (V c main_arg2) :=
  (dat0 (F := Ideal) V c).arrAt_eq_of_cover 2 _ (fun t _ => flushed0_eq V c t) cover0

end Cert.KernelIdeal.Hand

end
-- ==== Proof.KI.Val1.lean ====
/-
  The value of region 1 of @main: after its ten points the result array holds the matrix product h · W₂ of the two
  arrays the region found behind its input windows, entry by entry. The road: the body's payload (a block product
  into a zero accumulator, its left operand under a shape cast to its own shape) read at an index as a sum over the
  contracted coordinate; each input block read where its window's rectangle puts it in its array (the rows of h move
  with the point, W₂ stays); what a point writes back is therefore its block of the whole product; the ten blocks of
  ten thousand rows cover the hundred thousand rows.
-/
import proofs.«133038_j66116726555434_1_alg».proof.Proof.KI.Reg1
import proofs.«133038_j66116726555434_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The zero offsets of a whole-block load or store, however spelt. -/
theorem hz1 : (![0, 0] : Fin 2 → Nat) = fun _ => 0 := funext fun a => by fin_cases a <;> rfl

/-! ## The payload at an index -/

/-- Entry (p, q) of the block product into the zero accumulator is the sum over k of x(p, k) · w(k, q) (the shape cast
    of the left operand to its own shape is the identity). -/
theorem pay1_apply (x : Vec Ideal S10000x60 .f32) (w : Vec Ideal S60x50 .f32) (p : Fin 10000) (q : Fin 50) :
    k1_pay1 x w (ix2 p q) = ∑ k : Fin 60, x (ix2 p k) * w (ix2 k q) := by
  unfold k1_pay1
  simp only [matmul, shapeCast_self]
  rw [Ideal.matmul_constant_zero_apply,
    ← Equiv.sum_comp (contrEquiv1 dot_S10000x60_S60x50_S10000x50_1_0_0_1_n_n 60 rfl rfl).symm]
  refine Finset.sum_congr rfl fun k _ => ?_
  have ck := contrEquiv1_symm_val dot_S10000x60_S60x50_S10000x50_1_0_0_1_n_n 60 rfl rfl k
  have hl : DotDims.lhsIdx dot_S10000x60_S60x50_S10000x50_1_0_0_1_n_n (ix2 p q)
      ((contrEquiv1 dot_S10000x60_S60x50_S10000x50_1_0_0_1_n_n 60 rfl rfl).symm k) = ix2 p k := by
    funext a; apply Fin.ext
    match a with
    | ⟨0, _⟩ => simp [DotDims.lhsIdx, dot_S10000x60_S60x50_S10000x50_1_0_0_1_n_n]; rfl
    | ⟨1, _⟩ => exact (DotDims.lhsIdx_val_of_single dot_S10000x60_S60x50_S10000x50_1_0_0_1_n_n (cl := 1) rfl _ _).trans ck
  have hr : DotDims.rhsIdx dot_S10000x60_S60x50_S10000x50_1_0_0_1_n_n (ix2 p q)
      ((contrEquiv1 dot_S10000x60_S60x50_S10000x50_1_0_0_1_n_n 60 rfl rfl).symm k) = ix2 k q := by
    funext a; apply Fin.ext
    match a with
    | ⟨0, _⟩ => exact (DotDims.rhsIdx_val_of_single dot_S10000x60_S60x50_S10000x50_1_0_0_1_n_n (cr := 0) rfl _ _).trans ck
    | ⟨1, _⟩ => simp [DotDims.rhsIdx, dot_S10000x60_S60x50_S10000x50_1_0_0_1_n_n]; rfl
  rw [hl, hr]

/-- The block product of ten thousand consecutive rows of X, starting at row r₀, with all of W is the matching block of
    rows of the whole product X · W: at local index j and array index i with i₀ = r₀ + j₀ and i₁ = j₁. -/
theorem pay1_eq_mm (X : Cert.Spec.Arr2 100000 60) (W : Cert.Spec.Arr2 60 50)
    (x : Vec Ideal S10000x60 .f32) (w : Vec Ideal S60x50 .f32) (r₀ : ℕ)
    (hx : ∀ (p : Fin 10000) (k : Fin 60) (i : Fin 100000), i.val = r₀ + p.val → x (ix2 p k) = X (ix2 i k))
    (hw : ∀ (k : Fin 60) (q : Fin 50), w (ix2 k q) = W (ix2 k q))
    (j : S10000x50.Idx) (i : S100000x50.Idx) (h0 : (i 0).val = r₀ + (j 0).val) (h1 : (i 1).val = (j 1).val) :
    k1_pay1 x w j = Cert.Spec.mm (M := 100000) (K := 60) (N := 50) X W i := by
  obtain ⟨p, q, rfl⟩ : ∃ (p : Fin 10000) (q : Fin 50), j = ix2 p q := ⟨j 0, j 1, eq_ix2 j⟩
  rw [pay1_apply]
  unfold Cert.Spec.mm
  refine Finset.sum_congr rfl fun k _ => ?_
  have hq : (i 1 : Fin 50) = q := Fin.ext h1
  rw [hx p k (i 0) h0, hw k q, hq]

/-! ## Where the windows' blocks sit -/

/-- The printed index maps, decided over the grid: at point t the rows of h and of the result are block t, columns
    block 0; W₂ is block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Window 0's block at point t is rows 10000·t … of h. -/
theorem iblk1_0_apply (c : Dev nD) (t : Fin cfg1.N) (p : Fin 10000) (k : Fin 60) (i : Fin 100000)
    (hi : i.val = 10000 * t.val + p.val) :
    (iblk1 V c 0 t : Vec Ideal S10000x60 .f32) (ix2 p k) = (V c main_v46 : S100000x60.Idx → EReal) (ix2 i k) := by
  obtain ⟨e0, e1, -⟩ := idx_facts1 t
  unfold iblk1
  rw [View.read_apply]
  show V c main_v46 (((cfg1.win 0).blk t).view.emb (ix2 p k)) = V c main_v46 (ix2 i k)
  congr 1
  funext a; apply Fin.ext
  match a with
  | ⟨0, _⟩ => show win1_0.index t (0 : Fin 2) * 10000 + 1 * p.val = i.val; rw [e0, hi]; omega
  | ⟨1, _⟩ => show win1_0.index t (1 : Fin 2) * 60 + 1 * k.val = k.val; rw [e1]; omega

/-- Window 1's block at every point is all of W₂. -/
theorem iblk1_1_apply (c : Dev nD) (t : Fin cfg1.N) (k : Fin 60) (q : Fin 50) :
    (iblk1 V c 1 t : Vec Ideal S60x50 .f32) (ix2 k q) = (V c main_arg4 : S60x50.Idx → EReal) (ix2 k q) := by
  obtain ⟨-, -, e2, e3, -⟩ := idx_facts1 t
  unfold iblk1
  rw [View.read_apply]
  show V c main_arg4 (((cfg1.win 1).blk t).view.emb (ix2 k q)) = V c main_arg4 (ix2 k q)
  congr 1
  funext a; apply Fin.ext
  match a with
  | ⟨0, _⟩ => show win1_1.index t (0 : Fin 2) * 60 + 1 * k.val = k.val; rw [e2]; omega
  | ⟨1, _⟩ => show win1_1.index t (1 : Fin 2) * 50 + 1 * q.val = q.val; rw [e3]; omega

/-! ## What a point writes back, and the cover -/

/-- WHAT POINT t WRITES BACK is block t of the product of the two arrays as the region finds them. -/
theorem flushed1_eq (c : Dev nD) (t : Fin cfg1.N) :
    (dat1 (F := Ideal) V c).flushed 2 t = ((cfg1.win 2).blk t).view.read (Elt Ideal)
      (Cert.Spec.mm (M := 100000) (K := 60) (N := 50) (V c main_v46) (V c main_arg4)) := by
  show (cfg1.win 2).cut (grid1.coords t) ((dat1 V c).after 2 t) = _
  rw [after1_2]
  unfold out1_2
  rw [View.canon_unit_zero hz1]
  simp only [View.ld_unit_zero (S := S10000x60) hz1, View.ld_unit_zero (S := S60x50) hz1]
  obtain ⟨-, -, -, -, e4, e5⟩ := idx_facts1 t
  funext j
  rw [View.read_apply]
  refine pay1_eq_mm (V c main_v46) (V c main_arg4) _ _ (10000 * t.val)
    (fun p k i hi => iblk1_0_apply V c t p k i hi) (fun k q => iblk1_1_apply V c t k q) _ _ ?_ ?_
  · show win1_2.index t (0 : Fin 2) * 10000 + 1 * (j 0).val = 10000 * t.val + (j 0).val
    rw [e4]; omega
  · show win1_2.index t (1 : Fin 2) * 50 + 1 * (j 1).val = (j 1).val
    rw [e5]; omega

/-- An index of the result array is in point t's block iff each coordinate is in the block's range on its axis. -/
theorem mem_blk1 (t : Fin cfg1.N) (i : S100000x50.Idx) :
    i ∈ ((cfg1.win 2).blk t).view.set ↔ ∀ a : Fin 2, win1_2.index t a * S10000x50.size a ≤ (i a).val
      ∧ (i a).val < win1_2.index t a * S10000x50.size a + S10000x50.size a := by
  show i ∈ ((View.whole main_v77).slice (win1_2.rect t)).set ↔ _
  rw [View.set_slice_whole, Rect.mem_set_unit]
  exact Iff.rfl

/-- Row r of the result is written back by point r / 10000. -/
theorem cover1 (i : S100000x50.Idx) :
    ∃ t : Fin cfg1.N, (cfg1.win 2).flush t = true ∧ i ∈ ((cfg1.win 2).blk t).view.set := by
  have hi0 : (i 0).val < 100000 := (i 0).isLt
  have hi1 : (i 1).val < 50 := (i 1).isLt
  have hN : cfg1.N = 10 := N_1
  refine ⟨⟨(i 0).val / 10000, by rw [hN]; omega⟩, flush1_2 _, ?_⟩
  rw [mem_blk1]
  obtain ⟨-, -, -, -, e4, e5⟩ := idx_facts1 ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 50 ≤ (i 1).val ∧ (i 1).val < win1_2.index _ (1 : Fin 2) * 50 + 50
    rw [e5]; omega

/-! ## The array after the region -/

/-- THE RESULT ARRAY after region 1 is the matrix product h · W₂ of the two arrays behind its input windows. -/
theorem final1 (c : Dev nD) :
    (dat1 (F := Ideal) V c).arrAt 2 cfg1.N
      = Cert.Spec.mm (M := 100000) (K := 60) (N := 50) (V c main_v46) (V c main_arg4) :=
  (dat1 (F := Ideal) V c).arrAt_eq_of_cover 2 _ (fun t _ => flushed1_eq V c t) cover1

end Cert.KernelIdeal.Hand

end
-- ==== Proof.KI.Pay2.lean ====
/-
  The arithmetic of region 2's body at the exact values: one affine layer — a matrix product accumulated into zeros
  plus a bias row laid along every row — is `addRow (mm · ·) ·` entry by entry, and the body's stored value is three
  such layers composed. Also the fact the passage from blocks to the whole array rests on: row r of the three-layer
  map depends on row r of its first argument alone.
-/
import proofs.«133038_j66116726555434_1_alg».proof.Proof.Gen.KernelIdeal.Skeleton
import proofs.«133038_j66116726555434_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx
open Cert.Spec

/-! ## One affine layer at an entry -/

/-- A product of an m×k by a k×n matrix accumulated into the zero matrix, read at entry (a, b), is the sum over c of
    A(a, c) · B(c, b). -/
theorem matmul_zero_entry {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  show FloatOps.matmul _ none A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- One affine layer as the body computes it — the product into zeros plus the bias row broadcast down the rows — is
    the product plus the row, as functions of the entry. -/
theorem layer_eq {m k n : ℕ}
    (w : DotDims.WF ⟨2, ![m, k]⟩ ⟨2, ![k, n]⟩ ⟨2, ![m, n]⟩ [1] [0] [0] [1] [] [])
    (hc : (⟨2, ![1, n]⟩ : Shape).ShapeCasts ⟨2, ![1, n]⟩) (hb : (⟨2, ![1, n]⟩ : Shape).Broadcasts ⟨2, ![m, n]⟩)
    (A : FVec Ideal ⟨2, ![m, k]⟩ .f32) (B : FVec Ideal ⟨2, ![k, n]⟩ .f32) (r : FVec Ideal ⟨2, ![1, n]⟩ .f32) :
    addf (matmul (⟨[1], [0], [0], [1], [], [], w⟩ : DotDims _ _ _) none A B (constant (F := Ideal) ⟨2, ![m, n]⟩ .f32 0x00000000#32))
        (broadcastTo ⟨2, ![m, n]⟩ (shapeCast ⟨2, ![1, n]⟩ r hc) hb)
      = addRow (M := m) (N := n) (mm (M := m) (K := k) (N := n) A B) r := by
  funext j
  obtain ⟨a, b, rfl⟩ : ∃ (a : Fin m) (b : Fin n), j = ix2 a b := ⟨j 0, j 1, eq_ix2 j⟩
  show matmul (⟨[1], [0], [0], [1], [], [], w⟩ : DotDims _ _ _) none A B (constant (F := Ideal) ⟨2, ![m, n]⟩ .f32 0x00000000#32) (ix2 a b)
      + broadcastTo ⟨2, ![m, n]⟩ (shapeCast ⟨2, ![1, n]⟩ r hc) hb (ix2 a b)
    = (∑ c : Fin k, A (ix2 a c) * B (ix2 c b)) + r (ix2 (0 : Fin 1) b)
  rw [matmul_zero_entry w A B a b, broadcastTo_1b_ab_apply, shapeCast_self]

/-! ## The body's stored value -/

/-- The three-layer map ((z·W₁ + b₁)·W₂ + b₂)·W₃ + b₃ on M rows. -/
def mlp3 {M : ℕ} (z : Arr2 M 100) (w1 : Arr2 100 40) (b1 : Arr2 1 40) (w2 : Arr2 40 20) (b2 : Arr2 1 20)
    (w3 : Arr2 20 4) (b3 : Arr2 1 4) : Arr2 M 4 :=
  addRow (mm (addRow (mm (addRow (mm z w1) b1) w2) b2) w3) b3

/-- What the body stores is the three-layer map of the seven blocks it read. -/
theorem pay2_eq (x0 : Vec Ideal S5000x100 .f32) (x1 : Vec Ideal S100x40 .f32) (x2 : Vec Ideal S1x40 .f32)
    (x3 : Vec Ideal S40x20 .f32) (x4 : Vec Ideal S1x20 .f32) (x5 : Vec Ideal S20x4 .f32) (x6 : Vec Ideal S1x4 .f32) :
    k2_pay1 (F := Ideal) x0 x1 x2 x3 x4 x5 x6 = mlp3 (M := 5000) x0 x1 x2 x3 x4 x5 x6 := by
  have e1 := layer_eq (m := 5000) (k := 100) (n := 40) dot_S5000x100_S100x40_S5000x40_1_0_0_1_n_n_wf
    shapeCasts_S1x40_S1x40 broadcasts_S1x40_S5000x40 x0 x1 x2
  have e2 := layer_eq (m := 5000) (k := 40) (n := 20) dot_S5000x40_S40x20_S5000x20_1_0_0_1_n_n_wf
    shapeCasts_S1x20_S1x20 broadcasts_S1x20_S5000x20 (addRow (mm (M := 5000) (K := 100) (N := 40) x0 x1) x2) x3 x4
  have e3 := layer_eq (m := 5000) (k := 20) (n := 4) dot_S5000x20_S20x4_S5000x4_1_0_0_1_n_n_wf
    shapeCasts_S1x4_S1x4 broadcasts_S1x4_S5000x4
    (addRow (mm (M := 5000) (K := 40) (N := 20) (addRow (mm (M := 5000) (K := 100) (N := 40) x0 x1) x2) x3) x4) x5 x6
  unfold mlp3
  rw [← e3, ← e2, ← e1]
  unfold k2_pay1
  rw [shapeCast_self x0]
  rfl

/-! ## Row r of the result depends on row r of the first argument alone -/

/-- Two matrices that agree on a row have products that agree on that row. -/
theorem mm_row {M M' K N : ℕ} (x : Arr2 M K) (x' : Arr2 M' K) (w : Arr2 K N) (r : Fin M) (r' : Fin M')
    (h : ∀ k : Fin K, x' (ix2 r' k) = x (ix2 r k)) (j : Fin N) : mm x' w (ix2 r' j) = mm x w (ix2 r j) := by
  show (∑ k : Fin K, x' (ix2 r' k) * w (ix2 k j)) = ∑ k : Fin K, x (ix2 r k) * w (ix2 k j)
  exact Finset.sum_congr rfl fun k _ => by rw [h k]

/-- Adding the same row to two matrices that agree at an entry gives matrices that agree there. -/
theorem addRow_row {M M' N : ℕ} (y : Arr2 M N) (y' : Arr2 M' N) (b : Arr2 1 N) (r : Fin M) (r' : Fin M') (j : Fin N)
    (h : y' (ix2 r' j) = y (ix2 r j)) : addRow y' b (ix2 r' j) = addRow y b (ix2 r j) := by
  show y' (ix2 r' j) + b (ix2 (0 : Fin 1) j) = y (ix2 r j) + b (ix2 (0 : Fin 1) j)
  rw [h]

/-- Two inputs that agree on a row have three-layer maps that agree on that row. -/
theorem mlp3_row {M M' : ℕ} (z : Arr2 M 100) (z' : Arr2 M' 100) (w1 : Arr2 100 40) (b1 : Arr2 1 40) (w2 : Arr2 40 20)
    (b2 : Arr2 1 20) (w3 : Arr2 20 4) (b3 : Arr2 1 4) (r : Fin M) (r' : Fin M')
    (h : ∀ k : Fin 100, z' (ix2 r' k) = z (ix2 r k)) (j : Fin 4) :
    mlp3 z' w1 b1 w2 b2 w3 b3 (ix2 r' j) = mlp3 z w1 b1 w2 b2 w3 b3 (ix2 r j) :=
  addRow_row _ _ b3 r r' j (mm_row _ _ w3 r r' (fun k2 => addRow_row _ _ b2 r r' k2
    (mm_row _ _ w2 r r' (fun k1 => addRow_row _ _ b1 r r' k1 (mm_row z z' w1 r r' h k1)) k2)) j)

end Cert.KernelIdeal.Hand

end
-- ==== Proof.KI.Val2.lean ====
/-
  Region 2's result array after the region: the three-layer map ((z·W₁ + b₁)·W₂ + b₂)·W₃ + b₃ of the arrays behind
  the seven input windows as the region finds them, at the exact values. Point t of the grid writes back rows
  [5000·t, 5000·(t+1)) of that one function (its input block is those rows of z, the six other blocks are the whole
  weight and bias arrays, and row r of the map depends on row r of z alone); the hundred blocks cover the array.
-/
import proofs.«133038_j66116726555434_1_alg».proof.Proof.KI.Reg2
import proofs.«133038_j66116726555434_1_alg».proof.Proof.KI.Pay2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

variable (V : (c : Dev nD) → (b : Ref sig .tc) → Buf (Elt Ideal) ((c : Thread nD τ).loc b))

/-- The zero offset of a whole-block load or store. -/
theorem hz2 : (![0, 0] : Fin 2 → Nat) = fun _ => 0 := funext fun a => by fin_cases a <;> rfl

/-- The printed index maps over the grid: the row windows (0 and 7) are at block (t, 0) at point t, the weight and
    bias windows at block (0, 0) throughout. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-! ## The input blocks as the arrays behind them -/

/-- Window 0's block at point t is rows 5000·t … 5000·t + 4999 of z. -/
theorem iblk2_0_apply (c : Dev nD) (t : Fin cfg2.N) (p : Fin 5000) (k : Fin 100) (r : Fin 500000)
    (hr : r.val = t.val * 5000 + p.val) :
    (iblk2 V c 0 t : Vec Ideal S5000x100 .f32) (ix2 p k) = (V c main_v113 : S500000x100.Idx → EReal) (ix2 r k) := by
  obtain ⟨e0a, e0b, e1a, e1b, e2a, e2b, e3a, e3b, e4a, e4b, e5a, e5b, e6a, e6b, e7a, e7b⟩ := idx_facts2 t
  show (V c main_v113 : S500000x100.Idx → EReal) (((cfg2.win 0).blk t).view.emb (ix2 p k))
    = (V c main_v113 : S500000x100.Idx → EReal) (ix2 r k)
  refine congrArg (V c main_v113 : S500000x100.Idx → EReal) (funext fun a => Fin.ext ?_)
  match a with
  | ⟨0, _⟩ => show win2_0.index t (0 : Fin 2) * 5000 + 1 * p.val = r.val; omega
  | ⟨1, _⟩ => show win2_0.index t (1 : Fin 2) * 100 + 1 * k.val = k.val; omega

/-- Window 1's block is its whole array at every point. -/
theorem iblk2_1_eq (c : Dev nD) (t : Fin cfg2.N) :
    (iblk2 V c 1 t : Vec Ideal S100x40 .f32) = (V c main_arg8 : S100x40.Idx → EReal) := by
  obtain ⟨e0a, e0b, e1a, e1b, e2a, e2b, e3a, e3b, e4a, e4b, e5a, e5b, e6a, e6b, e7a, e7b⟩ := idx_facts2 t
  funext j
  show (V c main_arg8 : S100x40.Idx → EReal) (((cfg2.win 1).blk t).view.emb j) = (V c main_arg8 : S100x40.Idx → EReal) j
  refine congrArg (V c main_arg8 : S100x40.Idx → EReal) (funext fun a => Fin.ext ?_)
  match a with
  | ⟨0, _⟩ => show win2_1.index t (0 : Fin 2) * 100 + 1 * (j 0).val = (j 0).val; omega
  | ⟨1, _⟩ => show win2_1.index t (1 : Fin 2) * 40 + 1 * (j 1).val = (j 1).val; omega

/-- Window 2's block is its whole array at every point. -/
theorem iblk2_2_eq (c : Dev nD) (t : Fin cfg2.N) :
    (iblk2 V c 2 t : Vec Ideal S1x40 .f32) = (V c main_v114 : S1x40.Idx → EReal) := by
  obtain ⟨e0a, e0b, e1a, e1b, e2a, e2b, e3a, e3b, e4a, e4b, e5a, e5b, e6a, e6b, e7a, e7b⟩ := idx_facts2 t
  funext j
  show (V c main_v114 : S1x40.Idx → EReal) (((cfg2.win 2).blk t).view.emb j) = (V c main_v114 : S1x40.Idx → EReal) j
  refine congrArg (V c main_v114 : S1x40.Idx → EReal) (funext fun a => Fin.ext ?_)
  match a with
  | ⟨0, _⟩ => show win2_2.index t (0 : Fin 2) * 1 + 1 * (j 0).val = (j 0).val; omega
  | ⟨1, _⟩ => show win2_2.index t (1 : Fin 2) * 40 + 1 * (j 1).val = (j 1).val; omega

/-- Window 3's block is its whole array at every point. -/
theorem iblk2_3_eq (c : Dev nD) (t : Fin cfg2.N) :
    (iblk2 V c 3 t : Vec Ideal S40x20 .f32) = (V c main_arg10 : S40x20.Idx → EReal) := by
  obtain ⟨e0a, e0b, e1a, e1b, e2a, e2b, e3a, e3b, e4a, e4b, e5a, e5b, e6a, e6b, e7a, e7b⟩ := idx_facts2 t
  funext j
  show (V c main_arg10 : S40x20.Idx → EReal) (((cfg2.win 3).blk t).view.emb j) = (V c main_arg10 : S40x20.Idx → EReal) j
  refine congrArg (V c main_arg10 : S40x20.Idx → EReal) (funext fun a => Fin.ext ?_)
  match a with
  | ⟨0, _⟩ => show win2_3.index t (0 : Fin 2) * 40 + 1 * (j 0).val = (j 0).val; omega
  | ⟨1, _⟩ => show win2_3.index t (1 : Fin 2) * 20 + 1 * (j 1).val = (j 1).val; omega

/-- Window 4's block is its whole array at every point. -/
theorem iblk2_4_eq (c : Dev nD) (t : Fin cfg2.N) :
    (iblk2 V c 4 t : Vec Ideal S1x20 .f32) = (V c main_v115 : S1x20.Idx → EReal) := by
  obtain ⟨e0a, e0b, e1a, e1b, e2a, e2b, e3a, e3b, e4a, e4b, e5a, e5b, e6a, e6b, e7a, e7b⟩ := idx_facts2 t
  funext j
  show (V c main_v115 : S1x20.Idx → EReal) (((cfg2.win 4).blk t).view.emb j) = (V c main_v115 : S1x20.Idx → EReal) j
  refine congrArg (V c main_v115 : S1x20.Idx → EReal) (funext fun a => Fin.ext ?_)
  match a with
  | ⟨0, _⟩ => show win2_4.index t (0 : Fin 2) * 1 + 1 * (j 0).val = (j 0).val; omega
  | ⟨1, _⟩ => show win2_4.index t (1 : Fin 2) * 20 + 1 * (j 1).val = (j 1).val; omega

/-- Window 5's block is its whole array at every point. -/
theorem iblk2_5_eq (c : Dev nD) (t : Fin cfg2.N) :
    (iblk2 V c 5 t : Vec Ideal S20x4 .f32) = (V c main_arg12 : S20x4.Idx → EReal) := by
  obtain ⟨e0a, e0b, e1a, e1b, e2a, e2b, e3a, e3b, e4a, e4b, e5a, e5b, e6a, e6b, e7a, e7b⟩ := idx_facts2 t
  funext j
  show (V c main_arg12 : S20x4.Idx → EReal) (((cfg2.win 5).blk t).view.emb j) = (V c main_arg12 : S20x4.Idx → EReal) j
  refine congrArg (V c main_arg12 : S20x4.Idx → EReal) (funext fun a => Fin.ext ?_)
  match a with
  | ⟨0, _⟩ => show win2_5.index t (0 : Fin 2) * 20 + 1 * (j 0).val = (j 0).val; omega
  | ⟨1, _⟩ => show win2_5.index t (1 : Fin 2) * 4 + 1 * (j 1).val = (j 1).val; omega

/-- Window 6's block is its whole array at every point. -/
theorem iblk2_6_eq (c : Dev nD) (t : Fin cfg2.N) :
    (iblk2 V c 6 t : Vec Ideal S1x4 .f32) = (V c main_v116 : S1x4.Idx → EReal) := by
  obtain ⟨e0a, e0b, e1a, e1b, e2a, e2b, e3a, e3b, e4a, e4b, e5a, e5b, e6a, e6b, e7a, e7b⟩ := idx_facts2 t
  funext j
  show (V c main_v116 : S1x4.Idx → EReal) (((cfg2.win 6).blk t).view.emb j) = (V c main_v116 : S1x4.Idx → EReal) j
  refine congrArg (V c main_v116 : S1x4.Idx → EReal) (funext fun a => Fin.ext ?_)
  match a with
  | ⟨0, _⟩ => show win2_6.index t (0 : Fin 2) * 1 + 1 * (j 0).val = (j 0).val; omega
  | ⟨1, _⟩ => show win2_6.index t (1 : Fin 2) * 4 + 1 * (j 1).val = (j 1).val; omega

/-! ## What a point writes back -/

/-- The result as one function of the arrays behind the input windows. -/
abbrev G2 (c : Dev nD) : S500000x4.Idx → EReal :=
  mlp3 (M := 500000) (V c main_v113) (V c main_arg8) (V c main_v114) (V c main_arg10) (V c main_v115) (V c main_arg12) (V c main_v116)

/-- The body's stored value at row p of point t's block is row 5000·t + p of the three-layer map of the whole arrays. -/
theorem pay2_block (Z : Arr2 500000 100) (x0 : Vec Ideal S5000x100 .f32) (x1 : Vec Ideal S100x40 .f32) (x2 : Vec Ideal S1x40 .f32)
    (x3 : Vec Ideal S40x20 .f32) (x4 : Vec Ideal S1x20 .f32) (x5 : Vec Ideal S20x4 .f32) (x6 : Vec Ideal S1x4 .f32)
    (p : Fin 5000) (r : Fin 500000) (h0 : ∀ k : Fin 100, x0 (ix2 p k) = Z (ix2 r k)) (q : Fin 4) :
    k2_pay1 (F := Ideal) x0 x1 x2 x3 x4 x5 x6 (ix2 p q) = mlp3 (M := 500000) Z x1 x2 x3 x4 x5 x6 (ix2 r q) := by
  rw [pay2_eq x0 x1 x2 x3 x4 x5 x6]
  exact mlp3_row Z x0 x1 x2 x3 x4 x5 x6 r p h0 q

/-- WHAT POINT t WRITES BACK is block t of `G2`. -/
theorem flushed2_eq (c : Dev nD) (t : Fin cfg2.N) :
    (dat2 (F := Ideal) V c).flushed 7 t = ((cfg2.win 7).blk t).view.read (Elt Ideal) (G2 V c) := by
  have hN : t.val < 100 := Nat.lt_of_lt_of_eq t.isLt N_2
  obtain ⟨e0a, e0b, e1a, e1b, e2a, e2b, e3a, e3b, e4a, e4b, e5a, e5b, e6a, e6b, e7a, e7b⟩ := idx_facts2 t
  show (cfg2.win 7).cut (grid2.coords t) ((dat2 (F := Ideal) V c).after 7 t) = _
  rw [after2_7]
  unfold out2_7
  rw [View.canon_unit_zero hz2]
  simp only [View.ld_unit_zero (S := S5000x100) hz2, View.ld_unit_zero (S := S100x40) hz2, View.ld_unit_zero (S := S1x40) hz2,
    View.ld_unit_zero (S := S40x20) hz2, View.ld_unit_zero (S := S1x20) hz2, View.ld_unit_zero (S := S20x4) hz2,
    View.ld_unit_zero (S := S1x4) hz2]
  rw [iblk2_1_eq V c t, iblk2_2_eq V c t, iblk2_3_eq V c t, iblk2_4_eq V c t, iblk2_5_eq V c t, iblk2_6_eq V c t]
  funext j
  obtain ⟨p, q, rfl⟩ : ∃ (p : Fin 5000) (q : Fin 4), j = ix2 p q := ⟨j 0, j 1, eq_ix2 j⟩
  have hr : t.val * 5000 + p.val < 500000 := by have := p.isLt; omega
  refine (pay2_block (V c main_v113) (iblk2 V c 0 t) (V c main_arg8) (V c main_v114) (V c main_arg10) (V c main_v115)
    (V c main_arg12) (V c main_v116) p ⟨t.val * 5000 + p.val, hr⟩ (fun k => iblk2_0_apply V c t p k _ rfl) q).trans ?_
  show G2 V c (ix2 ⟨t.val * 5000 + p.val, hr⟩ q) = G2 V c (((cfg2.win 7).blk t).view.emb (ix2 p q))
  refine congrArg (G2 V c) (funext fun a => Fin.ext ?_)
  match a with
  | ⟨0, _⟩ => show t.val * 5000 + p.val = win2_7.index t (0 : Fin 2) * 5000 + 1 * p.val; omega
  | ⟨1, _⟩ => show q.val = win2_7.index t (1 : Fin 2) * 4 + 1 * q.val; omega

/-! ## The blocks cover the array -/

/-- An index of the result array is in point t's block iff each coordinate is in the block's range on its axis. -/
theorem mem_blk2 (t : Fin cfg2.N) (i : S500000x4.Idx) :
    i ∈ ((cfg2.win 7).blk t).view.set ↔ ∀ a : Fin 2, win2_7.index t a * S5000x4.size a ≤ (i a).val ∧ (i a).val < win2_7.index t a * S5000x4.size a + S5000x4.size a := by
  show i ∈ ((View.whole main_v117).slice (win2_7.rect t)).set ↔ _
  rw [View.set_slice_whole, Rect.mem_set_unit]
  exact Iff.rfl

/-- Row r of the result is in the block of point r / 5000. -/
theorem cover2 (i : S500000x4.Idx) : ∃ t : Fin cfg2.N, (cfg2.win 7).flush t = true ∧ i ∈ ((cfg2.win 7).blk t).view.set := by
  have hi0 : (i 0).val < 500000 := (i 0).isLt
  have hi1 : (i 1).val < 4 := (i 1).isLt
  have hN : cfg2.N = 100 := N_2
  refine ⟨⟨(i 0).val / 5000, by rw [hN]; omega⟩, flush2_7 _, ?_⟩
  obtain ⟨e0a, e0b, e1a, e1b, e2a, e2b, e3a, e3b, e4a, e4b, e5a, e5b, e6a, e6b, e7a, e7b⟩ := idx_facts2 ⟨(i 0).val / 5000, by rw [hN]; omega⟩
  rw [mem_blk2]
  intro a
  match a with
  | ⟨0, _⟩ =>
    show win2_7.index ⟨(i 0).val / 5000, _⟩ (0 : Fin 2) * 5000 ≤ (i 0).val ∧ (i 0).val < win2_7.index ⟨(i 0).val / 5000, _⟩ (0 : Fin 2) * 5000 + 5000
    rw [e7a]; show (i 0).val / 5000 * 5000 ≤ (i 0).val ∧ (i 0).val < (i 0).val / 5000 * 5000 + 5000; omega
  | ⟨1, _⟩ =>
    show win2_7.index ⟨(i 0).val / 5000, _⟩ (1 : Fin 2) * 4 ≤ (i 1).val ∧ (i 1).val < win2_7.index ⟨(i 0).val / 5000, _⟩ (1 : Fin 2) * 4 + 4
    rw [e7b]; omega

/-! ## The array after the region -/

/-- THE RESULT ARRAY after the region is ((z·W₁ + b₁)·W₂ + b₂)·W₃ + b₃ of the arrays behind the seven input windows as
    the region finds them. -/
theorem final2 (c : Dev nD) :
    (dat2 (F := Ideal) V c).arrAt 7 cfg2.N
      = Cert.Spec.addRow (M := 500000) (N := 4) (Cert.Spec.mm (M := 500000) (K := 20) (N := 4)
          (Cert.Spec.addRow (M := 500000) (N := 20) (Cert.Spec.mm (M := 500000) (K := 40) (N := 20)
            (Cert.Spec.addRow (M := 500000) (N := 40) (Cert.Spec.mm (M := 500000) (K := 100) (N := 40) (V c main_v113) (V c main_arg8)) (V c main_v114))
            (V c main_arg10)) (V c main_v115))
          (V c main_arg12)) (V c main_v116) :=
  (dat2 (F := Ideal) V c).arrAt_eq_of_cover 7 (G2 V c) (fun t _ => flushed2_eq V c t) cover2

end Cert.KernelIdeal.Hand

end
-- ==== Proof.SoftmaxAlg.lean ====
/-
  The algebra of the one-pass ("online") softmax of one column, on the extended reals with the exact exponential
  (exp(−∞) = 0, exp(+∞) = +∞): the running maximum over the first T blocks is the maximum of all their entries, and the
  running sum — rescaled at every block from the old maximum to the new one — is the sum of the exponentials of all the
  entries seen, each shifted by the final maximum. Both hold for ALL extended reals, with no finiteness assumption.
-/
import proofs.«133038_j66116726555434_1_alg».proof.Proof.Spec

noncomputable section

open scoped BigOperators

namespace Cert.Spec

open Idealize.ShloMosaic

/-- The exact exponential is nonnegative everywhere on the extended reals. -/
theorem exp_nonneg (x : EReal) : 0 ≤ Ideal.exp x := by
  induction x with
  | bot => simp
  | top => simp
  | coe r => rw [Ideal.exp_coe]; exact_mod_cast (Real.exp_pos r).le

/-- Subtracting +∞ from anything gives −∞. -/
theorem sub_top' (x : EReal) : x - ⊤ = ⊥ := by
  induction x <;> simp [sub_eq_add_neg]

/-- Subtracting anything from −∞ gives −∞ (also −∞ − (−∞) = −∞ in this arithmetic). -/
theorem bot_sub' (y : EReal) : (⊥ : EReal) - y = ⊥ := by
  induction y <;> simp [sub_eq_add_neg]

/-- Rescaling composes: for a ≤ b ≤ c, exp(a − b) · exp(b − c) = exp(a − c), on all extended reals. -/
theorem exp_sub_mul_exp_sub {a b c : EReal} (hab : a ≤ b) (hbc : b ≤ c) :
    Ideal.exp (a - b) * Ideal.exp (b - c) = Ideal.exp (a - c) := by
  induction c with
  | top => rw [sub_top', sub_top', Ideal.exp_bot, mul_zero]
  | bot =>
    have hb : b = ⊥ := le_bot_iff.mp hbc
    subst hb
    have ha : a = ⊥ := le_bot_iff.mp hab
    subst ha
    rw [bot_sub', Ideal.exp_bot, zero_mul]
  | coe c =>
    induction b with
    | top => exact absurd hbc (by simp)
    | bot =>
      have ha : a = ⊥ := le_bot_iff.mp hab
      subst ha
      rw [bot_sub', bot_sub', Ideal.exp_bot, zero_mul]
    | coe b =>
      induction a with
      | top => exact absurd hab (by simp)
      | bot => rw [bot_sub', bot_sub', Ideal.exp_bot, zero_mul]
      | coe a =>
        rw [← EReal.coe_sub, ← EReal.coe_sub, ← EReal.coe_sub, Ideal.exp_coe, Ideal.exp_coe, Ideal.exp_coe,
          ← EReal.coe_mul, ← Real.exp_add]
        congr 2; ring

/-- Multiplication distributes from the right over a finite sum of nonnegative extended reals. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih (fun i hi => hf i (Finset.mem_insert_of_mem hi))]

/-- The running maximum after T blocks is the maximum of all entries of those blocks. -/
theorem runMax_eq {B : ℕ} (zb : ℕ → Fin B → EReal) (T : ℕ) :
    runMax zb T = Finset.univ.sup fun p : Fin T × Fin B => zb p.1 p.2 := by
  induction T with
  | zero => simp [runMax]
  | succ T ih =>
    rw [runMax, ih, ← Finset.univ_product_univ, ← Finset.univ_product_univ, Finset.sup_product_left,
      Finset.sup_product_left, Fin.univ_castSuccEmb, Finset.sup_cons, Finset.sup_map, sup_comm]
    rfl

/-- Every entry of the first T blocks is at most the running maximum after T blocks. -/
theorem le_runMax {B : ℕ} (zb : ℕ → Fin B → EReal) {T t : ℕ} (ht : t < T) (r : Fin B) : zb t r ≤ runMax zb T := by
  rw [runMax_eq]
  exact Finset.le_sup (f := fun p : Fin T × Fin B => zb p.1 p.2) (Finset.mem_univ ((⟨t, ht⟩ : Fin T), r))

/-- The running sum after T blocks is the sum, over all entries of those blocks, of exp(entry − running maximum). -/
theorem runSum_eq {B : ℕ} (zb : ℕ → Fin B → EReal) (T : ℕ) :
    runSum zb T = ∑ p : Fin T × Fin B, Ideal.exp (zb p.1 p.2 - runMax zb T) := by
  induction T with
  | zero => simp [runSum]
  | succ T ih =>
    rw [runSum, ih, sum_mul_of_nonneg _ _ (fun _ _ => exp_nonneg _), Fintype.sum_prod_type, Fintype.sum_prod_type,
      Fin.sum_univ_castSucc]
    congr 1
    refine Finset.sum_congr rfl fun t _ => Finset.sum_congr rfl fun r _ => ?_
    exact exp_sub_mul_exp_sub (le_runMax zb t.isLt r) (le_max_left _ _)

end Cert.Spec

end
-- ==== Proof.KI.Soft3.lean ====
/-
  The two scratch rows of the softmax-statistics kernel read as mathematics, at the exact extended reals. Each grid point
  replaces (running maximum m, running sum l) of every column by (m' = max m (the block's column maximum),
  l · exp(m − m') + Σ over the block's rows of exp(z − m')): the one-pass softmax recursion, column by column. So after the
  last of the 100 points, when block n is rows 5000 n … 5000 n + 4999 of a 500000 × 4 matrix z, the rows hold the maximum
  of each column of z and the sum down each column of exp(z − that maximum).
-/
import proofs.«133038_j66116726555434_1_alg».proof.Proof.KI.Seq3
import proofs.«133038_j66116726555434_1_alg».proof.Proof.Spec
import proofs.«133038_j66116726555434_1_alg».proof.Proof.SoftmaxAlg
import Idealize.ShloMosaic.PureOps.Ideal.Laws
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.ValueIdx

/-- The f32 pattern of −∞ denotes the bottom element. -/
theorem ofBits_ninf : Ideal.ofBits .f32 0xFF800000#32 = ⊥ := by simp [Ideal.ofBits, Ideal.ieee]

/-- Folding max from −∞ over a finite set is the supremum over it. -/
theorem fold_max_bot {ι : Type*} (s : Finset ι) (f : ι → EReal) : s.fold max ⊥ f = s.sup f := rfl

/-- Inserting row r above lane j gives the index (r, j). -/
theorem lift_ix1 (j : Fin 4) (r : Fin 5000) : reduces_S5000x4_S4.lift (ix1 j) r = ix2 r j := by
  funext c
  match c with
  | ⟨0, _⟩ => rfl
  | ⟨1, _⟩ => rfl

/-- The maximum reduction of a block down its rows, at lane j: the supremum of column j. -/
theorem blockMax_apply (x : FVec Ideal S5000x4 .f32) (j : Fin 4) :
    multiReduction (F := Ideal) .maximumf [0] S4 x 0xFF800000#32 reduces_S5000x4_S4 (.inl rfl) rfl (ix1 j)
      = Finset.univ.sup fun r : Fin 5000 => x (ix2 r j) := by
  refine (Ideal.multiReduction_maximumf_single x _ reduces_S5000x4_S4 (.inl rfl) rfl (ix1 j)).trans ?_
  show Finset.fold max (Ideal.ofBits .f32 0xFF800000#32) (fun r : Fin 5000 => x (reduces_S5000x4_S4.lift (ix1 j) r)) Finset.univ = _
  rw [ofBits_ninf, fold_max_bot]
  exact Finset.sup_congr rfl fun r _ => congrArg x (lift_ix1 j r)

/-- The sum reduction of a block down its rows, at lane j: the sum of column j. -/
theorem blockSum_apply (x : FVec Ideal S5000x4 .f32) (j : Fin 4) :
    multiReduction (F := Ideal) .add [0] S4 x 0x00000000#32 reduces_S5000x4_S4 (.inl rfl) rfl (ix1 j)
      = ∑ r : Fin 5000, x (ix2 r j) := by
  refine (Ideal.multiReduction_add_single x _ reduces_S5000x4_S4 (.inl rfl) rfl (ix1 j)).trans ?_
  show ∑ r : Fin 5000, x (reduces_S5000x4_S4.lift (ix1 j) r) = _
  exact Finset.sum_congr rfl fun r _ => congrArg x (lift_ix1 j r)

/-- A lane vector viewed as one row: entry (0, j) of the row is entry j of the vector. -/
theorem rowOf_apply {α : Type} (x : S4.Idx → α) (a : Fin 1) (j : Fin 4) :
    shapeCast S1x4 x shapeCasts_S4_S1x4 (ix2 a j) = x (ix1 j) := by
  refine shapeCast_apply x shapeCasts_S4_S1x4 (ix2 a j) (ix1 j) ?_
  rw [Shape.rowMajor_val_one, Shape.rowMajor_val_two]
  show j.val = a.val * 4 + j.val
  have := a.isLt
  omega

/-- One row broadcast down 5000 rows: entry (r, j) is entry (0, j) of the row. -/
theorem bcastRow_apply {α : Type} (x : S1x4.Idx → α) (r : Fin 5000) (j : Fin 4) :
    broadcastTo S5000x4 x broadcasts_S1x4_S5000x4 (ix2 r j) = x (ix2 0 j) := by
  refine broadcastTo_apply x broadcasts_S1x4_S5000x4 (ix2 r j) (ix2 0 j) ?_
  intro a
  match a with
  | ⟨0, _⟩ => rfl
  | ⟨1, _⟩ => rfl

/-- The initial running-maximum row is −∞ everywhere. -/
theorem k3pay1_apply (i : S1x4.Idx) : k3_pay1 (F := Ideal) i = ⊥ := by
  unfold k3_pay1
  show shapeCast S1x4 (broadcast S1x4 (Ideal.ofBits .f32 0xFF800000#32)) shapeCasts_S1x4_S1x4 i = ⊥
  rw [shapeCast_self, ofBits_ninf]
  rfl

/-- The initial running-sum row is 0 everywhere. -/
theorem k3pay2_apply (i : S1x4.Idx) : k3_pay2 (F := Ideal) i = 0 := by
  unfold k3_pay2
  show shapeCast S1x4 (broadcast S1x4 (Ideal.ofBits .f32 0x00000000#32)) shapeCasts_S1x4_S1x4 i = 0
  rw [shapeCast_self, Ideal.ofBits_zero_f32]
  rfl

/-- The block as the reductions read it is the block itself. -/
theorem k3pay3_eq (v3 : Vec Ideal S5000x4 .f32) : k3_pay3 (F := Ideal) v3 = v3 := by
  unfold k3_pay3
  exact shapeCast_self v3 _

/-- The new running maximum at lane j: the larger of the old one and the block's column maximum. -/
theorem k3pay4_apply (v3 : Vec Ideal S5000x4 .f32) (v7 : Vec Ideal S1x4 .f32) (a : Fin 1) (j : Fin 4) :
    k3_pay4 (F := Ideal) v3 v7 (ix2 a j) = max (v7 (ix2 a j)) (Finset.univ.sup fun r : Fin 5000 => v3 (ix2 r j)) := by
  unfold k3_pay4
  rw [k3pay3_eq]
  show max (v7 (ix2 a j)) (shapeCast S1x4 (multiReduction (F := Ideal) .maximumf [0] S4 v3 0xFF800000#32
    reduces_S5000x4_S4 (.inl rfl) rfl) shapeCasts_S4_S1x4 (ix2 a j)) = _
  rw [rowOf_apply, blockMax_apply]

/-- The stored running maximum is the new running maximum. -/
theorem k3pay6_eq (v3 : Vec Ideal S5000x4 .f32) (v7 : Vec Ideal S1x4 .f32) : k3_pay6 (F := Ideal) v3 v7 = k3_pay4 (F := Ideal) v3 v7 := by
  unfold k3_pay6
  exact shapeCast_self _ _

/-- The new running sum at lane j: the old sum times exp(old maximum − new maximum), plus the sum down the block's
    column j of exp(entry − new maximum). -/
theorem k3pay5_apply (v3 : Vec Ideal S5000x4 .f32) (v7 v9 v10 : Vec Ideal S1x4 .f32) (a : Fin 1) (j : Fin 4) :
    k3_pay5 (F := Ideal) v3 v7 v9 v10 (ix2 a j)
      = v9 (ix2 a j) * Ideal.exp (v10 (ix2 a j) - k3_pay4 (F := Ideal) v3 v7 (ix2 a j))
        + ∑ r : Fin 5000, Ideal.exp (v3 (ix2 r j) - k3_pay4 (F := Ideal) v3 v7 (ix2 a j)) := by
  obtain rfl : a = 0 := Subsingleton.elim _ _
  unfold k3_pay5
  rw [k3pay3_eq, shapeCast_self]
  show v9 (ix2 0 j) * Ideal.exp (v10 (ix2 0 j) - k3_pay4 (F := Ideal) v3 v7 (ix2 0 j))
      + shapeCast S1x4 (multiReduction (F := Ideal) .add [0] S4
          (fun i => Ideal.exp (v3 i - broadcastTo S5000x4 (k3_pay4 (F := Ideal) v3 v7) broadcasts_S1x4_S5000x4 i))
          0x00000000#32 reduces_S5000x4_S4 (.inl rfl) rfl) shapeCasts_S4_S1x4 (ix2 0 j) = _
  rw [rowOf_apply, blockSum_apply]
  refine congrArg _ (Finset.sum_congr rfl fun r _ => ?_)
  show Ideal.exp (v3 (ix2 r j) - broadcastTo S5000x4 (k3_pay4 (F := Ideal) v3 v7) broadcasts_S1x4_S5000x4 (ix2 r j)) = _
  rw [bcastRow_apply]

/-- Column j of the n-th block, as a function of the row within the block. -/
def colBlk (zb : ℕ → Vec Ideal S5000x4 .f32) (j : Fin 4) : ℕ → Fin 5000 → EReal := fun n r => zb n (ix2 r j)

/-- The running maximum after one more block. -/
theorem runMax_succ {B : ℕ} (c : ℕ → Fin B → EReal) (t : ℕ) :
    Cert.Spec.runMax c (t + 1) = max (Cert.Spec.runMax c t) (Finset.univ.sup (c t)) := by rw [Cert.Spec.runMax]

/-- The running sum after one more block. -/
theorem runSum_succ {B : ℕ} (c : ℕ → Fin B → EReal) (t : ℕ) :
    Cert.Spec.runSum c (t + 1) = Cert.Spec.runSum c t * Ideal.exp (Cert.Spec.runMax c t - Cert.Spec.runMax c (t + 1))
      + ∑ r : Fin B, Ideal.exp (c t r - Cert.Spec.runMax c (t + 1)) := by rw [Cert.Spec.runSum]

/-- Before any block the running maximum is −∞. -/
theorem runMax_zero {B : ℕ} (c : ℕ → Fin B → EReal) : Cert.Spec.runMax c 0 = ⊥ := by rw [Cert.Spec.runMax]

/-- Before any block the running sum is 0. -/
theorem runSum_zero {B : ℕ} (c : ℕ → Fin B → EReal) : Cert.Spec.runSum c 0 = 0 := by rw [Cert.Spec.runSum]

/-- After grid point n the two scratch rows hold, at lane j, the running maximum and the running sum of column j
    over the first n + 1 blocks. -/
theorem seq3_run (zb : ℕ → Vec Ideal S5000x4 .f32) (j : Fin 4) (n : ℕ) :
    (seq3 (F := Ideal) zb n).1 (ix2 0 j) = Cert.Spec.runMax (colBlk zb j) (n + 1)
      ∧ (seq3 (F := Ideal) zb n).2 (ix2 0 j) = Cert.Spec.runSum (colBlk zb j) (n + 1) := by
  induction n with
  | zero =>
    constructor
    · show k3_pay6 (F := Ideal) (zb 0) (k3_pay1 (F := Ideal)) (ix2 0 j) = _
      rw [k3pay6_eq, k3pay4_apply, k3pay1_apply, runMax_succ, runMax_zero]
      rfl
    · show k3_pay5 (F := Ideal) (zb 0) (k3_pay1 (F := Ideal)) (k3_pay2 (F := Ideal)) (k3_pay1 (F := Ideal)) (ix2 0 j) = _
      rw [k3pay5_apply, k3pay4_apply, k3pay1_apply, k3pay2_apply, runSum_succ, runMax_succ, runMax_zero, runSum_zero]
      rfl
  | succ n ih =>
    obtain ⟨ih1, ih2⟩ := ih
    constructor
    · show k3_pay6 (F := Ideal) (zb (n + 1)) (seq3 (F := Ideal) zb n).1 (ix2 0 j) = _
      rw [k3pay6_eq, k3pay4_apply, ih1, runMax_succ (colBlk zb j) (n + 1)]
      rfl
    · show k3_pay5 (F := Ideal) (zb (n + 1)) (seq3 (F := Ideal) zb n).1 (seq3 (F := Ideal) zb n).2 (seq3 (F := Ideal) zb n).1 (ix2 0 j) = _
      rw [k3pay5_apply, k3pay4_apply, ih1, ih2, runSum_succ (colBlk zb j) (n + 1), runMax_succ (colBlk zb j) (n + 1)]
      rfl

/-- (block n, row r within the block) ↦ row 5000 n + r: the 100 blocks of 5000 rows tile the 500000 rows exactly. -/
def rowEquiv : Fin 100 × Fin 5000 ≃ Fin 500000 where
  toFun p := ⟨5000 * p.1.val + p.2.val, by omega⟩
  invFun q := (⟨q.val / 5000, by omega⟩, ⟨q.val % 5000, by omega⟩)
  left_inv p := by
    apply Prod.ext
    · apply Fin.ext; show (5000 * p.1.val + p.2.val) / 5000 = p.1.val; omega
    · apply Fin.ext; show (5000 * p.1.val + p.2.val) % 5000 = p.2.val; omega
  right_inv q := by
    apply Fin.ext; show 5000 * (q.val / 5000) + q.val % 5000 = q.val; omega

/-- When block n of zb is rows 5000 n … 5000 n + 4999 of z, the running maximum of column j over all 100 blocks is the
    maximum of column j of z. -/
theorem runMax_col (z : Cert.Spec.Arr2 500000 4) (zb : ℕ → Vec Ideal S5000x4 .f32)
    (hzb : ∀ n, (hn : n < 100) → ∀ (r : Fin 5000) (j : Fin 4), zb n (ix2 r j) = z (ix2 ⟨5000 * n + r.val, by omega⟩ j))
    (j : Fin 4) : Cert.Spec.runMax (colBlk zb j) 100 = Cert.Spec.colMax z j := by
  rw [Cert.Spec.runMax_eq]
  have h : (fun p : Fin 100 × Fin 5000 => colBlk zb j p.1 p.2)
      = fun p => (fun q : Fin 500000 => z (ix2 q j)) (rowEquiv p) := funext fun p => hzb p.1 p.1.isLt p.2 j
  rw [h, Finset.sup_univ_eq_iSup, rowEquiv.iSup_comp (g := fun q : Fin 500000 => z (ix2 q j)), ← Finset.sup_univ_eq_iSup]
  rfl

/-- … and the running sum over all 100 blocks is the sum down column j of exp(z − the column's maximum). -/
theorem runSum_col (z : Cert.Spec.Arr2 500000 4) (zb : ℕ → Vec Ideal S5000x4 .f32)
    (hzb : ∀ n, (hn : n < 100) → ∀ (r : Fin 5000) (j : Fin 4), zb n (ix2 r j) = z (ix2 ⟨5000 * n + r.val, by omega⟩ j))
    (j : Fin 4) : Cert.Spec.runSum (colBlk zb j) 100 = Cert.Spec.colSum z j := by
  rw [Cert.Spec.runSum_eq, runMax_col z zb hzb j]
  unfold Cert.Spec.colSum
  exact Fintype.sum_equiv rowEquiv _ _ fun p => congrArg (fun x => Ideal.exp (x - Cert.Spec.colMax z j)) (hzb p.1 p.1.isLt p.2 j)

/-- Every index of a one-row matrix is (0, its column). -/
theorem eq_row0 (i : S1x4.Idx) : i = ix2 (n0 := 1) (n1 := 4) 0 (i 1) := by
  funext c
  match c with
  | ⟨0, _⟩ => exact Subsingleton.elim (α := Fin 1) _ _
  | ⟨1, _⟩ => rfl

/-- After the last grid point the running-maximum row holds, at every lane, the maximum of that column of z. -/
theorem seq3_max (z : Cert.Spec.Arr2 500000 4) (zb : ℕ → Vec Ideal S5000x4 .f32)
    (hzb : ∀ n, (hn : n < 100) → ∀ (r : Fin 5000) (j : Fin 4), zb n (ix2 r j) = z (ix2 ⟨5000 * n + r.val, by omega⟩ j)) :
    ((seq3 (F := Ideal) zb 99).1 : S1x4.Idx → EReal) = fun i => Cert.Spec.colMax z (i 1) := by
  funext i
  exact (congrArg (seq3 (F := Ideal) zb 99).1 (eq_row0 i)).trans
    (((seq3_run zb (i 1) 99).1).trans (runMax_col z zb hzb (i 1)))

/-- After the last grid point the running-sum row holds, at every lane, the sum down that column of z of
    exp(z − the column's maximum). -/
theorem seq3_sum (z : Cert.Spec.Arr2 500000 4) (zb : ℕ → Vec Ideal S5000x4 .f32)
    (hzb : ∀ n, (hn : n < 100) → ∀ (r : Fin 5000) (j : Fin 4), zb n (ix2 r j) = z (ix2 ⟨5000 * n + r.val, by omega⟩ j)) :
    ((seq3 (F := Ideal) zb 99).2 : S1x4.Idx → EReal) = fun i => Cert.Spec.colSum z (i 1) := by
  funext i
  exact (congrArg (seq3 (F := Ideal) zb 99).2 (eq_row0 i)).trans
    (((seq3_run zb (i 1) 99).2).trans (runSum_col z zb hzb (i 1)))

end Cert.KernelIdeal.Hand

end
-- ==== Proof.KI.Blk3.lean ====
/-
  Region 3 of @main reads the rows of z (five hundred thousand rows of four columns) five thousand at a time: at
  point t its input window's block is rows [5000·t, 5000·(t+1)) of the array behind the window, all four columns.
  Stated over the window's own block expression, at an index of literal coordinates, for a point of the grid and for
  a natural number below the number of points.
-/
import proofs.«133038_j66116726555434_1_alg».proof.Proof.Gen.KernelIdeal.Launch
import proofs.«133038_j66116726555434_1_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The printed index map of region 3's input window, decided over the grid: at point t the rows are block t, the
    columns block 0. -/
theorem idx_facts3_0 : ∀ t : Fin cfg3.N, win3_0.index t (0 : Fin 2) = t.val ∧ win3_0.index t (1 : Fin 2) = 0 :=
  (by decide +kernel : ∀ t : Fin grid3.N, _)

variable (V : (c : Dev nD) → (b : Ref sig .tc) → Buf (Elt Ideal) ((c : Thread nD τ).loc b))

/-- Entry (r, j) of the input window's block at point t is entry (5000·t + r, j) of z. -/
theorem blk3_read (c : Dev nD) (t : Fin cfg3.N) (r : Fin 5000) (j : Fin 4) :
    (((cfg3.win 0).blk t).view.read (Elt Ideal) (V c (Pipeline.arrRef spec3 0)) : S5000x4.Idx → EReal) (ix2 r j)
      = (V c main_v117 : S500000x4.Idx → EReal)
          (ix2 ⟨5000 * t.val + r.val, by have := t.isLt; have h : cfg3.N = 100 := N_3; have := r.isLt; omega⟩ j) := by
  obtain ⟨e0, e1⟩ := idx_facts3_0 t
  rw [View.read_apply]
  show V c main_v117 (((cfg3.win 0).blk t).view.emb (ix2 r j)) = V c main_v117 (ix2 _ j)
  congr 1
  funext a; apply Fin.ext
  match a with
  | ⟨0, _⟩ => show win3_0.index t (0 : Fin 2) * 5000 + 1 * r.val = 5000 * t.val + r.val; rw [e0]; omega
  | ⟨1, _⟩ => show win3_0.index t (1 : Fin 2) * 4 + 1 * j.val = j.val; rw [e1]; omega

/-- A remainder modulo one hundred is a point of region 3's grid. -/
theorem mod_lt3 (n : ℕ) : n % 100 < cfg3.N := by have h : cfg3.N = 100 := N_3; omega

/-- The same with the point given as a natural number n below one hundred (the point n mod 100 is point n). -/
theorem blk3_read_nat (c : Dev nD) (n : ℕ) (hn : n < 100) (r : Fin 5000) (j : Fin 4) :
    ((fun n : ℕ => ((cfg3.win 0).blk ⟨n % 100, mod_lt3 n⟩).view.read
        (Elt Ideal) (V c (Pipeline.arrRef spec3 0))) n : S5000x4.Idx → EReal) (ix2 r j)
      = (V c main_v117 : S500000x4.Idx → EReal) (ix2 ⟨5000 * n + r.val, by have := r.isLt; omega⟩ j) := by
  have hm : n % 100 = n := Nat.mod_eq_of_lt hn
  refine (blk3_read V c ⟨n % 100, mod_lt3 n⟩ r j).trans ?_
  exact congrArg (fun i : Fin 500000 => (V c main_v117 : S500000x4.Idx → EReal) (ix2 i j))
    (Fin.ext (by show 5000 * (n % 100) + r.val = 5000 * n + r.val; rw [hm]))

end Cert.KernelIdeal.Hand

end
-- ==== Proof.KI.Val3.lean ====
/-
  Region 3's two results after the region, at the exact values: the first holds the maximum of each of the four columns
  of the 500000 × 4 matrix z behind the input window as the region finds it, the second the sum down each column of
  exp(z − that maximum). The results end at the two scratch rows after the last of the hundred points; the block
  handed to point n is rows 5000·n … 5000·n + 4999 of z; and the one-pass recursion over such blocks ends at the column
  maximum and the column sum.
-/
import proofs.«133038_j66116726555434_1_alg».proof.Proof.KI.Reg3
import proofs.«133038_j66116726555434_1_alg».proof.Proof.KI.Soft3
import proofs.«133038_j66116726555434_1_alg».proof.Proof.KI.Blk3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block of rows handed to point n (n below one hundred) is rows 5000·n … 5000·n + 4999 of z: entry (r, j) of the
    block is entry (5000·n + r, j) of the array. -/
theorem zb3_rows (c : Dev nD) (n : ℕ) (hn : n < 100) (r : Fin 5000) (j : Fin 4) :
    (zb3 (F := Ideal) V c n : S5000x4.Idx → EReal) (ix2 r j)
      = (V c main_v117 : S500000x4.Idx → EReal) (ix2 ⟨5000 * n + r.val, by have := r.isLt; omega⟩ j) := by
  unfold zb3 iblk3
  exact blk3_read_nat V c n hn r j

/-- THE FIRST RESULT after the region: at every lane, the maximum of that column of z. -/
theorem final3_colMax (c : Dev nD) :
    ((dat3 (F := Ideal) V c).arrAt 1 cfg3.N : S1x4.Idx → EReal)
      = fun i => Cert.Spec.colMax (R := 500000) (C := 4) (V c main_v117) (i 1) := by
  have h := seq3_max (V c main_v117) (zb3 (F := Ideal) V c) (fun n hn r j => zb3_rows V c n hn r j)
  exact (final3_max (F := Ideal) V c).trans h

/-- THE SECOND RESULT after the region: at every lane, the sum down that column of z of exp(z − the column's maximum). -/
theorem final3_colSum (c : Dev nD) :
    ((dat3 (F := Ideal) V c).arrAt 2 cfg3.N : S1x4.Idx → EReal)
      = fun i => Cert.Spec.colSum (R := 500000) (C := 4) (V c main_v117) (i 1) := by
  have h := seq3_sum (V c main_v117) (zb3 (F := Ideal) V c) (fun n hn r j => zb3_rows V c n hn r j)
  exact (final3_sum (F := Ideal) V c).trans h

end Cert.KernelIdeal.Hand

end
-- ==== Proof.KI.Val4.lean ====
/-
  Region 4 of @main, read as a value at the exact instance: after the region the result array is, index by index,
  exp(z[r, q] − m[0, q]) / l[0, q] of the three arrays the region finds — z the 500000 × 4 array behind window 0, m and l the
  two 1 × 4 rows behind windows 1 and 2.
  The road: the body's payload at row p, column q of a block (the two rows repeated down the block); the printed index
  maps decided over the 100 points (point t takes rows [5000 t, 5000 (t+1)) of z and of the result, and the whole of m
  and of l); what point t writes back is block t of the one whole-array function; row r lies in the block of point
  r / 5000, so the blocks cover the array.
-/
import proofs.«133038_j66116726555434_1_alg».proof.Proof.KI.Reg4
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The payload at an index -/

/-- The exponential of a vector, read at an index, is the exponential of the entry. -/
theorem exp_apply4 {s : Shape} {φ : FTy} (a : FVec Ideal s φ) (i : s.Idx) : exp a i = Ideal.exp (a i) := rfl

/-- The normalisation's payload at row p, column q of a block: exp(z[p,q] − m[0,q]) / l[0,q]. -/
theorem pay4_apply (x0 : Vec Ideal S5000x4 .f32) (x1 x2 : Vec Ideal S1x4 .f32) (p : Fin 5000) (q : Fin 4) :
    k4_pay1 x0 x1 x2 (ix2 p q) = Ideal.div (Ideal.exp (x0 (ix2 p q) - x1 (ix2 (0 : Fin 1) q))) (x2 (ix2 (0 : Fin 1) q)) := by
  unfold k4_pay1
  simp only [shapeCast_self]
  rw [divf_apply]
  refine congrArg₂ Ideal.div ?_ ?_
  · rw [exp_apply4, subf_apply, broadcastTo_1b_ab_apply]
  · exact broadcastTo_1b_ab_apply x2 broadcasts_S1x4_S5000x4 p q

/-- The same at any index j of the block, the column named by a literal q. -/
theorem pay4_at (x0 : Vec Ideal S5000x4 .f32) (x1 x2 : Vec Ideal S1x4 .f32) (j : S5000x4.Idx) (q : Fin 4) (hq : q.val = (j 1).val) :
    k4_pay1 x0 x1 x2 j = Ideal.div (Ideal.exp (x0 j - x1 (ix2 (0 : Fin 1) q))) (x2 (ix2 (0 : Fin 1) q)) := by
  obtain ⟨p, q', rfl⟩ : ∃ (p : Fin 5000) (q' : Fin 4), j = ix2 p q' := ⟨j 0, j 1, eq_ix2 j⟩
  obtain rfl : q = q' := Fin.ext hq
  exact pay4_apply x0 x1 x2 p q

/-! ## The whole-array function -/

/-- The normalised array as ONE function of z, m and l: entry (r, q) is exp(z[r,q] − m[0,q]) / l[0,q]. -/
def G4 (z : S500000x4.Idx → EReal) (m l : S1x4.Idx → EReal) : S500000x4.Idx → EReal :=
  fun i => Ideal.div (Ideal.exp (z i - m (ix2 (0 : Fin 1) (i 1)))) (l (ix2 (0 : Fin 1) (i 1)))

/-- G4 at an index, the column named by a literal q. -/
theorem G4_apply (z : S500000x4.Idx → EReal) (m l : S1x4.Idx → EReal) (i : S500000x4.Idx) (q : Fin 4) (hq : q.val = (i 1).val) :
    G4 z m l i = Ideal.div (Ideal.exp (z i - m (ix2 (0 : Fin 1) q))) (l (ix2 (0 : Fin 1) q)) := by
  obtain rfl : q = i 1 := Fin.ext hq
  rfl

/-- One entry of a block: when the block of z at j is z at k, k in j's column, and the two row blocks are the rows
    m and l, the payload at j is G4 at k. -/
theorem blk4_eq (z : S500000x4.Idx → EReal) (m l : S1x4.Idx → EReal) (x0 : Vec Ideal S5000x4 .f32) (x1 x2 : Vec Ideal S1x4 .f32)
    (j : S5000x4.Idx) (k : S500000x4.Idx) (hk1 : (k 1).val = (j 1).val) (h0 : x0 j = z k)
    (h1 : ∀ q : Fin 4, x1 (ix2 (0 : Fin 1) q) = m (ix2 (0 : Fin 1) q))
    (h2 : ∀ q : Fin 4, x2 (ix2 (0 : Fin 1) q) = l (ix2 (0 : Fin 1) q)) :
    k4_pay1 x0 x1 x2 j = G4 z m l k := by
  have hq : (j 1).val < 4 := (j 1).isLt
  rw [pay4_at x0 x1 x2 j ⟨(j 1).val, hq⟩ rfl, G4_apply z m l k ⟨(j 1).val, hq⟩ hk1.symm, h0, h1, h2]

/-- The offset (0, 0) of the one store and of the loads is the zero offset on both axes. -/
theorem hz4 : (![0, 0] : Fin 2 → Nat) = fun _ => 0 := funext fun a => by fin_cases a <;> rfl

/-- The printed index maps, decided over the 100 points: point t takes block (t, 0) of z and of the result, and
    block (0, 0) of each of the two rows. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- WHAT POINT t WRITES BACK is block t of G4 of the three arrays as the region finds them. -/
theorem flushed4_eq (c : Dev nD) (t : Fin cfg4.N) :
    (dat4 (F := Ideal) V c).flushed 3 t
      = ((cfg4.win 3).blk t).view.read (Elt Ideal) (G4 (V c main_v117) (V c main_v118_0) (V c main_v118_1)) := by
  show (cfg4.win 3).cut (grid4.coords t) ((dat4 V c).after 3 t) = _
  rw [after4_3]
  unfold out4_3
  rw [View.canon_unit_zero hz4]
  simp only [View.ld_unit_zero (S := S5000x4) hz4, View.ld_unit_zero (S := S1x4) hz4]
  obtain ⟨e0, e1, e2, e3, e4, e5, e6, e7⟩ := idx_facts4 t
  funext j
  show k4_pay1 (iblk4 V c 0 t) (iblk4 V c 1 t) (iblk4 V c 2 t) j
    = G4 (V c main_v117) (V c main_v118_0) (V c main_v118_1) (((cfg4.win 3).blk t).view.emb j)
  have hj0 : (j 0).val < 5000 := (j 0).isLt
  have hj1 : (j 1).val < 4 := (j 1).isLt
  refine blk4_eq (V c main_v117) (V c main_v118_0) (V c main_v118_1) (iblk4 V c 0 t) (iblk4 V c 1 t) (iblk4 V c 2 t) j
    (((cfg4.win 3).blk t).view.emb j) ?_ ?_ ?_ ?_
  · show win4_3.index t (1 : Fin 2) * 4 + 1 * (j 1).val = (j 1).val
    omega
  · show V c main_v117 (((cfg4.win 0).blk t).view.emb j) = V c main_v117 (((cfg4.win 3).blk t).view.emb j)
    have h : ((cfg4.win 0).blk t).view.emb j = ((cfg4.win 3).blk t).view.emb j := by
      funext a; apply Fin.ext
      match a with
      | ⟨0, _⟩ => show win4_0.index t (0 : Fin 2) * 5000 + 1 * (j 0).val = win4_3.index t (0 : Fin 2) * 5000 + 1 * (j 0).val; omega
      | ⟨1, _⟩ => show win4_0.index t (1 : Fin 2) * 4 + 1 * (j 1).val = win4_3.index t (1 : Fin 2) * 4 + 1 * (j 1).val; omega
    rw [h]
  · intro q
    show V c main_v118_0 (((cfg4.win 1).blk t).view.emb (ix2 (0 : Fin 1) q)) = V c main_v118_0 (ix2 (0 : Fin 1) q)
    have h : ((cfg4.win 1).blk t).view.emb (ix2 (0 : Fin 1) q) = ix2 (0 : Fin 1) q := by
      funext a; apply Fin.ext
      match a with
      | ⟨0, _⟩ => show win4_1.index t (0 : Fin 2) * 1 + 1 * 0 = 0; omega
      | ⟨1, _⟩ => show win4_1.index t (1 : Fin 2) * 4 + 1 * q.val = q.val; omega
    rw [h]
  · intro q
    show V c main_v118_1 (((cfg4.win 2).blk t).view.emb (ix2 (0 : Fin 1) q)) = V c main_v118_1 (ix2 (0 : Fin 1) q)
    have h : ((cfg4.win 2).blk t).view.emb (ix2 (0 : Fin 1) q) = ix2 (0 : Fin 1) q := by
      funext a; apply Fin.ext
      match a with
      | ⟨0, _⟩ => show win4_2.index t (0 : Fin 2) * 1 + 1 * 0 = 0; omega
      | ⟨1, _⟩ => show win4_2.index t (1 : Fin 2) * 4 + 1 * q.val = q.val; omega
    rw [h]

/-- An index of the array is in point t's block iff each coordinate is in the block's range on its axis. -/
theorem mem_blk4 (t : Fin cfg4.N) (i : S500000x4.Idx) :
    i ∈ ((cfg4.win 3).blk t).view.set ↔ ∀ a : Fin 2, win4_3.index t a * S5000x4.size a ≤ (i a).val
      ∧ (i a).val < win4_3.index t a * S5000x4.size a + S5000x4.size a := by
  show i ∈ ((View.whole main_v119).slice (win4_3.rect t)).set ↔ _
  rw [View.set_slice_whole, Rect.mem_set_unit]
  exact Iff.rfl

/-- THE COVER: row r of the array lies in the block of point r / 5000, and every point writes its block back. -/
theorem cover4 (i : S500000x4.Idx) :
    ∃ t : Fin cfg4.N, (cfg4.win 3).flush t = true ∧ i ∈ ((cfg4.win 3).blk t).view.set := by
  have hi0 : (i 0).val < 500000 := (i 0).isLt
  have hi1 : (i 1).val < 4 := (i 1).isLt
  obtain ⟨t, ht⟩ : ∃ t : Fin cfg4.N, t.val = (i 0).val / 5000 :=
    ⟨⟨(i 0).val / 5000, lt_of_lt_of_eq (by omega : (i 0).val / 5000 < 100) N_4.symm⟩, rfl⟩
  obtain ⟨e0, e1, e2, e3, e4, e5, e6, e7⟩ := idx_facts4 t
  refine ⟨t, flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 4 ≤ (i 1).val ∧ (i 1).val < win4_3.index t (1 : Fin 2) * 4 + 4
    omega

/-- THE ARRAY after the region: entry (r, q) is exp(z[r,q] − m[0,q]) / l[0,q] of the arrays the region finds. -/
theorem final4_G (c : Dev nD) :
    (dat4 (F := Ideal) V c).arrAt 3 cfg4.N
      = G4 (V c main_v117) (V c main_v118_0) (V c main_v118_1) :=
  (dat4 (F := Ideal) V c).arrAt_eq_of_cover 3 (G4 (V c main_v117) (V c main_v118_0) (V c main_v118_1))
    (fun t _ => flushed4_eq V c t) cover4

/-- The same, the function written out. -/
theorem final4 (c : Dev nD) :
    (dat4 (F := Ideal) V c).arrAt 3 cfg4.N
      = fun i => Ideal.div (Ideal.exp (HSub.hSub (α := EReal) (β := EReal) (V c main_v117 i) (V c main_v118_0 (ix2 0 (i 1)))))
          (V c main_v118_1 (ix2 0 (i 1))) :=
  final4_G V c

end Cert.KernelIdeal.Hand

end
-- ==== Proof.KI.Host.lean ====
/-
  The two stretches of host operations between the kernel's regions, each as ONE function of the argument arrays it
  reads and of the array the region before it produced: `hostA` is the first graph convolution after its linear map
  (gather the transformed rows at the edge sources, scale by the symmetric degree normalisation, scatter-add at the edge
  destinations, add the bias); `hostB` is the second convolution after ITS linear map, then the concatenation with the
  transformed bank rows and the two row gathers at the edge pairs, joined side by side: the input of the MLP.
  The same text reads in the kernel's and in the reference's program (their operation records have the same names).
-/
import proofs.«133038_j66116726555434_1_alg».proof.KernelIdeal

set_option maxRecDepth 8192

noncomputable section

namespace Cert.KernelIdeal.Hand

open Cert.KernelIdeal Idealize.ShloMosaic

open Facts₀

variable {F : FTy → Type} [FloatOps F] [Facts₀]

/-- The first convolution from the product X30 = x · W₁ on: aggregation over the edges (with self-loops) and bias. -/
def hostA (a3 : (⟨S60, .f32⟩ : BufTy).Contents (Elt F)) (a14 : (⟨S2x1600000, .i32⟩ : BufTy).Contents (Elt F)) (X30 : (⟨S100000x60, .f32⟩ : BufTy).Contents (Elt F)) : (⟨S100000x60, .f32⟩ : BufTy).Contents (Elt F) :=
  (addf (Host.scatterAdd scatter_S100000x60_S1700000x1_S1700000x60_1_0_0_1 (broadcastInDim S100000x60 ![] bcast_S_S100000x60 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (mulf (Host.gather gather_S100000x60_S1700000x1_S1700000x60_1_0_n_n_0_1_160 X30 (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (broadcastInDim S1700000x60 ![0, 1] bcast_S1700000x1_S1700000x60_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0))))))))) (broadcastInDim S100000x60 ![0, 1] bcast_S1x60_S100000x60_0_1 (broadcastInDim S1x60 ![1] bcast_S60_S1x60_1 a3)))

/-- The second convolution from the product X77 = h · W₂ on, the bank rows appended, and the two gathers at the pairs'
    endpoints side by side. -/
def hostB (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (a14 : (⟨S2x1600000, .i32⟩ : BufTy).Contents (Elt F)) (a15 : (⟨S500000, .i32⟩ : BufTy).Contents (Elt F)) (a16 : (⟨S500000, .i32⟩ : BufTy).Contents (Elt F)) (X77 : (⟨S100000x50, .f32⟩ : BufTy).Contents (Elt F)) : (⟨S500000x100, .f32⟩ : BufTy).Contents (Elt F) :=
  (concatenate S500000x100 1 [⟨S500000x50, (Host.gather gather_S101000x50_S500000x1_S500000x50_1_0_n_n_0_1_150 (concatenate S101000x50 0 [⟨S100000x50, (addf (Host.scatterAdd scatter_S100000x50_S1700000x1_S1700000x50_1_0_0_1 (broadcastInDim S100000x50 ![] bcast_S_S100000x50 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (mulf (Host.gather gather_S100000x50_S1700000x1_S1700000x50_1_0_n_n_0_1_150 X77 (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (broadcastInDim S1700000x50 ![0, 1] bcast_S1700000x1_S1700000x50_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0))))))))) (broadcastInDim S100000x50 ![0, 1] bcast_S1x50_S100000x50_0_1 (broadcastInDim S1x50 ![1] bcast_S50_S1x50_1 a5)))⟩, ⟨S1000x50, (addf (Host.dotGeneral dot_S1000x27_S27x50_S1000x50_1_0_0_1_n_n none a1 a6) (broadcastInDim S1000x50 ![0, 1] bcast_S1x50_S1000x50_0_1 (broadcastInDim S1x50 ![1] bcast_S50_S1x50_1 a7)))⟩] concatenates_S100000x50_S1000x50_S101000x50_d0) (broadcastInDim S500000x1 ![0] bcast_S500000_S500000x1_0 (select (cmpi .slt a15 (broadcastInDim S500000 ![] bcast_S_S500000 (constantI S_ 32 0#32))) (addi a15 (broadcastInDim S500000 ![] bcast_S_S500000 (constantI S_ 32 101000#32))) a15)))⟩, ⟨S500000x50, (Host.gather gather_S101000x50_S500000x1_S500000x50_1_0_n_n_0_1_150 (concatenate S101000x50 0 [⟨S100000x50, (addf (Host.scatterAdd scatter_S100000x50_S1700000x1_S1700000x50_1_0_0_1 (broadcastInDim S100000x50 ![] bcast_S_S100000x50 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (mulf (Host.gather gather_S100000x50_S1700000x1_S1700000x50_1_0_n_n_0_1_150 X77 (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (broadcastInDim S1700000x50 ![0, 1] bcast_S1700000x1_S1700000x50_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0))))))))) (broadcastInDim S100000x50 ![0, 1] bcast_S1x50_S100000x50_0_1 (broadcastInDim S1x50 ![1] bcast_S50_S1x50_1 a5)))⟩, ⟨S1000x50, (addf (Host.dotGeneral dot_S1000x27_S27x50_S1000x50_1_0_0_1_n_n none a1 a6) (broadcastInDim S1000x50 ![0, 1] bcast_S1x50_S1000x50_0_1 (broadcastInDim S1x50 ![1] bcast_S50_S1x50_1 a7)))⟩] concatenates_S100000x50_S1000x50_S101000x50_d0) (broadcastInDim S500000x1 ![0] bcast_S500000_S500000x1_0 (select (cmpi .slt a16 (broadcastInDim S500000 ![] bcast_S_S500000 (constantI S_ 32 0#32))) (addi a16 (broadcastInDim S500000 ![] bcast_S_S500000 (constantI S_ 32 101000#32))) a16)))⟩] concatenates_S500000x50_S500000x50_S500000x100_d1)

end Cert.KernelIdeal.Hand

end
-- ==== Proof.KI.Reads.lean ====
/-
  The host stretches between the kernel's regions, read back at the buffers the regions read.
  Between two items core c's unscoped buffers hold a boundary valuation: the launch contents, then the fold of each host
  stretch, with what a region leaves in its result array as an unknown. Here each stretch is read, over ANY contents
  before it, at the few buffers a later item reads, in a small vocabulary (the edges' ends with the self-loops, the
  index wrap of a gather, the degree, its inverse square root, the edges' normalisation, a graph convolution after its
  linear map, the table with the bank rows, the rows picked at the pairs' endpoints); the layers are then chained from
  the launch contents: the input of region 1 is the first stretch's function of what region 0 left, the input of
  region 2 the second stretch's function of what region 1 left, the MLP's bias rows are the bias vectors reshaped, and
  every argument a region reads is still its launch contents there.
-/
import proofs.«133038_j66116726555434_1_alg».proof.Proof.Gen.KernelIdeal.Regions
import proofs.«133038_j66116726555434_1_alg».proof.Proof.KI.Host
import Idealize.ShloMosaic.Lib.StableHlo.Run

set_option maxRecDepth 8192

noncomputable section
namespace Cert.KernelIdeal.Hand
open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (o : Outs (F := F))

/-! ## The vocabulary of the two graph convolutions' host side -/

/-- The edges' source ends, followed by the self-loops' 0 … 99999. -/
abbrev rdSrc (a14 : (⟨S2x1600000, .i32⟩ : BufTy).Contents (Elt F)) : (⟨S1700000, .i32⟩ : BufTy).Contents (Elt F) :=
  concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0

/-- The edges' destination ends, followed by the self-loops' 0 … 99999. -/
abbrev rdDst (a14 : (⟨S2x1600000, .i32⟩ : BufTy).Contents (Elt F)) : (⟨S1700000, .i32⟩ : BufTy).Contents (Elt F) :=
  concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0

/-- A node index read the way a gather reads it: a negative index counts from the end (one hundred thousand nodes). -/
abbrev rdWrap (e : (⟨S1700000, .i32⟩ : BufTy).Contents (Elt F)) : (⟨S1700000, .i32⟩ : BufTy).Contents (Elt F) :=
  select (cmpi .slt e (broadcastInDim S1700000 ![] bcast_S_S1700000 (constantI S_ 32 0#32))) (addi e (broadcastInDim S1700000 ![] bcast_S_S1700000 (constantI S_ 32 100000#32))) e

/-- The degree of every node: a scatter-add of ones at the destination ends. -/
abbrev rdDeg (a14 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (rdDst a14)) (broadcastInDim S1700000 ![] bcast_S_S1700000 (constant S_ .f32 0x3F800000#32))

/-- The inverse square root of the degree where it is positive, zero elsewhere. -/
abbrev rdDinv (a14 : (⟨S2x1600000, .i32⟩ : BufTy).Contents (Elt F)) : (⟨S100000, .f32⟩ : BufTy).Contents (Elt F) :=
  select (cmpf (F := F) .ogt (rdDeg a14) (broadcastInDim S100000 ![] bcast_S_S100000 (constant S_ .f32 0x00000000#32))) (Host.rsqrt (rdDeg a14)) (broadcastInDim S100000 ![] bcast_S_S100000 (id (constant S_ .f32 0x00000000#32)))

/-- The symmetric normalisation of an edge from the inverse square roots `d` at the nodes: d(source) · d(destination). -/
abbrev rdNormOf (d : (⟨S100000, .f32⟩ : BufTy).Contents (Elt F)) (src dst : (⟨S1700000, .i32⟩ : BufTy).Contents (Elt F)) : (⟨S1700000, .f32⟩ : BufTy).Contents (Elt F) :=
  mulf (Host.gather gather_S100000_S1700000x1_S1700000_n_0_n_n_0_1_1 d (broadcastInDim S1700000x1 ![0] bcast_S1700000_S1700000x1_0 (rdWrap src))) (Host.gather gather_S100000_S1700000x1_S1700000_n_0_n_n_0_1_1 d (broadcastInDim S1700000x1 ![0] bcast_S1700000_S1700000x1_0 (rdWrap dst)))

/-- The edges' normalisation as a function of the edge list. -/
abbrev rdNorm (a14 : (⟨S2x1600000, .i32⟩ : BufTy).Contents (Elt F)) : (⟨S1700000, .f32⟩ : BufTy).Contents (Elt F) :=
  rdNormOf (rdDinv a14) (rdSrc a14) (rdDst a14)

/-- The first convolution after its linear map, over the edge ends and the normalisation as given: gather the rows of
    X at the sources, scale, scatter-add at the destinations, add the bias row. -/
abbrev rdA (a3 : (⟨S60, .f32⟩ : BufTy).Contents (Elt F)) (X30 : (⟨S100000x60, .f32⟩ : BufTy).Contents (Elt F)) (src dst : (⟨S1700000, .i32⟩ : BufTy).Contents (Elt F)) (nrm : (⟨S1700000, .f32⟩ : BufTy).Contents (Elt F)) : (⟨S100000x60, .f32⟩ : BufTy).Contents (Elt F) :=
  addf (Host.scatterAdd scatter_S100000x60_S1700000x1_S1700000x60_1_0_0_1 (broadcastInDim S100000x60 ![] bcast_S_S100000x60 (constant S_ .f32 0x00000000#32)) (broadcastInDim S1700000x1 ![0] bcast_S1700000_S1700000x1_0 dst) (mulf (Host.gather gather_S100000x60_S1700000x1_S1700000x60_1_0_n_n_0_1_160 X30 (broadcastInDim S1700000x1 ![0] bcast_S1700000_S1700000x1_0 (rdWrap src))) (broadcastInDim S1700000x60 ![0, 1] bcast_S1700000x1_S1700000x60_0_1 (broadcastInDim S1700000x1 ![0] bcast_S1700000_S1700000x1_0 nrm)))) (broadcastInDim S100000x60 ![0, 1] bcast_S1x60_S100000x60_0_1 (broadcastInDim S1x60 ![1] bcast_S60_S1x60_1 a3))

/-- The table the pairs' endpoints are read from: the second convolution after its linear map (over the edge ends and
    the normalisation as given), with the transformed bank rows appended below. -/
abbrev rdTable (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (X77 : (⟨S100000x50, .f32⟩ : BufTy).Contents (Elt F)) (src dst : (⟨S1700000, .i32⟩ : BufTy).Contents (Elt F)) (nrm : (⟨S1700000, .f32⟩ : BufTy).Contents (Elt F)) : (⟨S101000x50, .f32⟩ : BufTy).Contents (Elt F) :=
  concatenate S101000x50 0 [⟨S100000x50, (addf (Host.scatterAdd scatter_S100000x50_S1700000x1_S1700000x50_1_0_0_1 (broadcastInDim S100000x50 ![] bcast_S_S100000x50 (constant S_ .f32 0x00000000#32)) (broadcastInDim S1700000x1 ![0] bcast_S1700000_S1700000x1_0 dst) (mulf (Host.gather gather_S100000x50_S1700000x1_S1700000x50_1_0_n_n_0_1_150 X77 (broadcastInDim S1700000x1 ![0] bcast_S1700000_S1700000x1_0 (rdWrap src))) (broadcastInDim S1700000x50 ![0, 1] bcast_S1700000x1_S1700000x50_0_1 (broadcastInDim S1700000x1 ![0] bcast_S1700000_S1700000x1_0 nrm)))) (broadcastInDim S100000x50 ![0, 1] bcast_S1x50_S100000x50_0_1 (broadcastInDim S1x50 ![1] bcast_S50_S1x50_1 a5)))⟩, ⟨S1000x50, (addf (Host.dotGeneral dot_S1000x27_S27x50_S1000x50_1_0_0_1_n_n none a1 a6) (broadcastInDim S1000x50 ![0, 1] bcast_S1x50_S1000x50_0_1 (broadcastInDim S1x50 ![1] bcast_S50_S1x50_1 a7)))⟩] concatenates_S100000x50_S1000x50_S101000x50_d0

/-- The rows of a table at the pairs' endpoints `e` (a negative index counts from the end of the 101000 rows). -/
abbrev rdPick (T : (⟨S101000x50, .f32⟩ : BufTy).Contents (Elt F)) (e : (⟨S500000, .i32⟩ : BufTy).Contents (Elt F)) : (⟨S500000x50, .f32⟩ : BufTy).Contents (Elt F) :=
  Host.gather gather_S101000x50_S500000x1_S500000x50_1_0_n_n_0_1_150 T (broadcastInDim S500000x1 ![0] bcast_S500000_S500000x1_0 (select (cmpi .slt e (broadcastInDim S500000 ![] bcast_S_S500000 (constantI S_ 32 0#32))) (addi e (broadcastInDim S500000 ![] bcast_S_S500000 (constantI S_ 32 101000#32))) e))

/-- The input of the MLP: the table's rows at the pairs' two endpoints, side by side. -/
abbrev rdB (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (a15 a16 : (⟨S500000, .i32⟩ : BufTy).Contents (Elt F)) (X77 : (⟨S100000x50, .f32⟩ : BufTy).Contents (Elt F)) (src dst : (⟨S1700000, .i32⟩ : BufTy).Contents (Elt F)) (nrm : (⟨S1700000, .f32⟩ : BufTy).Contents (Elt F)) : (⟨S500000x100, .f32⟩ : BufTy).Contents (Elt F) :=
  concatenate S500000x100 1 [⟨S500000x50, rdPick (rdTable a1 a5 a6 a7 X77 src dst nrm) a15⟩, ⟨S500000x50, rdPick (rdTable a1 a5 a6 a7 X77 src dst nrm) a16⟩] concatenates_S500000x50_S500000x50_S500000x100_d1

/-- The first stretch's function in this vocabulary. -/
theorem hostA_eq (a3 : (⟨S60, .f32⟩ : BufTy).Contents (Elt F)) (a14 : (⟨S2x1600000, .i32⟩ : BufTy).Contents (Elt F)) (X30 : (⟨S100000x60, .f32⟩ : BufTy).Contents (Elt F)) :
    hostA a3 a14 X30 = rdA a3 X30 (rdSrc a14) (rdDst a14) (rdNorm a14) := rfl

/-- The second stretch's function in this vocabulary. -/
theorem hostB_eq (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (a14 : (⟨S2x1600000, .i32⟩ : BufTy).Contents (Elt F)) (a15 a16 : (⟨S500000, .i32⟩ : BufTy).Contents (Elt F)) (X77 : (⟨S100000x50, .f32⟩ : BufTy).Contents (Elt F)) :
    hostB a1 a5 a6 a7 a14 a15 a16 X77 = rdB a1 a5 a6 a7 a15 a16 X77 (rdSrc a14) (rdDst a14) (rdNorm a14) := rfl

/-! ## Each host stretch read at the buffers the next items read, over ANY contents `W` before the stretch -/

section Layers
variable (W : Valuation τ sig (Elt F))

/-- The first stretch leaves the source ends in main_v3. -/
theorem l0_v3 : StableHlo.after hostOps0 W (Proc.devRef .tc main_v3) = rdSrc (W (Proc.devRef .tc main_arg14)) := by
  after_results_simp <;> rfl
/-- The first stretch leaves the destination ends in main_v6. -/
theorem l0_v6 : StableHlo.after hostOps0 W (Proc.devRef .tc main_v6) = rdDst (W (Proc.devRef .tc main_arg14)) := by
  after_results_simp <;> rfl
/-- The first stretch leaves in main_v12 where the degree is positive. -/
theorem l0_v12 : StableHlo.after hostOps0 W (Proc.devRef .tc main_v12)
    = cmpf (F := F) .ogt (rdDeg (W (Proc.devRef .tc main_arg14))) (broadcastInDim S100000 ![] bcast_S_S100000 (constant S_ .f32 0x00000000#32)) := by
  after_results_simp <;> rfl
/-- The first stretch leaves the degree's inverse square root in main_v13. -/
theorem l0_v13 : StableHlo.after hostOps0 W (Proc.devRef .tc main_v13) = Host.rsqrt (rdDeg (W (Proc.devRef .tc main_arg14))) := by
  after_results_simp <;> rfl
/-- The first stretch leaves the zero in main_cst_2. -/
theorem l0_cst2 : StableHlo.after hostOps0 W (Proc.devRef .tc main_cst_2) = constant S_ .f32 0x00000000#32 := by
  after_results_simp <;> rfl

/-- The first `where`: the select of the two by the mask. -/
theorem l0_1_v14 : StableHlo.after hostOps0_1 W (Proc.devRef .tc main_v14)
    = select (W (Proc.devRef .tc main_v12)) (W (Proc.devRef .tc main_v13)) (broadcastInDim S100000 ![] bcast_S_S100000 (id (W (Proc.devRef .tc main_cst_2)))) := by
  after_results_simp <;> rfl

/-- The third stretch leaves the edges' normalisation in main_v29. -/
theorem l0_2_v29 : StableHlo.after hostOps0_2 W (Proc.devRef .tc main_v29)
    = rdNormOf (W (Proc.devRef .tc main_v14)) (W (Proc.devRef .tc main_v3)) (W (Proc.devRef .tc main_v6)) := by
  after_results_simp <;> rfl

/-- The stretch after region 0 leaves the first convolution in main_v46. -/
theorem l1_v46 : StableHlo.after hostOps1 W (Proc.devRef .tc main_v46)
    = rdA (W (Proc.devRef .tc main_arg3)) (W (Proc.devRef .tc main_v30)) (W (Proc.devRef .tc main_v3)) (W (Proc.devRef .tc main_v6)) (W (Proc.devRef .tc main_v29)) := by
  after_results_simp <;> rfl
/-- It recomputes the source ends into main_v50, -/
theorem l1_v50 : StableHlo.after hostOps1 W (Proc.devRef .tc main_v50) = rdSrc (W (Proc.devRef .tc main_arg14)) := by
  after_results_simp <;> rfl
/-- the destination ends into main_v53, -/
theorem l1_v53 : StableHlo.after hostOps1 W (Proc.devRef .tc main_v53) = rdDst (W (Proc.devRef .tc main_arg14)) := by
  after_results_simp <;> rfl
/-- where the degree is positive into main_v59, -/
theorem l1_v59 : StableHlo.after hostOps1 W (Proc.devRef .tc main_v59)
    = cmpf (F := F) .ogt (rdDeg (W (Proc.devRef .tc main_arg14))) (broadcastInDim S100000 ![] bcast_S_S100000 (constant S_ .f32 0x00000000#32)) := by
  after_results_simp <;> rfl
/-- the degree's inverse square root into main_v60, -/
theorem l1_v60 : StableHlo.after hostOps1 W (Proc.devRef .tc main_v60) = Host.rsqrt (rdDeg (W (Proc.devRef .tc main_arg14))) := by
  after_results_simp <;> rfl
/-- and the zero into main_cst_12. -/
theorem l1_cst12 : StableHlo.after hostOps1 W (Proc.devRef .tc main_cst_12) = constant S_ .f32 0x00000000#32 := by
  after_results_simp <;> rfl

/-- The second `where`. -/
theorem l1_1_v61 : StableHlo.after hostOps1_1 W (Proc.devRef .tc main_v61)
    = select (W (Proc.devRef .tc main_v59)) (W (Proc.devRef .tc main_v60)) (broadcastInDim S100000 ![] bcast_S_S100000 (id (W (Proc.devRef .tc main_cst_12)))) := by
  after_results_simp <;> rfl

/-- The stretch before region 1 leaves the edges' normalisation in main_v76. -/
theorem l1_2_v76 : StableHlo.after hostOps1_2 W (Proc.devRef .tc main_v76)
    = rdNormOf (W (Proc.devRef .tc main_v61)) (W (Proc.devRef .tc main_v50)) (W (Proc.devRef .tc main_v53)) := by
  after_results_simp <;> rfl

/-- The stretch after region 1 leaves the MLP's input in main_v113, -/
theorem l2_v113 : StableHlo.after hostOps2 W (Proc.devRef .tc main_v113)
    = rdB (W (Proc.devRef .tc main_arg1)) (W (Proc.devRef .tc main_arg5)) (W (Proc.devRef .tc main_arg6)) (W (Proc.devRef .tc main_arg7))
        (W (Proc.devRef .tc main_arg15)) (W (Proc.devRef .tc main_arg16)) (W (Proc.devRef .tc main_v77))
        (W (Proc.devRef .tc main_v50)) (W (Proc.devRef .tc main_v53)) (W (Proc.devRef .tc main_v76)) := by
  after_results_simp
  -- the results are not rewritten inside a concatenation's list of pieces: descend into the pieces by congruence
  refine congrArg₂ (fun x y => concatenate S500000x100 1 [⟨S500000x50, x⟩, ⟨S500000x50, y⟩] concatenates_S500000x50_S500000x50_S500000x100_d1) ?_ ?_
  · after_results_simp
    refine congrArg (fun t => rdPick t (W (Proc.devRef .tc main_arg15))) ?_
    refine congrArg₂ (fun p q => concatenate S101000x50 0 [⟨S100000x50, p⟩, ⟨S1000x50, q⟩] concatenates_S100000x50_S1000x50_S101000x50_d0) ?_ ?_
    · after_results_simp <;> rfl
    · after_results_simp <;> rfl
  · after_results_simp
    refine congrArg (fun t => rdPick t (W (Proc.devRef .tc main_arg16))) ?_
    refine congrArg₂ (fun p q => concatenate S101000x50 0 [⟨S100000x50, p⟩, ⟨S1000x50, q⟩] concatenates_S100000x50_S1000x50_S101000x50_d0) ?_ ?_
    · after_results_simp <;> rfl
    · after_results_simp <;> rfl
/-- and the three bias vectors as rows in main_v114, main_v115, main_v116. -/
theorem l2_v114 : StableHlo.after hostOps2 W (Proc.devRef .tc main_v114) = shapeCast _ (W (Proc.devRef .tc main_arg9)) shapeCasts_S40_S1x40 := by
  after_results_simp <;> rfl
theorem l2_v115 : StableHlo.after hostOps2 W (Proc.devRef .tc main_v115) = shapeCast _ (W (Proc.devRef .tc main_arg11)) shapeCasts_S20_S1x20 := by
  after_results_simp <;> rfl
theorem l2_v116 : StableHlo.after hostOps2 W (Proc.devRef .tc main_v116) = shapeCast _ (W (Proc.devRef .tc main_arg13)) shapeCasts_S4_S1x4 := by
  after_results_simp <;> rfl

end Layers

/-! ## The boundary valuations at those buffers -/

/-- A reference the stretches before region 0 do not write holds its launch contents when region 0 is entered. -/
theorem V3_kept (c : Dev nD) (r : Ref sig .tc) (h0 : r ∉ hostOps0_W) (h1 : r ∉ hostOps0_1_W) (h2 : r ∉ hostOps0_2_W) :
    V3 m c r = m ((c.tc : Thread nD τ).loc r) :=
  (V3_of m c r h2).trans <| (V2_of m c r h1).trans <| (V1_of m c r h0).trans rfl

/-- A reference no item before region 1 writes holds its launch contents when region 1 is entered. -/
theorem V7_kept (c : Dev nD) (r : Ref sig .tc) (h0 : r ∉ hostOps0_W) (h1 : r ∉ hostOps0_1_W) (h2 : r ∉ hostOps0_2_W)
    (h3 : r ∉ ([main_v30] : List (Ref sig .tc))) (h4 : r ∉ hostOps1_W) (h5 : r ∉ hostOps1_1_W) (h6 : r ∉ hostOps1_2_W) :
    V7 m o c r = m ((c.tc : Thread nD τ).loc r) :=
  (V7_of m o c r h6).trans <| (V6_of m o c r h5).trans <| (V5_of m o c r h4).trans <| (V4_of m o c r h3).trans <| V3_kept m c r h0 h1 h2

/-- A reference no item before region 2 writes holds its launch contents when region 2 is entered. -/
theorem V9_kept (c : Dev nD) (r : Ref sig .tc) (h0 : r ∉ hostOps0_W) (h1 : r ∉ hostOps0_1_W) (h2 : r ∉ hostOps0_2_W)
    (h3 : r ∉ ([main_v30] : List (Ref sig .tc))) (h4 : r ∉ hostOps1_W) (h5 : r ∉ hostOps1_1_W) (h6 : r ∉ hostOps1_2_W)
    (h7 : r ∉ ([main_v77] : List (Ref sig .tc))) (h8 : r ∉ hostOps2_W) :
    V9 m o c r = m ((c.tc : Thread nD τ).loc r) :=
  (V9_of m o c r h8).trans <| (V8_of m o c r h7).trans <| V7_kept m o c r h0 h1 h2 h3 h4 h5 h6

/-- The arguments the regions read are still their launch contents where they are read. -/
theorem readArg3_0 (c : Dev nD) : V3 m c main_arg0 = m ((c.tc : Thread nD τ).loc main_arg0) :=
  V3_kept m c main_arg0 (by decide) (by decide) (by decide)
theorem readArg3_2 (c : Dev nD) : V3 m c main_arg2 = m ((c.tc : Thread nD τ).loc main_arg2) :=
  V3_kept m c main_arg2 (by decide) (by decide) (by decide)
theorem readArg7_4 (c : Dev nD) : V7 m o c main_arg4 = m ((c.tc : Thread nD τ).loc main_arg4) :=
  V7_kept m o c main_arg4 (by decide) (by decide) (by decide) (by decide) (by decide) (by decide) (by decide)
theorem readArg9_8 (c : Dev nD) : V9 m o c main_arg8 = m ((c.tc : Thread nD τ).loc main_arg8) :=
  V9_kept m o c main_arg8 (by decide) (by decide) (by decide) (by decide) (by decide) (by decide) (by decide) (by decide) (by decide)
theorem readArg9_10 (c : Dev nD) : V9 m o c main_arg10 = m ((c.tc : Thread nD τ).loc main_arg10) :=
  V9_kept m o c main_arg10 (by decide) (by decide) (by decide) (by decide) (by decide) (by decide) (by decide) (by decide) (by decide)
theorem readArg9_12 (c : Dev nD) : V9 m o c main_arg12 = m ((c.tc : Thread nD τ).loc main_arg12) :=
  V9_kept m o c main_arg12 (by decide) (by decide) (by decide) (by decide) (by decide) (by decide) (by decide) (by decide) (by decide)

/-! ### Up to region 0 -/

theorem V1_v3 (c : Dev nD) : V1 m c main_v3 = rdSrc (m ((c.tc : Thread nD τ).loc main_arg14)) := l0_v3 (V0 m c)
theorem V1_v6 (c : Dev nD) : V1 m c main_v6 = rdDst (m ((c.tc : Thread nD τ).loc main_arg14)) := l0_v6 (V0 m c)
theorem V1_v12 (c : Dev nD) : V1 m c main_v12
    = cmpf (F := F) .ogt (rdDeg (m ((c.tc : Thread nD τ).loc main_arg14))) (broadcastInDim S100000 ![] bcast_S_S100000 (constant S_ .f32 0x00000000#32)) := l0_v12 (V0 m c)
theorem V1_v13 (c : Dev nD) : V1 m c main_v13 = Host.rsqrt (rdDeg (m ((c.tc : Thread nD τ).loc main_arg14))) := l0_v13 (V0 m c)
theorem V1_cst2 (c : Dev nD) : V1 m c main_cst_2 = constant S_ .f32 0x00000000#32 := l0_cst2 (V0 m c)

/-- The inverse square roots of the degrees, when region 0 is entered. -/
theorem V2_v14 (c : Dev nD) : V2 m c main_v14 = rdDinv (m ((c.tc : Thread nD τ).loc main_arg14)) := by
  show StableHlo.after hostOps0_1 (V1 m c) (Proc.devRef .tc main_v14) = _
  rw [l0_1_v14, V1_v12, V1_v13, V1_cst2]

/-- The edges' normalisation, when region 0 is entered. -/
theorem V3_v29 (c : Dev nD) : V3 m c main_v29 = rdNorm (m ((c.tc : Thread nD τ).loc main_arg14)) := by
  show StableHlo.after hostOps0_2 (V2 m c) (Proc.devRef .tc main_v29) = _
  rw [l0_2_v29, V2_v14, V2_of m c main_v3 (by decide), V2_of m c main_v6 (by decide), V1_v3, V1_v6]

/-! ### Up to region 1 -/

/-- THE INPUT OF REGION 1: the first convolution's host side applied to what region 0 left in its result array. -/
theorem read46 (c : Dev nD) : V7 m o c main_v46
    = hostA (m ((c.tc : Thread nD τ).loc main_arg3)) (m ((c.tc : Thread nD τ).loc main_arg14)) (o 4 main_v30 c) := by
  rw [V7_of m o c main_v46 (by decide), V6_of m o c main_v46 (by decide), hostA_eq]
  show StableHlo.after hostOps1 (V4 m o c) (Proc.devRef .tc main_v46) = _
  have e30 : V4 m o c (Proc.devRef .tc main_v30) = o 4 main_v30 c := Function.update_self _ _ _
  rw [l1_v46, e30, V4_of m o c main_arg3 (by decide), V4_of m o c main_v3 (by decide), V4_of m o c main_v6 (by decide),
    V4_of m o c main_v29 (by decide), V3_v29, V3_of m c main_v3 (by decide), V3_of m c main_v6 (by decide),
    V2_of m c main_v3 (by decide), V2_of m c main_v6 (by decide), V1_v3, V1_v6,
    V3_kept m c main_arg3 (by decide) (by decide) (by decide)]

/-- The edge list is still its launch contents after region 0. -/
theorem V4_arg14 (c : Dev nD) : V4 m o c main_arg14 = m ((c.tc : Thread nD τ).loc main_arg14) :=
  (V4_of m o c main_arg14 (by decide)).trans (V3_kept m c main_arg14 (by decide) (by decide) (by decide))

theorem V5_v50 (c : Dev nD) : V5 m o c main_v50 = rdSrc (m ((c.tc : Thread nD τ).loc main_arg14)) :=
  (l1_v50 (V4 m o c)).trans (by rw [V4_arg14])
theorem V5_v53 (c : Dev nD) : V5 m o c main_v53 = rdDst (m ((c.tc : Thread nD τ).loc main_arg14)) :=
  (l1_v53 (V4 m o c)).trans (by rw [V4_arg14])
theorem V5_v59 (c : Dev nD) : V5 m o c main_v59
    = cmpf (F := F) .ogt (rdDeg (m ((c.tc : Thread nD τ).loc main_arg14))) (broadcastInDim S100000 ![] bcast_S_S100000 (constant S_ .f32 0x00000000#32)) :=
  (l1_v59 (V4 m o c)).trans (by rw [V4_arg14])
theorem V5_v60 (c : Dev nD) : V5 m o c main_v60 = Host.rsqrt (rdDeg (m ((c.tc : Thread nD τ).loc main_arg14))) :=
  (l1_v60 (V4 m o c)).trans (by rw [V4_arg14])
theorem V5_cst12 (c : Dev nD) : V5 m o c main_cst_12 = constant S_ .f32 0x00000000#32 := l1_cst12 (V4 m o c)

/-- The inverse square roots of the degrees, recomputed, when region 1 is entered. -/
theorem V6_v61 (c : Dev nD) : V6 m o c main_v61 = rdDinv (m ((c.tc : Thread nD τ).loc main_arg14)) := by
  show StableHlo.after hostOps1_1 (V5 m o c) (Proc.devRef .tc main_v61) = _
  rw [l1_1_v61, V5_v59, V5_v60, V5_cst12]

/-- The edges' normalisation, recomputed, when region 1 is entered. -/
theorem V7_v76 (c : Dev nD) : V7 m o c main_v76 = rdNorm (m ((c.tc : Thread nD τ).loc main_arg14)) := by
  show StableHlo.after hostOps1_2 (V6 m o c) (Proc.devRef .tc main_v76) = _
  rw [l1_2_v76, V6_v61, V6_of m o c main_v50 (by decide), V6_of m o c main_v53 (by decide), V5_v50, V5_v53]

theorem V7_v50 (c : Dev nD) : V7 m o c main_v50 = rdSrc (m ((c.tc : Thread nD τ).loc main_arg14)) :=
  (V7_of m o c main_v50 (by decide)).trans <| (V6_of m o c main_v50 (by decide)).trans (V5_v50 m o c)
theorem V7_v53 (c : Dev nD) : V7 m o c main_v53 = rdDst (m ((c.tc : Thread nD τ).loc main_arg14)) :=
  (V7_of m o c main_v53 (by decide)).trans <| (V6_of m o c main_v53 (by decide)).trans (V5_v53 m o c)

/-! ### Up to region 2 -/

/-- A reference no item before region 1 writes, other than region 1's own result array, is at its launch contents
    after region 1 too. -/
theorem V8_kept (c : Dev nD) (r : Ref sig .tc) (h0 : r ∉ hostOps0_W) (h1 : r ∉ hostOps0_1_W) (h2 : r ∉ hostOps0_2_W)
    (h3 : r ∉ ([main_v30] : List (Ref sig .tc))) (h4 : r ∉ hostOps1_W) (h5 : r ∉ hostOps1_1_W) (h6 : r ∉ hostOps1_2_W)
    (h7 : r ∉ ([main_v77] : List (Ref sig .tc))) : V8 m o c r = m ((c.tc : Thread nD τ).loc r) :=
  (V8_of m o c r h7).trans (V7_kept m o c r h0 h1 h2 h3 h4 h5 h6)

/-- THE INPUT OF REGION 2: the second convolution's host side, the bank rows and the gathers at the pairs, applied to
    what region 1 left in its result array. -/
theorem read113 (c : Dev nD) : V9 m o c main_v113
    = hostB (m ((c.tc : Thread nD τ).loc main_arg1)) (m ((c.tc : Thread nD τ).loc main_arg5)) (m ((c.tc : Thread nD τ).loc main_arg6))
        (m ((c.tc : Thread nD τ).loc main_arg7)) (m ((c.tc : Thread nD τ).loc main_arg14)) (m ((c.tc : Thread nD τ).loc main_arg15))
        (m ((c.tc : Thread nD τ).loc main_arg16)) (o 8 main_v77 c) := by
  rw [hostB_eq]
  show StableHlo.after hostOps2 (V8 m o c) (Proc.devRef .tc main_v113) = _
  have e77 : V8 m o c (Proc.devRef .tc main_v77) = o 8 main_v77 c := Function.update_self _ _ _
  rw [l2_v113, e77,
    V8_kept m o c main_arg1 (by decide) (by decide) (by decide) (by decide) (by decide) (by decide) (by decide) (by decide),
    V8_kept m o c main_arg5 (by decide) (by decide) (by decide) (by decide) (by decide) (by decide) (by decide) (by decide),
    V8_kept m o c main_arg6 (by decide) (by decide) (by decide) (by decide) (by decide) (by decide) (by decide) (by decide),
    V8_kept m o c main_arg7 (by decide) (by decide) (by decide) (by decide) (by decide) (by decide) (by decide) (by decide),
    V8_kept m o c main_arg15 (by decide) (by decide) (by decide) (by decide) (by decide) (by decide) (by decide) (by decide),
    V8_kept m o c main_arg16 (by decide) (by decide) (by decide) (by decide) (by decide) (by decide) (by decide) (by decide),
    V8_of m o c main_v50 (by decide), V8_of m o c main_v53 (by decide), V8_of m o c main_v76 (by decide),
    V7_v50, V7_v53, V7_v76]

/-- The three bias vectors of the MLP as rows, when region 2 is entered. -/
theorem read114 (c : Dev nD) : V9 m o c main_v114 = shapeCast _ (m ((c.tc : Thread nD τ).loc main_arg9)) shapeCasts_S40_S1x40 := by
  show StableHlo.after hostOps2 (V8 m o c) (Proc.devRef .tc main_v114) = _
  rw [l2_v114, V8_kept m o c main_arg9 (by decide) (by decide) (by decide) (by decide) (by decide) (by decide) (by decide) (by decide)]
theorem read115 (c : Dev nD) : V9 m o c main_v115 = shapeCast _ (m ((c.tc : Thread nD τ).loc main_arg11)) shapeCasts_S20_S1x20 := by
  show StableHlo.after hostOps2 (V8 m o c) (Proc.devRef .tc main_v115) = _
  rw [l2_v115, V8_kept m o c main_arg11 (by decide) (by decide) (by decide) (by decide) (by decide) (by decide) (by decide) (by decide)]
theorem read116 (c : Dev nD) : V9 m o c main_v116 = shapeCast _ (m ((c.tc : Thread nD τ).loc main_arg13)) shapeCasts_S4_S1x4 := by
  show StableHlo.after hostOps2 (V8 m o c) (Proc.devRef .tc main_v116) = _
  rw [l2_v116, V8_kept m o c main_arg13 (by decide) (by decide) (by decide) (by decide) (by decide) (by decide) (by decide) (by decide)]

end Cert.KernelIdeal.Hand

end
-- ==== Proof.KI.Value.lean ====
/-
  The idealized kernel's value. The result buffer after the last region is read back region by region: region 4 leaves
  exp(z − m)/l of the three arrays it finds; region 3 leaves in m and l the column maxima and the column sums of
  exp(z − maximum) of z and does not touch z, so the result is the column softmax of z; z is what region 2 leaves, the
  three-layer MLP of the pairs' features with the bias vectors as rows; those features are the second host stretch's
  function of what region 1 leaves, the product of its input with W₂; that input is the first host stretch's function
  of what region 0 leaves, the product x · W₁; and every argument is read at its launch contents.
-/
import proofs.«133038_j66116726555434_1_alg».proof.Proof.KI.Run
import proofs.«133038_j66116726555434_1_alg».proof.Proof.KI.Val0
import proofs.«133038_j66116726555434_1_alg».proof.Proof.KI.Val1
import proofs.«133038_j66116726555434_1_alg».proof.Proof.KI.Val2
import proofs.«133038_j66116726555434_1_alg».proof.Proof.KI.Val3
import proofs.«133038_j66116726555434_1_alg».proof.Proof.KI.Val4
import proofs.«133038_j66116726555434_1_alg».proof.Proof.KI.Reads
import proofs.«133038_j66116726555434_1_alg».proof.Proof.KI.Host
import proofs.«133038_j66116726555434_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

section Value
variable (m : (ℓ : Loc nD τ sig) → Buf (Elt Ideal) ℓ) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)

/-- The normalised array of region 4, fed the column maxima and column sums of z, is the column softmax of z. -/
theorem G4_softmax (Z : S500000x4.Idx → EReal) :
    G4 Z (fun i => Cert.Spec.colMax (R := 500000) (C := 4) Z (i 1)) (fun i => Cert.Spec.colSum (R := 500000) (C := 4) Z (i 1))
      = Cert.Spec.softmaxCols (R := 500000) (C := 4) Z := rfl

/-- What region 0 leaves: the product x · W₁ of the two launch arguments. -/
theorem val30 : (outs m 4 main_v30 c : S100000x60.Idx → EReal) = (Cert.Spec.mm (M := 100000) (K := 27) (N := 60) a0 a2) := by
  refine (outs_v30 m 4 c).trans ((final0 (atRefs (V3 m)) c).trans ?_)
  show Cert.Spec.mm (M := 100000) (K := 27) (N := 60) (V3 m c main_arg0) (V3 m c main_arg2) = _
  rw [readArg3_0 m c, readArg3_2 m c]

/-- The input of region 1: the first convolution's host side of that product. -/
theorem val46 : V7 m (outs m) c main_v46 = (hostA a3 a14 (Cert.Spec.mm (M := 100000) (K := 27) (N := 60) a0 a2)) := by
  rw [read46 m (outs m) c, val30 m c]

/-- What region 1 leaves: the product of its input with W₂. -/
theorem val77 : (outs m 8 main_v77 c : S100000x50.Idx → EReal) = (Cert.Spec.mm (M := 100000) (K := 60) (N := 50) (hostA a3 a14 (Cert.Spec.mm (M := 100000) (K := 27) (N := 60) a0 a2)) a4) := by
  have e : V8 m (outs m) c main_v77 = outs m 8 main_v77 c := Function.update_self _ _ _
  refine e.symm.trans ((exitSet1_2 m c).trans ((final1 (atRefs (V7 m (outs m))) c).trans ?_))
  show Cert.Spec.mm (M := 100000) (K := 60) (N := 50) (V7 m (outs m) c main_v46) (V7 m (outs m) c main_arg4) = _
  rw [val46 m c, readArg7_4 m (outs m) c]

/-- The input of region 2: the second convolution's host side, the bank rows and the gathers at the pairs. -/
theorem val113 : V9 m (outs m) c main_v113 = (hostB a1 a5 a6 a7 a14 a15 a16 (Cert.Spec.mm (M := 100000) (K := 60) (N := 50) (hostA a3 a14 (Cert.Spec.mm (M := 100000) (K := 27) (N := 60) a0 a2)) a4)) := by
  rw [read113 m (outs m) c, val77 m c]

/-- What region 2 leaves: the three-layer MLP of its input. -/
theorem val117 : (V10 m (outs m) c main_v117 : S500000x4.Idx → EReal) = (Cert.Spec.addRow (M := 500000) (N := 4) (Cert.Spec.mm (M := 500000) (K := 20) (N := 4)
      (Cert.Spec.addRow (M := 500000) (N := 20) (Cert.Spec.mm (M := 500000) (K := 40) (N := 20)
        (Cert.Spec.addRow (M := 500000) (N := 40) (Cert.Spec.mm (M := 500000) (K := 100) (N := 40) (hostB a1 a5 a6 a7 a14 a15 a16 (Cert.Spec.mm (M := 100000) (K := 60) (N := 50) (hostA a3 a14 (Cert.Spec.mm (M := 100000) (K := 27) (N := 60) a0 a2)) a4)) a8) (shapeCast _ a9 shapeCasts_S40_S1x40))
        a10) (shapeCast _ a11 shapeCasts_S20_S1x20))
      a12) (shapeCast _ a13 shapeCasts_S4_S1x4)) := by
  refine (exitSet2_7 m c).trans ((final2 (atRefs (V9 m (outs m))) c).trans ?_)
  show (Cert.Spec.addRow (M := 500000) (N := 4) (Cert.Spec.mm (M := 500000) (K := 20) (N := 4)
      (Cert.Spec.addRow (M := 500000) (N := 20) (Cert.Spec.mm (M := 500000) (K := 40) (N := 20)
        (Cert.Spec.addRow (M := 500000) (N := 40) (Cert.Spec.mm (M := 500000) (K := 100) (N := 40) (V9 m (outs m) c main_v113) (V9 m (outs m) c main_arg8)) (V9 m (outs m) c main_v114))
        (V9 m (outs m) c main_arg10)) (V9 m (outs m) c main_v115))
      (V9 m (outs m) c main_arg12)) (V9 m (outs m) c main_v116)) = _
  rw [val113 m c, read114 m (outs m) c, read115 m (outs m) c, read116 m (outs m) c, readArg9_8 m (outs m) c,
    readArg9_10 m (outs m) c, readArg9_12 m (outs m) c]

/-- Region 3 leaves the MLP's result where it was. -/
theorem val117_kept : V11 m (outs m) c main_v117 = V10 m (outs m) c main_v117 :=
  exitKeeps3 m c main_v117 (by decide)

/-- Region 3's first result: the column maxima of the MLP's result. -/
theorem val118_0 : (V11 m (outs m) c main_v118_0 : S1x4.Idx → EReal)
    = fun i => Cert.Spec.colMax (R := 500000) (C := 4) (V10 m (outs m) c main_v117) (i 1) :=
  (exitSet3_1 m c).trans (final3_colMax (atRefs (V10 m (outs m))) c)

/-- Region 3's second result: the column sums of exp(z − the column's maximum). -/
theorem val118_1 : (V11 m (outs m) c main_v118_1 : S1x4.Idx → EReal)
    = fun i => Cert.Spec.colSum (R := 500000) (C := 4) (V10 m (outs m) c main_v117) (i 1) :=
  (exitSet3_2 m c).trans (final3_colSum (atRefs (V10 m (outs m))) c)

/-- THE KERNEL'S VALUE: the result buffer after the last region is the column softmax of the three-layer MLP of the
    pairs' features, themselves the two graph convolutions of the launch arguments. -/
theorem kernel_value : (V12 m (outs m) c main_v119 : S500000x4.Idx → EReal)
    = Cert.Spec.softmaxCols (R := 500000) (C := 4) (Cert.Spec.addRow (M := 500000) (N := 4) (Cert.Spec.mm (M := 500000) (K := 20) (N := 4)
      (Cert.Spec.addRow (M := 500000) (N := 20) (Cert.Spec.mm (M := 500000) (K := 40) (N := 20)
        (Cert.Spec.addRow (M := 500000) (N := 40) (Cert.Spec.mm (M := 500000) (K := 100) (N := 40) (hostB a1 a5 a6 a7 a14 a15 a16 (Cert.Spec.mm (M := 100000) (K := 60) (N := 50) (hostA a3 a14 (Cert.Spec.mm (M := 100000) (K := 27) (N := 60) a0 a2)) a4)) a8) (shapeCast _ a9 shapeCasts_S40_S1x40))
        a10) (shapeCast _ a11 shapeCasts_S20_S1x20))
      a12) (shapeCast _ a13 shapeCasts_S4_S1x4)) := by
  refine (exitSet4_3 m c).trans ((final4_G (atRefs (V11 m (outs m))) c).trans ?_)
  show G4 (V11 m (outs m) c main_v117) (V11 m (outs m) c main_v118_0) (V11 m (outs m) c main_v118_1) = _
  rw [val117_kept m c, val118_0 m c, val118_1 m c]
  exact (G4_softmax (V10 m (outs m) c main_v117)).trans
    (congrArg (Cert.Spec.softmaxCols (R := 500000) (C := 4)) (val117 m c))

end Value

end Cert.KernelIdeal.Hand

end
-- ==== Proof.Ref.Host.lean ====
/-
  The two stretches of host operations between the kernel's regions, each as ONE function of the argument arrays it
  reads and of the array the region before it produced: `hostA` is the first graph convolution after its linear map
  (gather the transformed rows at the edge sources, scale by the symmetric degree normalisation, scatter-add at the edge
  destinations, add the bias); `hostB` is the second convolution after ITS linear map, then the concatenation with the
  transformed bank rows and the two row gathers at the edge pairs, joined side by side: the input of the MLP.
  The same text reads in the kernel's and in the reference's program (their operation records have the same names).
-/
import proofs.«133038_j66116726555434_1_alg».proof.ReferenceIdeal

set_option maxRecDepth 8192

noncomputable section

namespace Cert.ReferenceIdeal.RefValue

open Cert.ReferenceIdeal Idealize.ShloMosaic

open Facts₀

variable {F : FTy → Type} [FloatOps F] [Facts₀]

/-- The first convolution from the product X30 = x · W₁ on: aggregation over the edges (with self-loops) and bias. -/
def hostA (a3 : (⟨S60, .f32⟩ : BufTy).Contents (Elt F)) (a14 : (⟨S2x1600000, .i32⟩ : BufTy).Contents (Elt F)) (X30 : (⟨S100000x60, .f32⟩ : BufTy).Contents (Elt F)) : (⟨S100000x60, .f32⟩ : BufTy).Contents (Elt F) :=
  (addf (Host.scatterAdd scatter_S100000x60_S1700000x1_S1700000x60_1_0_0_1 (broadcastInDim S100000x60 ![] bcast_S_S100000x60 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (mulf (Host.gather gather_S100000x60_S1700000x1_S1700000x60_1_0_n_n_0_1_160 X30 (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (broadcastInDim S1700000x60 ![0, 1] bcast_S1700000x1_S1700000x60_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0))))))))) (broadcastInDim S100000x60 ![0, 1] bcast_S1x60_S100000x60_0_1 (broadcastInDim S1x60 ![1] bcast_S60_S1x60_1 a3)))

/-- The second convolution from the product X77 = h · W₂ on, the bank rows appended, and the two gathers at the pairs'
    endpoints side by side. -/
def hostB (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (a14 : (⟨S2x1600000, .i32⟩ : BufTy).Contents (Elt F)) (a15 : (⟨S500000, .i32⟩ : BufTy).Contents (Elt F)) (a16 : (⟨S500000, .i32⟩ : BufTy).Contents (Elt F)) (X77 : (⟨S100000x50, .f32⟩ : BufTy).Contents (Elt F)) : (⟨S500000x100, .f32⟩ : BufTy).Contents (Elt F) :=
  (concatenate S500000x100 1 [⟨S500000x50, (Host.gather gather_S101000x50_S500000x1_S500000x50_1_0_n_n_0_1_150 (concatenate S101000x50 0 [⟨S100000x50, (addf (Host.scatterAdd scatter_S100000x50_S1700000x1_S1700000x50_1_0_0_1 (broadcastInDim S100000x50 ![] bcast_S_S100000x50 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (mulf (Host.gather gather_S100000x50_S1700000x1_S1700000x50_1_0_n_n_0_1_150 X77 (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (broadcastInDim S1700000x50 ![0, 1] bcast_S1700000x1_S1700000x50_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0))))))))) (broadcastInDim S100000x50 ![0, 1] bcast_S1x50_S100000x50_0_1 (broadcastInDim S1x50 ![1] bcast_S50_S1x50_1 a5)))⟩, ⟨S1000x50, (addf (Host.dotGeneral dot_S1000x27_S27x50_S1000x50_1_0_0_1_n_n none a1 a6) (broadcastInDim S1000x50 ![0, 1] bcast_S1x50_S1000x50_0_1 (broadcastInDim S1x50 ![1] bcast_S50_S1x50_1 a7)))⟩] concatenates_S100000x50_S1000x50_S101000x50_d0) (broadcastInDim S500000x1 ![0] bcast_S500000_S500000x1_0 (select (cmpi .slt a15 (broadcastInDim S500000 ![] bcast_S_S500000 (constantI S_ 32 0#32))) (addi a15 (broadcastInDim S500000 ![] bcast_S_S500000 (constantI S_ 32 101000#32))) a15)))⟩, ⟨S500000x50, (Host.gather gather_S101000x50_S500000x1_S500000x50_1_0_n_n_0_1_150 (concatenate S101000x50 0 [⟨S100000x50, (addf (Host.scatterAdd scatter_S100000x50_S1700000x1_S1700000x50_1_0_0_1 (broadcastInDim S100000x50 ![] bcast_S_S100000x50 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (mulf (Host.gather gather_S100000x50_S1700000x1_S1700000x50_1_0_n_n_0_1_150 X77 (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (broadcastInDim S1700000x50 ![0, 1] bcast_S1700000x1_S1700000x50_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0))))))))) (broadcastInDim S100000x50 ![0, 1] bcast_S1x50_S100000x50_0_1 (broadcastInDim S1x50 ![1] bcast_S50_S1x50_1 a5)))⟩, ⟨S1000x50, (addf (Host.dotGeneral dot_S1000x27_S27x50_S1000x50_1_0_0_1_n_n none a1 a6) (broadcastInDim S1000x50 ![0, 1] bcast_S1x50_S1000x50_0_1 (broadcastInDim S1x50 ![1] bcast_S50_S1x50_1 a7)))⟩] concatenates_S100000x50_S1000x50_S101000x50_d0) (broadcastInDim S500000x1 ![0] bcast_S500000_S500000x1_0 (select (cmpi .slt a16 (broadcastInDim S500000 ![] bcast_S_S500000 (constantI S_ 32 0#32))) (addi a16 (broadcastInDim S500000 ![] bcast_S_S500000 (constantI S_ 32 101000#32))) a16)))⟩] concatenates_S500000x50_S500000x50_S500000x100_d1)

end Cert.ReferenceIdeal.RefValue

end
-- ==== Proof.Ref.Reads.lean ====
/-
  The reference's @main read back: one straight line of 170 host operations, cut into nine stretches, each read over ANY
  contents before it at the few buffers a later stretch reads — in the vocabulary of the two graph convolutions' host
  side (the edges' ends with the self-loops, the index wrap of a gather, the degree, its inverse square root, the
  edges' normalisation, a convolution after its linear map, the table with the bank rows, the rows picked at the pairs'
  endpoints) —, and the stretches chained: the result array is the column softmax of the MLP applied to the second
  stretch's function of h · W₂, h being the first stretch's function of x · W₁; no operation writes an argument; and
  the run itself, every buffer ending at the fold of the operations over its launch contents.
-/
import proofs.«133038_j66116726555434_1_alg».proof.Proof.Ref.Ops
import proofs.«133038_j66116726555434_1_alg».proof.Proof.Ref.Host
import Idealize.ShloMosaic.Lib.StableHlo.Run

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The vocabulary of the two graph convolutions' host side -/

/-- The edges' source ends, followed by the self-loops' 0 … 99999. -/
abbrev rdSrc (a14 : (⟨S2x1600000, .i32⟩ : BufTy).Contents (Elt F)) : (⟨S1700000, .i32⟩ : BufTy).Contents (Elt F) :=
  concatenate S1700000 0 [⟨S1600000, (shapeCast _ (extractStridedSlice S1x1600000 ![0, 0] a14 slices_S2x1600000_S1x1600000_0_0) shapeCasts_S1x1600000_S1600000)⟩, ⟨S100000, (iotaInDim S100000 32 0)⟩] concatenates_S1600000_S100000_S1700000_d0

/-- The edges' destination ends, followed by the self-loops' 0 … 99999. -/
abbrev rdDst (a14 : (⟨S2x1600000, .i32⟩ : BufTy).Contents (Elt F)) : (⟨S1700000, .i32⟩ : BufTy).Contents (Elt F) :=
  concatenate S1700000 0 [⟨S1600000, (shapeCast _ (extractStridedSlice S1x1600000 ![1, 0] a14 slices_S2x1600000_S1x1600000_1_0) shapeCasts_S1x1600000_S1600000)⟩, ⟨S100000, (iotaInDim S100000 32 0)⟩] concatenates_S1600000_S100000_S1700000_d0

/-- A node index read the way a gather reads it: a negative index counts from the end (one hundred thousand nodes). -/
abbrev rdWrap (e : (⟨S1700000, .i32⟩ : BufTy).Contents (Elt F)) : (⟨S1700000, .i32⟩ : BufTy).Contents (Elt F) :=
  select (cmpi .slt e (broadcastInDim S1700000 ![] bcast_S_S1700000 (constantI S_ 32 0#32))) (addi e (broadcastInDim S1700000 ![] bcast_S_S1700000 (constantI S_ 32 100000#32))) e

/-- The degree of every node: a scatter-add of ones at the destination ends. -/
abbrev rdDeg (a14 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (rdDst a14)) (broadcastInDim S1700000 ![] bcast_S_S1700000 (constant S_ .f32 0x3F800000#32))

/-- The inverse square root of the degree where it is positive, zero elsewhere. -/
abbrev rdDinv (a14 : (⟨S2x1600000, .i32⟩ : BufTy).Contents (Elt F)) : (⟨S100000, .f32⟩ : BufTy).Contents (Elt F) :=
  select (cmpf (F := F) .ogt (rdDeg a14) (broadcastInDim S100000 ![] bcast_S_S100000 (constant S_ .f32 0x00000000#32))) (Host.rsqrt (rdDeg a14)) (broadcastInDim S100000 ![] bcast_S_S100000 (id (constant S_ .f32 0x00000000#32)))

/-- The symmetric normalisation of an edge from the inverse square roots `d` at the nodes: d(source) · d(destination). -/
abbrev rdNormOf (d : (⟨S100000, .f32⟩ : BufTy).Contents (Elt F)) (src dst : (⟨S1700000, .i32⟩ : BufTy).Contents (Elt F)) : (⟨S1700000, .f32⟩ : BufTy).Contents (Elt F) :=
  mulf (Host.gather gather_S100000_S1700000x1_S1700000_n_0_n_n_0_1_1 d (broadcastInDim S1700000x1 ![0] bcast_S1700000_S1700000x1_0 (rdWrap src))) (Host.gather gather_S100000_S1700000x1_S1700000_n_0_n_n_0_1_1 d (broadcastInDim S1700000x1 ![0] bcast_S1700000_S1700000x1_0 (rdWrap dst)))

/-- The edges' normalisation as a function of the edge list. -/
abbrev rdNorm (a14 : (⟨S2x1600000, .i32⟩ : BufTy).Contents (Elt F)) : (⟨S1700000, .f32⟩ : BufTy).Contents (Elt F) :=
  rdNormOf (rdDinv a14) (rdSrc a14) (rdDst a14)

/-- The first convolution after its linear map, over the edge ends and the normalisation as given: gather the rows of
    X at the sources, scale, scatter-add at the destinations, add the bias row. -/
abbrev rdA (a3 : (⟨S60, .f32⟩ : BufTy).Contents (Elt F)) (X30 : (⟨S100000x60, .f32⟩ : BufTy).Contents (Elt F)) (src dst : (⟨S1700000, .i32⟩ : BufTy).Contents (Elt F)) (nrm : (⟨S1700000, .f32⟩ : BufTy).Contents (Elt F)) : (⟨S100000x60, .f32⟩ : BufTy).Contents (Elt F) :=
  addf (Host.scatterAdd scatter_S100000x60_S1700000x1_S1700000x60_1_0_0_1 (broadcastInDim S100000x60 ![] bcast_S_S100000x60 (constant S_ .f32 0x00000000#32)) (broadcastInDim S1700000x1 ![0] bcast_S1700000_S1700000x1_0 dst) (mulf (Host.gather gather_S100000x60_S1700000x1_S1700000x60_1_0_n_n_0_1_160 X30 (broadcastInDim S1700000x1 ![0] bcast_S1700000_S1700000x1_0 (rdWrap src))) (broadcastInDim S1700000x60 ![0, 1] bcast_S1700000x1_S1700000x60_0_1 (broadcastInDim S1700000x1 ![0] bcast_S1700000_S1700000x1_0 nrm)))) (broadcastInDim S100000x60 ![0, 1] bcast_S1x60_S100000x60_0_1 (broadcastInDim S1x60 ![1] bcast_S60_S1x60_1 a3))

/-- The table the pairs' endpoints are read from: the second convolution after its linear map (over the edge ends and
    the normalisation as given), with the transformed bank rows appended below. -/
abbrev rdTable (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (X77 : (⟨S100000x50, .f32⟩ : BufTy).Contents (Elt F)) (src dst : (⟨S1700000, .i32⟩ : BufTy).Contents (Elt F)) (nrm : (⟨S1700000, .f32⟩ : BufTy).Contents (Elt F)) : (⟨S101000x50, .f32⟩ : BufTy).Contents (Elt F) :=
  concatenate S101000x50 0 [⟨S100000x50, (addf (Host.scatterAdd scatter_S100000x50_S1700000x1_S1700000x50_1_0_0_1 (broadcastInDim S100000x50 ![] bcast_S_S100000x50 (constant S_ .f32 0x00000000#32)) (broadcastInDim S1700000x1 ![0] bcast_S1700000_S1700000x1_0 dst) (mulf (Host.gather gather_S100000x50_S1700000x1_S1700000x50_1_0_n_n_0_1_150 X77 (broadcastInDim S1700000x1 ![0] bcast_S1700000_S1700000x1_0 (rdWrap src))) (broadcastInDim S1700000x50 ![0, 1] bcast_S1700000x1_S1700000x50_0_1 (broadcastInDim S1700000x1 ![0] bcast_S1700000_S1700000x1_0 nrm)))) (broadcastInDim S100000x50 ![0, 1] bcast_S1x50_S100000x50_0_1 (broadcastInDim S1x50 ![1] bcast_S50_S1x50_1 a5)))⟩, ⟨S1000x50, (addf (Host.dotGeneral dot_S1000x27_S27x50_S1000x50_1_0_0_1_n_n none a1 a6) (broadcastInDim S1000x50 ![0, 1] bcast_S1x50_S1000x50_0_1 (broadcastInDim S1x50 ![1] bcast_S50_S1x50_1 a7)))⟩] concatenates_S100000x50_S1000x50_S101000x50_d0

/-- The rows of a table at the pairs' endpoints `e` (a negative index counts from the end of the 101000 rows). -/
abbrev rdPick (T : (⟨S101000x50, .f32⟩ : BufTy).Contents (Elt F)) (e : (⟨S500000, .i32⟩ : BufTy).Contents (Elt F)) : (⟨S500000x50, .f32⟩ : BufTy).Contents (Elt F) :=
  Host.gather gather_S101000x50_S500000x1_S500000x50_1_0_n_n_0_1_150 T (broadcastInDim S500000x1 ![0] bcast_S500000_S500000x1_0 (select (cmpi .slt e (broadcastInDim S500000 ![] bcast_S_S500000 (constantI S_ 32 0#32))) (addi e (broadcastInDim S500000 ![] bcast_S_S500000 (constantI S_ 32 101000#32))) e))

/-- The input of the MLP: the table's rows at the pairs' two endpoints, side by side. -/
abbrev rdB (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (a15 a16 : (⟨S500000, .i32⟩ : BufTy).Contents (Elt F)) (X77 : (⟨S100000x50, .f32⟩ : BufTy).Contents (Elt F)) (src dst : (⟨S1700000, .i32⟩ : BufTy).Contents (Elt F)) (nrm : (⟨S1700000, .f32⟩ : BufTy).Contents (Elt F)) : (⟨S500000x100, .f32⟩ : BufTy).Contents (Elt F) :=
  concatenate S500000x100 1 [⟨S500000x50, rdPick (rdTable a1 a5 a6 a7 X77 src dst nrm) a15⟩, ⟨S500000x50, rdPick (rdTable a1 a5 a6 a7 X77 src dst nrm) a16⟩] concatenates_S500000x50_S500000x50_S500000x100_d1

/-- The first stretch's function in this vocabulary. -/
theorem hostA_eq (a3 : (⟨S60, .f32⟩ : BufTy).Contents (Elt F)) (a14 : (⟨S2x1600000, .i32⟩ : BufTy).Contents (Elt F)) (X30 : (⟨S100000x60, .f32⟩ : BufTy).Contents (Elt F)) :
    hostA a3 a14 X30 = rdA a3 X30 (rdSrc a14) (rdDst a14) (rdNorm a14) := rfl

/-- The second stretch's function in this vocabulary. -/
theorem hostB_eq (a1 : (⟨S1000x27, .f32⟩ : BufTy).Contents (Elt F)) (a5 : (⟨S50, .f32⟩ : BufTy).Contents (Elt F)) (a6 : (⟨S27x50, .f32⟩ : BufTy).Contents (Elt F)) (a7 : (⟨S50, .f32⟩ : BufTy).Contents (Elt F)) (a14 : (⟨S2x1600000, .i32⟩ : BufTy).Contents (Elt F)) (a15 a16 : (⟨S500000, .i32⟩ : BufTy).Contents (Elt F)) (X77 : (⟨S100000x50, .f32⟩ : BufTy).Contents (Elt F)) :
    hostB a1 a5 a6 a7 a14 a15 a16 X77 = rdB a1 a5 a6 a7 a15 a16 X77 (rdSrc a14) (rdDst a14) (rdNorm a14) := rfl

/-- The closing softmax down the columns of a matrix with 500000 rows and 4 columns, as the reference's last operations
    spell it: exp(z − max) over the sum of exp(z − max), the maximum taken with −∞ first. -/
def tail (z : FVec F S500000x4 .f32) : FVec F S500000x4 .f32 :=
  Host.divf (F := F) (Host.exp (subf z (broadcastInDim S500000x4 ![0, 1] bcast_S1x4_S500000x4_0_1 (broadcastInDim S1x4 ![1] bcast_S4_S1x4_1 (maximumf (broadcastInDim S4 ![] bcast_S_S4 (constant S_ .f32 0xFF800000#32)) (Host.reduce FloatOps.maximumf z (constant S_ .f32 0xFF800000#32) reducesTo_S500000x4_S4_d0 h_S_)))))) (broadcastInDim S500000x4 ![0, 1] bcast_S1x4_S500000x4_0_1 (broadcastInDim S1x4 ![1] bcast_S4_S1x4_1 (Host.reduceAdd (Host.exp (subf z (broadcastInDim S500000x4 ![0, 1] bcast_S1x4_S500000x4_0_1 (broadcastInDim S1x4 ![1] bcast_S4_S1x4_1 (maximumf (broadcastInDim S4 ![] bcast_S_S4 (constant S_ .f32 0xFF800000#32)) (Host.reduce FloatOps.maximumf z (constant S_ .f32 0xFF800000#32) reducesTo_S500000x4_S4_d0 h_S_)))))) (constant S_ .f32 0x00000000#32) reducesTo_S500000x4_S4_d0 h_S_)))

/-- The MLP: three linear maps, each followed by its bias row added to every row. -/
abbrev rdMlp (X : (⟨S500000x100, .f32⟩ : BufTy).Contents (Elt F)) (a8 : (⟨S100x40, .f32⟩ : BufTy).Contents (Elt F)) (a9 : (⟨S40, .f32⟩ : BufTy).Contents (Elt F)) (a10 : (⟨S40x20, .f32⟩ : BufTy).Contents (Elt F)) (a11 : (⟨S20, .f32⟩ : BufTy).Contents (Elt F)) (a12 : (⟨S20x4, .f32⟩ : BufTy).Contents (Elt F)) (a13 : (⟨S4, .f32⟩ : BufTy).Contents (Elt F)) : (⟨S500000x4, .f32⟩ : BufTy).Contents (Elt F) :=
  addf (Host.dotGeneral dot_S500000x20_S20x4_S500000x4_1_0_0_1_n_n none (addf (Host.dotGeneral dot_S500000x40_S40x20_S500000x20_1_0_0_1_n_n none (addf (Host.dotGeneral dot_S500000x100_S100x40_S500000x40_1_0_0_1_n_n none X a8) (broadcastInDim S500000x40 ![0, 1] bcast_S1x40_S500000x40_0_1 (broadcastInDim S1x40 ![1] bcast_S40_S1x40_1 a9))) a10) (broadcastInDim S500000x20 ![0, 1] bcast_S1x20_S500000x20_0_1 (broadcastInDim S1x20 ![1] bcast_S20_S1x20_1 a11))) a12) (broadcastInDim S500000x4 ![0, 1] bcast_S1x4_S500000x4_0_1 (broadcastInDim S1x4 ![1] bcast_S4_S1x4_1 a13))

/-! ## The stretches' written references, and what a stretch leaves alone -/

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The references stretch 0 writes. -/
abbrev wS0 : List (Ref sig .tc) := [main_v0, main_v1, main_v2, main_v3, main_v4, main_v5, main_v6, main_cst, main_v7, main_cst_0, main_v8, main_v9, main_v10, main_cst_1, main_v11, main_v12, main_v13, main_cst_2]
theorem wS0_writes : (opsS0 : List (HloOp τ sig (Elt F))).Forall fun op => op.writes ⊆ ((wS0).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 1 writes. -/
abbrev wS1 : List (Ref sig .tc) := [main_call0_v0, main_call0_v1, main_v14]
theorem wS1_writes : (opsS1 : List (HloOp τ sig (Elt F))).Forall fun op => op.writes ⊆ ((wS1).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 2 writes. -/
abbrev wS2 : List (Ref sig .tc) := [main_c, main_v15, main_v16, main_c_3, main_v17, main_v18, main_v19, main_v20, main_v21, main_c_4, main_v22, main_v23, main_c_5, main_v24, main_v25, main_v26, main_v27, main_v28, main_v29]
theorem wS2_writes : (opsS2 : List (HloOp τ sig (Elt F))).Forall fun op => op.writes ⊆ ((wS2).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 3 writes. -/
abbrev wS3 : List (Ref sig .tc) := [main_v30, main_c_6, main_v31, main_v32, main_c_7, main_v33, main_v34, main_v35, main_v36, main_v37, main_v38, main_v39, main_v40, main_cst_8, main_v41, main_v42, main_v43, main_v44, main_v45, main_v46]
theorem wS3_writes : (opsS3 : List (HloOp τ sig (Elt F))).Forall fun op => op.writes ⊆ ((wS3).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 4 writes. -/
abbrev wS4 : List (Ref sig .tc) := [main_v47, main_v48, main_v49, main_v50, main_v51, main_v52, main_v53, main_cst_9, main_v54, main_cst_10, main_v55, main_v56, main_v57, main_cst_11, main_v58, main_v59, main_v60, main_cst_12]
theorem wS4_writes : (opsS4 : List (HloOp τ sig (Elt F))).Forall fun op => op.writes ⊆ ((wS4).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 5 writes. -/
abbrev wS5 : List (Ref sig .tc) := [main_call1_v0, main_call1_v1, main_v61]
theorem wS5_writes : (opsS5 : List (HloOp τ sig (Elt F))).Forall fun op => op.writes ⊆ ((wS5).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 6 writes. -/
abbrev wS6 : List (Ref sig .tc) := [main_c_13, main_v62, main_v63, main_c_14, main_v64, main_v65, main_v66, main_v67, main_v68, main_c_15, main_v69, main_v70, main_c_16, main_v71, main_v72, main_v73, main_v74, main_v75, main_v76]
theorem wS6_writes : (opsS6 : List (HloOp τ sig (Elt F))).Forall fun op => op.writes ⊆ ((wS6).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 7 writes. -/
abbrev wS7 : List (Ref sig .tc) := [main_v77, main_c_17, main_v78, main_v79, main_c_18, main_v80, main_v81, main_v82, main_v83, main_v84, main_v85, main_v86, main_v87, main_cst_19, main_v88, main_v89, main_v90, main_v91, main_v92, main_v93, main_v94, main_v95, main_v96, main_v97, main_v98, main_c_20, main_v99, main_v100, main_c_21, main_v101, main_v102, main_v103, main_v104, main_v105, main_c_22, main_v106, main_v107, main_c_23, main_v108, main_v109, main_v110, main_v111, main_v112, main_v113]
theorem wS7_writes : (opsS7 : List (HloOp τ sig (Elt F))).Forall fun op => op.writes ⊆ ((wS7).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The references stretch 8 writes. -/
abbrev wS8 : List (Ref sig .tc) := [main_v114, main_v115, main_v116, main_v117, main_v118, main_v119, main_v120, main_v121, main_v122, main_v123, main_v124, main_v125, main_cst_24, main_v126, main_cst_25, main_v127, main_v128, main_v129, main_v130, main_v131, main_v132, main_cst_26, main_v133, main_v134, main_v135, main_v136]
theorem wS8_writes : (opsS8 : List (HloOp τ sig (Elt F))).Forall fun op => op.writes ⊆ ((wS8).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- The program's seventeen arguments. -/
abbrev argList : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- A line that writes none of the arguments keeps them where they were. -/
theorem agree_step {S : List (HloOp τ sig (Elt F))} {SW : List (Ref sig .tc)}
    (hS : S.Forall fun op => op.writes ⊆ (SW.map (Proc.devRef (τ := τ) .tc)).toFinset) (hd : ∀ r ∈ argList, r ∉ SW)
    {V W : Valuation τ sig (Elt F)} (h : ∀ r ∈ argList, V (Proc.devRef .tc r) = W (Proc.devRef .tc r)) :
    ∀ r ∈ argList, after S V (Proc.devRef .tc r) = W (Proc.devRef .tc r) :=
  fun r hr => (after_of_writes_sub S V hS (hd r hr)).trans (h r hr)

/-! ## Each stretch read at the buffers later stretches read, over ANY contents `W` before it -/

section Layers
variable (W : Valuation τ sig (Elt F))

/-- Stretch 0 leaves the source ends in main_v3, -/
theorem s0_v3 : after opsS0 W (Proc.devRef .tc main_v3) = rdSrc (W (Proc.devRef .tc main_arg14)) := by
  after_results_simp <;> rfl
/-- the destination ends in main_v6, -/
theorem s0_v6 : after opsS0 W (Proc.devRef .tc main_v6) = rdDst (W (Proc.devRef .tc main_arg14)) := by
  after_results_simp <;> rfl
/-- where the degree is positive in main_v12, -/
theorem s0_v12 : after opsS0 W (Proc.devRef .tc main_v12)
    = cmpf (F := F) .ogt (rdDeg (W (Proc.devRef .tc main_arg14))) (broadcastInDim S100000 ![] bcast_S_S100000 (constant S_ .f32 0x00000000#32)) := by
  after_results_simp <;> rfl
/-- the degree's inverse square root in main_v13, -/
theorem s0_v13 : after opsS0 W (Proc.devRef .tc main_v13) = Host.rsqrt (rdDeg (W (Proc.devRef .tc main_arg14))) := by
  after_results_simp <;> rfl
/-- and the zero in main_cst_2. -/
theorem s0_cst2 : after opsS0 W (Proc.devRef .tc main_cst_2) = constant S_ .f32 0x00000000#32 := by
  after_results_simp <;> rfl

/-- Stretch 1, the first `where`: the select of the two by the mask. -/
theorem s1_v14 : after opsS1 W (Proc.devRef .tc main_v14)
    = select (W (Proc.devRef .tc main_v12)) (W (Proc.devRef .tc main_v13)) (broadcastInDim S100000 ![] bcast_S_S100000 (id (W (Proc.devRef .tc main_cst_2)))) := by
  after_results_simp <;> rfl

/-- Stretch 2 leaves the edges' normalisation in main_v29. -/
theorem s2_v29 : after opsS2 W (Proc.devRef .tc main_v29) = rdNormOf (W (Proc.devRef .tc main_v14)) (W (Proc.devRef .tc main_v3)) (W (Proc.devRef .tc main_v6)) := by
  after_results_simp <;> rfl

/-- Stretch 3 leaves the first convolution of x · W₁ in main_v46. -/
theorem s3_v46 : after opsS3 W (Proc.devRef .tc main_v46)
    = rdA (W (Proc.devRef .tc main_arg3)) (Host.dotGeneral dot_S100000x27_S27x60_S100000x60_1_0_0_1_n_n none (W (Proc.devRef .tc main_arg0)) (W (Proc.devRef .tc main_arg2)))
        (W (Proc.devRef .tc main_v3)) (W (Proc.devRef .tc main_v6)) (W (Proc.devRef .tc main_v29)) := by
  after_results_simp <;> rfl

/-- Stretch 4 recomputes the source ends into main_v50, -/
theorem s4_v50 : after opsS4 W (Proc.devRef .tc main_v50) = rdSrc (W (Proc.devRef .tc main_arg14)) := by
  after_results_simp <;> rfl
/-- the destination ends into main_v53, -/
theorem s4_v53 : after opsS4 W (Proc.devRef .tc main_v53) = rdDst (W (Proc.devRef .tc main_arg14)) := by
  after_results_simp <;> rfl
/-- where the degree is positive into main_v59, -/
theorem s4_v59 : after opsS4 W (Proc.devRef .tc main_v59)
    = cmpf (F := F) .ogt (rdDeg (W (Proc.devRef .tc main_arg14))) (broadcastInDim S100000 ![] bcast_S_S100000 (constant S_ .f32 0x00000000#32)) := by
  after_results_simp <;> rfl
/-- the degree's inverse square root into main_v60, -/
theorem s4_v60 : after opsS4 W (Proc.devRef .tc main_v60) = Host.rsqrt (rdDeg (W (Proc.devRef .tc main_arg14))) := by
  after_results_simp <;> rfl
/-- and the zero into main_cst_12. -/
theorem s4_cst12 : after opsS4 W (Proc.devRef .tc main_cst_12) = constant S_ .f32 0x00000000#32 := by
  after_results_simp <;> rfl

/-- Stretch 5, the second `where`. -/
theorem s5_v61 : after opsS5 W (Proc.devRef .tc main_v61)
    = select (W (Proc.devRef .tc main_v59)) (W (Proc.devRef .tc main_v60)) (broadcastInDim S100000 ![] bcast_S_S100000 (id (W (Proc.devRef .tc main_cst_12)))) := by
  after_results_simp <;> rfl

/-- Stretch 6 leaves the edges' normalisation in main_v76. -/
theorem s6_v76 : after opsS6 W (Proc.devRef .tc main_v76) = rdNormOf (W (Proc.devRef .tc main_v61)) (W (Proc.devRef .tc main_v50)) (W (Proc.devRef .tc main_v53)) := by
  after_results_simp <;> rfl

/-- Stretch 7 leaves the MLP's input in main_v113. -/
theorem s7_v113 : after opsS7 W (Proc.devRef .tc main_v113)
    = rdB (W (Proc.devRef .tc main_arg1)) (W (Proc.devRef .tc main_arg5)) (W (Proc.devRef .tc main_arg6)) (W (Proc.devRef .tc main_arg7)) (W (Proc.devRef .tc main_arg15)) (W (Proc.devRef .tc main_arg16))
        (Host.dotGeneral dot_S100000x60_S60x50_S100000x50_1_0_0_1_n_n none (W (Proc.devRef .tc main_v46)) (W (Proc.devRef .tc main_arg4)))
        (W (Proc.devRef .tc main_v50)) (W (Proc.devRef .tc main_v53)) (W (Proc.devRef .tc main_v76)) := by
  after_results_simp
  -- the results are not rewritten inside a concatenation's list of pieces: descend into the pieces by congruence
  refine congrArg₂ (fun x y => concatenate S500000x100 1 [⟨S500000x50, x⟩, ⟨S500000x50, y⟩] concatenates_S500000x50_S500000x50_S500000x100_d1) ?_ ?_
  · after_results_simp
    refine congrArg (fun t => rdPick t (W (Proc.devRef .tc main_arg15))) ?_
    refine congrArg₂ (fun p q => concatenate S101000x50 0 [⟨S100000x50, p⟩, ⟨S1000x50, q⟩] concatenates_S100000x50_S1000x50_S101000x50_d0) ?_ ?_
    · after_results_simp <;> rfl
    · after_results_simp <;> rfl
  · after_results_simp
    refine congrArg (fun t => rdPick t (W (Proc.devRef .tc main_arg16))) ?_
    refine congrArg₂ (fun p q => concatenate S101000x50 0 [⟨S100000x50, p⟩, ⟨S1000x50, q⟩] concatenates_S100000x50_S1000x50_S101000x50_d0) ?_ ?_
    · after_results_simp <;> rfl
    · after_results_simp <;> rfl

/-- Stretch 8 leaves the column softmax of the MLP's output in main_v136. -/
theorem s8_v136 : after opsS8 W (Proc.devRef .tc main_v136)
    = tail (rdMlp (W (Proc.devRef .tc main_v113)) (W (Proc.devRef .tc main_arg8)) (W (Proc.devRef .tc main_arg9)) (W (Proc.devRef .tc main_arg10)) (W (Proc.devRef .tc main_arg11)) (W (Proc.devRef .tc main_arg12)) (W (Proc.devRef .tc main_arg13))) := by
  after_results_simp <;> rfl

end Layers

/-! ## The stretches chained -/

section Chain
variable (W : Valuation τ sig (Elt F))

/-- No operation writes an argument: after the whole line every argument is where it was. -/
theorem ref_arg (r : Ref sig .tc) (hr : r ∈ argList) : after ops W (Proc.devRef .tc r) = W (Proc.devRef .tc r) := by
  have A0 : ∀ r ∈ argList, W (Proc.devRef .tc r) = W (Proc.devRef .tc r) := fun _ _ => rfl
  have A1 := agree_step (F := F) wS0_writes (by decide) A0
  have A2 := agree_step (F := F) wS1_writes (by decide) A1
  have A3 := agree_step (F := F) wS2_writes (by decide) A2
  have A4 := agree_step (F := F) wS3_writes (by decide) A3
  have A5 := agree_step (F := F) wS4_writes (by decide) A4
  have A6 := agree_step (F := F) wS5_writes (by decide) A5
  have A7 := agree_step (F := F) wS6_writes (by decide) A6
  have A8 := agree_step (F := F) wS7_writes (by decide) A7
  have A9 := agree_step (F := F) wS8_writes (by decide) A8
  show after (opsS0 ++ (opsS1 ++ (opsS2 ++ (opsS3 ++ (opsS4 ++ (opsS5 ++ (opsS6 ++ (opsS7 ++ opsS8)))))))) W _ = _
  simp only [after_append]
  exact A9 r hr

/-- THE RESULT ARRAY of the reference over any launch contents: the column softmax of the MLP of the second
    stretch's function of h · W₂, where h is the first stretch's function of x · W₁. -/
theorem ref_read : after ops W (Proc.devRef .tc main_v136)
    = tail (addf (Host.dotGeneral dot_S500000x20_S20x4_S500000x4_1_0_0_1_n_n none (addf (Host.dotGeneral dot_S500000x40_S40x20_S500000x20_1_0_0_1_n_n none (addf (Host.dotGeneral dot_S500000x100_S100x40_S500000x40_1_0_0_1_n_n none
        (hostB (W (Proc.devRef .tc main_arg1)) (W (Proc.devRef .tc main_arg5)) (W (Proc.devRef .tc main_arg6)) (W (Proc.devRef .tc main_arg7)) (W (Proc.devRef .tc main_arg14)) (W (Proc.devRef .tc main_arg15)) (W (Proc.devRef .tc main_arg16))
          (Host.dotGeneral dot_S100000x60_S60x50_S100000x50_1_0_0_1_n_n none
            (hostA (W (Proc.devRef .tc main_arg3)) (W (Proc.devRef .tc main_arg14)) (Host.dotGeneral dot_S100000x27_S27x60_S100000x60_1_0_0_1_n_n none (W (Proc.devRef .tc main_arg0)) (W (Proc.devRef .tc main_arg2))))
            (W (Proc.devRef .tc main_arg4))))
        (W (Proc.devRef .tc main_arg8))) (broadcastInDim S500000x40 ![0, 1] bcast_S1x40_S500000x40_0_1 (broadcastInDim S1x40 ![1] bcast_S40_S1x40_1 (W (Proc.devRef .tc main_arg9))))) (W (Proc.devRef .tc main_arg10))) (broadcastInDim S500000x20 ![0, 1] bcast_S1x20_S500000x20_0_1 (broadcastInDim S1x20 ![1] bcast_S20_S1x20_1 (W (Proc.devRef .tc main_arg11))))) (W (Proc.devRef .tc main_arg12))) (broadcastInDim S500000x4 ![0, 1] bcast_S1x4_S500000x4_0_1 (broadcastInDim S1x4 ![1] bcast_S4_S1x4_1 (W (Proc.devRef .tc main_arg13))))) := by
  have A0 : ∀ r ∈ argList, W (Proc.devRef .tc r) = W (Proc.devRef .tc r) := fun _ _ => rfl
  have A1 := agree_step (F := F) wS0_writes (by decide) A0
  have A2 := agree_step (F := F) wS1_writes (by decide) A1
  have A3 := agree_step (F := F) wS2_writes (by decide) A2
  have A4 := agree_step (F := F) wS3_writes (by decide) A3
  have A5 := agree_step (F := F) wS4_writes (by decide) A4
  have A6 := agree_step (F := F) wS5_writes (by decide) A5
  have A7 := agree_step (F := F) wS6_writes (by decide) A6
  have A8 := agree_step (F := F) wS7_writes (by decide) A7
  rw [hostB_eq, hostA_eq]
  show after (opsS0 ++ (opsS1 ++ (opsS2 ++ (opsS3 ++ (opsS4 ++ (opsS5 ++ (opsS6 ++ (opsS7 ++ opsS8)))))))) W _ = _
  simp only [after_append]
  -- the tail and the MLP over what stretch 7 leaves
  rw [s8_v136, A8 main_arg8 (by decide), A8 main_arg9 (by decide), A8 main_arg10 (by decide), A8 main_arg11 (by decide),
    A8 main_arg12 (by decide), A8 main_arg13 (by decide)]
  -- the MLP's input over what stretch 6 leaves
  rw [s7_v113, A7 main_arg1 (by decide), A7 main_arg5 (by decide), A7 main_arg6 (by decide), A7 main_arg7 (by decide),
    A7 main_arg15 (by decide), A7 main_arg16 (by decide), A7 main_arg4 (by decide)]
  -- the second normalisation, the ends again, and h through stretches 6, 5, 4
  rw [s6_v76, s5_v61, s4_v59, s4_v60, s4_cst12,
    after_of_writes_sub opsS6 _ wS6_writes (by decide : main_v46 ∉ wS6), after_of_writes_sub opsS5 _ wS5_writes (by decide : main_v46 ∉ wS5),
    after_of_writes_sub opsS4 _ wS4_writes (by decide : main_v46 ∉ wS4),
    after_of_writes_sub opsS6 _ wS6_writes (by decide : main_v50 ∉ wS6), after_of_writes_sub opsS5 _ wS5_writes (by decide : main_v50 ∉ wS5),
    after_of_writes_sub opsS6 _ wS6_writes (by decide : main_v53 ∉ wS6), after_of_writes_sub opsS5 _ wS5_writes (by decide : main_v53 ∉ wS5),
    s4_v50, s4_v53, A4 main_arg14 (by decide)]
  -- h over what stretch 2 leaves
  rw [s3_v46, A3 main_arg3 (by decide), A3 main_arg0 (by decide), A3 main_arg2 (by decide)]
  -- the first normalisation and the ends through stretches 2, 1
  rw [s2_v29, s1_v14, s0_v12, s0_v13, s0_cst2,
    after_of_writes_sub opsS2 _ wS2_writes (by decide : main_v3 ∉ wS2), after_of_writes_sub opsS1 _ wS1_writes (by decide : main_v3 ∉ wS1),
    after_of_writes_sub opsS2 _ wS2_writes (by decide : main_v6 ∉ wS2), after_of_writes_sub opsS1 _ wS1_writes (by decide : main_v6 ∉ wS1),
    s0_v3, s0_v6]

end Chain

/-! ## The run -/

/-- On every device, for any float values, from any memory with zero counters: every weakly fair execution of @main
    terminates with every buffer at the fold of the 170 operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefValue

end
-- ==== Proof.Ref.Dots.lean ====
/-
  The reference's matrix products and bias additions, read as the shared mathematics: each of the reference's five
  contractions of a matrix with a weight matrix (one contracting axis: the left operand's columns against the right
  operand's rows, no batch axis) is, at the exact values, the matrix product entry by entry; and adding a row vector that
  was first copied into every row is adding that row to every row.
-/
import proofs.«133038_j66116726555434_1_alg».proof.ReferenceIdeal
import proofs.«133038_j66116726555434_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Idealize.ShloMosaic Idealize.ShloMosaic.ValueIdx
open Cert.Spec (Arr2 mm addRow)

/-! ## A contraction of rows against columns is the matrix product -/

section Dot
variable {M K N : ℕ}
  (wf : DotDims.WF (⟨2, ![M, K]⟩ : Shape) (⟨2, ![K, N]⟩ : Shape) (⟨2, ![M, N]⟩ : Shape) [1] [0] [0] [1] [] [])

/-- The dimension numbers of a plain product: contract the left operand's axis 1 with the right operand's axis 0,
    keep the left operand's axis 0 and the right operand's axis 1, no batch axis. -/
abbrev rowsByCols : DotDims (⟨2, ![M, K]⟩ : Shape) (⟨2, ![K, N]⟩ : Shape) (⟨2, ![M, N]⟩ : Shape) :=
  ⟨[1], [0], [0], [1], [], [], wf⟩

/-- The left operand's row coordinate is the result's row … -/
theorem rowsByCols_lhs0 (i : (⟨2, ![M, N]⟩ : Shape).Idx) (q : (rowsByCols wf).contr.Idx) :
    ((rowsByCols wf).lhsIdx i q 0).val = (i 0).val := by
  unfold DotDims.lhsIdx
  rw [dif_neg (show ¬(0 : Fin (⟨2, ![M, K]⟩ : Shape).rank) ∈ (rowsByCols wf).lhsBatch from List.not_mem_nil),
    dif_pos (show (0 : Fin (⟨2, ![M, K]⟩ : Shape).rank) ∈ (rowsByCols wf).lhsNonContracting from List.mem_singleton.mpr rfl)]
  rfl

/-- … and the right operand's column coordinate is the result's column. -/
theorem rowsByCols_rhs1 (i : (⟨2, ![M, N]⟩ : Shape).Idx) (q : (rowsByCols wf).contr.Idx) :
    ((rowsByCols wf).rhsIdx i q 1).val = (i 1).val := by
  unfold DotDims.rhsIdx
  rw [dif_neg (show ¬(1 : Fin (⟨2, ![K, N]⟩ : Shape).rank) ∈ (rowsByCols wf).rhsBatch from List.not_mem_nil),
    dif_pos (show (1 : Fin (⟨2, ![K, N]⟩ : Shape).rank) ∈ (rowsByCols wf).rhsNonContracting from List.mem_singleton.mpr rfl)]
  rfl

/-- The left operand is read at (row of the result, contraction position) … -/
theorem rowsByCols_lhsIdx (i : (⟨2, ![M, N]⟩ : Shape).Idx) (k : Fin K) :
    (rowsByCols wf).lhsIdx i ((contrEquiv1 (rowsByCols wf) K rfl rfl).symm k) = ix2 (n0 := M) (n1 := K) (i 0) k := by
  have hk := contrEquiv1_symm_val (rowsByCols wf) K rfl rfl k
  funext a
  refine Fin.ext ?_
  match a with
  | ⟨0, _⟩ => exact rowsByCols_lhs0 wf _ _
  | ⟨1, _⟩ => exact ((rowsByCols wf).lhsIdx_val_of_single rfl i _).trans hk

/-- … and the right operand at (contraction position, column of the result). -/
theorem rowsByCols_rhsIdx (i : (⟨2, ![M, N]⟩ : Shape).Idx) (k : Fin K) :
    (rowsByCols wf).rhsIdx i ((contrEquiv1 (rowsByCols wf) K rfl rfl).symm k) = ix2 (n0 := K) (n1 := N) k (i 1) := by
  have hk := contrEquiv1_symm_val (rowsByCols wf) K rfl rfl k
  funext a
  refine Fin.ext ?_
  match a with
  | ⟨0, _⟩ => exact ((rowsByCols wf).rhsIdx_val_of_single rfl i _).trans hk
  | ⟨1, _⟩ => exact rowsByCols_rhs1 wf _ _

/-- At the exact values the host's contraction with these dimension numbers is the matrix product: entry (r, j) is the
    sum over k of x(r, k) · w(k, j). -/
theorem dotGeneral_rowsByCols (x : Arr2 M K) (w : Arr2 K N) :
    Host.dotGeneral (F := Ideal) (φ₁ := .f32) (φ₂ := .f32) (rowsByCols wf) none x w = mm x w := by
  funext i
  show FloatOps.dotGeneral (F := Ideal) (rowsByCols wf) none .single x w i = _
  rw [Ideal.dotGeneral_apply, ← Equiv.sum_comp (contrEquiv1 (rowsByCols wf) K rfl rfl).symm]
  unfold mm
  refine Finset.sum_congr rfl fun k _ => ?_
  rw [rowsByCols_lhsIdx, rowsByCols_rhsIdx]

end Dot

variable [Facts₀]
open Facts₀

/-- x · W₁ (first graph convolution's linear map): the reference's contraction is the matrix product. -/
theorem dot_xW1 (x : Arr2 100000 27) (w : Arr2 27 60) :
    Host.dotGeneral (F := Ideal) (φ₁ := .f32) (φ₂ := .f32) dot_S100000x27_S27x60_S100000x60_1_0_0_1_n_n none x w
      = mm (M := 100000) (K := 27) (N := 60) x w :=
  dotGeneral_rowsByCols dot_S100000x27_S27x60_S100000x60_1_0_0_1_n_n_wf x w

/-- h · W₂ (second graph convolution's linear map): the reference's contraction is the matrix product. -/
theorem dot_hW2 (x : Arr2 100000 60) (w : Arr2 60 50) :
    Host.dotGeneral (F := Ideal) (φ₁ := .f32) (φ₂ := .f32) dot_S100000x60_S60x50_S100000x50_1_0_0_1_n_n none x w
      = mm (M := 100000) (K := 60) (N := 50) x w :=
  dotGeneral_rowsByCols dot_S100000x60_S60x50_S100000x50_1_0_0_1_n_n_wf x w

/-- z · W_f1 (first layer of the edge predictor): the reference's contraction is the matrix product. -/
theorem dot_f1 (x : Arr2 500000 100) (w : Arr2 100 40) :
    Host.dotGeneral (F := Ideal) (φ₁ := .f32) (φ₂ := .f32) dot_S500000x100_S100x40_S500000x40_1_0_0_1_n_n none x w
      = mm (M := 500000) (K := 100) (N := 40) x w :=
  dotGeneral_rowsByCols dot_S500000x100_S100x40_S500000x40_1_0_0_1_n_n_wf x w

/-- z · W_f2 (second layer of the edge predictor): the reference's contraction is the matrix product. -/
theorem dot_f2 (x : Arr2 500000 40) (w : Arr2 40 20) :
    Host.dotGeneral (F := Ideal) (φ₁ := .f32) (φ₂ := .f32) dot_S500000x40_S40x20_S500000x20_1_0_0_1_n_n none x w
      = mm (M := 500000) (K := 40) (N := 20) x w :=
  dotGeneral_rowsByCols dot_S500000x40_S40x20_S500000x20_1_0_0_1_n_n_wf x w

/-- z · W_f3 (third layer of the edge predictor): the reference's contraction is the matrix product. -/
theorem dot_f3 (x : Arr2 500000 20) (w : Arr2 20 4) :
    Host.dotGeneral (F := Ideal) (φ₁ := .f32) (φ₂ := .f32) dot_S500000x20_S20x4_S500000x4_1_0_0_1_n_n none x w
      = mm (M := 500000) (K := 20) (N := 4) x w :=
  dotGeneral_rowsByCols dot_S500000x20_S20x4_S500000x4_1_0_0_1_n_n_wf x w

end Cert.ReferenceIdeal.RefValue

end
-- ==== Proof.Ref.Softmax.lean ====
/-
  The reference's bias additions and its closing softmax, read as the shared mathematics. A bias is a row vector copied
  into every row and then added: that is adding the row to every row. The closing softmax runs down the columns of a
  matrix with 500000 rows and 4 columns: the maximum of each column (a fold of the maximum from −∞ over the rows, then
  once more the maximum with −∞), copied back over the rows and subtracted; the exponential; the sum of each column of
  exponentials (from 0), copied back over the rows; and the quotient. Entry by entry this is
  exp(z − column maximum) / Σ exp(z − column maximum).
-/
import proofs.«133038_j66116726555434_1_alg».proof.ReferenceIdeal
import proofs.«133038_j66116726555434_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Idealize.ShloMosaic Idealize.ShloMosaic.ValueIdx
open Cert.Spec (Arr2 addRow colMax colSum softmaxCols)

/-! ## Copies of a row and of a vector -/

/-- A one-row matrix copied into every row: entry (r, j) of the copy is entry (0, j) of the row. -/
theorem broadcastRow_apply {α : Type} {M N : ℕ}
    (h : (⟨2, ![1, N]⟩ : Shape).BroadcastsInDim (⟨2, ![M, N]⟩ : Shape) (![0, 1] : Fin 2 → Fin 2))
    (r : (⟨2, ![1, N]⟩ : Shape).Idx → α) (i : (⟨2, ![M, N]⟩ : Shape).Idx) :
    broadcastInDim (⟨2, ![M, N]⟩ : Shape) ![0, 1] h r i = r (ix2 (n0 := 1) (n1 := N) 0 (i 1)) := by
  refine broadcastInDim_apply _ h r i _ (fun a => ?_)
  match a with
  | ⟨0, _⟩ => show 0 = if (1 : ℕ) = 1 then 0 else (i 0).val; rw [if_pos rfl]
  | ⟨1, _⟩ =>
    show (i 1).val = if N = 1 then 0 else (i 1).val
    have hlt := idx2_lt1 i
    split
    · next hN => omega
    · rfl

/-- A vector written as a one-row matrix: entry (0, j) of the matrix is entry j of the vector. -/
theorem broadcastVecRow_apply {α : Type} {N : ℕ}
    (h : (⟨1, ![N]⟩ : Shape).BroadcastsInDim (⟨2, ![1, N]⟩ : Shape) (![1] : Fin 1 → Fin 2))
    (v : (⟨1, ![N]⟩ : Shape).Idx → α) (i : (⟨2, ![1, N]⟩ : Shape).Idx) :
    broadcastInDim (⟨2, ![1, N]⟩ : Shape) ![1] h v i = v (ix1 (n := N) (i 1)) := by
  refine broadcastInDim_apply _ h v i _ (fun a => ?_)
  match a with
  | ⟨0, _⟩ =>
    show (i 1).val = if N = 1 then 0 else (i 1).val
    have hlt := idx2_lt1 i
    split
    · next hN => omega
    · rfl

/-! ## A reduction down the rows -/

/-- The reduced index j with the row k put back is (k, j). -/
theorem lift_rows {m n : ℕ} (h : (⟨2, ![m, n]⟩ : Shape).Reduces [0] (⟨1, ![n]⟩ : Shape)) (j : Fin n)
    (k : Fin ((⟨2, ![m, n]⟩ : Shape).size 0)) : h.lift (ix1 j) k = ix2 (⟨k.val, k.isLt⟩ : Fin m) j := by
  funext c; apply Fin.ext
  fin_cases c <;> rfl

/-- Down the rows of a matrix, the host's reduction with a maximum body from an initial value −∞ is, at column j,
    the supremum of the column (on the extended reals the fold of the maximum from the bottom element is the supremum). -/
theorem reduceMax_rows {m n : ℕ} (z : FVec Ideal (⟨2, ![m, n]⟩ : Shape) .f32) {u : Shape} (init : u.Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < u.numel) (hinit : init (Shape.Idx.first hu) = (⊥ : EReal)) (j : Fin n) :
    Host.reduce FloatOps.maximumf z init h' hu (ix1 j) = Finset.univ.sup fun r : Fin m => z (ix2 r j) := by
  rw [Host.reduce_eq_fold_single FloatOps.maximumf z init h' h hu, hinit]
  have hf : (z ∘ h.lift (ix1 j)) = fun k : Fin m => z (ix2 k j) := funext fun k => congrArg z (lift_rows h j k)
  rw [hf]
  rfl

/-- Down the rows of a matrix, the host's sum from an initial value 0 is, at column j, the sum of the column. -/
theorem reduceAdd_rows {m n : ℕ} (e : FVec Ideal (⟨2, ![m, n]⟩ : Shape) .f32) {u : Shape} (init : u.Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < u.numel) (hinit : init (Shape.Idx.first hu) = (0 : EReal)) (j : Fin n) :
    Host.reduceAdd (F := Ideal) e init h' hu (ix1 j) = ∑ r : Fin m, e (ix2 r j) := by
  simp only [Host.reduceAdd, Ideal.hostReduceAdd_def]
  rw [Ideal.hostReduceAdd_single h' h, hinit, zero_add]
  exact Finset.sum_congr rfl fun k _ => congrArg e (lift_rows h j k)

variable [Facts₀]
open Facts₀

/-! ## The bias additions of the three layers of the edge predictor -/

/-- First layer: adding the copied bias row is adding the row to every row. -/
theorem add_bias_row_f1 (y : FVec Ideal S500000x40 .f32) (r : FVec Ideal S1x40 .f32) :
    addf (F := Ideal) y (broadcastInDim S500000x40 ![0, 1] bcast_S1x40_S500000x40_0_1 r)
      = addRow (M := 500000) (N := 40) y r :=
  funext fun i => congrArg (y i + ·) (broadcastRow_apply bcast_S1x40_S500000x40_0_1 r i)

/-- Second layer: adding the copied bias row is adding the row to every row. -/
theorem add_bias_row_f2 (y : FVec Ideal S500000x20 .f32) (r : FVec Ideal S1x20 .f32) :
    addf (F := Ideal) y (broadcastInDim S500000x20 ![0, 1] bcast_S1x20_S500000x20_0_1 r)
      = addRow (M := 500000) (N := 20) y r :=
  funext fun i => congrArg (y i + ·) (broadcastRow_apply bcast_S1x20_S500000x20_0_1 r i)

/-- Third layer: adding the copied bias row is adding the row to every row. -/
theorem add_bias_row_f3 (y : FVec Ideal S500000x4 .f32) (r : FVec Ideal S1x4 .f32) :
    addf (F := Ideal) y (broadcastInDim S500000x4 ![0, 1] bcast_S1x4_S500000x4_0_1 r)
      = addRow (M := 500000) (N := 4) y r :=
  funext fun i => congrArg (y i + ·) (broadcastRow_apply bcast_S1x4_S500000x4_0_1 r i)

/-! ## The closing softmax down the columns -/

/-- A vector of 4 entries copied over the 500000 rows (first written as a one-row matrix): entry (a, b) is entry b. -/
theorem broadcastCols_apply {α : Type} (v : S4.Idx → α) (a : Fin 500000) (b : Fin 4) :
    broadcastInDim S500000x4 ![0, 1] bcast_S1x4_S500000x4_0_1 (broadcastInDim S1x4 ![1] bcast_S4_S1x4_1 v) (ix2 a b)
      = v (ix1 b) :=
  (broadcastRow_apply bcast_S1x4_S500000x4_0_1 _ (ix2 a b)).trans
    (broadcastVecRow_apply bcast_S4_S1x4_1 v (ix2 (n0 := 1) (n1 := 4) 0 b))

/-- The f32 word of −∞ is the bottom element of the extended reals. -/
theorem ofBits_negInf_f32 : Ideal.ofBits .f32 0xFF800000#32 = ⊥ := by simp [Ideal.ofBits, Ideal.ieee]

/-- The reference's column maximum — the fold of the maximum from −∞ down the rows, then the maximum with −∞ once
    more — is the supremum of the column. -/
theorem colMax_ref (z : FVec Ideal S500000x4 .f32) (j : Fin 4) :
    maximumf (F := Ideal) (broadcastInDim S4 ![] bcast_S_S4 (constant S_ .f32 0xFF800000#32))
        (Host.reduce FloatOps.maximumf z (constant S_ .f32 0xFF800000#32) reducesTo_S500000x4_S4_d0 h_S_) (ix1 j)
      = colMax (R := 500000) (C := 4) z j := by
  have hred : Host.reduce FloatOps.maximumf z (constant (F := Ideal) S_ .f32 0xFF800000#32) reducesTo_S500000x4_S4_d0 h_S_ (ix1 j)
      = Finset.univ.sup fun r : Fin 500000 => z (ix2 r j) :=
    reduceMax_rows z _ reducesTo_S500000x4_S4_d0 (by decide) h_S_ ofBits_negInf_f32 j
  have hbot : broadcastInDim S4 ![] bcast_S_S4 (constant (F := Ideal) S_ .f32 0xFF800000#32) (ix1 j) = (⊥ : EReal) :=
    (broadcastInDim_apply _ bcast_S_S4 _ (ix1 j) ix0 (fun a => a.elim0)).trans ofBits_negInf_f32
  unfold colMax
  rw [maximumf_apply, hred, hbot]
  exact max_eq_right bot_le

/-- The reference's column sum from 0 is the sum down the column. -/
theorem colSum_ref (e : FVec Ideal S500000x4 .f32) (j : Fin 4) :
    Host.reduceAdd (F := Ideal) e (constant S_ .f32 0x00000000#32) reducesTo_S500000x4_S4_d0 h_S_ (ix1 j)
      = ∑ r : Fin 500000, e (ix2 r j) :=
  reduceAdd_rows e _ reducesTo_S500000x4_S4_d0 (by decide) h_S_ Ideal.ofBits_zero_f32 j

/-- The host's exponential at an index is the exponential of the element. -/
theorem hostExp_apply {s : Shape} (x : FVec Ideal s .f32) (i : s.Idx) : Host.exp x i = Ideal.exp (x i) := rfl

/-- The host's quotient at an index is the quotient of the elements. -/
theorem hostDivf_apply {s : Shape} (x y : FVec Ideal s .f32) (i : s.Idx) : Host.divf x y i = Ideal.div (x i) (y i) := rfl

/-- THE CLOSING SOFTMAX: the reference's last operations applied to a matrix z with 500000 rows and 4 columns are the
    softmax of every column of z. -/
theorem softmax_tail (z : FVec Ideal S500000x4 .f32) :
    Host.divf (F := Ideal) (Host.exp (subf z (broadcastInDim S500000x4 ![0, 1] bcast_S1x4_S500000x4_0_1 (broadcastInDim S1x4 ![1] bcast_S4_S1x4_1 (maximumf (broadcastInDim S4 ![] bcast_S_S4 (constant S_ .f32 0xFF800000#32)) (Host.reduce FloatOps.maximumf z (constant S_ .f32 0xFF800000#32) reducesTo_S500000x4_S4_d0 h_S_)))))) (broadcastInDim S500000x4 ![0, 1] bcast_S1x4_S500000x4_0_1 (broadcastInDim S1x4 ![1] bcast_S4_S1x4_1 (Host.reduceAdd (Host.exp (subf z (broadcastInDim S500000x4 ![0, 1] bcast_S1x4_S500000x4_0_1 (broadcastInDim S1x4 ![1] bcast_S4_S1x4_1 (maximumf (broadcastInDim S4 ![] bcast_S_S4 (constant S_ .f32 0xFF800000#32)) (Host.reduce FloatOps.maximumf z (constant S_ .f32 0xFF800000#32) reducesTo_S500000x4_S4_d0 h_S_)))))) (constant S_ .f32 0x00000000#32) reducesTo_S500000x4_S4_d0 h_S_)))
      = softmaxCols (R := 500000) (C := 4) z := by
  generalize hm : maximumf (F := Ideal) (broadcastInDim S4 ![] bcast_S_S4 (constant S_ .f32 0xFF800000#32))
      (Host.reduce FloatOps.maximumf z (constant S_ .f32 0xFF800000#32) reducesTo_S500000x4_S4_d0 h_S_) = m
  have hmj : ∀ b : Fin 4, m (ix1 b) = colMax (R := 500000) (C := 4) z b := fun b => hm ▸ colMax_ref z b
  have hsub : ∀ (a : Fin 500000) (b : Fin 4),
      Host.exp (F := Ideal) (subf z (broadcastInDim S500000x4 ![0, 1] bcast_S1x4_S500000x4_0_1 (broadcastInDim S1x4 ![1] bcast_S4_S1x4_1 m))) (ix2 a b)
        = Ideal.exp (z (ix2 a b) - colMax (R := 500000) (C := 4) z b) := fun a b => by
    rw [hostExp_apply, subf_apply, broadcastCols_apply, hmj]
  generalize he : Host.exp (F := Ideal) (subf z (broadcastInDim S500000x4 ![0, 1] bcast_S1x4_S500000x4_0_1 (broadcastInDim S1x4 ![1] bcast_S4_S1x4_1 m))) = e at hsub
  funext i
  obtain ⟨a, b, rfl⟩ : ∃ (a : Fin 500000) (b : Fin 4), i = ix2 a b := ⟨i 0, i 1, eq_ix2 i⟩
  rw [hostDivf_apply, broadcastCols_apply, colSum_ref, hsub]
  unfold softmaxCols colSum
  exact congrArg (Ideal.div _) (Finset.sum_congr rfl fun r _ => hsub r b)

end Cert.ReferenceIdeal.RefValue

end
-- ==== Proof.Ref.Value.lean ====
/-
  The reference's whole value, read as the shared mathematics. With x, W₁, b₁, W₂, b₂, the bank and its weights, the
  three weight matrices and bias vectors of the edge predictor, and the edge and pair index arrays as the program's
  arguments, the reference's result array is the softmax down the columns of

      ((Z · W_f1 + b_f1) · W_f2 + b_f2) · W_f3 + b_f3,      Z = hostB(… , hostA(… , x · W₁) · W₂),

  where hostA and hostB are the two stretches of gather / scale / scatter-add / concatenate operations around the two
  graph-convolution products, carried as opaque functions: each matrix product is the entry-by-entry sum, each bias is a
  row added to every row, and the closing operations are exp(z − column maximum) / Σ exp(z − column maximum).
-/
import proofs.«133038_j66116726555434_1_alg».proof.Proof.Ref.Reads
import proofs.«133038_j66116726555434_1_alg».proof.Proof.Ref.Dots
import proofs.«133038_j66116726555434_1_alg».proof.Proof.Ref.Softmax

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo
open Cert.Spec (Arr2 mm addRow softmaxCols)

set_option maxRecDepth 8192 in
/-- THE REFERENCE'S VALUE at the exact values, over any contents W of the buffers at the launch: after the whole line of
    host operations the result array holds the softmax down the columns of the three-layer edge predictor applied to
    the gathered pair features — every product a matrix product, every bias a row added to every row, the two
    graph-convolution aggregations carried as the functions hostA and hostB of their inputs. -/
theorem ref_value (W : Valuation τ sig (Elt Ideal)) :
    after ops W (Proc.devRef .tc main_v136) = softmaxCols (R := 500000) (C := 4) (addRow (M := 500000) (N := 4) (mm (M := 500000) (K := 20) (N := 4) (addRow (M := 500000) (N := 20) (mm (M := 500000) (K := 40) (N := 20) (addRow (M := 500000) (N := 40) (mm (M := 500000) (K := 100) (N := 40) (hostB (W (Proc.devRef .tc main_arg1)) (W (Proc.devRef .tc main_arg5)) (W (Proc.devRef .tc main_arg6)) (W (Proc.devRef .tc main_arg7)) (W (Proc.devRef .tc main_arg14)) (W (Proc.devRef .tc main_arg15)) (W (Proc.devRef .tc main_arg16)) (mm (M := 100000) (K := 60) (N := 50) (hostA (W (Proc.devRef .tc main_arg3)) (W (Proc.devRef .tc main_arg14)) (mm (M := 100000) (K := 27) (N := 60) (W (Proc.devRef .tc main_arg0)) (W (Proc.devRef .tc main_arg2)))) (W (Proc.devRef .tc main_arg4)))) (W (Proc.devRef .tc main_arg8))) (broadcastInDim S1x40 ![1] bcast_S40_S1x40_1 (W (Proc.devRef .tc main_arg9)))) (W (Proc.devRef .tc main_arg10))) (broadcastInDim S1x20 ![1] bcast_S20_S1x20_1 (W (Proc.devRef .tc main_arg11)))) (W (Proc.devRef .tc main_arg12))) (broadcastInDim S1x4 ![1] bcast_S4_S1x4_1 (W (Proc.devRef .tc main_arg13)))) := by
  rw [ref_read]
  unfold tail
  rw [softmax_tail, add_bias_row_f3, dot_f3, add_bias_row_f2, dot_f2, add_bias_row_f1, dot_f1, dot_hW2, dot_xW1]

end Cert.ReferenceIdeal.RefValue

end
-- ==== Proof.Ref.RunValue.lean ====
/-
  The reference's run in the shape the certificate's claims state it: from any launch memory with zero counters every
  weakly fair execution of @main terminates with the result array at the shared mathematics of the launch contents —
  the softmax down the columns of the three-layer edge predictor applied to the pair features, the two aggregations
  carried as the functions hostA and hostB — and every argument array unchanged.
-/
import proofs.«133038_j66116726555434_1_alg».proof.Proof.Ref.Reads
import proofs.«133038_j66116726555434_1_alg».proof.Proof.Ref.Value

set_option maxRecDepth 8192

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo
open Cert.Spec (Arr2 mm addRow softmaxCols)

/-- What the reference leaves in its result array on core c, as a function of the launch memory: the shared
    mathematics of the argument arrays as launched. -/
def refOut (m : (ℓ : Loc nD τ sig) → Buf (Elt Ideal) ℓ) (c : Dev nD) : Buf (Elt Ideal) ((c.tc : Thread nD τ).loc main_v136) :=
  softmaxCols (R := 500000) (C := 4) (addRow (M := 500000) (N := 4) (mm (M := 500000) (K := 20) (N := 4) (addRow (M := 500000) (N := 20) (mm (M := 500000) (K := 40) (N := 20) (addRow (M := 500000) (N := 40) (mm (M := 500000) (K := 100) (N := 40) (hostB (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) (m ((c.tc : Thread nD τ).loc main_arg16)) (mm (M := 100000) (K := 60) (N := 50) (hostA (m ((c.tc : Thread nD τ).loc main_arg3)) (m ((c.tc : Thread nD τ).loc main_arg14)) (mm (M := 100000) (K := 27) (N := 60) (m ((c.tc : Thread nD τ).loc main_arg0)) (m ((c.tc : Thread nD τ).loc main_arg2)))) (m ((c.tc : Thread nD τ).loc main_arg4)))) (m ((c.tc : Thread nD τ).loc main_arg8))) (broadcastInDim S1x40 ![1] bcast_S40_S1x40_1 (m ((c.tc : Thread nD τ).loc main_arg9)))) (m ((c.tc : Thread nD τ).loc main_arg10))) (broadcastInDim S1x20 ![1] bcast_S20_S1x20_1 (m ((c.tc : Thread nD τ).loc main_arg11)))) (m ((c.tc : Thread nD τ).loc main_arg12))) (broadcastInDim S1x4 ![1] bcast_S4_S1x4_1 (m ((c.tc : Thread nD τ).loc main_arg13))))

/-- The fold of the 170 operations over core c's launch contents, at the result array, is that function. -/
theorem after_ops_v136 (m : (ℓ : Loc nD τ sig) → Buf (Elt Ideal) ℓ) (c : Dev nD) :
    after ops (launchContents m c) (Proc.devRef .tc main_v136) = refOut m c :=
  ref_value (launchContents m c)

/-- THE REFERENCE'S RUN: the result array at `refOut` of the launch memory, the seventeen arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v136) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => by
      refine ⟨(h c main_v136).trans (after_ops_v136 m c), ?_⟩
      -- the arguments: no operation writes one, and the launch contents of core c are the launch memory's
      repeat' apply And.intro
      all_goals exact (h c _).trans (ref_arg (launchContents m c) _ (by decide)))
    (run_all m ρ)

end Cert.ReferenceIdeal.RefValue

end
-- ==== Proof.Cross.lean ====
/-
  Where the two programs meet on the host side. Between the regions the kernel's program applies to its arrays the very
  host operations the reference applies to its own (the two graph-convolution aggregations, the concatenation with the
  bank rows, the two gathers at the pairs' endpoints): each stretch is one function, written once from each program's
  operation records, and the two writings are the same function. And each MLP bias, a vector, reaches the MLP as a
  one-row matrix — by a reshape in the kernel's program, by a broadcast along a new leading axis in the reference: the
  same matrix.
-/
import proofs.«133038_j66116726555434_1_alg».proof.Proof.KI.Host
import proofs.«133038_j66116726555434_1_alg».proof.Proof.Ref.Host
import Idealize.ShloMosaic.Lib.Pipeline.Value
import Idealize.ShloMosaic.Lib.ValueIdx
import Idealize.ShloMosaic.Lib.ValueLayout

set_option maxRecDepth 8192

noncomputable section

namespace Cert.Cross

open Idealize.ShloMosaic Idealize.ShloMosaic.ValueIdx

variable [Cert.KernelIdeal.Facts₀] [Cert.ReferenceIdeal.Facts₀]

/-! ## The two host stretches -/

set_option maxHeartbeats 400000 in
/-- The first host stretch (aggregation over the edges and bias) is the same function in both programs: the two texts
    differ only in the proofs their operation records carry. -/
theorem hostA_eq (a3 : (⟨Cert.KernelIdeal.S60, .f32⟩ : BufTy).Contents (Elt Ideal))
    (a14 : (⟨Cert.KernelIdeal.S2x1600000, .i32⟩ : BufTy).Contents (Elt Ideal))
    (X : (⟨Cert.KernelIdeal.S100000x60, .f32⟩ : BufTy).Contents (Elt Ideal)) :
    Cert.KernelIdeal.Hand.hostA (F := Ideal) a3 a14 X = Cert.ReferenceIdeal.RefValue.hostA (F := Ideal) a3 a14 X := rfl

set_option maxHeartbeats 400000 in
/-- The second host stretch (second aggregation, the bank rows appended, the two gathers at the pairs' endpoints side by
    side) is the same function in both programs, for the same reason. -/
theorem hostB_eq (a1 : (⟨Cert.KernelIdeal.S1000x27, .f32⟩ : BufTy).Contents (Elt Ideal))
    (a5 : (⟨Cert.KernelIdeal.S50, .f32⟩ : BufTy).Contents (Elt Ideal))
    (a6 : (⟨Cert.KernelIdeal.S27x50, .f32⟩ : BufTy).Contents (Elt Ideal))
    (a7 : (⟨Cert.KernelIdeal.S50, .f32⟩ : BufTy).Contents (Elt Ideal))
    (a14 : (⟨Cert.KernelIdeal.S2x1600000, .i32⟩ : BufTy).Contents (Elt Ideal))
    (a15 : (⟨Cert.KernelIdeal.S500000, .i32⟩ : BufTy).Contents (Elt Ideal))
    (a16 : (⟨Cert.KernelIdeal.S500000, .i32⟩ : BufTy).Contents (Elt Ideal))
    (X : (⟨Cert.KernelIdeal.S100000x50, .f32⟩ : BufTy).Contents (Elt Ideal)) :
    Cert.KernelIdeal.Hand.hostB (F := Ideal) a1 a5 a6 a7 a14 a15 a16 X
      = Cert.ReferenceIdeal.RefValue.hostB (F := Ideal) a1 a5 a6 a7 a14 a15 a16 X := rfl

/-! ## A bias vector as one row: reshaped on one side, broadcast on the other -/

/-- A vector of N entries written as a 1 × N matrix, by a reshape or by a broadcast along the new leading axis, is the
    same matrix: entry (0, j) is entry j of the vector either way. -/
theorem row_eq {α : Type} {N : ℕ} (hc : (⟨1, ![N]⟩ : Shape).ShapeCasts (⟨2, ![1, N]⟩ : Shape))
    (hb : (⟨1, ![N]⟩ : Shape).BroadcastsInDim (⟨2, ![1, N]⟩ : Shape) (![1] : Fin 1 → Fin 2))
    (v : (⟨1, ![N]⟩ : Shape).Idx → α) :
    shapeCast (⟨2, ![1, N]⟩ : Shape) v hc = broadcastInDim (⟨2, ![1, N]⟩ : Shape) ![1] hb v := by
  funext i
  obtain ⟨u, j, rfl⟩ : ∃ (u : Fin 1) (j : Fin N), i = ix2 u j := ⟨i 0, i 1, eq_ix2 i⟩
  rw [shapeCast_a_1a_apply]
  refine (broadcastInDim_apply _ hb v (ix2 u j) (ix1 j) (fun a => ?_)).symm
  match a with
  | ⟨0, _⟩ =>
    show j.val = if N = 1 then 0 else j.val
    have hlt := j.isLt
    split
    · next hN => omega
    · rfl

/-- The first MLP bias (40 entries): the kernel program's reshape is the reference's broadcast. -/
theorem row40_eq {α : Type} (v : Cert.KernelIdeal.S40.Idx → α) :
    shapeCast Cert.KernelIdeal.S1x40 v Cert.KernelIdeal.Facts₀.shapeCasts_S40_S1x40
      = broadcastInDim Cert.ReferenceIdeal.S1x40 ![1] Cert.ReferenceIdeal.Facts₀.bcast_S40_S1x40_1 v :=
  row_eq (N := 40) Cert.KernelIdeal.Facts₀.shapeCasts_S40_S1x40 Cert.ReferenceIdeal.Facts₀.bcast_S40_S1x40_1 v

/-- The second MLP bias (20 entries): the kernel program's reshape is the reference's broadcast. -/
theorem row20_eq {α : Type} (v : Cert.KernelIdeal.S20.Idx → α) :
    shapeCast Cert.KernelIdeal.S1x20 v Cert.KernelIdeal.Facts₀.shapeCasts_S20_S1x20
      = broadcastInDim Cert.ReferenceIdeal.S1x20 ![1] Cert.ReferenceIdeal.Facts₀.bcast_S20_S1x20_1 v :=
  row_eq (N := 20) Cert.KernelIdeal.Facts₀.shapeCasts_S20_S1x20 Cert.ReferenceIdeal.Facts₀.bcast_S20_S1x20_1 v

/-- The third MLP bias (4 entries): the kernel program's reshape is the reference's broadcast. -/
theorem row4_eq {α : Type} (v : Cert.KernelIdeal.S4.Idx → α) :
    shapeCast Cert.KernelIdeal.S1x4 v Cert.KernelIdeal.Facts₀.shapeCasts_S4_S1x4
      = broadcastInDim Cert.ReferenceIdeal.S1x4 ![1] Cert.ReferenceIdeal.Facts₀.bcast_S4_S1x4_1 v :=
  row_eq (N := 4) Cert.KernelIdeal.Facts₀.shapeCasts_S4_S1x4 Cert.ReferenceIdeal.Facts₀.bcast_S4_S1x4_1 v

end Cert.Cross

end
-- ==== Proof.lean ====
/-
  A graph-convolution edge predictor: two graph convolutions (linear map, degree-normalised aggregation over the edges
  with self-loops, bias), a bank of extra node rows appended, the two endpoint rows of every candidate pair gathered and
  joined, a three-layer affine map without nonlinearity, and a softmax DOWN the pairs (axis 0) of the four scores.

  The kernel computes the two linear maps, the three-layer map and the softmax in five grid kernels between the same host
  operations as the reference. At exact arithmetic (extended reals) each grid kernel is the reference's operation:
  * a matrix product computed ten thousand (five thousand) rows at a time is the matrix product, row block by row block;
  * three products with a bias row added after each are the three affine layers;
  * the one-pass column softmax — a running maximum m and a running sum l over consecutive blocks of rows, the old sum
    rescaled by exp(m_old − m_new) whenever the maximum grows — ends at the column's maximum and at Σ exp(z − max):
    for a ≤ b ≤ c in the extended reals exp(a − b) · exp(b − c) = exp(a − c) (with exp(−∞) = 0, and ∞ − ∞ = −∞), the
    exponentials are nonnegative so the product distributes over the finite sums, and the first block meets the pair
    (−∞, 0); no finiteness of the inputs is needed;
  * the last kernel divides exp(z − m) by l, which is the softmax's quotient.
  The host operations in between (index wrap-around, gathers, scatter-adds, concatenations) are the same functions in the
  two programs, so equal inputs give equal outputs. The frames: every region runs on staged blocks, leaves the arguments
  alone, and the host stretches write no argument.
-/
import proofs.«133038_j66116726555434_1_alg».proof.Defs
import proofs.«133038_j66116726555434_1_alg».proof.Proof.Gen.Kernel
import proofs.«133038_j66116726555434_1_alg».proof.Proof.Gen.KernelIdeal
import proofs.«133038_j66116726555434_1_alg».proof.Proof.Gen.ReferenceIdeal
import proofs.«133038_j66116726555434_1_alg».proof.Proof.Gen.Pre_finite_inputs
import proofs.«133038_j66116726555434_1_alg».proof.Proof.K.Run
import proofs.«133038_j66116726555434_1_alg».proof.Proof.KI.Run
import proofs.«133038_j66116726555434_1_alg».proof.Proof.KI.Value
import proofs.«133038_j66116726555434_1_alg».proof.Proof.Ref.RunValue
import proofs.«133038_j66116726555434_1_alg».proof.Proof.Cross
import Idealize.ShloMosaic.Adequacy
import Idealize.ShloMosaic.Init

set_option maxRecDepth 16384

noncomputable section

namespace Cert.Proof

open Idealize.ShloMosaic Idealize.ShloMosaic.TcCoe Idealize.SL.Sem

/-- From memories that agree on the seventeen arguments the two idealized programs produce the same result array: the
    kernel's is the column softmax of the three affine layers of the joined endpoint rows, and so is the reference's;
    the host stretches are the same functions in both programs and a bias vector reshaped to one row is that vector
    broadcast to one row. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefValue.refOut m' c
      = Cert.KernelIdeal.Gen.V12 m (Cert.KernelIdeal.Hand.outs m) c Cert.KernelIdeal.main_v119 := by
  obtain ⟨h0, h1, h2, h3, h4, h5, h6, h7, h8, h9, h10, h11, h12, h13, h14, h15, h16⟩ := h
  rw [Cert.KernelIdeal.Hand.kernel_value m c]
  unfold Cert.ReferenceIdeal.RefValue.refOut
  rw [h0, h1, h2, h3, h4, h5, h6, h7, h8, h9, h10, h11, h12, h13, h14, h15, h16]
  rw [Cert.Cross.hostA_eq, Cert.Cross.hostB_eq, Cert.Cross.row40_eq, Cert.Cross.row20_eq, Cert.Cross.row4_eq]

theorem claim : Cert.Claim := ⟨Cert.Kernel.Gen.facts, Cert.KernelIdeal.Gen.facts, Cert.ReferenceIdeal.Gen.facts, Cert.Pre_finite_inputs.Gen.facts,
  fun m ρ _ => Cert.Kernel.Hand.frame_main (F := Bits) m ρ,
  fun m ρ _ => (θ_run Cert.KernelIdeal.defs _ _).mono (fun _ h c => (h c).2) (Cert.KernelIdeal.Hand.run_main (F := Ideal) m ρ),
  fun m ρ _ => (θ_run Cert.ReferenceIdeal.defs _ _).mono (fun _ h c => (h c).2) (Cert.ReferenceIdeal.RefValue.run_value m ρ),
  trivial,
  fun m ρ m' ρ' _ hagree => ⟨fun c => Cert.KernelIdeal.Gen.V12 m (Cert.KernelIdeal.Hand.outs m) c Cert.KernelIdeal.main_v119,
    Cert.KernelIdeal.Hand.run_main (F := Ideal) m ρ,
    (θ_run Cert.ReferenceIdeal.defs _ _).mono
      (fun _ h c => ⟨(h c).1.trans (results_agree m m' c (hagree c)), (h c).2⟩)
      (Cert.ReferenceIdeal.RefValue.run_value m' ρ')⟩⟩

end Cert.Proof

end
